-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S2x128x1 : Shape := ⟨3, ![2, 128, 1]⟩
abbrev S2x128 : Shape := ⟨2, ![2, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S2x128x1 : S_.BroadcastsInDim S2x128x1 (![] : Fin 0 → Fin S2x128x1.rank)
  reducesTo_S2x128x1_S_d0_1_2 : S2x128x1.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg4 : FVec F S2x128x1 .f32) (main_arg5 : FVec F S2x128 .f32) (main_v13 : IVec S_ 1) (main_v16 : IVec S2x128x1 1) : IVec S_ 1 :=
  let main_c_5 : IVec S_ 1 := constantI S_ 1 1#1
  let main_v17 : IVec S_ 1 := (fun x v => Host.reduce IntOp.andi x v reducesTo_S2x128x1_S_d0_1_2 h_S_) main_v16 main_c_5
  let main_v18 : IVec S_ 1 := andi main_v13 main_v17
  let main_v19 : FVec F S2x128x1 .f32 := Host.absf main_arg4
  let main_cst_6 : FVec F S_ .f32 := constant S_ .f32 0x7F800000#32
  let main_v20 : FVec F S2x128x1 .f32 := broadcastInDim S2x128x1 ![] bcast_S_S2x128x1 main_cst_6
  let main_v21 : IVec S2x128x1 1 := cmpf .olt main_v19 main_v20
  let main_c_7 : IVec S_ 1 := constantI S_ 1 1#1
  let main_v22 : IVec S_ 1 := (fun x v => Host.reduce IntOp.andi x v reducesTo_S2x128x1_S_d0_1_2 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S2x128x1 .f32) (main_arg4 : FVec F S2x128x1 .f32) (main_arg5 : FVec F S2x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S2x128x1 .f32 := Host.absf main_arg3
  let main_cst_4 : FVec F S_ .f32 := constant S_ .f32 0x7F800000#32
  let main_v15 : FVec F S2x128x1 .f32 := broadcastInDim S2x128x1 ![] bcast_S_S2x128x1 main_cst_4
  let main_v16 : IVec S2x128x1 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S2x128x1 : Shape := ⟨3, ![2, 128, 1]⟩
abbrev S2x128 : Shape := ⟨2, ![2, 128]⟩
abbrev S1x128x1 : Shape := ⟨3, ![1, 128, 1]⟩
abbrev S128x1 : Shape := ⟨2, ![128, 1]⟩
abbrev S_ : Shape := ⟨0, ![]⟩
abbrev S128x4 : Shape := ⟨2, ![128, 4]⟩
abbrev S128x8 : Shape := ⟨2, ![128, 8]⟩
abbrev S10000x8 : Shape := ⟨2, ![10000, 8]⟩
abbrev S2000x128 : Shape := ⟨2, ![2000, 128]⟩
abbrev S2000x8 : Shape := ⟨2, ![2000, 8]⟩
abbrev S10000x2 : Shape := ⟨2, ![10000, 2]⟩
abbrev S2 : Shape := ⟨1, ![2]⟩
abbrev S1x2 : Shape := ⟨2, ![1, 2]⟩
abbrev S10000x4 : Shape := ⟨2, ![10000, 4]⟩
abbrev S10240x128 : Shape := ⟨2, ![10240, 128]⟩
abbrev S2x10000 : Shape := ⟨2, ![2, 10000]⟩
abbrev S8x10240 : Shape := ⟨2, ![8, 10240]⟩
abbrev S400x2048 : Shape := ⟨2, ![400, 2048]⟩
abbrev S2048x128 : Shape := ⟨2, ![2048, 128]⟩
abbrev S400x4 : Shape := ⟨2, ![400, 4]⟩
abbrev S8x2048 : Shape := ⟨2, ![8, 2048]⟩
abbrev S400x128 : Shape := ⟨2, ![400, 128]⟩
abbrev S2x400x128 : Shape := ⟨3, ![2, 400, 128]⟩
abbrev S400x8 : Shape := ⟨2, ![400, 8]⟩
abbrev S400x1 : Shape := ⟨2, ![400, 1]⟩
abbrev S1x2048 : Shape := ⟨2, ![1, 2048]⟩
abbrev S400 : Shape := ⟨1, ![400]⟩
abbrev S1x400x128 : Shape := ⟨3, ![1, 400, 128]⟩
abbrev S1x128 : Shape := ⟨2, ![1, 128]⟩

abbrev nBuf : Space → Nat
  | .hbm => 38
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S2x128x1, .f32⟩
  | .hbm, ⟨4, _⟩ => ⟨S2x128x1, .f32⟩
  | .hbm, ⟨5, _⟩ => ⟨S2x128, .f32⟩
  | .hbm, ⟨6, _⟩ => ⟨S1x128x1, .f32⟩
  | .hbm, ⟨7, _⟩ => ⟨S128x1, .f32⟩
  | .hbm, ⟨8, _⟩ => ⟨S1x128x1, .f32⟩
  | .hbm, ⟨9, _⟩ => ⟨S128x1, .f32⟩
  | .hbm, ⟨10, _⟩ => ⟨S1x128x1, .f32⟩
  | .hbm, ⟨11, _⟩ => ⟨S128x1, .f32⟩
  | .hbm, ⟨12, _⟩ => ⟨S1x128x1, .f32⟩
  | .hbm, ⟨13, _⟩ => ⟨S128x1, .f32⟩
  | .hbm, ⟨14, _⟩ => ⟨S_, .f32⟩
  | .hbm, ⟨15, _⟩ => ⟨S128x4, .f32⟩
  | .hbm, ⟨16, _⟩ => ⟨S128x8, .f32⟩
  | .hbm, ⟨17, _⟩ => ⟨S10000x128, .f32⟩
  | .hbm, ⟨18, _⟩ => ⟨S10000x8, .f32⟩
  | .hbm, ⟨19, _⟩ => ⟨S10000x2, .f32⟩
  | .hbm, ⟨20, _⟩ => ⟨S10000x2, .f32⟩
  | .hbm, ⟨21, _⟩ => ⟨S_, .f32⟩
  | .hbm, ⟨22, _⟩ => ⟨S2, .f32⟩
  | .hbm, ⟨23, _⟩ => ⟨S1x2, .f32⟩
  | .hbm, ⟨24, _⟩ => ⟨S10000x2, .f32⟩
  | .hbm, ⟨25, _⟩ => ⟨S10000x2, .f32⟩
  | .hbm, ⟨26, _⟩ => ⟨S_, .f32⟩
  | .hbm, ⟨27, _⟩ => ⟨S10000x2, .f32⟩
  | .hbm, ⟨28, _⟩ => ⟨S10000x2, .f32⟩
  | .hbm, ⟨29, _⟩ => ⟨S10000x4, .f32⟩
  | .hbm, ⟨30, _⟩ => ⟨S_, .i32⟩
  | .hbm, ⟨31, _⟩ => ⟨S_, .f32⟩
  | .hbm, ⟨32, _⟩ => ⟨S10240x128, .f32⟩
  | .hbm, ⟨33, _⟩ => ⟨S2x10000, .f32⟩
  | .hbm, ⟨34, _⟩ => ⟨S_, .i32⟩
  | .hbm, ⟨35, _⟩ => ⟨S_, .f32⟩
  | .hbm, ⟨36, _⟩ => ⟨S8x10240, .f32⟩
  | .hbm, ⟨37, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x8, .f32⟩
  | .local _ .vmem, ⟨4, _⟩ => ⟨S2000x128, .f32⟩
  | .local _ .vmem, ⟨5, _⟩ => ⟨S2000x128, .f32⟩
  | .local _ .vmem, ⟨6, _⟩ => ⟨S2000x8, .f32⟩
  | .local _ .vmem, ⟨7, _⟩ => ⟨S2000x8, .f32⟩
  | .local _ .vmem, ⟨8, _⟩ => ⟨S400x2048, .f32⟩
  | .local _ .vmem, ⟨9, _⟩ => ⟨S400x2048, .f32⟩
  | .local _ .vmem, ⟨10, _⟩ => ⟨S2048x128, .f32⟩
  | .local _ .vmem, ⟨11, _⟩ => ⟨S2048x128, .f32⟩
  | .local _ .vmem, ⟨12, _⟩ => ⟨S400x4, .f32⟩
  | .local _ .vmem, ⟨13, _⟩ => ⟨S400x4, .f32⟩
  | .local _ .vmem, ⟨14, _⟩ => ⟨S8x2048, .f32⟩
  | .local _ .vmem, ⟨15, _⟩ => ⟨S8x2048, .f32⟩
  | .local _ .vmem, ⟨16, _⟩ => ⟨S2x128, .f32⟩
  | .local _ .vmem, ⟨17, _⟩ => ⟨S400x128, .f32⟩
  | .local _ .vmem, ⟨18, _⟩ => ⟨S400x128, .f32⟩
  | .local _ .vmem, ⟨19, _⟩ => ⟨S2x400x128, .f32⟩
  | .local _ .vmem, ⟨20, _⟩ => ⟨S400x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_call1_v0 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![25, 5], ![false, false]⟩

def k1_cond2 (i : grid1.Coords) : BitVec 1 :=
  let arg1 : BitVec 32 := BitVec.ofNat 32 (i 1).val
  let c4_i32 : BitVec 32 := 4#32
  let v75 : BitVec 1 := Scalar.cmpi .eq arg1 c4_i32
  let v76 : BitVec 32 := Scalar.extui v75
  let c0_i32_40 : BitVec 32 := 0#32
  let v77 : BitVec 1 := Scalar.cmpi .ne v76 c0_i32_40
  v77

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S400x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S400x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S2x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S2x128x1_S1x128x1_0_0_0 : S2x128x1.Slices ![0, 0, 0] S1x128x1
  shapeCasts_S1x128x1_S128x1 : S1x128x1.ShapeCasts S128x1
  slices_S2x128x1_S1x128x1_1_0_0 : S2x128x1.Slices ![1, 0, 0] S1x128x1
  bcast_S_S128x4 : S_.BroadcastsInDim S128x4 (![] : Fin 0 → Fin S128x4.rank)
  concatenates_S128x1_S128x1_S128x1_S128x1_S128x4_S128x8_d1 : Shape.Concatenates [S128x1, S128x1, S128x1, S128x1, S128x4] S128x8 1
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S2000x8_S2000x8_0_0 : ∀ a, (![0, 0] : Fin 2 → Nat) a + S2000x8.size a ≤ S2000x8.size a
  h_S2000x8 : 0 < S2000x8.numel
  slices_S10000x8_S10000x2_0_0 : S10000x8.Slices ![0, 0] S10000x2
  slices_S10000x8_S10000x2_0_2 : S10000x8.Slices ![0, 2] S10000x2
  reducesTo_S10000x2_S2_d0 : S10000x2.ReducesTo [0] S2
  h_S_ : 0 < S_.numel
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  bcast_S_S10000x2 : S_.BroadcastsInDim S10000x2 (![] : Fin 0 → Fin S10000x2.rank)
  concatenates_S10000x2_S10000x2_S10000x4_d1 : Shape.Concatenates [S10000x2, S10000x2] S10000x4 1
  pads_S10000x128_S10240x128_02400_000 : S10000x128.Pads (![0, 0] : Fin 2 → Nat) ![240, 0] ![0, 0] S10240x128
  transposes_S10000x2_S2x10000_1_0 : S10000x2.Transposes [1, 0] S2x10000
  pads_S2x10000_S8x10240_060_02400 : S2x10000.Pads (![0, 0] : Fin 2 → Nat) ![6, 240] ![0, 0] S8x10240
  inb_S2x400x128_S2x400x128_0_0_0 : ∀ a, (![0, 0, 0] : Fin 3 → Nat) a + S2x400x128.size a ≤ S2x400x128.size a
  h_S2x400x128 : 0 < S2x400x128.numel
  shapeCasts_S2x400x128_S2x400x128 : S2x400x128.ShapeCasts S2x400x128
  inb_S400x8_S400x8_0_0 : ∀ a, (![0, 0] : Fin 2 → Nat) a + S400x8.size a ≤ S400x8.size a
  h_S400x8 : 0 < S400x8.numel
  shapeCasts_S400x8_S400x8 : S400x8.ShapeCasts S400x8
  inb_S400x2048_S400x2048_0_0 : ∀ a, (![0, 0] : Fin 2 → Nat) a + S400x2048.size a ≤ S400x2048.size a
  h_S400x2048 : 0 < S400x2048.numel
  iota_S400x2048_d1_w32 : S400x2048.Iotas .tc 32 [1]
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S400x4_S400x1_0_0 : ∀ a, (![0, 0] : Fin 2 → Nat) a + S400x1.size a ≤ S400x4.size a
  h_S400x1 : 0 < S400x1.numel
  shapeCasts_S400x1_S400x1 : S400x1.ShapeCasts S400x1
  inb_S400x4_S400x1_0_2 : ∀ a, (![0, 2] : Fin 2 → Nat) a + S400x1.size a ≤ S400x4.size a
  inb_S8x2048_S1x2048_0_0 : ∀ a, (![0, 0] : Fin 2 → Nat) a + S1x2048.size a ≤ S8x2048.size a
  h_S1x2048 : 0 < S1x2048.numel
  shapeCasts_S1x2048_S1x2048 : S1x2048.ShapeCasts S1x2048
  broadcasts_S400x1_S400x2048 : S400x1.Broadcasts S400x2048
  broadcasts_S1x2048_S400x2048 : S1x2048.Broadcasts S400x2048
  inb_S400x8_S400x1_0_0 : ∀ a, (![0, 0] : Fin 2 → Nat) a + S400x1.size a ≤ S400x8.size a
  reduces_S400x2048_S400 : S400x2048.Reduces [1] S400
  shapeCasts_S400_S400x1 : S400.ShapeCasts S400x1
  inb_S2x400x128_S1x400x128_0_0_0 : ∀ a, (![0, 0, 0] : Fin 3 → Nat) a + S1x400x128.size a ≤ S2x400x128.size a
  h_S1x400x128 : 0 < S1x400x128.numel
  shapeCasts_S1x400x128_S400x128 : S1x400x128.ShapeCasts S400x128
  shapeCasts_S400x128_S1x400x128 : S400x128.ShapeCasts S1x400x128
  inb_S400x4_S400x1_0_1 : ∀ a, (![0, 1] : Fin 2 → Nat) a + S400x1.size a ≤ S400x4.size a
  inb_S400x4_S400x1_0_3 : ∀ a, (![0, 3] : Fin 2 → Nat) a + S400x1.size a ≤ S400x4.size a
  inb_S8x2048_S1x2048_1_0 : ∀ a, (![1, 0] : Fin 2 → Nat) a + S1x2048.size a ≤ S8x2048.size a
  inb_S400x8_S400x1_0_1 : ∀ a, (![0, 1] : Fin 2 → Nat) a + S400x1.size a ≤ S400x8.size a
  inb_S2x400x128_S1x400x128_1_0_0 : ∀ a, (![1, 0, 0] : Fin 3 → Nat) a + S1x400x128.size a ≤ S2x400x128.size a
  broadcasts_S400x1_S400x128 : S400x1.Broadcasts S400x128
  inb_S2x128_S1x128_0_0 : ∀ a, (![0, 0] : Fin 2 → Nat) a + S1x128.size a ≤ S2x128.size a
  h_S1x128 : 0 < S1x128.numel
  broadcasts_S1x128_S400x128 : S1x128.Broadcasts S400x128
  inb_S2x128_S1x128_1_0 : ∀ a, (![1, 0] : Fin 2 → Nat) a + S1x128.size a ≤ S2x128.size a
  inb_S400x128_S400x128_0_0 : ∀ a, (![0, 0] : Fin 2 → Nat) a + S400x128.size a ≤ S400x128.size a
  h_S400x128 : 0 < S400x128.numel
  dot_S2000x128_S128x128_S2000x128_1_0_0_1_n_n_wf : DotDims.WF S2000x128 S128x128 S2000x128 [1] [0] [0] [1] [] []
  dot_S2000x128_S128x8_S2000x8_1_0_0_1_n_n_wf : DotDims.WF S2000x128 S128x8 S2000x8 [1] [0] [0] [1] [] []
  dot_S400x2048_S2048x128_S400x128_1_0_0_1_n_n_wf : DotDims.WF S400x2048 S2048x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S128x8.size a
  hwx0_2 : ∀ i : grid0.Coords, EltTy.bits .f32 = 32 ∨ (Rect.block (s := S128x8) S128x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x8.size a ≤ S10000x8.size a
  hwx0_4 : ∀ i : grid0.Coords, EltTy.bits .f32 = 32 ∨ (Rect.block (s := S10000x8) S2000x8.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S400x2048.size a < S10000x10000.size a
  hwx1_0 : ∀ i : grid1.Coords, EltTy.bits .f32 = 32 ∨ (Rect.unit (s := S10000x10000) (fun a => cc1_transform_0 i a * S400x2048.size a) (fun a => (Pipeline.Clip.of (cc1_transform_0 i a) (S400x2048.size a) (S10000x10000.size a)).extent (S400x2048.size a)) fun a => Pipeline.Clip.inb (Pipeline.Clip.ok_of (hstart1_0 i a))).WholeWords (EltTy.packing .f32)
  hwxs1_0 : ∀ i : grid1.Coords, EltTy.bits .f32 = 32 ∨ (Rect.unit (s := S400x2048) (fun _ => 0) (fun a => (Pipeline.Clip.of (cc1_transform_0 i a) (S400x2048.size a) (S10000x10000.size a)).extent (S400x2048.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S10240x128.size a
  hwx1_1 : ∀ i : grid1.Coords, EltTy.bits .f32 = 32 ∨ (Rect.block (s := S10240x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x4.size a ≤ S10000x4.size a
  hwx1_2 : ∀ i : grid1.Coords, EltTy.bits .f32 = 32 ∨ (Rect.block (s := S10000x4) S400x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x2048.size a ≤ S8x10240.size a
  hwx1_3 : ∀ i : grid1.Coords, EltTy.bits .f32 = 32 ∨ (Rect.block (s := S8x10240) S8x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x128.size a ≤ S2x128.size a
  hwx1_4 : ∀ i : grid1.Coords, EltTy.bits .f32 = 32 ∨ (Rect.block (s := S2x128) S2x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf
def dot_S400x2048_S2048x128_S400x128_1_0_0_1_n_n : DotDims S400x2048 S2048x128 S400x128 where
  lhsContracting := [1]
  rhsContracting := [0]
  lhsNonContracting := [0]
  rhsNonContracting := [1]
  lhsBatch := []
  rhsBatch := []
  wf := dot_S400x2048_S2048x128_S400x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S2000x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpecClip (Memref.whole main_arg1) S400x2048.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v20) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S400x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S8x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S2x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S2x128x1 : Shape := ⟨3, ![2, 128, 1]⟩
abbrev S2x128 : Shape := ⟨2, ![2, 128]⟩
abbrev S1x128x1 : Shape := ⟨3, ![1, 128, 1]⟩
abbrev S128x1 : Shape := ⟨2, ![128, 1]⟩
abbrev S10000x1 : Shape := ⟨2, ![10000, 1]⟩
abbrev S_ : Shape := ⟨0, ![]⟩
abbrev S1x10000 : Shape := ⟨2, ![1, 10000]⟩
abbrev S10000 : Shape := ⟨1, ![10000]⟩
abbrev S1x128 : Shape := ⟨2, ![1, 128]⟩
abbrev S128 : Shape := ⟨1, ![128]⟩

abbrev nBuf : Space → Nat
  | .hbm => 181
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S2x128x1, .f32⟩
  | 4 => ⟨S2x128x1, .f32⟩
  | 5 => ⟨S2x128, .f32⟩
  | 6 => ⟨S10000x128, .f32⟩
  | 7 => ⟨S1x128x1, .f32⟩
  | 8 => ⟨S128x1, .f32⟩
  | 9 => ⟨S10000x1, .f32⟩
  | 10 => ⟨S_, .f32⟩
  | 11 => ⟨S10000x1, .f32⟩
  | 12 => ⟨S10000x1, .i1⟩
  | 13 => ⟨S_, .f32⟩
  | 14 => ⟨S10000x1, .f32⟩
  | 15 => ⟨S10000x1, .i1⟩
  | 16 => ⟨S_, .f32⟩
  | 17 => ⟨S_, .f32⟩
  | 18 => ⟨S10000x1, .f32⟩
  | 19 => ⟨S10000x1, .f32⟩
  | 20 => ⟨S10000x1, .f32⟩
  | 21 => ⟨S_, .f32⟩
  | 22 => ⟨S10000x1, .f32⟩
  | 23 => ⟨S10000x1, .f32⟩
  | 24 => ⟨S10000x1, .f32⟩
  | 25 => ⟨S1x128x1, .f32⟩
  | 26 => ⟨S128x1, .f32⟩
  | 27 => ⟨S10000x1, .f32⟩
  | 28 => ⟨S_, .f32⟩
  | 29 => ⟨S10000x1, .f32⟩
  | 30 => ⟨S10000x1, .i1⟩
  | 31 => ⟨S_, .f32⟩
  | 32 => ⟨S10000x1, .f32⟩
  | 33 => ⟨S10000x1, .i1⟩
  | 34 => ⟨S_, .f32⟩
  | 35 => ⟨S_, .f32⟩
  | 36 => ⟨S10000x1, .f32⟩
  | 37 => ⟨S10000x1, .f32⟩
  | 38 => ⟨S10000x1, .f32⟩
  | 39 => ⟨S_, .f32⟩
  | 40 => ⟨S10000x1, .f32⟩
  | 41 => ⟨S10000x1, .f32⟩
  | 42 => ⟨S10000x1, .f32⟩
  | 43 => ⟨S10000x10000, .f32⟩
  | 44 => ⟨S10000x10000, .f32⟩
  | 45 => ⟨S1x10000, .f32⟩
  | 46 => ⟨S10000x10000, .f32⟩
  | 47 => ⟨S10000x10000, .f32⟩
  | 48 => ⟨S10000x10000, .f32⟩
  | 49 => ⟨S_, .f32⟩
  | 50 => ⟨S_, .f32⟩
  | 51 => ⟨S10000x10000, .f32⟩
  | 52 => ⟨S10000x10000, .i1⟩
  | 53 => ⟨S_, .f32⟩
  | 54 => ⟨S10000x10000, .f32⟩
  | 55 => ⟨S10000x10000, .f32⟩
  | 56 => ⟨S10000x10000, .f32⟩
  | 57 => ⟨S_, .f32⟩
  | 58 => ⟨S10000, .f32⟩
  | 59 => ⟨S_, .f32⟩
  | 60 => ⟨S10000, .f32⟩
  | 61 => ⟨S10000, .f32⟩
  | 62 => ⟨S10000x1, .f32⟩
  | 63 => ⟨S10000x10000, .f32⟩
  | 64 => ⟨S10000x10000, .f32⟩
  | 65 => ⟨S10000x10000, .f32⟩
  | 66 => ⟨S_, .f32⟩
  | 67 => ⟨S10000, .f32⟩
  | 68 => ⟨S10000x1, .f32⟩
  | 69 => ⟨S10000x10000, .f32⟩
  | 70 => ⟨S10000x10000, .f32⟩
  | 71 => ⟨S10000x128, .f32⟩
  | 72 => ⟨S1x128, .f32⟩
  | 73 => ⟨S128, .f32⟩
  | 74 => ⟨S1x128, .f32⟩
  | 75 => ⟨S10000x128, .f32⟩
  | 76 => ⟨S10000x128, .f32⟩
  | 77 => ⟨S_, .f32⟩
  | 78 => ⟨S10000x128, .f32⟩
  | 79 => ⟨S10000x128, .i1⟩
  | 80 => ⟨S_, .f32⟩
  | 81 => ⟨S10000x128, .f32⟩
  | 82 => ⟨S10000x128, .i1⟩
  | 83 => ⟨S_, .f32⟩
  | 84 => ⟨S_, .f32⟩
  | 85 => ⟨S10000x128, .f32⟩
  | 86 => ⟨S10000x128, .f32⟩
  | 87 => ⟨S10000x128, .f32⟩
  | 88 => ⟨S_, .f32⟩
  | 89 => ⟨S10000x128, .f32⟩
  | 90 => ⟨S10000x128, .f32⟩
  | 91 => ⟨S10000x128, .f32⟩
  | 92 => ⟨S1x128x1, .f32⟩
  | 93 => ⟨S128x1, .f32⟩
  | 94 => ⟨S10000x1, .f32⟩
  | 95 => ⟨S_, .f32⟩
  | 96 => ⟨S10000x1, .f32⟩
  | 97 => ⟨S10000x1, .i1⟩
  | 98 => ⟨S_, .f32⟩
  | 99 => ⟨S10000x1, .f32⟩
  | 100 => ⟨S10000x1, .i1⟩
  | 101 => ⟨S_, .f32⟩
  | 102 => ⟨S_, .f32⟩
  | 103 => ⟨S10000x1, .f32⟩
  | 104 => ⟨S10000x1, .f32⟩
  | 105 => ⟨S10000x1, .f32⟩
  | 106 => ⟨S_, .f32⟩
  | 107 => ⟨S10000x1, .f32⟩
  | 108 => ⟨S10000x1, .f32⟩
  | 109 => ⟨S10000x1, .f32⟩
  | 110 => ⟨S1x128x1, .f32⟩
  | 111 => ⟨S128x1, .f32⟩
  | 112 => ⟨S10000x1, .f32⟩
  | 113 => ⟨S_, .f32⟩
  | 114 => ⟨S10000x1, .f32⟩
  | 115 => ⟨S10000x1, .i1⟩
  | 116 => ⟨S_, .f32⟩
  | 117 => ⟨S10000x1, .f32⟩
  | 118 => ⟨S10000x1, .i1⟩
  | 119 => ⟨S_, .f32⟩
  | 120 => ⟨S_, .f32⟩
  | 121 => ⟨S10000x1, .f32⟩
  | 122 => ⟨S10000x1, .f32⟩
  | 123 => ⟨S10000x1, .f32⟩
  | 124 => ⟨S_, .f32⟩
  | 125 => ⟨S10000x1, .f32⟩
  | 126 => ⟨S10000x1, .f32⟩
  | 127 => ⟨S10000x1, .f32⟩
  | _ => ⟨S10000x128, .f32⟩

abbrev hbmTy0_1 (i : Nat) : BufTy := match i % 128 with
  | 0 => ⟨S10000x10000, .f32⟩
  | 1 => ⟨S10000x10000, .f32⟩
  | 2 => ⟨S1x10000, .f32⟩
  | 3 => ⟨S10000x10000, .f32⟩
  | 4 => ⟨S10000x10000, .f32⟩
  | 5 => ⟨S10000x10000, .f32⟩
  | 6 => ⟨S_, .f32⟩
  | 7 => ⟨S_, .f32⟩
  | 8 => ⟨S10000x10000, .f32⟩
  | 9 => ⟨S10000x10000, .i1⟩
  | 10 => ⟨S_, .f32⟩
  | 11 => ⟨S10000x10000, .f32⟩
  | 12 => ⟨S10000x10000, .f32⟩
  | 13 => ⟨S10000x10000, .f32⟩
  | 14 => ⟨S_, .f32⟩
  | 15 => ⟨S10000, .f32⟩
  | 16 => ⟨S_, .f32⟩
  | 17 => ⟨S10000, .f32⟩
  | 18 => ⟨S10000, .f32⟩
  | 19 => ⟨S10000x1, .f32⟩
  | 20 => ⟨S10000x10000, .f32⟩
  | 21 => ⟨S10000x10000, .f32⟩
  | 22 => ⟨S10000x10000, .f32⟩
  | 23 => ⟨S_, .f32⟩
  | 24 => ⟨S10000, .f32⟩
  | 25 => ⟨S10000x1, .f32⟩
  | 26 => ⟨S10000x10000, .f32⟩
  | 27 => ⟨S10000x10000, .f32⟩
  | 28 => ⟨S10000x128, .f32⟩
  | 29 => ⟨S1x128, .f32⟩
  | 30 => ⟨S128, .f32⟩
  | 31 => ⟨S1x128, .f32⟩
  | 32 => ⟨S10000x128, .f32⟩
  | 33 => ⟨S10000x128, .f32⟩
  | 34 => ⟨S_, .f32⟩
  | 35 => ⟨S10000x128, .f32⟩
  | 36 => ⟨S10000x128, .i1⟩
  | 37 => ⟨S_, .f32⟩
  | 38 => ⟨S10000x128, .f32⟩
  | 39 => ⟨S10000x128, .i1⟩
  | 40 => ⟨S_, .f32⟩
  | 41 => ⟨S_, .f32⟩
  | 42 => ⟨S10000x128, .f32⟩
  | 43 => ⟨S10000x128, .f32⟩
  | 44 => ⟨S10000x128, .f32⟩
  | 45 => ⟨S_, .f32⟩
  | 46 => ⟨S10000x128, .f32⟩
  | 47 => ⟨S10000x128, .f32⟩
  | 48 => ⟨S10000x128, .f32⟩
  | 49 => ⟨S10000x128, .f32⟩
  | 50 => ⟨S_, .f32⟩
  | 51 => ⟨S10000x128, .f32⟩
  | 52 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_cst_1 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_v4 : Ref sig .tc := ⟨.hbm, 19, rfl⟩
abbrev main_call0_v5 : Ref sig .tc := ⟨.hbm, 20, rfl⟩
abbrev main_call0_cst_2 : Ref sig .tc := ⟨.hbm, 21, rfl⟩
abbrev main_call0_v6 : Ref sig .tc := ⟨.hbm, 22, rfl⟩
abbrev main_call0_v7 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_call1_cst_1 : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_v4 : Ref sig .tc := ⟨.hbm, 37, rfl⟩
abbrev main_call1_v5 : Ref sig .tc := ⟨.hbm, 38, rfl⟩
abbrev main_call1_cst_2 : Ref sig .tc := ⟨.hbm, 39, rfl⟩
abbrev main_call1_v6 : Ref sig .tc := ⟨.hbm, 40, rfl⟩
abbrev main_call1_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v15 : Ref sig .tc := ⟨.hbm, 56, rfl⟩
abbrev main_cst_0 : Ref sig .tc := ⟨.hbm, 57, rfl⟩
abbrev main_v16 : Ref sig .tc := ⟨.hbm, 58, rfl⟩
abbrev main_cst_1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_call3_cst : Ref sig .tc := ⟨.hbm, 77, rfl⟩
abbrev main_call3_v0 : Ref sig .tc := ⟨.hbm, 78, rfl⟩
abbrev main_call3_v1 : Ref sig .tc := ⟨.hbm, 79, rfl⟩
abbrev main_call3_cst_0 : Ref sig .tc := ⟨.hbm, 80, rfl⟩
abbrev main_call3_v2 : Ref sig .tc := ⟨.hbm, 81, rfl⟩
abbrev main_call3_v3 : Ref sig .tc := ⟨.hbm, 82, rfl⟩
abbrev main_call3_cst_1 : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_v4 : Ref sig .tc := ⟨.hbm, 86, rfl⟩
abbrev main_call3_v5 : Ref sig .tc := ⟨.hbm, 87, rfl⟩
abbrev main_call3_cst_2 : Ref sig .tc := ⟨.hbm, 88, rfl⟩
abbrev main_call3_v6 : Ref sig .tc := ⟨.hbm, 89, rfl⟩
abbrev main_call3_v7 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_call4_cst : Ref sig .tc := ⟨.hbm, 95, rfl⟩
abbrev main_call4_v0 : Ref sig .tc := ⟨.hbm, 96, rfl⟩
abbrev main_call4_v1 : Ref sig .tc := ⟨.hbm, 97, rfl⟩
abbrev main_call4_cst_0 : Ref sig .tc := ⟨.hbm, 98, rfl⟩
abbrev main_call4_v2 : Ref sig .tc := ⟨.hbm, 99, rfl⟩
abbrev main_call4_v3 : Ref sig .tc := ⟨.hbm, 100, rfl⟩
abbrev main_call4_cst_1 : Ref sig .tc := ⟨.hbm, 101, rfl⟩
abbrev main_call4_call0_v0 : Ref sig .tc := ⟨.hbm, 102, rfl⟩
abbrev main_call4_call0_v1 : Ref sig .tc := ⟨.hbm, 103, rfl⟩
abbrev main_call4_v4 : Ref sig .tc := ⟨.hbm, 104, rfl⟩
abbrev main_call4_v5 : Ref sig .tc := ⟨.hbm, 105, rfl⟩
abbrev main_call4_cst_2 : Ref sig .tc := ⟨.hbm, 106, rfl⟩
abbrev main_call4_v6 : Ref sig .tc := ⟨.hbm, 107, rfl⟩
abbrev main_call4_v7 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_call5_cst : Ref sig .tc := ⟨.hbm, 113, rfl⟩
abbrev main_call5_v0 : Ref sig .tc := ⟨.hbm, 114, rfl⟩
abbrev main_call5_v1 : Ref sig .tc := ⟨.hbm, 115, rfl⟩
abbrev main_call5_cst_0 : Ref sig .tc := ⟨.hbm, 116, rfl⟩
abbrev main_call5_v2 : Ref sig .tc := ⟨.hbm, 117, rfl⟩
abbrev main_call5_v3 : Ref sig .tc := ⟨.hbm, 118, rfl⟩
abbrev main_call5_cst_1 : Ref sig .tc := ⟨.hbm, 119, rfl⟩
abbrev main_call5_call0_v0 : Ref sig .tc := ⟨.hbm, 120, rfl⟩
abbrev main_call5_call0_v1 : Ref sig .tc := ⟨.hbm, 121, rfl⟩
abbrev main_call5_v4 : Ref sig .tc := ⟨.hbm, 122, rfl⟩
abbrev main_call5_v5 : Ref sig .tc := ⟨.hbm, 123, rfl⟩
abbrev main_call5_cst_2 : Ref sig .tc := ⟨.hbm, 124, rfl⟩
abbrev main_call5_v6 : Ref sig .tc := ⟨.hbm, 125, rfl⟩
abbrev main_call5_v7 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_cst_3 : Ref sig .tc := ⟨.hbm, 134, rfl⟩
abbrev main_call6_cst : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_v48 : Ref sig .tc := ⟨.hbm, 141, rfl⟩
abbrev main_cst_4 : Ref sig .tc := ⟨.hbm, 142, rfl⟩
abbrev main_v49 : Ref sig .tc := ⟨.hbm, 143, rfl⟩
abbrev main_cst_5 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_cst_6 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_call7_cst : Ref sig .tc := ⟨.hbm, 162, rfl⟩
abbrev main_call7_v0 : Ref sig .tc := ⟨.hbm, 163, rfl⟩
abbrev main_call7_v1 : Ref sig .tc := ⟨.hbm, 164, rfl⟩
abbrev main_call7_cst_0 : Ref sig .tc := ⟨.hbm, 165, rfl⟩
abbrev main_call7_v2 : Ref sig .tc := ⟨.hbm, 166, rfl⟩
abbrev main_call7_v3 : Ref sig .tc := ⟨.hbm, 167, rfl⟩
abbrev main_call7_cst_1 : Ref sig .tc := ⟨.hbm, 168, rfl⟩
abbrev main_call7_call0_v0 : Ref sig .tc := ⟨.hbm, 169, rfl⟩
abbrev main_call7_call0_v1 : Ref sig .tc := ⟨.hbm, 170, rfl⟩
abbrev main_call7_v4 : Ref sig .tc := ⟨.hbm, 171, rfl⟩
abbrev main_call7_v5 : Ref sig .tc := ⟨.hbm, 172, rfl⟩
abbrev main_call7_cst_2 : Ref sig .tc := ⟨.hbm, 173, rfl⟩
abbrev main_call7_v6 : Ref sig .tc := ⟨.hbm, 174, rfl⟩
abbrev main_call7_v7 : Ref sig .tc := ⟨.hbm, 175, rfl⟩
abbrev main_v66 : Ref sig .tc := ⟨.hbm, 176, rfl⟩
abbrev main_v67 : Ref sig .tc := ⟨.hbm, 177, rfl⟩
abbrev main_cst_7 : Ref sig .tc := ⟨.hbm, 178, rfl⟩
abbrev main_v68 : Ref sig .tc := ⟨.hbm, 179, rfl⟩
abbrev main_v69 : Ref sig .tc := ⟨.hbm, 180, rfl⟩

abbrev nD : Nat := 1
abbrev τ : Topo := Topo.v7x

variable {F : FTy → Type} [FloatOps F]

class Facts₀ : Prop where
  slices_S2x128x1_S1x128x1_0_0_0 : S2x128x1.Slices ![0, 0, 0] S1x128x1
  shapeCasts_S1x128x1_S128x1 : S1x128x1.ShapeCasts S128x1
  bcast_S_S10000x1 : S_.BroadcastsInDim S10000x1 (![] : Fin 0 → Fin S10000x1.rank)
  bcast_S10000x1_S10000x10000_0_1 : S10000x1.BroadcastsInDim S10000x10000 (![0, 1] : Fin 2 → Fin S10000x10000.rank)
  transposes_S10000x1_S1x10000_1_0 : S10000x1.Transposes [1, 0] S1x10000
  bcast_S1x10000_S10000x10000_0_1 : S1x10000.BroadcastsInDim S10000x10000 (![0, 1] : Fin 2 → Fin S10000x10000.rank)
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x128x1_S1x128x1_1_0_0 : S2x128x1.Slices ![1, 0, 0] S1x128x1
  slices_S2x128_S1x128_1_0 : S2x128.Slices ![1, 0] S1x128
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The two programs' results as functions of the argument arrays, over the extended reals, index by index.

  Both compute, for every node i and feature d, the mean over two heads h of
      elu( (Σ_j p_h(i,j) · x(j,d)) + b(h,d) ),
  where x = inputs · W, p_h(i,·) is the softmax over j of leaky(adj(i,j) · (f1_h(i) + f2_h(j))) and
  f1_h = elu(x · w1_h), f2_h = elu(x · w2_h).  The kernel forms the logit as adj · (f1 + f2), the leaky
  rectifier as max(z, c·z), shifts the exponent by a per-row bound `mm`, accumulates numerator and denominator
  over five column blocks of 2048 (the columns past 10000 masked to exp(-∞) = 0 against zero rows of x), divides
  at the end and halves; the reference forms adj·f1 + adj·f2, the rectifier by a comparison, shifts by the row
  maximum `mx`, normalizes each coefficient and divides by two.  The shifts enter as parameters: any real
  shift gives the same quotient.
-/
import Idealize.ShloMosaic.PureOps.Ideal
import Idealize.ShloMosaic.PureOps.Ideal.Laws
import Idealize.ShloMosaic.Lib.ValueIdx

noncomputable section

namespace Cert.Spec

open Idealize.ShloMosaic
open scoped BigOperators

/-- The float patterns the programs spell, kept as patterns (both sides spell the same words). -/
def pzero : EReal := Ideal.ofBits .f32 0x00000000#32
def pone : EReal := Ideal.ofBits .f32 0x3F800000#32
def phalf : EReal := Ideal.ofBits .f32 0x3F000000#32
def ptwo : EReal := Ideal.ofBits .f32 0x40000000#32
def pninf : EReal := Ideal.ofBits .f32 0xFF800000#32
def c02 : EReal := Ideal.ofBits .f32 0x3E4CCCCD#32

/-- A select on a float comparison is a conditional on the order. -/
theorem sel_ogt {α : Type} (a b : EReal) (x y : α) :
    Scalar.select (FloatOps.cmpf (F := Ideal) (φ := .f32) .ogt a b) x y = if b < a then x else y := by
  show Scalar.select (Ideal.cmp .ogt a b) x y = _
  unfold Ideal.cmp Scalar.select
  by_cases h : b < a <;> simp [h]

theorem sel_oge {α : Type} (a b : EReal) (x y : α) :
    Scalar.select (FloatOps.cmpf (F := Ideal) (φ := .f32) .oge a b) x y = if b ≤ a then x else y := by
  show Scalar.select (Ideal.cmp .oge a b) x y = _
  unfold Ideal.cmp Scalar.select
  by_cases h : b ≤ a <;> simp [h]

/-- The exponential linear unit as the kernel spells it: v above zero, else exp v − 1. -/
def eluK (v : EReal) : EReal := if pzero < v then v else Ideal.exp v - pone
/-- As the reference spells it: v above zero, else 1 · (exp(v clipped at zero from above) − 1). -/
def eluR (v : EReal) : EReal := if pzero < v then v else pone * (Ideal.exp (if pzero < v then pzero else v) - pone)
/-- The leaky rectifier as the kernel spells it, -/
def leakyK (z : EReal) : EReal := max z (c02 * z)
/-- and as the reference does. -/
def leakyR (z : EReal) : EReal := if pzero ≤ z then z else c02 * z

section

variable (X : Fin 10000 → Fin 128 → EReal) (A : Fin 10000 → Fin 10000 → EReal) (W : Fin 128 → Fin 128 → EReal)
  (w1 w2 : Fin 2 → Fin 128 → EReal) (b : Fin 2 → Fin 128 → EReal)

/-- The shared projection x = inputs · W. -/
def proj (i : Fin 10000) (k : Fin 128) : EReal := ∑ q : Fin 128, X i q * W q k

/-! ### The kernel -/

/-- The packed attention vectors: columns w1₀, w1₁, w2₀, w2₁, then four zero columns. -/
def wf (k : Fin 128) (c : Fin 8) : EReal :=
  if c.val = 0 then w1 0 k else if c.val = 1 then w1 1 k else if c.val = 2 then w2 0 k else if c.val = 3 then w2 1 k else pzero

/-- f = elu(x · wf), eight columns. -/
def fK (i : Fin 10000) (c : Fin 8) : EReal := eluK (∑ k : Fin 128, proj X W i k * wf w1 w2 k c)
def f1K (h : Fin 2) (i : Fin 10000) : EReal := fK X W w1 w2 i ⟨h.val, by omega⟩
def f2K (h : Fin 2) (i : Fin 10000) : EReal := fK X W w1 w2 i ⟨2 + h.val, by omega⟩

/-- Column cc of column block J. -/
def colK (J : Fin 5) (cc : Fin 2048) : ℕ := 2048 * J.val + cc.val

/-- The kernel's exponentiated shifted logit at row i, column block J, column cc; exp(-∞) past column 10000. -/
def eKb (mm : Fin 2 → Fin 10000 → EReal) (h : Fin 2) (i : Fin 10000) (J : Fin 5) (cc : Fin 2048) : EReal :=
  Ideal.exp (if hc : colK J cc < 10000 then
      leakyK (A i ⟨colK J cc, hc⟩ * (f1K X W w1 w2 h i + f2K X W w1 w2 h ⟨colK J cc, hc⟩)) - mm h i
    else pninf)

/-- x padded with zero rows to 10240. -/
def xpadK (j : ℕ) (d : Fin 128) : EReal := if hj : j < 10000 then proj X W ⟨j, hj⟩ d else pzero

/-- One column block's contribution to the denominator and to the numerator. -/
def ssBlk (mm : Fin 2 → Fin 10000 → EReal) (h : Fin 2) (i : Fin 10000) (J : Fin 5) : EReal :=
  ∑ cc : Fin 2048, eKb X A W w1 w2 mm h i J cc
def accBlk (mm : Fin 2 → Fin 10000 → EReal) (h : Fin 2) (i : Fin 10000) (d : Fin 128) (J : Fin 5) : EReal :=
  ∑ cc : Fin 2048, eKb X A W w1 w2 mm h i J cc * xpadK X W (colK J cc) d

/-- The accumulators after the five column blocks, added in order onto zero. -/
def ssK (mm : Fin 2 → Fin 10000 → EReal) (h : Fin 2) (i : Fin 10000) : EReal :=
  ((((pzero + ssBlk X A W w1 w2 mm h i 0) + ssBlk X A W w1 w2 mm h i 1) + ssBlk X A W w1 w2 mm h i 2)
    + ssBlk X A W w1 w2 mm h i 3) + ssBlk X A W w1 w2 mm h i 4
def accK (mm : Fin 2 → Fin 10000 → EReal) (h : Fin 2) (i : Fin 10000) (d : Fin 128) : EReal :=
  ((((pzero + accBlk X A W w1 w2 mm h i d 0) + accBlk X A W w1 w2 mm h i d 1) + accBlk X A W w1 w2 mm h i d 2)
    + accBlk X A W w1 w2 mm h i d 3) + accBlk X A W w1 w2 mm h i d 4

/-- The kernel's result. -/
def outK (mm : Fin 2 → Fin 10000 → EReal) (i : Fin 10000) (d : Fin 128) : EReal :=
  (eluK (Ideal.div (accK X A W w1 w2 mm 0 i d) (ssK X A W w1 w2 mm 0 i) + b 0 d)
    + eluK (Ideal.div (accK X A W w1 w2 mm 1 i d) (ssK X A W w1 w2 mm 1 i) + b 1 d)) * phalf

/-! ### The reference -/

def f1R (h : Fin 2) (i : Fin 10000) : EReal := eluR (∑ k : Fin 128, proj X W i k * w1 h k)
def f2R (h : Fin 2) (i : Fin 10000) : EReal := eluR (∑ k : Fin 128, proj X W i k * w2 h k)
def lrR (h : Fin 2) (i j : Fin 10000) : EReal := leakyR (A i j * f1R X W w1 h i + A i j * f2R X W w2 h j)
def eR (mx : Fin 2 → Fin 10000 → EReal) (h : Fin 2) (i j : Fin 10000) : EReal := Ideal.exp (lrR X A W w1 w2 h i j - mx h i)
def sR (mx : Fin 2 → Fin 10000 → EReal) (h : Fin 2) (i : Fin 10000) : EReal := pzero + ∑ j : Fin 10000, eR X A W w1 w2 mx h i j
def valsR (mx : Fin 2 → Fin 10000 → EReal) (h : Fin 2) (i : Fin 10000) (d : Fin 128) : EReal :=
  ∑ j : Fin 10000, Ideal.div (eR X A W w1 w2 mx h i j) (sR X A W w1 w2 mx h i) * proj X W j d

/-- The reference's result. -/
def outR (mx : Fin 2 → Fin 10000 → EReal) (i : Fin 10000) (d : Fin 128) : EReal :=
  Ideal.div (eluR (valsR X A W w1 w2 mx 0 i d + b 0 d) + eluR (valsR X A W w1 w2 mx 1 i d + b 1 d)) ptwo

end

/-! ### The argument arrays as functions of their coordinates -/

/-- A rank-2 array read at its two coordinates. -/
def arr2 {n0 n1 : Nat} (a : (⟨2, ![n0, n1]⟩ : Shape).Idx → EReal) : Fin n0 → Fin n1 → EReal :=
  fun i j => a (ValueIdx.ix2 i j)
/-- An attention-vector array [2, 128, 1] read at head and feature (its last axis has one coordinate). -/
def arr3u {n0 n1 : Nat} (a : (⟨3, ![n0, n1, 1]⟩ : Shape).Idx → EReal) : Fin n0 → Fin n1 → EReal :=
  fun h k => a (ValueIdx.ix3 h k 0)

end Cert.Spec

end
-- ==== Proof.Finite.lean ====
/-
  Finite inputs are real numbers.  The precondition says of every float argument that each entry's absolute value is
  below +∞; on the extended reals that is exactly: the entry is neither +∞ nor −∞, i.e. the coercion of a real.
-/
import proofs.«144953_g79190607004093_cont_9to1c4b_603_4_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value is below +∞ is a real. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by
    by_contra hn
    simp [hn] at h'
  induction x using EReal.rec with
  | bot => simp at hlt
  | coe r => exact ⟨r, rfl⟩
  | top => simp at hlt

variable [Facts]

theorem all_real (a0 : FVec Ideal S10000x128 .f32) (a1 : FVec Ideal S10000x10000 .f32) (a2 : FVec Ideal S128x128 .f32)
    (a3 a4 : FVec Ideal S2x128x1 .f32) (a5 : FVec Ideal S2x128 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have e := congrFun h ValueIdx.ix0
  dsimp only [fn, fn_part1] at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i)⟩

end Cert.Finite

end
-- ==== Proof.Consts.lean ====
/-
  The six float patterns the two programs spell, as the extended reals they denote: 0, 1, 1/2, 2, -∞ and a
  real constant strictly between 0 and 1 (the slope of the leaky rectifier).
-/
import proofs.«144953_g79190607004093_cont_9to1c4b_603_4_alg».proof.Proof.Spec

noncomputable section

namespace Cert.Algebra

open Idealize.ShloMosaic

theorem pzero_eq : Cert.Spec.pzero = 0 := by
  unfold Cert.Spec.pzero; simp [Ideal.ofBits, Ideal.ieee]

theorem pone_eq : Cert.Spec.pone = 1 := by
  unfold Cert.Spec.pone; simp [Ideal.ofBits, Ideal.ieee, -EReal.coe_mul]; norm_num

theorem phalf_eq : Cert.Spec.phalf = ((1 / 2 : ℝ) : EReal) := by
  unfold Cert.Spec.phalf; simp [Ideal.ofBits, Ideal.ieee, -EReal.coe_mul]; norm_num

theorem ptwo_eq : Cert.Spec.ptwo = ((2 : ℝ) : EReal) := by
  unfold Cert.Spec.ptwo; simp [Ideal.ofBits, Ideal.ieee, -EReal.coe_mul]; norm_num

theorem pninf_eq : Cert.Spec.pninf = ⊥ := by
  unfold Cert.Spec.pninf; simp [Ideal.ofBits, Ideal.ieee]

/-- The rectifier's slope is a real strictly between 0 and 1. -/
theorem c02_eq : ∃ c : ℝ, 0 < c ∧ c < 1 ∧ Cert.Spec.c02 = (c : EReal) := by
  refine ⟨13421773 * (2 : ℝ) ^ (-26 : ℤ), by positivity, ?_, ?_⟩
  · norm_num
  · unfold Cert.Spec.c02; simp [Ideal.ofBits, Ideal.ieee, -EReal.coe_mul]

end Cert.Algebra

end
-- ==== Proof.AlgebraSums.lean ====
/-
  Finite sums.  A finite sum of reals read in the extended reals is the sum of the readings.  A sum over
  m blocks of n consecutive indices, the terms past N vanishing, is the sum over the first N indices.  A quotient
  of two sums of shifted exponentials does not depend on the shift, and dividing the weighted sum is the same as
  weighting by the normalized terms.
-/
import Mathlib

noncomputable section

namespace Cert.Algebra

open scoped BigOperators

/-- The reading of a finite real sum in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real readings is the reading of the real sum of products. -/
theorem sum_mul_coe {ι : Type*} [Fintype ι] (f g : ι → ℝ) :
    ∑ k, (f k : EReal) * (g k : EReal) = ((∑ k, f k * g k : ℝ) : EReal) := by
  rw [coe_sum]
  exact Finset.sum_congr rfl (fun k _ => (EReal.coe_mul _ _).symm)

/-- m blocks of n consecutive indices exhaust the first n·m indices. -/
theorem sum_blocks_range {M : Type*} [AddCommMonoid M] (n : ℕ) (g : ℕ → M) (m : ℕ) :
    ∑ J ∈ Finset.range m, ∑ cc ∈ Finset.range n, g (n * J + cc) = ∑ j ∈ Finset.range (n * m), g j := by
  induction m with
  | zero => simp
  | succ m ih => rw [Finset.sum_range_succ, ih, Nat.mul_succ, Finset.sum_range_add]

/-- The same with the terms past N absent: only the first N indices contribute. -/
theorem sum_blocks {M : Type*} [AddCommMonoid M] {m n N : ℕ} (hN : N ≤ n * m) (E : Fin N → M) :
    ∑ J : Fin m, ∑ cc : Fin n, (if hj : n * J.val + cc.val < N then E ⟨n * J.val + cc.val, hj⟩ else 0)
      = ∑ j : Fin N, E j := by
  let g : ℕ → M := fun j => if hj : j < N then E ⟨j, hj⟩ else 0
  have h1 : ∑ J : Fin m, ∑ cc : Fin n, (if hj : n * J.val + cc.val < N then E ⟨n * J.val + cc.val, hj⟩ else 0)
      = ∑ J ∈ Finset.range m, ∑ cc ∈ Finset.range n, g (n * J + cc) := by
    rw [Finset.sum_range (fun J => ∑ cc ∈ Finset.range n, g (n * J + cc))]
    refine Finset.sum_congr rfl (fun J _ => ?_)
    rw [Finset.sum_range (fun cc => g (n * J.val + cc))]
  have h2 : ∑ j ∈ Finset.range (n * m), g j = ∑ j ∈ Finset.range N, g j := by
    obtain ⟨k, hk⟩ := Nat.exists_eq_add_of_le hN
    rw [hk, Finset.sum_range_add]
    have hz : ∑ x ∈ Finset.range k, g (N + x) = 0 :=
      Finset.sum_eq_zero (fun x _ => dif_neg (by omega))
    rw [hz, add_zero]
  have h3 : ∑ j ∈ Finset.range N, g j = ∑ j : Fin N, E j := by
    rw [Finset.sum_range g]
    exact Finset.sum_congr rfl (fun j _ => dif_pos j.isLt)
  rw [h1, sum_blocks_range, h2, h3]

/-- Five terms added in order onto zero. -/
theorem nest5 {M : Type*} [AddCommMonoid M] (s : Fin 5 → M) :
    ((((0 + s 0) + s 1) + s 2) + s 3) + s 4 = ∑ J : Fin 5, s J := by
  rw [Fin.sum_univ_five, zero_add]

/-- The softmax-weighted sum: the shift of the exponent cancels between numerator and denominator, and the
    quotient of the weighted sum is the sum weighted by the quotients. -/
theorem softmax_shift {ι : Type*} [Fintype ι] [Nonempty ι] (l x : ι → ℝ) (m M : ℝ) :
    (∑ j, Real.exp (l j - m) * x j) / (∑ j, Real.exp (l j - m))
      = ∑ j, Real.exp (l j - M) / (∑ k, Real.exp (l k - M)) * x j := by
  have e1 : ∀ t : ℝ, ∑ j, Real.exp (l j - t) * x j = Real.exp (-t) * ∑ j, Real.exp (l j) * x j := by
    intro t
    rw [Finset.mul_sum]
    refine Finset.sum_congr rfl (fun j _ => ?_)
    rw [sub_eq_add_neg, Real.exp_add]; ring
  have e2 : ∀ t : ℝ, ∑ j, Real.exp (l j - t) = Real.exp (-t) * ∑ j, Real.exp (l j) := by
    intro t
    rw [Finset.mul_sum]
    refine Finset.sum_congr rfl (fun j _ => ?_)
    rw [sub_eq_add_neg, Real.exp_add]; ring
  have key : ∀ t : ℝ, (∑ j, Real.exp (l j - t) * x j) / (∑ j, Real.exp (l j - t))
      = (∑ j, Real.exp (l j) * x j) / (∑ j, Real.exp (l j)) := by
    intro t
    rw [e1, e2, mul_div_mul_left _ _ (Real.exp_pos _).ne']
  rw [key m, ← key M, Finset.sum_div]
  exact Finset.sum_congr rfl (fun j _ => (div_mul_eq_mul_div _ _ _).symm)

/-- A sum of exponentials over a nonempty index set is positive. -/
theorem sum_exp_pos {ι : Type*} [Fintype ι] [Nonempty ι] (l : ι → ℝ) : 0 < ∑ j, Real.exp (l j) :=
  Finset.sum_pos (fun j _ => Real.exp_pos _) Finset.univ_nonempty

end Cert.Algebra

end
-- ==== Proof.AlgebraBasic.lean ====
/-
  The scalar functions on real arguments.  The exponential linear unit: the two spellings agree at every
  extended real (below or at zero the clipped argument is the argument itself and 1 · y = y), and at a real r
  both are the reading of (r if 0 < r, else exp r − 1).  The leaky rectifier with a slope 0 < c < 1:
  max(z, c·z) and the comparison form are both the reading of (z if 0 ≤ z, else c·z).  The quotient of two
  reals with a nonzero divisor is the reading of the real quotient.
-/
import proofs.«144953_g79190607004093_cont_9to1c4b_603_4_alg».proof.Proof.Spec
import proofs.«144953_g79190607004093_cont_9to1c4b_603_4_alg».proof.Proof.Consts
import Mathlib

noncomputable section

namespace Cert.Algebra

open Idealize.ShloMosaic Cert.Spec
open scoped BigOperators

/-- The exponential linear unit on the reals. -/
def elur (r : ℝ) : ℝ := if 0 < r then r else Real.exp r - 1

/-- The leaky rectifier of slope c on the reals. -/
def leakyr (c z : ℝ) : ℝ := if 0 ≤ z then z else c * z

/-- The two spellings of the exponential linear unit agree everywhere. -/
theorem eluR_eq_eluK (v : EReal) : eluR v = eluK v := by
  unfold eluR eluK
  by_cases h : pzero < v
  · rw [if_pos h, if_pos h]
  · simp only [if_neg h]
    rw [pone_eq, one_mul]

theorem eluK_coe (r : ℝ) : eluK (r : EReal) = (elur r : EReal) := by
  unfold eluK elur
  rw [pzero_eq, pone_eq]
  by_cases h : 0 < r
  · rw [if_pos (EReal.coe_pos.2 h), if_pos h]
  · rw [if_neg (fun h' => h (EReal.coe_pos.1 h')), if_neg h, Ideal.exp_coe, ← EReal.coe_one, ← EReal.coe_sub]

theorem eluR_coe (r : ℝ) : eluR (r : EReal) = (elur r : EReal) := by
  rw [eluR_eq_eluK, eluK_coe]

/-- The maximum of two real readings. -/
theorem coe_max' (a b : ℝ) : max (a : EReal) (b : EReal) = ((max a b : ℝ) : EReal) :=
  (EReal.coe_strictMono.monotone.map_max).symm

/-- For a slope between 0 and 1 the maximum of z and c·z is z when 0 ≤ z and c·z otherwise. -/
theorem leakyK_coe {c : ℝ} (hc0 : 0 < c) (hc1 : c < 1) (hc : c02 = (c : EReal)) (z : ℝ) :
    leakyK (z : EReal) = (leakyr c z : EReal) := by
  unfold leakyK leakyr
  rw [hc, ← EReal.coe_mul, coe_max']
  congr 1
  by_cases h : 0 ≤ z
  · rw [if_pos h]
    exact max_eq_left (by nlinarith [mul_nonneg (sub_nonneg.2 hc1.le) h])
  · rw [if_neg h]
    have hz : z ≤ 0 := le_of_lt (not_le.1 h)
    exact max_eq_right (by nlinarith [mul_nonneg (sub_nonneg.2 hc1.le) (neg_nonneg.2 hz)])

theorem leakyR_coe {c : ℝ} (hc : c02 = (c : EReal)) (z : ℝ) :
    leakyR (z : EReal) = (leakyr c z : EReal) := by
  unfold leakyR leakyr
  rw [pzero_eq, hc]
  by_cases h : 0 ≤ z
  · rw [if_pos (EReal.coe_nonneg.2 h), if_pos h]
  · rw [if_neg (fun h' => h (EReal.coe_nonneg.1 h')), if_neg h, EReal.coe_mul]

/-- The quotient of two reals, the divisor not zero. -/
theorem div_coe_coe (a : ℝ) {b : ℝ} (hb : b ≠ 0) :
    Ideal.div (a : EReal) (b : EReal) = ((a / b : ℝ) : EReal) := by
  rw [Ideal.div_coe hb, ← EReal.coe_mul, mul_one_div]

end Cert.Algebra

end
-- ==== Proof.AlgebraLift.lean ====
/-
  The intermediate quantities of the two programs on real inputs.  When every input is the reading of a real
  array, the projection, the eight columns of f, the logits after the rectifier, the shifted exponentials, the
  kernel's two accumulators after its five column blocks, and the reference's denominator and weighted values
  are each the reading of the corresponding real expression.  The kernel's logit adj·(f1 + f2) and the
  reference's adj·f1 + adj·f2 are one real number; the masked columns past 10000 contribute exp(-∞) = 0, times
  a zero row of x in the numerator, so the five blocks of 2048 columns sum to the sum over the 10000 columns.
-/
import proofs.«144953_g79190607004093_cont_9to1c4b_603_4_alg».proof.Proof.Spec
import proofs.«144953_g79190607004093_cont_9to1c4b_603_4_alg».proof.Proof.Consts
import proofs.«144953_g79190607004093_cont_9to1c4b_603_4_alg».proof.Proof.AlgebraSums
import proofs.«144953_g79190607004093_cont_9to1c4b_603_4_alg».proof.Proof.AlgebraBasic

noncomputable section

namespace Cert.Algebra

open Idealize.ShloMosaic Cert.Spec
open scoped BigOperators

instance nonemptyFin10000 : Nonempty (Fin 10000) := ⟨⟨0, by norm_num⟩⟩

section Real

variable (c : ℝ) (Xr : Fin 10000 → Fin 128 → ℝ) (Ar : Fin 10000 → Fin 10000 → ℝ) (Wr : Fin 128 → Fin 128 → ℝ)
  (w1r w2r : Fin 2 → Fin 128 → ℝ)

/-- x = inputs · W on the reals. -/
def projr (i : Fin 10000) (k : Fin 128) : ℝ := ∑ q, Xr i q * Wr q k

/-- The packed attention vectors on the reals. -/
def wfr (k : Fin 128) (cl : Fin 8) : ℝ :=
  if cl.val = 0 then w1r 0 k else if cl.val = 1 then w1r 1 k else if cl.val = 2 then w2r 0 k
  else if cl.val = 3 then w2r 1 k else 0

/-- One attention column: elu(x · w_h). -/
def fr (wr : Fin 2 → Fin 128 → ℝ) (h : Fin 2) (i : Fin 10000) : ℝ := elur (∑ k, projr Xr Wr i k * wr h k)

/-- The rectified logit. -/
def lr (h : Fin 2) (i j : Fin 10000) : ℝ :=
  leakyr c (Ar i j * (fr Xr Wr w1r h i + fr Xr Wr w2r h j))

theorem wfr_one (k : Fin 128) (h : Fin 2) : wfr w1r w2r k ⟨h.val, by omega⟩ = w1r h k := by
  fin_cases h <;> simp [wfr]

theorem wfr_two (k : Fin 128) (h : Fin 2) : wfr w1r w2r k ⟨2 + h.val, by omega⟩ = w2r h k := by
  fin_cases h <;> simp [wfr]

end Real

section Lift

variable {X : Fin 10000 → Fin 128 → EReal} {A : Fin 10000 → Fin 10000 → EReal} {W : Fin 128 → Fin 128 → EReal}
  {w1 w2 : Fin 2 → Fin 128 → EReal}
  {c : ℝ} {Xr : Fin 10000 → Fin 128 → ℝ} {Ar : Fin 10000 → Fin 10000 → ℝ} {Wr : Fin 128 → Fin 128 → ℝ}
  {w1r w2r : Fin 2 → Fin 128 → ℝ}

theorem proj_coe (hX : ∀ i q, X i q = (Xr i q : EReal)) (hW : ∀ q k, W q k = (Wr q k : EReal))
    (i : Fin 10000) (k : Fin 128) : proj X W i k = (projr Xr Wr i k : EReal) := by
  unfold proj projr
  simp only [hX, hW]
  exact sum_mul_coe (fun q => Xr i q) (fun q => Wr q k)

theorem wf_coe (hw1 : ∀ h k, w1 h k = (w1r h k : EReal)) (hw2 : ∀ h k, w2 h k = (w2r h k : EReal))
    (k : Fin 128) (cl : Fin 8) : wf w1 w2 k cl = (wfr w1r w2r k cl : EReal) := by
  unfold wf wfr
  simp only [hw1, hw2, pzero_eq]
  split_ifs <;> rfl

theorem fK_coe (hX : ∀ i q, X i q = (Xr i q : EReal)) (hW : ∀ q k, W q k = (Wr q k : EReal))
    (hw1 : ∀ h k, w1 h k = (w1r h k : EReal)) (hw2 : ∀ h k, w2 h k = (w2r h k : EReal))
    (i : Fin 10000) (cl : Fin 8) :
    fK X W w1 w2 i cl = (elur (∑ k, projr Xr Wr i k * wfr w1r w2r k cl) : EReal) := by
  unfold fK
  simp only [proj_coe hX hW, wf_coe hw1 hw2]
  rw [sum_mul_coe (fun k => projr Xr Wr i k) (fun k => wfr w1r w2r k cl), eluK_coe]

theorem f1K_coe (hX : ∀ i q, X i q = (Xr i q : EReal)) (hW : ∀ q k, W q k = (Wr q k : EReal))
    (hw1 : ∀ h k, w1 h k = (w1r h k : EReal)) (hw2 : ∀ h k, w2 h k = (w2r h k : EReal))
    (h : Fin 2) (i : Fin 10000) : f1K X W w1 w2 h i = (fr Xr Wr w1r h i : EReal) := by
  unfold f1K fr
  rw [fK_coe hX hW hw1 hw2]
  simp only [wfr_one]

theorem f2K_coe (hX : ∀ i q, X i q = (Xr i q : EReal)) (hW : ∀ q k, W q k = (Wr q k : EReal))
    (hw1 : ∀ h k, w1 h k = (w1r h k : EReal)) (hw2 : ∀ h k, w2 h k = (w2r h k : EReal))
    (h : Fin 2) (i : Fin 10000) : f2K X W w1 w2 h i = (fr Xr Wr w2r h i : EReal) := by
  unfold f2K fr
  rw [fK_coe hX hW hw1 hw2]
  simp only [wfr_two]

/-- The reference's attention column for either vector. -/
theorem fR_coe (hX : ∀ i q, X i q = (Xr i q : EReal)) (hW : ∀ q k, W q k = (Wr q k : EReal))
    {w : Fin 2 → Fin 128 → EReal} {wr : Fin 2 → Fin 128 → ℝ} (hw : ∀ h k, w h k = (wr h k : EReal))
    (h : Fin 2) (i : Fin 10000) :
    eluR (∑ k : Fin 128, proj X W i k * w h k) = (fr Xr Wr wr h i : EReal) := by
  unfold fr
  simp only [proj_coe hX hW, hw]
  rw [sum_mul_coe (fun k => projr Xr Wr i k) (fun k => wr h k), eluR_coe]

/-- The kernel's rectified logit. -/
theorem lK_coe (hc0 : 0 < c) (hc1 : c < 1) (hc : c02 = (c : EReal))
    (hX : ∀ i q, X i q = (Xr i q : EReal)) (hA : ∀ i j, A i j = (Ar i j : EReal))
    (hW : ∀ q k, W q k = (Wr q k : EReal))
    (hw1 : ∀ h k, w1 h k = (w1r h k : EReal)) (hw2 : ∀ h k, w2 h k = (w2r h k : EReal))
    (h : Fin 2) (i j : Fin 10000) :
    leakyK (A i j * (f1K X W w1 w2 h i + f2K X W w1 w2 h j)) = (lr c Xr Ar Wr w1r w2r h i j : EReal) := by
  unfold lr
  rw [hA i j, f1K_coe hX hW hw1 hw2 h i, f2K_coe hX hW hw1 hw2 h j, ← EReal.coe_add, ← EReal.coe_mul,
    leakyK_coe hc0 hc1 hc]

/-- The reference's rectified logit: the same real number, by distributivity. -/
theorem lrR_coe (hc : c02 = (c : EReal))
    (hX : ∀ i q, X i q = (Xr i q : EReal)) (hA : ∀ i j, A i j = (Ar i j : EReal))
    (hW : ∀ q k, W q k = (Wr q k : EReal))
    (hw1 : ∀ h k, w1 h k = (w1r h k : EReal)) (hw2 : ∀ h k, w2 h k = (w2r h k : EReal))
    (h : Fin 2) (i j : Fin 10000) :
    lrR X A W w1 w2 h i j = (lr c Xr Ar Wr w1r w2r h i j : EReal) := by
  unfold lrR f1R f2R lr
  rw [hA i j, fR_coe hX hW hw1 h i, fR_coe hX hW hw2 h j, ← EReal.coe_mul, ← EReal.coe_mul, ← EReal.coe_add,
    leakyR_coe hc, ← mul_add]

end Lift

section Acc

variable {X : Fin 10000 → Fin 128 → EReal} {A : Fin 10000 → Fin 10000 → EReal} {W : Fin 128 → Fin 128 → EReal}
  {w1 w2 : Fin 2 → Fin 128 → EReal} {s : Fin 2 → Fin 10000 → EReal}
  {c : ℝ} {Xr : Fin 10000 → Fin 128 → ℝ} {Ar : Fin 10000 → Fin 10000 → ℝ} {Wr : Fin 128 → Fin 128 → ℝ}
  {w1r w2r : Fin 2 → Fin 128 → ℝ} {sr : Fin 2 → Fin 10000 → ℝ}

/-- The kernel's exponentiated shifted logit: a real exponential inside the 10000 columns, exp(-∞) = 0 past them. -/
theorem eKb_coe (hc0 : 0 < c) (hc1 : c < 1) (hc : c02 = (c : EReal))
    (hX : ∀ i q, X i q = (Xr i q : EReal)) (hA : ∀ i j, A i j = (Ar i j : EReal))
    (hW : ∀ q k, W q k = (Wr q k : EReal))
    (hw1 : ∀ h k, w1 h k = (w1r h k : EReal)) (hw2 : ∀ h k, w2 h k = (w2r h k : EReal))
    (hs : ∀ h i, s h i = (sr h i : EReal)) (h : Fin 2) (i : Fin 10000) (J : Fin 5) (cc : Fin 2048) :
    eKb X A W w1 w2 s h i J cc
      = if hj : 2048 * J.val + cc.val < 10000 then
          ((Real.exp (lr c Xr Ar Wr w1r w2r h i ⟨2048 * J.val + cc.val, hj⟩ - sr h i) : ℝ) : EReal)
        else 0 := by
  unfold eKb colK
  by_cases hj : 2048 * J.val + cc.val < 10000
  · simp only [dif_pos hj]
    rw [lK_coe hc0 hc1 hc hX hA hW hw1 hw2, hs, ← EReal.coe_sub, Ideal.exp_coe]
  · simp only [dif_neg hj]
    rw [pninf_eq, Ideal.exp_bot]

/-- One term of the kernel's numerator: past the 10000 columns the zero exponential meets a zero row of x. -/
theorem eKb_mul_xpad (hc0 : 0 < c) (hc1 : c < 1) (hc : c02 = (c : EReal))
    (hX : ∀ i q, X i q = (Xr i q : EReal)) (hA : ∀ i j, A i j = (Ar i j : EReal))
    (hW : ∀ q k, W q k = (Wr q k : EReal))
    (hw1 : ∀ h k, w1 h k = (w1r h k : EReal)) (hw2 : ∀ h k, w2 h k = (w2r h k : EReal))
    (hs : ∀ h i, s h i = (sr h i : EReal)) (h : Fin 2) (i : Fin 10000) (d : Fin 128) (J : Fin 5) (cc : Fin 2048) :
    eKb X A W w1 w2 s h i J cc * xpadK X W (colK J cc) d
      = if hj : 2048 * J.val + cc.val < 10000 then
          ((Real.exp (lr c Xr Ar Wr w1r w2r h i ⟨2048 * J.val + cc.val, hj⟩ - sr h i)
              * projr Xr Wr ⟨2048 * J.val + cc.val, hj⟩ d : ℝ) : EReal)
        else 0 := by
  rw [eKb_coe hc0 hc1 hc hX hA hW hw1 hw2 hs]
  unfold xpadK colK
  by_cases hj : 2048 * J.val + cc.val < 10000
  · simp only [dif_pos hj]
    rw [proj_coe hX hW, EReal.coe_mul]
  · simp only [dif_neg hj]
    rw [zero_mul]

/-- The kernel's denominator after the five column blocks. -/
theorem ssK_coe (hc0 : 0 < c) (hc1 : c < 1) (hc : c02 = (c : EReal))
    (hX : ∀ i q, X i q = (Xr i q : EReal)) (hA : ∀ i j, A i j = (Ar i j : EReal))
    (hW : ∀ q k, W q k = (Wr q k : EReal))
    (hw1 : ∀ h k, w1 h k = (w1r h k : EReal)) (hw2 : ∀ h k, w2 h k = (w2r h k : EReal))
    (hs : ∀ h i, s h i = (sr h i : EReal)) (h : Fin 2) (i : Fin 10000) :
    ssK X A W w1 w2 s h i = ((∑ j, Real.exp (lr c Xr Ar Wr w1r w2r h i j - sr h i) : ℝ) : EReal) := by
  unfold ssK
  rw [pzero_eq, nest5 (fun J => ssBlk X A W w1 w2 s h i J)]
  unfold ssBlk
  simp only [eKb_coe hc0 hc1 hc hX hA hW hw1 hw2 hs]
  rw [sum_blocks (m := 5) (n := 2048) (N := 10000) (by norm_num)
    (fun j => ((Real.exp (lr c Xr Ar Wr w1r w2r h i j - sr h i) : ℝ) : EReal)), ← coe_sum]

/-- The kernel's numerator after the five column blocks. -/
theorem accK_coe (hc0 : 0 < c) (hc1 : c < 1) (hc : c02 = (c : EReal))
    (hX : ∀ i q, X i q = (Xr i q : EReal)) (hA : ∀ i j, A i j = (Ar i j : EReal))
    (hW : ∀ q k, W q k = (Wr q k : EReal))
    (hw1 : ∀ h k, w1 h k = (w1r h k : EReal)) (hw2 : ∀ h k, w2 h k = (w2r h k : EReal))
    (hs : ∀ h i, s h i = (sr h i : EReal)) (h : Fin 2) (i : Fin 10000) (d : Fin 128) :
    accK X A W w1 w2 s h i d
      = ((∑ j, Real.exp (lr c Xr Ar Wr w1r w2r h i j - sr h i) * projr Xr Wr j d : ℝ) : EReal) := by
  unfold accK
  rw [pzero_eq, nest5 (fun J => accBlk X A W w1 w2 s h i d J)]
  unfold accBlk
  simp only [eKb_mul_xpad hc0 hc1 hc hX hA hW hw1 hw2 hs]
  rw [sum_blocks (m := 5) (n := 2048) (N := 10000) (by norm_num)
    (fun j => ((Real.exp (lr c Xr Ar Wr w1r w2r h i j - sr h i) * projr Xr Wr j d : ℝ) : EReal)), ← coe_sum]

/-- The reference's exponentiated shifted logit. -/
theorem eR_coe (hc : c02 = (c : EReal))
    (hX : ∀ i q, X i q = (Xr i q : EReal)) (hA : ∀ i j, A i j = (Ar i j : EReal))
    (hW : ∀ q k, W q k = (Wr q k : EReal))
    (hw1 : ∀ h k, w1 h k = (w1r h k : EReal)) (hw2 : ∀ h k, w2 h k = (w2r h k : EReal))
    (hs : ∀ h i, s h i = (sr h i : EReal)) (h : Fin 2) (i j : Fin 10000) :
    eR X A W w1 w2 s h i j = ((Real.exp (lr c Xr Ar Wr w1r w2r h i j - sr h i) : ℝ) : EReal) := by
  unfold eR
  rw [lrR_coe hc hX hA hW hw1 hw2, hs, ← EReal.coe_sub, Ideal.exp_coe]

/-- The reference's denominator. -/
theorem sR_coe (hc : c02 = (c : EReal))
    (hX : ∀ i q, X i q = (Xr i q : EReal)) (hA : ∀ i j, A i j = (Ar i j : EReal))
    (hW : ∀ q k, W q k = (Wr q k : EReal))
    (hw1 : ∀ h k, w1 h k = (w1r h k : EReal)) (hw2 : ∀ h k, w2 h k = (w2r h k : EReal))
    (hs : ∀ h i, s h i = (sr h i : EReal)) (h : Fin 2) (i : Fin 10000) :
    sR X A W w1 w2 s h i = ((∑ j, Real.exp (lr c Xr Ar Wr w1r w2r h i j - sr h i) : ℝ) : EReal) := by
  unfold sR
  simp only [eR_coe hc hX hA hW hw1 hw2 hs]
  rw [pzero_eq, zero_add, ← coe_sum]

/-- The reference's weighted values: each coefficient a real quotient, the denominator a positive sum. -/
theorem valsR_coe (hc : c02 = (c : EReal))
    (hX : ∀ i q, X i q = (Xr i q : EReal)) (hA : ∀ i j, A i j = (Ar i j : EReal))
    (hW : ∀ q k, W q k = (Wr q k : EReal))
    (hw1 : ∀ h k, w1 h k = (w1r h k : EReal)) (hw2 : ∀ h k, w2 h k = (w2r h k : EReal))
    (hs : ∀ h i, s h i = (sr h i : EReal)) (h : Fin 2) (i : Fin 10000) (d : Fin 128) :
    valsR X A W w1 w2 s h i d
      = ((∑ j, Real.exp (lr c Xr Ar Wr w1r w2r h i j - sr h i)
            / (∑ k, Real.exp (lr c Xr Ar Wr w1r w2r h i k - sr h i)) * projr Xr Wr j d : ℝ) : EReal) := by
  unfold valsR
  simp only [eR_coe hc hX hA hW hw1 hw2 hs, sR_coe hc hX hA hW hw1 hw2 hs, proj_coe hX hW]
  rw [coe_sum Finset.univ (fun j => Real.exp (lr c Xr Ar Wr w1r w2r h i j - sr h i)
    / (∑ k, Real.exp (lr c Xr Ar Wr w1r w2r h i k - sr h i)) * projr Xr Wr j d)]
  refine Finset.sum_congr rfl (fun j _ => ?_)
  rw [div_coe_coe _ (sum_exp_pos (fun k => lr c Xr Ar Wr w1r w2r h i k - sr h i)).ne', EReal.coe_mul]

end Acc

end Cert.Algebra

end
-- ==== Proof.Algebra.lean ====
/-
  The two programs' results agree on real inputs.  Per head, the kernel divides the accumulated numerator
  Σ_j exp(l_j − m) · x_j by the accumulated denominator Σ_j exp(l_j − m), the reference sums the normalized
  coefficients exp(l_j − M) / Σ_k exp(l_k − M) against x_j; the factors exp(−m) and exp(−M) cancel, so both are
  one real number for any real shifts m and M.  Adding the bias, applying the exponential linear unit (one
  function in both spellings), adding the two heads and halving (y · ½ = y / 2) gives the same real on both
  sides.  Also: every column of f and every rectified logit of the reference is real on real inputs.
-/
import proofs.«144953_g79190607004093_cont_9to1c4b_603_4_alg».proof.Proof.Spec
import proofs.«144953_g79190607004093_cont_9to1c4b_603_4_alg».proof.Proof.Consts
import proofs.«144953_g79190607004093_cont_9to1c4b_603_4_alg».proof.Proof.AlgebraSums
import proofs.«144953_g79190607004093_cont_9to1c4b_603_4_alg».proof.Proof.AlgebraBasic
import proofs.«144953_g79190607004093_cont_9to1c4b_603_4_alg».proof.Proof.AlgebraLift

noncomputable section

namespace Cert.Algebra

open Idealize.ShloMosaic Cert.Spec
open scoped BigOperators

/-- Every column of the kernel's f is real on real inputs. -/
theorem fK_real (X : Fin 10000 → Fin 128 → EReal) (W : Fin 128 → Fin 128 → EReal)
    (w1 w2 : Fin 2 → Fin 128 → EReal)
    (hX : ∀ i q, ∃ r : ℝ, X i q = (r : EReal)) (hW : ∀ q k, ∃ r : ℝ, W q k = (r : EReal))
    (hw1 : ∀ h k, ∃ r : ℝ, w1 h k = (r : EReal)) (hw2 : ∀ h k, ∃ r : ℝ, w2 h k = (r : EReal))
    (i : Fin 10000) (cl : Fin 8) : ∃ r : ℝ, fK X W w1 w2 i cl = (r : EReal) := by
  choose Xr hXr using hX
  choose Wr hWr using hW
  choose w1r hw1r using hw1
  choose w2r hw2r using hw2
  exact ⟨_, fK_coe hXr hWr hw1r hw2r i cl⟩

theorem f1K_real (X : Fin 10000 → Fin 128 → EReal) (W : Fin 128 → Fin 128 → EReal)
    (w1 w2 : Fin 2 → Fin 128 → EReal)
    (hX : ∀ i q, ∃ r : ℝ, X i q = (r : EReal)) (hW : ∀ q k, ∃ r : ℝ, W q k = (r : EReal))
    (hw1 : ∀ h k, ∃ r : ℝ, w1 h k = (r : EReal)) (hw2 : ∀ h k, ∃ r : ℝ, w2 h k = (r : EReal))
    (h : Fin 2) (i : Fin 10000) : ∃ r : ℝ, f1K X W w1 w2 h i = (r : EReal) := by
  unfold f1K
  exact fK_real X W w1 w2 hX hW hw1 hw2 i _

theorem f2K_real (X : Fin 10000 → Fin 128 → EReal) (W : Fin 128 → Fin 128 → EReal)
    (w1 w2 : Fin 2 → Fin 128 → EReal)
    (hX : ∀ i q, ∃ r : ℝ, X i q = (r : EReal)) (hW : ∀ q k, ∃ r : ℝ, W q k = (r : EReal))
    (hw1 : ∀ h k, ∃ r : ℝ, w1 h k = (r : EReal)) (hw2 : ∀ h k, ∃ r : ℝ, w2 h k = (r : EReal))
    (h : Fin 2) (i : Fin 10000) : ∃ r : ℝ, f2K X W w1 w2 h i = (r : EReal) := by
  unfold f2K
  exact fK_real X W w1 w2 hX hW hw1 hw2 i _

/-- Every rectified logit of the reference is real on real inputs. -/
theorem lrR_real (X : Fin 10000 → Fin 128 → EReal) (A : Fin 10000 → Fin 10000 → EReal)
    (W : Fin 128 → Fin 128 → EReal) (w1 w2 : Fin 2 → Fin 128 → EReal)
    (hX : ∀ i q, ∃ r : ℝ, X i q = (r : EReal)) (hA : ∀ i j, ∃ r : ℝ, A i j = (r : EReal))
    (hW : ∀ q k, ∃ r : ℝ, W q k = (r : EReal))
    (hw1 : ∀ h k, ∃ r : ℝ, w1 h k = (r : EReal)) (hw2 : ∀ h k, ∃ r : ℝ, w2 h k = (r : EReal))
    (h : Fin 2) (i j : Fin 10000) : ∃ r : ℝ, lrR X A W w1 w2 h i j = (r : EReal) := by
  obtain ⟨c, _, _, hc⟩ := c02_eq
  choose Xr hXr using hX
  choose Ar hAr using hA
  choose Wr hWr using hW
  choose w1r hw1r using hw1
  choose w2r hw2r using hw2
  exact ⟨_, lrR_coe hc hXr hAr hWr hw1r hw2r h i j⟩

/-- The kernel's result is the reference's, whatever the two real shifts. -/
theorem out_eq (X : Fin 10000 → Fin 128 → EReal) (A : Fin 10000 → Fin 10000 → EReal)
    (W : Fin 128 → Fin 128 → EReal) (w1 w2 b : Fin 2 → Fin 128 → EReal) (mm mx : Fin 2 → Fin 10000 → EReal)
    (hX : ∀ i q, ∃ r : ℝ, X i q = (r : EReal)) (hA : ∀ i j, ∃ r : ℝ, A i j = (r : EReal))
    (hW : ∀ q k, ∃ r : ℝ, W q k = (r : EReal))
    (hw1 : ∀ h k, ∃ r : ℝ, w1 h k = (r : EReal)) (hw2 : ∀ h k, ∃ r : ℝ, w2 h k = (r : EReal))
    (hb : ∀ h k, ∃ r : ℝ, b h k = (r : EReal))
    (hmm : ∀ h i, ∃ r : ℝ, mm h i = (r : EReal)) (hmx : ∀ h i, ∃ r : ℝ, mx h i = (r : EReal))
    (i : Fin 10000) (d : Fin 128) :
    outK X A W w1 w2 b mm i d = outR X A W w1 w2 b mx i d := by
  obtain ⟨c, hc0, hc1, hc⟩ := c02_eq
  choose Xr hXr using hX
  choose Ar hAr using hA
  choose Wr hWr using hW
  choose w1r hw1r using hw1
  choose w2r hw2r using hw2
  choose br hbr using hb
  choose mmr hmmr using hmm
  choose mxr hmxr using hmx
  -- the argument of the last exponential linear unit, per head: the kernel's, by shift invariance, is the reference's
  have hK : ∀ h : Fin 2, Ideal.div (accK X A W w1 w2 mm h i d) (ssK X A W w1 w2 mm h i) + b h d
      = (((∑ j, Real.exp (lr c Xr Ar Wr w1r w2r h i j - mxr h i)
            / (∑ k, Real.exp (lr c Xr Ar Wr w1r w2r h i k - mxr h i)) * projr Xr Wr j d) + br h d : ℝ) : EReal) := by
    intro h
    rw [accK_coe hc0 hc1 hc hXr hAr hWr hw1r hw2r hmmr, ssK_coe hc0 hc1 hc hXr hAr hWr hw1r hw2r hmmr,
      div_coe_coe _ (sum_exp_pos (fun k => lr c Xr Ar Wr w1r w2r h i k - mmr h i)).ne', hbr, ← EReal.coe_add,
      softmax_shift (fun j => lr c Xr Ar Wr w1r w2r h i j) (fun j => projr Xr Wr j d) (mmr h i) (mxr h i)]
  have hR : ∀ h : Fin 2, valsR X A W w1 w2 mx h i d + b h d
      = (((∑ j, Real.exp (lr c Xr Ar Wr w1r w2r h i j - mxr h i)
            / (∑ k, Real.exp (lr c Xr Ar Wr w1r w2r h i k - mxr h i)) * projr Xr Wr j d) + br h d : ℝ) : EReal) := by
    intro h
    rw [valsR_coe hc hXr hAr hWr hw1r hw2r hmxr, hbr, ← EReal.coe_add]
  unfold outK outR
  rw [hK 0, hK 1, hR 0, hR 1, eluK_coe, eluK_coe, eluR_coe, eluR_coe, ← EReal.coe_add, phalf_eq, ptwo_eq,
    ← EReal.coe_mul, div_coe_coe _ two_ne_zero, mul_one_div]

end Cert.Algebra

end
-- ==== Proof.K.Body0.lean ====
/- Region 0: the projection kernel on a grid of 5 blocks of 2000 rows.

   At every point the body reads the current row block of the inputs (window 0), the whole weight matrix (window 1)
   and the whole packed matrix of attention vectors (window 2), and writes x = inputs · W into the block of output
   window 3 and elu(x · wf) into the block of output window 4, each by ONE store that covers the whole block. So what
   an output block holds after the body is a closed function of the three input blocks — the store's payload laid over
   the block —, whatever the block held before (the body reads it, and discards what it read). An input block is found
   in place at every point: windows 1 and 2 have a constant block index and are moved at the first point only, and a
   block that is not moved is still the one moved before.

   From these two facts: the proof data of the region at any contents V of the arrays on entry (the arrays as found;
   after the body at point t the inputs' buffers at their blocks and the outputs' at the payloads of the blocks; the
   invariant the untouched rest; nothing owed), and the obligation of the body at every point. -/
import proofs.«144953_g79190607004093_cont_9to1c4b_603_4_alg».proof.Proof.Gen.Kernel.Launch
import proofs.«144953_g79190607004093_cont_9to1c4b_603_4_alg».proof.Proof.Gen.Kernel.Skeleton
import proofs.«144953_g79190607004093_cont_9to1c4b_603_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural recursion goes once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the contents of the core's buffers when the region is entered: a parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, for any proof data whose array is the region's
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (constant block index, moved at the first point only): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (constant block index, moved at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S128x8 := Rect.unit (s := S128x8) ![0, 0] S128x8.size inb_S128x8_S128x8_0_0
abbrev r0_3 : Rect S2000x8 := Rect.unit (s := S2000x8) ![0, 0] S2000x8.size inb_S2000x8_S2000x8_0_0

/-! ## What the body leaves in each output window's buffer -/

/-- Window 3's buffer after the body: x = (row block) · W, laid over the whole block. -/
def out0_3 (x0 : Vec F S2000x128 .f32) (x1 : Vec F S128x128 .f32) : Vec F S2000x128 .f32 :=
  View.canon [⟨r0_0, k0_pay1 (View.ld x0 r0_0) (View.ld x1 r0_1)⟩]

/-- The one store covers the block. -/
theorem cover0_3 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-- Window 4's buffer after the body: elu(x · wf), laid over the whole block. -/
def out0_4 (x0 : Vec F S2000x128 .f32) (x1 : Vec F S128x128 .f32) (x2 : Vec F S128x8 .f32) : Vec F S2000x8 .f32 :=
  View.canon [⟨r0_3, k0_pay2 (View.ld x0 r0_0) (View.ld x1 r0_1) (View.ld x2 r0_2)⟩]

/-- The one store covers the block. -/
theorem cover0_4 (p0 : Vec F S2000x8 .f32) (y : S2000x8.Idx) :
    ∃ pc ∈ ([⟨r0_3, p0⟩] : List (View.Piece (Elt F) S2000x8 .f32)), y ∈ pc.1.set :=
  View.cover_of_tiled [⟨r0_3, p0⟩] S2000x8.size (by rfl) y

/-! ## The body's triple -/

set_option maxHeartbeats 1000000 in
/-- The body on whole buffers, the inputs' at read contents x0, x1, x2 and the outputs' at anything, runs to the
    continuation holding the inputs' as they were and the outputs' at out0_3 x0 x1 and out0_4 x0 x1 x2. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S128x8 .f32) (harg3 : arg3.IsWhole) (arg4 : Memref sig .tc .vmem S2000x128 .f32) (harg4 : arg4.IsWhole)
    (arg5 : Memref sig .tc .vmem S2000x8 .f32) (harg5 : arg5.IsWhole)
    (x0 : Vec F S2000x128 .f32) (x1 : Vec F S128x128 .f32) (x2 : Vec F S128x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data -/

/-- The proof data of the region on core c: the arrays as the region finds them; after the body at point t each
    input's buffer at its block and each output's at the payload of the input blocks; the invariant the untouched
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current buffer holds its block at every point, moved there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    what the core is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Steps.lean ====
/- The pure step functions of the second region's body: what one grid point does to the two carried
   scratch arrays (the per-head numerators acc : 2 × 400 × 128 and the per-head softmax denominators
   ss : 400 × 8, of which columns 0 and 1 are used), as a function of the blocks the point reads.

   At a point with column block J the body, for each head h ∈ {0, 1}, forms
   e_h = exp (select (col < 10000 - 2048 J) (max z (0.2 z) - m_h) (-∞)), z = adj * (f1_h + f2_h),
   adds the row sums of e_h into column h of ss, and adds e_h · xv into row h of acc.
   The four stores are laid over the current contents in program order (denominator 0, numerator 0,
   denominator 1, numerator 1); each payload reads the contents the stores before it left.
   At J = 0 the scratch is reset to zero first (gatInit); at J = 4 the output block is
   (elu (acc_0 / ss_0 + b_0) + elu (acc_1 / ss_1 + b_1)) * 0.5 (gatOut). -/
import proofs.«144953_g79190607004093_cont_9to1c4b_603_4_alg».proof.Proof.Gen.Kernel.Skeleton
import Idealize.ShloMosaic.Lib.Pipeline.FrameBody

noncomputable section

namespace Cert.Kernel.Hand

open Idealize.ShloMosaic Idealize.SL.Sem
open Cert.Kernel Cert.Kernel.Gen

variable {F : FTy → Type} [FloatOps F]

/-! ## The rectangles the body loads and stores through -/

/-- Row 0 of the numerator scratch (head 0). -/
abbrev rA0 : Rect S2x400x128 := Rect.unit (s := S2x400x128) ![0, 0, 0] S1x400x128.size inb_S2x400x128_S1x400x128_0_0_0
/-- Row 1 of the numerator scratch (head 1). -/
abbrev rA1 : Rect S2x400x128 := Rect.unit (s := S2x400x128) ![1, 0, 0] S1x400x128.size inb_S2x400x128_S1x400x128_1_0_0
/-- Column 0 of the denominator scratch (head 0). -/
abbrev rS0 : Rect S400x8 := Rect.unit (s := S400x8) ![0, 0] S400x1.size inb_S400x8_S400x1_0_0
/-- Column 1 of the denominator scratch (head 1). -/
abbrev rS1 : Rect S400x8 := Rect.unit (s := S400x8) ![0, 1] S400x1.size inb_S400x8_S400x1_0_1
/-- Columns 0 … 3 of the row block of f1m: f1 of head 0, f1 of head 1, the bound of head 0, the bound of head 1. -/
abbrev rF0 : Rect S400x4 := Rect.unit (s := S400x4) ![0, 0] S400x1.size inb_S400x4_S400x1_0_0
abbrev rF1 : Rect S400x4 := Rect.unit (s := S400x4) ![0, 1] S400x1.size inb_S400x4_S400x1_0_1
abbrev rF2 : Rect S400x4 := Rect.unit (s := S400x4) ![0, 2] S400x1.size inb_S400x4_S400x1_0_2
abbrev rF3 : Rect S400x4 := Rect.unit (s := S400x4) ![0, 3] S400x1.size inb_S400x4_S400x1_0_3
/-- Rows 0, 1 of the column block of f2t (head 0, head 1). -/
abbrev rT0 : Rect S8x2048 := Rect.unit (s := S8x2048) ![0, 0] S1x2048.size inb_S8x2048_S1x2048_0_0
abbrev rT1 : Rect S8x2048 := Rect.unit (s := S8x2048) ![1, 0] S1x2048.size inb_S8x2048_S1x2048_1_0
/-- Rows 0, 1 of the bias. -/
abbrev rB0 : Rect S2x128 := Rect.unit (s := S2x128) ![0, 0] S1x128.size inb_S2x128_S1x128_0_0
abbrev rB1 : Rect S2x128 := Rect.unit (s := S2x128) ![1, 0] S1x128.size inb_S2x128_S1x128_1_0

/-! ## The step functions -/

/-- The scratch after the reset at column block 0: both arrays zero. -/
def gatInit : Vec F S2x400x128 .f32 × Vec F S400x8 .f32 := (k1_pay3 (F := F), k1_pay4 (F := F))

/-- The unnormalized weights of head 0 at the point: a function of the adjacency block, f1m and f2t. -/
def gatE0 (i : grid1.Coords) (adj : Vec F S400x2048 .f32) (f1m : Vec F S400x4 .f32) (f2t : Vec F S8x2048 .f32) :
    FVec F S400x2048 .f32 :=
  k1_pay7 i adj (View.ld f1m rF0) (View.ld f1m rF2) (View.ld f2t rT0)

/-- The unnormalized weights of head 1 at the point. -/
def gatE1 (i : grid1.Coords) (adj : Vec F S400x2048 .f32) (f1m : Vec F S400x4 .f32) (f2t : Vec F S8x2048 .f32) :
    FVec F S400x2048 .f32 :=
  k1_pay10 adj (k1_pay5 i) (View.ld f1m rF1) (View.ld f1m rF3) (View.ld f2t rT1)

/-- One point's update of the scratch (acc, ss): the four stores (denominator 0, numerator 0, denominator 1,
    numerator 1, in program order) laid over the contents. The two heads' rectangles are disjoint, so each
    store's payload reads the contents the point found on its own rectangle. -/
def gatStep (i : grid1.Coords) (adj : Vec F S400x2048 .f32) (xv : Vec F S2048x128 .f32) (f1m : Vec F S400x4 .f32)
    (f2t : Vec F S8x2048 .f32) (s : Vec F S2x400x128 .f32 × Vec F S400x8 .f32) :
    Vec F S2x400x128 .f32 × Vec F S400x8 .f32 :=
  (rA1.overlay (rA0.overlay s.1 (k1_pay9 (k1_pay6 xv) (gatE0 i adj f1m f2t) (View.ld s.1 rA0)))
      (k1_pay1 (k1_pay6 xv) (gatE1 i adj f1m f2t) (k1_pay12 (View.ld s.1 rA1))),
   rS1.overlay (rS0.overlay s.2 (k1_pay8 i adj (View.ld f1m rF0) (View.ld f1m rF2) (View.ld f2t rT0) (View.ld s.2 rS0)))
      (k1_pay11 adj (k1_pay5 i) (View.ld f1m rF1) (View.ld f1m rF3) (View.ld f2t rT1) (View.ld s.2 rS1)))

/-- The output block the last column block's point stores, from the scratch and the bias. -/
def gatOut (s : Vec F S2x400x128 .f32 × Vec F S400x8 .f32) (b : Vec F S2x128 .f32) : Vec F S400x128 .f32 :=
  k1_pay2 (View.ld s.1 rA0) (View.ld s.2 rS0) (View.ld b rB0) (View.ld s.1 rA1) (View.ld s.2 rS1) (View.ld b rB1)

theorem gatStep_fst (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    (gatStep i adj xv f1m f2t (acc, ss)).1
      = rA1.overlay (rA0.overlay acc (k1_pay9 (k1_pay6 xv) (gatE0 i adj f1m f2t) (View.ld acc rA0)))
          (k1_pay1 (k1_pay6 xv) (gatE1 i adj f1m f2t) (k1_pay12 (View.ld acc rA1))) := rfl

theorem gatStep_snd (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    (gatStep i adj xv f1m f2t (acc, ss)).2
      = rS1.overlay (rS0.overlay ss (k1_pay8 i adj (View.ld f1m rF0) (View.ld f1m rF2) (View.ld f2t rT0) (View.ld ss rS0)))
          (k1_pay11 adj (k1_pay5 i) (View.ld f1m rF1) (View.ld f1m rF3) (View.ld f2t rT1) (View.ld ss rS1)) := rfl

theorem gatInit_fst : (gatInit (F := F)).1 = k1_pay3 (F := F) := rfl
theorem gatInit_snd : (gatInit (F := F)).2 = k1_pay4 (F := F) := rfl

theorem gatOut_eq (acc : Vec F S2x400x128 .f32) (ss : Vec F S400x8 .f32) (b : Vec F S2x128 .f32) :
    gatOut (acc, ss) b
      = k1_pay2 (View.ld acc rA0) (View.ld ss rS0) (View.ld b rB0) (View.ld acc rA1) (View.ld ss rS1) (View.ld b rB1) := rfl

/-! ## What a view reads after a list of writes, one overlay per write -/

/-- The read-back of a list of unmasked writes: the last write's payload laid over the read-back of the earlier ones. -/
theorem read_writes_cons {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- A load through a whole memref held at the raw contents that read X reads X at the rectangle's indices. -/
theorem readAt_unread_eq_ld {sig : RefSig} {κ : Kind} {sp : Space} {s : Shape} {e : EltTy} {Val : EltTy → Type}
    {m : Memref sig κ sp s e} (h : m.IsWhole) (X : s.Idx → Val e) (r : Rect s) :
    View.readAt Val m.view r.toLoadRect (h.unread X) = View.ld X r :=
  funext fun x => congrFun (Memref.IsWhole.read_unread h X) (r.toLoadRect.idx x)

/-- A load through the rectangle that is the whole shape reads the contents. -/
theorem ld_whole {S : Shape} {e : EltTy} {Val : EltTy → Type} (X : S.Idx → Val e) (off : Fin S.rank → ℕ)
    (inb : ∀ a, off a + S.size a ≤ S.size a) : View.ld X (Rect.unit (s := S) off S.size inb) = X := by
  funext x
  show X ((Rect.unit (s := S) off S.size inb).idx x) = X x
  congr 1
  funext a
  apply Fin.ext
  have := inb a
  simp only [LoadRect.idx_apply, Rect.off_unit, Rect.stride_unit, Nat.one_mul]
  omega

/-- A load of the whole shape through a whole memref held at the raw contents that read X reads X. -/
theorem readAt_unread_whole {sig : RefSig} {κ : Kind} {sp : Space} {s : Shape} {e : EltTy} {Val : EltTy → Type}
    {m : Memref sig κ sp s e} (h : m.IsWhole) (X : s.Idx → Val e) (off : Fin s.rank → ℕ)
    (inb : ∀ a, off a + s.size a ≤ s.size a) :
    View.readAt Val m.view (Rect.unit (s := s) off s.size inb).toLoadRect (h.unread X) = X :=
  (readAt_unread_eq_ld h X _).trans (ld_whole X off inb)

/-! ## Loads of overlaid contents -/

/-- The whole shape's rectangle places an index at itself. -/
theorem emb_whole {S : Shape} (off : Fin S.rank → ℕ) (inb : ∀ a, off a + S.size a ≤ S.size a)
    (x : (Rect.unit (s := S) off S.size inb).shape.Idx) : (Rect.unit (s := S) off S.size inb).emb x = x := by
  funext a
  apply Fin.ext
  have := inb a
  simp only [Rect.emb_apply, Rect.off_unit, Rect.stride_unit, Nat.one_mul]
  omega

/-- A payload laid through the whole shape's rectangle over anything is the payload. -/
theorem overlay_whole {S : Shape} {α : Type} (off : Fin S.rank → ℕ) (inb : ∀ a, off a + S.size a ≤ S.size a)
    (X : S.Idx → α) (G : (Rect.unit (s := S) off S.size inb).shape.Idx → α) :
    (Rect.unit (s := S) off S.size inb).overlay X G = G := by
  funext y
  have h := (Rect.unit (s := S) off S.size inb).overlay_emb X G y
  rwa [emb_whole] at h

/-- A load through the rectangle just written reads the payload. -/
theorem ld_overlay_self {S : Shape} {e : EltTy} {Val : EltTy → Type} (r : Rect S) (X : S.Idx → Val e)
    (G : r.shape.Idx → Val e) : View.ld (r.overlay X G) r = G :=
  funext fun x => r.overlay_emb X G x

/-- A load through a rectangle that misses the one just written reads the earlier contents. -/
theorem ld_overlay_of_disjoint {S : Shape} {e : EltTy} {Val : EltTy → Type} (r r' : Rect S) (X : S.Idx → Val e)
    (G : r.shape.Idx → Val e) (h : ∀ x, r'.idx x ∉ r.set) : View.ld (r.overlay X G) r' = View.ld X r' :=
  funext fun x => r.overlay_of_not_mem X G (h x)

theorem rA1_not_mem_rA0 (x : rA1.shape.Idx) : rA1.idx x ∉ rA0.set := by
  intro h
  have := (Rect.mem_set_unit.mp h) 0
  simp only [LoadRect.idx_apply, Rect.off_unit, Rect.stride_unit, Matrix.cons_val_zero] at this
  have h1 : S1x400x128.size 0 = 1 := rfl
  omega

theorem rA0_not_mem_rA1 (x : rA0.shape.Idx) : rA0.idx x ∉ rA1.set := by
  intro h
  have := (Rect.mem_set_unit.mp h) 0
  have hx := (x 0).isLt
  simp only [LoadRect.idx_apply, Rect.off_unit, Rect.stride_unit, Matrix.cons_val_zero] at this
  have h1 : rA0.shape.size 0 = 1 := rfl
  omega

theorem rS1_not_mem_rS0 (x : rS1.shape.Idx) : rS1.idx x ∉ rS0.set := by
  intro h
  have := (Rect.mem_set_unit.mp h) 1
  simp only [LoadRect.idx_apply, Rect.off_unit, Rect.stride_unit, Matrix.cons_val_one, Matrix.cons_val_zero] at this
  have h1 : S400x1.size 1 = 1 := rfl
  omega

theorem rS0_not_mem_rS1 (x : rS0.shape.Idx) : rS0.idx x ∉ rS1.set := by
  intro h
  have := (Rect.mem_set_unit.mp h) 1
  have hx := (x 1).isLt
  simp only [LoadRect.idx_apply, Rect.off_unit, Rect.stride_unit, Matrix.cons_val_one, Matrix.cons_val_zero] at this
  have h1 : rS0.shape.size 1 = 1 := rfl
  omega

/-- Head 1's numerator row, loaded after head 0's row was stored, is as before; and symmetrically. -/
theorem ld_overlay_rA0_rA1 (X : Vec F S2x400x128 .f32) (G : rA0.shape.Idx → Elt F .f32) :
    View.ld (rA0.overlay X G) rA1 = View.ld X rA1 := ld_overlay_of_disjoint rA0 rA1 X G rA1_not_mem_rA0
theorem ld_overlay_rA1_rA0 (X : Vec F S2x400x128 .f32) (G : rA1.shape.Idx → Elt F .f32) :
    View.ld (rA1.overlay X G) rA0 = View.ld X rA0 := ld_overlay_of_disjoint rA1 rA0 X G rA0_not_mem_rA1
/-- The same for the denominators' columns. -/
theorem ld_overlay_rS0_rS1 (X : Vec F S400x8 .f32) (G : rS0.shape.Idx → Elt F .f32) :
    View.ld (rS0.overlay X G) rS1 = View.ld X rS1 := ld_overlay_of_disjoint rS0 rS1 X G rS1_not_mem_rS0
theorem ld_overlay_rS1_rS0 (X : Vec F S400x8 .f32) (G : rS1.shape.Idx → Elt F .f32) :
    View.ld (rS1.overlay X G) rS0 = View.ld X rS0 := ld_overlay_of_disjoint rS1 rS0 X G rS0_not_mem_rS1

/-- What the step leaves, read back through each head's rectangle: that head's payload. -/
theorem ld_gatStep_fst_rA0 (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    View.ld (gatStep i adj xv f1m f2t (acc, ss)).1 rA0 = k1_pay9 (k1_pay6 xv) (gatE0 i adj f1m f2t) (View.ld acc rA0) := by
  rw [gatStep_fst, ld_overlay_rA1_rA0, ld_overlay_self]
theorem ld_gatStep_fst_rA1 (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    View.ld (gatStep i adj xv f1m f2t (acc, ss)).1 rA1
      = k1_pay1 (k1_pay6 xv) (gatE1 i adj f1m f2t) (k1_pay12 (View.ld acc rA1)) := by
  rw [gatStep_fst, ld_overlay_self]
theorem ld_gatStep_snd_rS0 (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    View.ld (gatStep i adj xv f1m f2t (acc, ss)).2 rS0
      = k1_pay8 i adj (View.ld f1m rF0) (View.ld f1m rF2) (View.ld f2t rT0) (View.ld ss rS0) := by
  rw [gatStep_snd, ld_overlay_rS1_rS0, ld_overlay_self]
theorem ld_gatStep_snd_rS1 (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    View.ld (gatStep i adj xv f1m f2t (acc, ss)).2 rS1
      = k1_pay11 adj (k1_pay5 i) (View.ld f1m rF1) (View.ld f1m rF3) (View.ld f2t rT1) (View.ld ss rS1) := by
  rw [gatStep_snd, ld_overlay_self]

end Cert.Kernel.Hand

end
-- ==== Proof.K.Dat1a.lean ====
/- The second region (the attention accumulation over a 25 × 5 grid of 400 × 2048 adjacency blocks): its
   proof data, stated at the buffer contents V the region is entered with.

   The two scratch arrays (the per-head numerators, 2 × 400 × 128, and the per-head softmax denominators,
   400 × 8) are carried from point to point: scAt n is what they hold after point n — one step (gatStep) of the
   zeroed scratch at the first column block of a row block, of the previous point's scratch elsewhere —, and at
   the last column block of a row block the output block is gatOut of that scratch and the bias (outAt).

   The adjacency array has 10000 columns and the last column block overhangs it by 240 columns: there the
   fetch fills only the first 1808 columns of the staging buffer and the rest holds words nothing names.
   They never reach the scratch: both heads read the adjacency block under a select on the mask
   col < 10000 - 2048 J, which is clear on every column the fetch did not move, and the unselected value is a
   constant (gatStep_congr_adj, mask_moved, stepAt_fill). So the step at a point is a function of the part of
   the block inside the array alone, and the proof data name the block filled out with a fixed word (adjAt).

   Also here: what each window's buffer holds when the body runs (before1_w), the region invariant (PhiS: the
   scratch at scAt of the previous point, the other scoped buffers at anything, the generator register at some
   state), and its ends (hin1, hout1). -/
import proofs.«144953_g79190607004093_cont_9to1c4b_603_4_alg».proof.Proof.K.Steps
import proofs.«144953_g79190607004093_cont_9to1c4b_603_4_alg».proof.Proof.Gen.Kernel.Launch
import proofs.«144953_g79190607004093_cont_9to1c4b_603_4_alg».proof.Proof.Gen.Kernel.Skeleton
import proofs.«144953_g79190607004093_cont_9to1c4b_603_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-! ## The column mask: what lies past the array's last column never reaches the accumulators -/

/-- The column mask at an index: the column's number compared with the number of the array's columns left at
    this column block. -/
theorem k1_pay5_apply (i : grid1.Coords) (j : S400x2048.Idx) :
    k1_pay5 i j = IntOp.cmpi .slt (BitVec.ofNat 32 (j 1).val)
      (Scalar.subi 10000#32 (Scalar.muli (BitVec.ofNat 32 (i 1).val) 2048#32)) := by
  unfold k1_pay5
  show IntOp.cmpi .slt (iota .tc S400x2048 32 [1] iota_S400x2048_d1_w32 j) _ = _
  rw [iota_single_apply]; rfl

/-- The exponentials of head 0 read the adjacency block only where the mask is set: elsewhere the selected
    value is the constant. -/
theorem k1_pay7_congr (i : grid1.Coords) (x x' : Vec F S400x2048 .f32) (a b : Vec F S400x1 .f32) (c : Vec F S1x2048 .f32)
    (h : ∀ j, k1_pay5 i j = 1#1 → x j = x' j) : k1_pay7 i x a b c = k1_pay7 i x' a b c := by
  funext j
  unfold k1_pay7
  simp only [exp, select, subf, maximumf, mulf, Scalar.select]
  by_cases hj : k1_pay5 i j = 1
  · rw [if_pos hj, if_pos hj, h j hj]
  · rw [if_neg hj, if_neg hj]

/-- The same of head 1. -/
theorem k1_pay10_congr (x x' : Vec F S400x2048 .f32) (m : IVec S400x2048 1) (a b : Vec F S400x1 .f32) (c : Vec F S1x2048 .f32)
    (h : ∀ j, m j = 1#1 → x j = x' j) : k1_pay10 x m a b c = k1_pay10 x' m a b c := by
  funext j
  unfold k1_pay10
  simp only [exp, select, subf, maximumf, mulf, Scalar.select]
  by_cases hj : m j = 1
  · rw [if_pos hj, if_pos hj, h j hj]
  · rw [if_neg hj, if_neg hj]

/-- So one step of the accumulation reads the adjacency block only where the mask is set. -/
theorem gatStep_congr_adj (i : grid1.Coords) (adj adj' : Vec F S400x2048 .f32) (xv : Vec F S2048x128 .f32)
    (f1m : Vec F S400x4 .f32) (f2t : Vec F S8x2048 .f32) (s : Vec F S2x400x128 .f32 × Vec F S400x8 .f32)
    (h : ∀ j, k1_pay5 i j = 1#1 → adj j = adj' j) :
    gatStep i adj xv f1m f2t s = gatStep i adj' xv f1m f2t s := by
  obtain ⟨acc, ss⟩ := s
  have h7 := k1_pay7_congr i adj adj' (View.ld f1m rF0) (View.ld f1m rF2) (View.ld f2t rT0) h
  have h10 := k1_pay10_congr adj adj' (k1_pay5 i) (View.ld f1m rF1) (View.ld f1m rF3) (View.ld f2t rT1) h
  apply Prod.ext
  · rw [gatStep_fst, gatStep_fst]; unfold gatE0 gatE1; rw [h7, h10]
  · rw [gatStep_snd, gatStep_snd]; unfold k1_pay8 k1_pay11; rw [h7, h10]

section Regions
-- the TensorCore's buffer contents when the region is entered: a parameter, which the run instantiates
variable (V : (c : Dev nD) → (b : Ref sig .tc) → Buf (Elt F) ((c : Thread nD τ).loc b))

/-! ## The windows' blocks -/

/-- Window `w`'s block at point `t`, read off its array as the region finds it (`V`): for the adjacency
    window the part of the block inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The word the adjacency block is filled out with past the array's last column: nothing reads it. -/
def fill₀ : S400x2048.Idx → Elt F .f32 := fun _ => Scalar.ofBits .f32 0#32

/-- The adjacency block at point `t` as a whole 400 × 2048 block: the array's part, filled out past the
    array's last column (at the last column block, 240 columns) with a fixed word. -/
def adjAt (c : Dev nD) (t : Fin cfg1.N) : Vec F S400x2048 .f32 :=
  win1_0.fill (grid1.coords t) fill₀ (iblk1 V c 0 t)

/-- One point's update of the scratch at the point's blocks. -/
def stepAt (c : Dev nD) (t : Fin cfg1.N) (s : Vec F S2x400x128 .f32 × Vec F S400x8 .f32) :
    Vec F S2x400x128 .f32 × Vec F S400x8 .f32 :=
  gatStep (grid1.coords t) (adjAt V c t) (iblk1 V c 1 t) (iblk1 V c 2 t) (iblk1 V c 3 t) s

/-- THE ACCUMULATION. The scratch (numerators, denominators) after the body at position `n`: the point's
    update of the zeroed scratch at the first column block of a row block (`n % 5 = 0`), else of what the
    point before left. -/
def scAt (c : Dev nD) : (n : ℕ) → n < cfg1.N → Vec F S2x400x128 .f32 × Vec F S400x8 .f32
  | 0, hn => stepAt V c ⟨0, hn⟩ gatInit
  | n + 1, hn => stepAt V c ⟨n + 1, hn⟩ (if (n + 1) % 5 = 0 then gatInit else scAt c n (Nat.lt_of_succ_lt hn))

/-- At the first column block of a row block: the update of the zeroed scratch. -/
theorem scAt_first (c : Dev nD) (t : Fin cfg1.N) (h0 : t.val % 5 = 0) :
    scAt V c t.val t.isLt = stepAt V c t gatInit := by
  obtain ⟨n, hn⟩ := t
  cases n with
  | zero => rfl
  | succ n => exact congrArg (stepAt V c ⟨n + 1, hn⟩) (if_pos h0)

/-- At a later column block: the update of what the point before left. -/
theorem scAt_next (c : Dev nD) (t : Fin cfg1.N) (h0 : ¬t.val % 5 = 0) :
    scAt V c t.val t.isLt = stepAt V c t (scAt V c (t.val - 1) (Nat.lt_of_le_of_lt (Nat.sub_le _ _) t.isLt)) := by
  obtain ⟨n, hn⟩ := t
  cases n with
  | zero => exact absurd (Nat.zero_mod _) h0
  | succ n => exact congrArg (stepAt V c ⟨n + 1, hn⟩) (if_neg h0)

/-- The output block the body stores at position `n` (consulted only at the last column block, `n % 5 = 4`):
    the normalized, biased, activated mean of the two heads, from the scratch after the point and the bias. -/
def outAt (c : Dev nD) (n : ℕ) (hn : n < cfg1.N) : Vec F S400x128 .f32 :=
  gatOut (scAt V c n hn) (iblk1 V c 4 ⟨n, hn⟩)

/-! ## The scratch operands and the region invariant -/

/-- The scratch operands: whole scoped buffers of the kernel's own, passed beside the windows. -/
abbrev scM1_0 : Memref sig .tc .vmem S2x400x128 .f32 := Memref.whole cc1_scratch0
abbrev scM1_1 : Memref sig .tc .vmem S400x8 .f32 := Memref.whole cc1_scratch1

/-- The scoped buffers this region neither stages through nor computes in (the other region's staging
    buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The class's region invariant with the two scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The class's invariant hands out the other region's buffers, the two scratch operands at some contents and
    the generator register, -/
theorem PhiA1_split (c : Dev nD) :
    (Pipeline.ΦA spec1 c : sProp 𝕄) ⊢ iprop(rest1 (F := F) c ∗ (∃ d, owns (c : Thread nD τ) scM1_0 fullShare d)
      ∗ (∃ d, owns (c : Thread nD τ) scM1_1 fullShare d) ∗ (∃ r, prngReg c r)) := by
  rw [PhiA1_eq]; unfold rest1
  iintro ⟨⟨H0, H1, H2, H3, H4, H5, H6, H7, HS0, HS1⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS0]; · iexact HS0
  isplitl [HS1]; · iexact HS1
  iexact Hg

/-- and takes them back. -/
theorem PhiA1_join (c : Dev nD) :
    iprop(rest1 (F := F) c ∗ (∃ d, owns (c : Thread nD τ) scM1_0 fullShare d)
      ∗ (∃ d, owns (c : Thread nD τ) scM1_1 fullShare d) ∗ (∃ r, prngReg c r)) ⊢ (Pipeline.ΦA spec1 c : sProp 𝕄) := by
  rw [PhiA1_eq]; unfold rest1
  iintro ⟨⟨H0, H1, H2, H3, H4, H5, H6, H7⟩, HS0, HS1, Hg⟩
  isplitl [H0 H1 H2 H3 H4 H5 H6 H7 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iexact HS1
  iexact Hg

/-- The region invariant before position `n`: before the first point the class's (every scratch at anything);
    afterwards the two scratch operands at what the point before left in them (`scAt`), the other scoped
    buffers at anything, and the generator register at some state. -/
def PhiS (c : Dev nD) : (n : ℕ) → n ≤ cfg1.N → sProp 𝕄
  | 0, _ => Pipeline.ΦA spec1 c
  | n + 1, hn => iprop(rest1 (F := F) c ∗ owns (c : Thread nD τ) scM1_0 fullShare (scAt V c n hn).1
      ∗ owns (c : Thread nD τ) scM1_1 fullShare (scAt V c n hn).2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM1_0 fullShare (scAt V c n hn).1
      ∗ owns (c : Thread nD τ) scM1_1 fullShare (scAt V c n hn).2 ∗ (∃ r, prngReg c r)) := rfl

theorem PhiS_pos (c : Dev nD) (n : ℕ) (h : n ≤ cfg1.N) (hz : n ≠ 0) :
    PhiS V c n h = iprop(rest1 (F := F) c ∗ owns (c : Thread nD τ) scM1_0 fullShare (scAt V c (n - 1) (by omega)).1
      ∗ owns (c : Thread nD τ) scM1_1 fullShare (scAt V c (n - 1) (by omega)).2 ∗ (∃ r, prngReg c r)) := by
  cases n with
  | zero => exact absurd rfl hz
  | succ n => rfl

/-- Before any point the invariant hands out the scratch operands at SOME contents. -/
theorem PhiS_some (c : Dev nD) (n : ℕ) (h : n ≤ cfg1.N) :
    PhiS V c n h ⊢ iprop(rest1 (F := F) c ∗ (∃ d, owns (c : Thread nD τ) scM1_0 fullShare d)
      ∗ (∃ d, owns (c : Thread nD τ) scM1_1 fullShare d) ∗ (∃ r, prngReg c r)) := by
  cases n with
  | zero => exact PhiA1_split c
  | succ n =>
    rw [PhiS_succ]
    iintro ⟨Hr, HS0, HS1, Hg⟩
    isplitl [Hr]; · iexact Hr
    isplitl [HS0]; · iexists _; iexact HS0
    isplitl [HS1]; · iexists _; iexact HS1
    iexact Hg

/-! ## The pipeline's proof data -/

/-- The proof data of the second pipeline on core `c`: the arrays as the region finds them (`V`); after the body
    at point `t` each input's buffer at its block — the adjacency's filled out with the fixed word —, the output's
    at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => adjAt V c t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = adjAt V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t.val t.isLt := by dsimp only [dat1]

/-! ## What the body finds in each window's buffer -/

/-- The adjacency window is fetched at every point: its buffer holds the block's part inside the array, and
    past the array's last column whatever the buffer held (`d`). -/
theorem before1_0 (c : Dev nD) (t : Fin cfg1.N) (d) :
    (dat1 V c).before 0 t d = win1_0.fill (grid1.coords t) d (iblk1 V c 0 t) := by
  unfold Dat.before; rw [if_pos (fetch1_0 t)]
  unfold Dat.fetched Dat.blockOf iblk1; rw [A_eq1]; try rfl

/-- Each uncut input's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The mask covers every column past the array's end -/

/-- Where the column mask is set, the column is one the fetch moved: at a column block inside the array every
    column is; at the last one the mask is set on the columns below 10000 - 4 · 2048 = 1808, which are the
    array's. -/
theorem mask_cols : ∀ (J : Fin 5) (n : Fin 2048),
    IntOp.cmpi .slt (BitVec.ofNat 32 n.val) (Scalar.subi 10000#32 (Scalar.muli (BitVec.ofNat 32 J.val) 2048#32)) = 1#1 →
      n.val < (Pipeline.Clip.of J.val 2048 10000).extent 2048 := by decide +kernel

/-- The moved part of the adjacency block at a point: all 400 rows, and the columns left in the array. -/
theorem xsize1_0 : ∀ t : Fin grid1.N, win1_0.xsize (grid1.coords t) 0 = 400
    ∧ win1_0.xsize (grid1.coords t) 1 = (Pipeline.Clip.of (grid1.coords t 1).val 2048 10000).extent 2048 := by decide +kernel

theorem mask_moved (t : Fin cfg1.N) (j : S400x2048.Idx) (h : k1_pay5 (grid1.coords t) j = 1#1) :
    win1_0.moved (grid1.coords t) j = true := by
  rw [Window.moved_iff]
  rw [k1_pay5_apply] at h
  have h1 : (j 1).val < 2048 := (j 1).isLt
  have h0 : (j 0).val < 400 := (j 0).isLt
  have hm := mask_cols (grid1.coords t 1) ⟨(j 1).val, h1⟩ h
  intro a
  match a with
  | ⟨0, _⟩ => exact lt_of_lt_of_eq h0 (xsize1_0 t).1.symm
  | ⟨1, _⟩ => exact lt_of_lt_of_eq hm (xsize1_0 t).2.symm

/-- So the step at a point does not depend on what the adjacency buffer held past the array's last column. -/
theorem stepAt_fill (c : Dev nD) (t : Fin cfg1.N) (d : S400x2048.Idx → Elt F .f32)
    (s : Vec F S2x400x128 .f32 × Vec F S400x8 .f32) :
    gatStep (grid1.coords t) (win1_0.fill (grid1.coords t) d (iblk1 V c 0 t)) (iblk1 V c 1 t) (iblk1 V c 2 t) (iblk1 V c 3 t) s
      = stepAt V c t s := by
  unfold stepAt adjAt
  refine gatStep_congr_adj _ _ _ _ _ _ _ fun j hj => ?_
  have hm := mask_moved t j hj
  unfold Window.fill; rw [dif_pos hm, dif_pos hm]

/-! ## Where the output window is idle, in closed form -/

/-- The output window is idle at every column block but the last of a row block, -/
theorem idleAt1_5 : ∀ t : Fin cfg1.N, ¬t.val % 5 = 4 → cfg1.idle 5 (grid1.coords t) = true :=
  (by decide +kernel : ∀ t : Fin grid1.N, ¬t.val % 5 = 4 → idle1 5 (grid1.coords t) = true)
/-- live at the last, -/
theorem liveAt1_5 : ∀ t : Fin cfg1.N, t.val % 5 = 4 → cfg1.idle 5 (grid1.coords t) = false :=
  (by decide +kernel : ∀ t : Fin grid1.N, t.val % 5 = 4 → idle1 5 (grid1.coords t) = false)
/-- and not written back where idle. -/
theorem noFlush1_5 (t : Fin cfg1.N) (h : ¬t.val % 5 = 4) : (cfg1.win 5).flush t = false :=
  Bool.eq_false_iff.mpr fun hf => h ((flush1_5 t).mp hf)

/-! ## The step at a point, from what the body is handed -/

theorem step_first (c : Dev nD) (t : Fin cfg1.N) (d : S400x2048.Idx → Elt F .f32) (h0 : t.val % 5 = 0) :
    gatStep (grid1.coords t) (win1_0.fill (grid1.coords t) d (iblk1 V c 0 t)) (iblk1 V c 1 t) (iblk1 V c 2 t) (iblk1 V c 3 t) gatInit
      = scAt V c t.val t.isLt :=
  (stepAt_fill V c t d _).trans (scAt_first V c t h0).symm

theorem step_next (c : Dev nD) (t : Fin cfg1.N) (d : S400x2048.Idx → Elt F .f32) (h0 : ¬t.val % 5 = 0) :
    gatStep (grid1.coords t) (win1_0.fill (grid1.coords t) d (iblk1 V c 0 t)) (iblk1 V c 1 t) (iblk1 V c 2 t) (iblk1 V c 3 t)
        ((scAt V c (t.val - 1) (Nat.lt_of_le_of_lt (Nat.sub_le _ _) t.isLt)).1, (scAt V c (t.val - 1) (Nat.lt_of_le_of_lt (Nat.sub_le _ _) t.isLt)).2)
      = scAt V c t.val t.isLt :=
  (stepAt_fill V c t d _).trans (scAt_next V c t h0).symm

/-! ## The invariant's ends -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl]
  exact (PhiS_some V c _ _).trans (PhiA1_join c)

/-- The same after the last point. -/
theorem hout1 (c : Dev nD) : (dat1 V c).Φ (Fin.last cfg1.N) ⊢ Pipeline.ΦA spec1 c :=
  Phi_out1 V c _ (by rw [Fin.val_last]; have : cfg1.N = 125 := N_1; omega)

end Regions

end Cert.Kernel.Hand

end
-- ==== Proof.K.Run1A.lean ====
/- The second region's body run at a grid point, case by case, with exact contents.

   The body has two conditionals on the column block J of the point: the reset of the carried scratch (taken at
   J = 0) and the epilogue that stores the output block (taken at J = 4). The three cases that occur are
   A (J = 0: reset, no epilogue), B (0 < J < 4: neither) and C (J = 4: epilogue only). In each case the body,
   started on whole buffers holding the point's blocks adj, xv, f1m, f2t, b and the scratch (acc, ss), hands the
   inputs back untouched and leaves the scratch at gatStep i adj xv f1m f2t (acc, ss) — in case A at
   gatStep … gatInit whatever the scratch held —, and in case C the output buffer at gatOut of that scratch and b;
   in cases A and B the output buffer is handed back as found.

   This module: the two conditions in closed form over the grid, where the output window is idle, and case A. -/
import proofs.«144953_g79190607004093_cont_9to1c4b_603_4_alg».proof.Proof.K.Steps
import proofs.«144953_g79190607004093_cont_9to1c4b_603_4_alg».proof.Proof.Gen.Kernel.Launch
import proofs.«144953_g79190607004093_cont_9to1c4b_603_4_alg».proof.Proof.Gen.Kernel.Skeleton
import proofs.«144953_g79190607004093_cont_9to1c4b_603_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, and where the output window is idle -/

/-- The first conditional of the body (the reset of the scratch): taken at column block 0. -/
abbrev cond1_0 (i : grid1.Coords) : Prop := (Scalar.cmpi .ne (Scalar.extui (Scalar.cmpi .eq (BitVec.ofNat 32 (i 1).val) 0#32)) 0#32) = 1#1
/-- It holds at the points ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional of the body (the epilogue that stores the output block): taken at column block 4. -/
abbrev cond1_1 (i : grid1.Coords) : Prop := k1_cond2 i = 1#1
/-- It holds at the points ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the epilogue is not taken the output window is idle and is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- Where it is taken the window is live. -/
theorem liveAt1_5_C : ∀ t : Fin cfg1.N, ¬cond1_0 (grid1.coords t) → cond1_1 (grid1.coords t) → cfg1.idle 5 (grid1.coords t) = false := by decide +kernel
/-- The two conditions never hold together: the three cases are all there are. -/
theorem not_cond1_both : ∀ t : Fin cfg1.N, ¬(cond1_0 (grid1.coords t) ∧ cond1_1 (grid1.coords t)) := by decide +kernel

/-- A load through a rectangle, after a list of writes over unknown contents, reads the canonical contents of the writes
    at the rectangle's indices. -/
theorem readCov_eq_ld_canon {sig : RefSig} {κ : Kind} {sp : Space} {s : Shape} {e : EltTy} {Val : EltTy → Type} [∀ e, Nonempty (Val e)]
    (v : View sig κ sp s e) (L : List (View.Piece Val s e)) (r : Rect s) :
    v.readCov L r.toLoadRect = View.ld (View.canon L) r := View.readCov_eq_canon' v L r.toLoadRect

theorem gatInit_eq : (gatInit (F := F)) = (k1_pay3 (F := F), k1_pay4 (F := F)) := rfl

/-! ## The body at a point of column block 0 -/

set_option maxHeartbeats 1000000 in
/-- Case A (column block 0): whatever the scratch held, the reset zeroes it and the four stores lay the point's
    contributions over the zeros: the scratch is left at the step of gatInit. Inputs and the idle output buffer come back as found. -/
theorem run1_A (c : Dev nD) (i : grid1.Coords) (arg2 : Memref sig .tc .vmem S400x2048 .f32) (harg2 : arg2.IsWhole) (arg3 : Memref sig .tc .vmem S2048x128 .f32) (harg3 : arg3.IsWhole) (arg4 : Memref sig .tc .vmem S400x4 .f32) (harg4 : arg4.IsWhole) (arg5 : Memref sig .tc .vmem S8x2048 .f32) (harg5 : arg5.IsWhole) (arg6 : Memref sig .tc .vmem S2x128 .f32) (harg6 : arg6.IsWhole) (arg7 : Memref sig .tc .vmem S400x128 .f32) (harg7 : arg7.IsWhole) (arg8 : Memref sig .tc .vmem S2x400x128 .f32) (harg8 : arg8.IsWhole) (arg9 : Memref sig .tc .vmem S400x8 .f32) (harg9 : arg9.IsWhole) (hc0 : cond1_0 i) (hc1 : ¬cond1_1 i)
    (adj : Vec F S400x2048 .f32) (xv : Vec F S2048x128 .f32) (f1m : Vec F S400x4 .f32) (f2t : Vec F S8x2048 .f32)
    (b : Vec F S2x128 .f32) (xo : Vec F S400x128 .f32)
    (E : Set ℕ) (K : PUnit → sProp 𝕄) :
    iprop(owns (c : Thread nD τ) arg2 fullShare adj
        ∗ owns (c : Thread nD τ) arg3 fullShare xv
        ∗ owns (c : Thread nD τ) arg4 fullShare f1m
        ∗ owns (c : Thread nD τ) arg5 fullShare f2t
        ∗ owns (c : Thread nD τ) arg6 fullShare b
        ∗ owns (c : Thread nD τ) arg7 fullShare xo
        ∗ (∃ d, owns (c : Thread nD τ) arg8 fullShare d)
        ∗ (∃ d, owns (c : Thread nD τ) arg9 fullShare d)
        ∗ (iprop(owns (c : Thread nD τ) arg2 fullShare adj
        ∗ owns (c : Thread nD τ) arg3 fullShare xv
        ∗ owns (c : Thread nD τ) arg4 fullShare f1m
        ∗ owns (c : Thread nD τ) arg5 fullShare f2t
        ∗ owns (c : Thread nD τ) arg6 fullShare b
        ∗ owns (c : Thread nD τ) arg7 fullShare xo
        ∗ owns (c : Thread nD τ) arg8 fullShare (gatStep i adj xv f1m f2t gatInit).1
        ∗ owns (c : Thread nD τ) arg9 fullShare (gatStep i adj xv f1m f2t gatInit).2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  simp only [k1_part1_eq_skeleton, k1_part2_eq_skeleton]; unfold k1_part1_skel k1_part2_skel
  simp only [bind_assoc, pure_bind]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    rotate_left
    · iexact H8
    · ipureintro
      delta run1_A.sl.x_2 run1_A.sl.H8_2 run1_A.sl.x run1_A.sl.H8_1 run1_A.sl.v29 run1_A.sl.H9_1
      rw [read_writes_cons, read_writes_cons, read_writes_cons, View.writes_nil, overlay_whole]
      simp only [readAt_unread_eq_ld, readCov_eq_ld_canon, View.canon_cons]
      rw [overlay_whole, ld_overlay_rA0_rA1, ld_whole adj, ld_whole xv, gatInit_eq, gatStep_fst]
      simp only [gatE0, gatE1]
  · iexists _; isplitr
    rotate_left
    · iexact H9
    · ipureintro
      delta run1_A.sl.x_1 run1_A.sl.H9_2 run1_A.sl.v29 run1_A.sl.H9_1
      rw [read_writes_cons, read_writes_cons, read_writes_cons, View.writes_nil, overlay_whole]
      simp only [readAt_unread_eq_ld, readCov_eq_ld_canon, View.canon_cons]
      rw [overlay_whole, ld_overlay_rS0_rS1, ld_whole adj, gatInit_eq, gatStep_snd]

end Cert.Kernel.Hand

end
-- ==== Proof.K.Run1B.lean ====
/- The second region's body run at a grid point: case B (0 < J < 4, neither conditional taken). The scratch found at
   (acc, ss) is left at gatStep i adj xv f1m f2t (acc, ss); the inputs and the idle output buffer are handed back. -/
import proofs.«144953_g79190607004093_cont_9to1c4b_603_4_alg».proof.Proof.K.Run1A
import proofs.«144953_g79190607004093_cont_9to1c4b_603_4_alg».proof.Proof.Gen.Kernel.Launch
import proofs.«144953_g79190607004093_cont_9to1c4b_603_4_alg».proof.Proof.Gen.Kernel.Skeleton
import proofs.«144953_g79190607004093_cont_9to1c4b_603_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body at a point of column blocks 1 … 3 -/

set_option maxHeartbeats 1000000 in
/-- Case B (column blocks 1 … 3): the four stores lay the point's contributions over the scratch found at (acc, ss):
    it is left at the step of (acc, ss). Inputs and the idle output buffer come back as found. -/
theorem run1_B (c : Dev nD) (i : grid1.Coords) (arg2 : Memref sig .tc .vmem S400x2048 .f32) (harg2 : arg2.IsWhole) (arg3 : Memref sig .tc .vmem S2048x128 .f32) (harg3 : arg3.IsWhole) (arg4 : Memref sig .tc .vmem S400x4 .f32) (harg4 : arg4.IsWhole) (arg5 : Memref sig .tc .vmem S8x2048 .f32) (harg5 : arg5.IsWhole) (arg6 : Memref sig .tc .vmem S2x128 .f32) (harg6 : arg6.IsWhole) (arg7 : Memref sig .tc .vmem S400x128 .f32) (harg7 : arg7.IsWhole) (arg8 : Memref sig .tc .vmem S2x400x128 .f32) (harg8 : arg8.IsWhole) (arg9 : Memref sig .tc .vmem S400x8 .f32) (harg9 : arg9.IsWhole) (hc0 : ¬cond1_0 i) (hc1 : ¬cond1_1 i)
    (adj : Vec F S400x2048 .f32) (xv : Vec F S2048x128 .f32) (f1m : Vec F S400x4 .f32) (f2t : Vec F S8x2048 .f32)
    (b : Vec F S2x128 .f32) (xo : Vec F S400x128 .f32) (acc : Vec F S2x400x128 .f32) (ss : Vec F S400x8 .f32)
    (E : Set ℕ) (K : PUnit → sProp 𝕄) :
    iprop(owns (c : Thread nD τ) arg2 fullShare adj ∗ owns (c : Thread nD τ) arg3 fullShare xv ∗ owns (c : Thread nD τ) arg4 fullShare f1m
        ∗ owns (c : Thread nD τ) arg5 fullShare f2t ∗ owns (c : Thread nD τ) arg6 fullShare b ∗ owns (c : Thread nD τ) arg7 fullShare xo
        ∗ owns (c : Thread nD τ) arg8 fullShare acc ∗ owns (c : Thread nD τ) arg9 fullShare ss
        ∗ (iprop(owns (c : Thread nD τ) arg2 fullShare adj ∗ owns (c : Thread nD τ) arg3 fullShare xv ∗ owns (c : Thread nD τ) arg4 fullShare f1m
            ∗ owns (c : Thread nD τ) arg5 fullShare f2t ∗ owns (c : Thread nD τ) arg6 fullShare b ∗ owns (c : Thread nD τ) arg7 fullShare xo
            ∗ owns (c : Thread nD τ) arg8 fullShare (gatStep i adj xv f1m f2t (acc, ss)).1
            ∗ owns (c : Thread nD τ) arg9 fullShare (gatStep i adj xv f1m f2t (acc, ss)).2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  simp only [k1_part1_eq_skeleton, k1_part2_eq_skeleton]; unfold k1_part1_skel k1_part2_skel
  simp only [bind_assoc, pure_bind]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    rotate_left
    · iexact H8
    · ipureintro
      rw [read_writes_cons, read_writes_cons, View.writes_nil, harg8.read_unread, gatStep_fst]
      have hx1 : run1_B.sl.x_1 c arg8 harg8 acc = View.ld acc rA1 := readAt_unread_eq_ld harg8 acc _
      rw [hx1]
      simp only [gatE0, gatE1, readAt_unread_eq_ld]
      rw [ld_whole adj, ld_whole xv]
  · iexists _; isplitr
    rotate_left
    · iexact H9
    · ipureintro
      rw [read_writes_cons, read_writes_cons, View.writes_nil, harg9.read_unread, gatStep_snd]
      have hx : run1_B.sl.x c arg9 harg9 ss = View.ld ss rS1 := readAt_unread_eq_ld harg9 ss _
      rw [hx]
      simp only [readAt_unread_eq_ld]
      rw [ld_whole adj]

end Cert.Kernel.Hand

end
-- ==== Proof.K.Run1C.lean ====
/- The second region's body run at a grid point: case C (J = 4, the last column block: the reset is not taken, the
   epilogue is). The scratch found at (acc, ss) is left at gatStep i adj xv f1m f2t (acc, ss), as at the other points;
   then the epilogue reads each head's numerator row and denominator column back through the rectangle just stored
   (the two heads' rectangles are disjoint, so each reads its own head's payload) and stores into the output buffer,
   whatever it held, the block gatOut of the updated scratch and the bias. The inputs are handed back. -/
import proofs.«144953_g79190607004093_cont_9to1c4b_603_4_alg».proof.Proof.K.Run1B
import proofs.«144953_g79190607004093_cont_9to1c4b_603_4_alg».proof.Proof.Gen.Kernel.Launch
import proofs.«144953_g79190607004093_cont_9to1c4b_603_4_alg».proof.Proof.Gen.Kernel.Skeleton
import proofs.«144953_g79190607004093_cont_9to1c4b_603_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body at a point of column block 4 -/

set_option maxHeartbeats 1000000 in
theorem run1_C (c : Dev nD) (i : grid1.Coords) (arg2 : Memref sig .tc .vmem S400x2048 .f32) (harg2 : arg2.IsWhole) (arg3 : Memref sig .tc .vmem S2048x128 .f32) (harg3 : arg3.IsWhole) (arg4 : Memref sig .tc .vmem S400x4 .f32) (harg4 : arg4.IsWhole) (arg5 : Memref sig .tc .vmem S8x2048 .f32) (harg5 : arg5.IsWhole) (arg6 : Memref sig .tc .vmem S2x128 .f32) (harg6 : arg6.IsWhole) (arg7 : Memref sig .tc .vmem S400x128 .f32) (harg7 : arg7.IsWhole) (arg8 : Memref sig .tc .vmem S2x400x128 .f32) (harg8 : arg8.IsWhole) (arg9 : Memref sig .tc .vmem S400x8 .f32) (harg9 : arg9.IsWhole)
    (hc0 : ¬cond1_0 i) (hc1 : cond1_1 i)
    (adj : Vec F S400x2048 .f32) (xv : Vec F S2048x128 .f32) (f1m : Vec F S400x4 .f32) (f2t : Vec F S8x2048 .f32) (b : Vec F S2x128 .f32)
    (acc : Vec F S2x400x128 .f32) (ss : Vec F S400x8 .f32) (E : Set ℕ) (K : PUnit → sProp 𝕄) :
    iprop(owns (c : Thread nD τ) arg2 fullShare adj ∗ owns (c : Thread nD τ) arg3 fullShare xv ∗ owns (c : Thread nD τ) arg4 fullShare f1m
        ∗ owns (c : Thread nD τ) arg5 fullShare f2t ∗ owns (c : Thread nD τ) arg6 fullShare b ∗ (∃ d, owns (c : Thread nD τ) arg7 fullShare d)
        ∗ owns (c : Thread nD τ) arg8 fullShare acc ∗ owns (c : Thread nD τ) arg9 fullShare ss
        ∗ (iprop(owns (c : Thread nD τ) arg2 fullShare adj ∗ owns (c : Thread nD τ) arg3 fullShare xv ∗ owns (c : Thread nD τ) arg4 fullShare f1m
            ∗ owns (c : Thread nD τ) arg5 fullShare f2t ∗ owns (c : Thread nD τ) arg6 fullShare b
            ∗ owns (c : Thread nD τ) arg7 fullShare (gatOut (gatStep i adj xv f1m f2t (acc, ss)) b)
            ∗ owns (c : Thread nD τ) arg8 fullShare (gatStep i adj xv f1m f2t (acc, ss)).1
            ∗ owns (c : Thread nD τ) arg9 fullShare (gatStep i adj xv f1m f2t (acc, ss)).2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  simp only [k1_part1_eq_skeleton, k1_part2_eq_skeleton]; unfold k1_part1_skel k1_part2_skel
  simp only [bind_assoc, pure_bind]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    rotate_left
    · iexact H7
    · ipureintro
      delta run1_C.sl.v78 run1_C.sl.v80 run1_C.sl.v92 run1_C.sl.v94 run1_C.sl.H8_2 run1_C.sl.H9_2 run1_C.sl.x_1 run1_C.sl.x
      rw [read_writes_cons, overlay_whole]
      simp only [readAt_unread_eq_ld, readCov_eq_ld_canon, View.canon_cons]
      simp only [ld_overlay_rA1_rA0, ld_overlay_rS1_rS0, ld_overlay_self]
      rw [ld_whole adj, ld_whole xv]
      unfold gatOut
      rw [ld_gatStep_fst_rA0, ld_gatStep_snd_rS0, ld_gatStep_fst_rA1, ld_gatStep_snd_rS1]
      simp only [gatE0, gatE1]
      rw [ld_overlay_rA1_rA0, ld_overlay_self, ld_overlay_rS1_rS0, ld_overlay_self]
  isplitl [H8]
  · iexists _; isplitr
    rotate_left
    · iexact H8
    · ipureintro
      delta run1_C.sl.H8_2 run1_C.sl.x_1
      rw [read_writes_cons, read_writes_cons, View.writes_nil, harg8.read_unread, gatStep_fst]
      simp only [gatE0, gatE1, readAt_unread_eq_ld]
      rw [ld_whole adj, ld_whole xv]
  · iexists _; isplitr
    rotate_left
    · iexact H9
    · ipureintro
      delta run1_C.sl.H9_2 run1_C.sl.x
      rw [read_writes_cons, read_writes_cons, View.writes_nil, harg9.read_unread, gatStep_snd]
      simp only [readAt_unread_eq_ld]
      rw [ld_whole adj]

end Cert.Kernel.Hand

end
-- ==== Proof.K.Dat1.lean ====
/- The second region's body obligation: at every grid point the body, handed the windows' buffers at what they
   then hold and the scratch at what the point before left, leaves the scratch at scAt of this point, the inputs
   as they were — the adjacency buffer stated on the part inside the array —, and the output buffer at outAt at
   the last column block of a row block, untouched elsewhere.

   Three cases by the column block J = t mod 5: J = 0 (the scratch is reset first, whatever it held), 0 < J < 4
   (the scratch of the point before is updated), J = 4 (updated, then the output block stored). In each the
   body's run on whole buffers gives the scratch as one step at the block the buffer holds, which is the step at
   the block filled out with the fixed word because the mask hides every column past the array's end. -/
import proofs.«144953_g79190607004093_cont_9to1c4b_603_4_alg».proof.Proof.K.Dat1a
import proofs.«144953_g79190607004093_cont_9to1c4b_603_4_alg».proof.Proof.K.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

section Regions
-- the TensorCore's buffer contents when the region is entered: a parameter, which the run instantiates
variable (V : (c : Dev nD) → (b : Ref sig .tc) → Buf (Elt F) ((c : Thread nD τ).loc b))

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the adjacency window's buffer stated on the part inside the array, the output
    window's as found wherever it is idle. -/
def bodyPost1 (c : Dev nD) (t : Fin cfg1.N) : sProp 𝕄 :=
  iprop((dat1 V c).Φ t.succ ∗ (dat1 V c).owesAt () t.succ
    ∗ (dat1 V c).leaves 0 t
    ∗ (dat1 V c).leaves 1 t
    ∗ (dat1 V c).leaves 2 t
    ∗ (dat1 V c).leaves 3 t
    ∗ (dat1 V c).leaves 4 t
    ∗ (dat1 V c).leaves 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ, PhiS_castSucc]
  rw [show (dat1 V c).leaves 0 t = iprop(∃ d, owns (c : Thread nD τ) (st1_0 t) fullShare
      (win1_0.fill (grid1.coords t) d (win1_0.cut (grid1.coords t) ((dat1 V c).after 0 t)))) from rfl,
    after1_0, show win1_0.cut (grid1.coords t) (adjAt V c t) = iblk1 V c 0 t from win1_0.cut_fill _ _ _]
  rw [show (dat1 V c).leaves 1 t = owns (c : Thread nD τ) (st1_1 t) fullShare ((dat1 V c).after 1 t) from rfl, after1_1,
    show (dat1 V c).leaves 2 t = owns (c : Thread nD τ) (st1_2 t) fullShare ((dat1 V c).after 2 t) from rfl, after1_2,
    show (dat1 V c).leaves 3 t = owns (c : Thread nD τ) (st1_3 t) fullShare ((dat1 V c).after 3 t) from rfl, after1_3,
    show (dat1 V c).leaves 4 t = owns (c : Thread nD τ) (st1_4 t) fullShare ((dat1 V c).after 4 t) from rfl, after1_4]
  by_cases h0 : t.val % 5 = 0
  · -- first column block: the scratch is reset, the output window idle
    have h4 : ¬t.val % 5 = 4 := by omega
    rw [Dat.leaves_idle (dat1 V c) 5 t (idleAt1_5 t h4) (noFlush1_5 t h4)]
    refine (sep_mono (PhiS_some V c _ _) .rfl).trans ?_
    iintro ⟨⟨Hr, ⟨%e0, HS0⟩, ⟨%e1, HS1⟩, Hg⟩, Ho, ⟨%d0, H0⟩, ⟨%d1, H1⟩, ⟨%d2, H2⟩, ⟨%d3, H3⟩, ⟨%d4, H4⟩, ⟨%d5, H5⟩⟩
    rw [← step_first V c t d0 h0]
    iapply (run1_A c (grid1.coords t) _ _ _ _ _ _ _ _ _ _ _ _ _ _ _ _ ((hcond1_0 t).mpr h0) (fun h => h4 ((hcond1_1 t).mp h))
      (win1_0.fill (grid1.coords t) d0 (iblk1 V c 0 t)) (iblk1 V c 1 t) (iblk1 V c 2 t) (iblk1 V c 3 t) (iblk1 V c 4 t)
      ((dat1 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [Hr HS0 HS1 Hg]
    · isplitl [Hr]; · iexact Hr
      isplitl [HS0]; · iexact HS0
      isplitl [HS1]; · iexact HS1
      iexact Hg
    isplitl [Ho]; · iexact Ho
    isplitl [H0]; · iexists _; iexact H0
    isplitl [H1]; · iexact H1
    isplitl [H2]; · iexact H2
    isplitl [H3]; · iexact H3
    isplitl [H4]; · iexact H4
    iexists _; iexact H5
  · have hz : t.val ≠ 0 := fun h => h0 (by rw [h])
    rw [PhiS_pos V c _ _ hz]
    by_cases h4 : t.val % 5 = 4
    · -- last column block: the output block is stored
      rw [show (dat1 V c).leaves 5 t = owns (c : Thread nD τ) (st1_5 t) fullShare ((dat1 V c).after 5 t) from by
        unfold Dat.leaves; rw [show cfg1.idle 5 (cfg1.grid.coords t) = false from liveAt1_5 t h4], after1_5]
      unfold outAt
      iintro ⟨⟨Hr, HS0, HS1, Hg⟩, Ho, ⟨%d0, H0⟩, ⟨%d1, H1⟩, ⟨%d2, H2⟩, ⟨%d3, H3⟩, ⟨%d4, H4⟩, ⟨%d5, H5⟩⟩
      rw [← step_next V c t d0 h0]
      iapply (run1_C c (grid1.coords t) _ _ _ _ _ _ _ _ _ _ _ _ _ _ _ _ (fun h => h0 ((hcond1_0 t).mp h)) ((hcond1_1 t).mpr h4)
        (win1_0.fill (grid1.coords t) d0 (iblk1 V c 0 t)) (iblk1 V c 1 t) (iblk1 V c 2 t) (iblk1 V c 3 t) (iblk1 V c 4 t)
        (scAt V c (t.val - 1) (Nat.lt_of_le_of_lt (Nat.sub_le _ _) t.isLt)).1
        (scAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [Hr HS0 HS1 Hg]
      · isplitl [Hr]; · iexact Hr
        isplitl [HS0]; · iexact HS0
        isplitl [HS1]; · iexact HS1
        iexact Hg
      isplitl [Ho]; · iexact Ho
      isplitl [H0]; · iexists _; iexact H0
      isplitl [H1]; · iexact H1
      isplitl [H2]; · iexact H2
      isplitl [H3]; · iexact H3
      isplitl [H4]; · iexact H4
      iexact H5
    · -- a column block in between: the output window idle
      rw [Dat.leaves_idle (dat1 V c) 5 t (idleAt1_5 t h4) (noFlush1_5 t h4)]
      iintro ⟨⟨Hr, HS0, HS1, Hg⟩, Ho, ⟨%d0, H0⟩, ⟨%d1, H1⟩, ⟨%d2, H2⟩, ⟨%d3, H3⟩, ⟨%d4, H4⟩, ⟨%d5, H5⟩⟩
      rw [← step_next V c t d0 h0]
      iapply (run1_B c (grid1.coords t) _ _ _ _ _ _ _ _ _ _ _ _ _ _ _ _ (fun h => h0 ((hcond1_0 t).mp h)) (fun h => h4 ((hcond1_1 t).mp h))
        (win1_0.fill (grid1.coords t) d0 (iblk1 V c 0 t)) (iblk1 V c 1 t) (iblk1 V c 2 t) (iblk1 V c 3 t) (iblk1 V c 4 t)
        ((dat1 V c).before 5 t d5)
        (scAt V c (t.val - 1) (Nat.lt_of_le_of_lt (Nat.sub_le _ _) t.isLt)).1
        (scAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Hr HS0 HS1 Hg]
      · isplitl [Hr]; · iexact Hr
        isplitl [HS0]; · iexact HS0
        isplitl [HS1]; · iexact HS1
        iexact Hg
      isplitl [Ho]; · iexact Ho
      isplitl [H0]; · iexists _; iexact H0
      isplitl [H1]; · iexact H1
      isplitl [H2]; · iexact H2
      isplitl [H3]; · iexact H3
      isplitl [H4]; · iexact H4
      iexists _; iexact H5

/-- The library's body obligation, at every point (in the form that states a clipped window's buffer on the
    part inside the array). -/
theorem body_obligation1 (c : Dev nD) : BodyObligationLoose (dat1 (F := F) V c) (defs₀ (F := F)) Variants.none () Set.univ := fun t => by
  rw [bigSep_W1, bigSep_W1]
  exact sound_body1 V c t

end Regions

end Cert.Kernel.Hand

end
-- ==== Proof.K.Regions.lean ====
/- The run of the whole program, with its result named.

   The program is seven segments: a host stretch that packs the four attention vectors and a block of zeros into one
   128 x 8 matrix; region 0 (the projection); four host stretches that slice the projected scores, take the maximum
   over rows of the second pair and shift the first pair by it (clamped at zero), and pad the projected features and
   the transposed scores with zeros; and region 1 (the attention pass). The contents of the unscoped buffers at the
   eight boundaries form a fold from the launch memory: a host stretch applies its operations to the valuation; a
   region leaves each of its arrays at what its write-backs leave (an input array as entered, an output array with
   every block written) and every other buffer as entered.

   Each region is a segment over the thread state "every unscoped buffer at the boundary's contents, the generator
   register at some state, nothing owed": at entry its arrays are split out of the unscoped buffers, at exit they are
   put back at the next boundary's contents; the invariant of the region's proof data is entered from, and left at,
   the scoped buffers no window stages beside the generator register.

   Consequences: every weakly fair execution terminates, nothing faulting; at the end the result array holds what
   region 1's write-backs leave from its entry contents (run_named); no host operation writes an argument, and a
   region reads an argument through an input window or not at all, so the six arguments end as launched (frame). -/
import proofs.«144953_g79190607004093_cont_9to1c4b_603_4_alg».proof.Proof.K.Body0
import proofs.«144953_g79190607004093_cont_9to1c4b_603_4_alg».proof.Proof.K.Dat1
import proofs.«144953_g79190607004093_cont_9to1c4b_603_4_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents of the unscoped buffers at each boundary of the run: a fold from the launch memory -/

/-- At launch. -/
abbrev W0 (c : Dev nD) : Valuation τ sig (Elt F) := fun b => m (c, b)
/-- After the first host stretch (the packing of the attention vectors): region 0's entry. -/
abbrev W1 (c : Dev nD) : Valuation τ sig (Elt F) := StableHlo.after hostOps0 (W0 m c)
/-- The same read at the core's references: what region 0's proof data take. -/
abbrev Vin0 : (c : Dev nD) → (b : Ref sig .tc) → Buf (Elt F) ((c : Thread nD τ).loc b) := fun c b => W1 m c b
/-- At region 0's exit: its arrays at what the write-backs leave, every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

/-- After the four host stretches between the regions (the slices, the column maximum and the shift, the two
    paddings, the transposition), in order: region 1's entry. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
/-- The same read at the core's references: what region 1's proof data take. -/
abbrev Vin1 : (c : Dev nD) → (b : Ref sig .tc) → Buf (Elt F) ((c : Thread nD τ).loc b) := fun c b => W6 m c b
/-- At region 1's exit: its arrays at what the write-backs leave, every other buffer as entered. -/
def W7 (c : Dev nD) : Valuation τ sig (Elt F) :=
  Pipeline.withArrays spec1 c (W6 m c) fun w => (dat1 (Vin1 m) c).arrAt w cfg1.N
theorem W7_arr (c : Dev nD) (w : Fin cfg1.W) :
    W7 m c (Proc.devRef .tc (Pipeline.arrRef spec1 w)) = (dat1 (Vin1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vout1 : (c : Dev nD) → (b : Ref sig .tc) → Buf (Elt F) ((c : Thread nD τ).loc b) := fun c b => W7 m c b
theorem hF1 (c : Dev nD) (w : Fin cfg1.W) : (dat1 (Vin1 m) c).arrAt w cfg1.N = Vout1 m c (Pipeline.arrRef spec1 w) :=
  (W7_arr m c w).symm
theorem hrest1 (c : Dev nD) : ∀ b, b ∉ Finset.univ.image (Pipeline.arrRef spec1) → Vout1 m c b = Vin1 m c b :=
  fun b hb => W7_of_ne m c b fun w e => hb (Finset.mem_image.mpr ⟨w, Finset.mem_univ _, e⟩)

/-! ### The arguments end as launched: no host operation writes one, and a region reads an argument through an input
    window (whose array ends as entered) or not at all -/

/-- A buffer no host stretch between the regions writes is at region 1's entry what it was at region 0's exit. -/
theorem W6_of (c : Dev nD) (r : Ref sig .tc) (h1 : r ∉ hostOps1_W) (h2 : r ∉ hostOps1_1_W) (h3 : r ∉ hostOps1_2_W) (h4 : r ∉ hostOps1_3_W) :
    W6 m c r = W2 m c r :=
  (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    StableHlo.after_of_writes_sub hostOps1 _ hostOps1_writes h1
theorem W1_of (c : Dev nD) (r : Ref sig .tc) (h : r ∉ hostOps0_W) : W1 m c r = W0 m c r :=
  StableHlo.after_of_writes_sub hostOps0 _ hostOps0_writes h

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W2 m c (Proc.devRef .tc main_arg0) := W6_of m c main_arg0 (by decide) (by decide) (by decide) (by decide)
    _ = W1 m c (Proc.devRef .tc main_arg0) := (W2_arr m c 0).trans (((dat0 (Vin0 m) c).arrAt_in 0 rfl _).trans (A_eq0 (Vin0 m) c 0))
    _ = W0 m c (Proc.devRef .tc main_arg0) := W1_of m c main_arg0 (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := (W7_arr m c 0).trans (((dat1 (Vin1 m) c).arrAt_in 0 rfl _).trans (A_eq1 (Vin1 m) c 0))
    _ = W2 m c (Proc.devRef .tc main_arg1) := W6_of m c main_arg1 (by decide) (by decide) (by decide) (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W2 m c (Proc.devRef .tc main_arg2) := W6_of m c main_arg2 (by decide) (by decide) (by decide) (by decide)
    _ = W1 m c (Proc.devRef .tc main_arg2) := (W2_arr m c 1).trans (((dat0 (Vin0 m) c).arrAt_in 1 rfl _).trans (A_eq0 (Vin0 m) c 1))
    _ = W0 m c (Proc.devRef .tc main_arg2) := W1_of m c main_arg2 (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W2 m c (Proc.devRef .tc main_arg3) := W6_of m c main_arg3 (by decide) (by decide) (by decide) (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = W2 m c (Proc.devRef .tc main_arg4) := W6_of m c main_arg4 (by decide) (by decide) (by decide) (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := (W7_arr m c 4).trans (((dat1 (Vin1 m) c).arrAt_in 4 rfl _).trans (A_eq1 (Vin1 m) c 4))
    _ = W2 m c (Proc.devRef .tc main_arg5) := W6_of m c main_arg5 (by decide) (by decide) (by decide) (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl

/-! ## The proof data family and the thread state -/

/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱z : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state and what it is
    owed, nothing. -/
abbrev Rr (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱z Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core is owed: every unscoped buffer at the last contents, the generator
    register at some state. -/
abbrev Tfin (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at W1, left at W2. Its arrays are split out of
    the unscoped buffers and put back at the exit contents; the generator register goes into the invariant and comes
    out; nothing is owed; the kernel has no semaphore of its own. -/
def reg0 : Pipeline.RegionSeg (pcfgs (F := F)) adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W6, left at W7. As region 0; its invariant
    (which carries the two accumulators, scoped buffers no window stages) is entered from and left at the untouched
    scoped rest beside the generator register. -/
def reg1 : Pipeline.RegionSeg (pcfgs (F := F)) adm (pdats m) () defs₀ 𝒱z Lz lvz 1 where
  win := launch1.win.to₀
  block_pos := launch1.block_pos
  stage_whole := launch1.stage_whole
  K := PEmpty
  osem k := k.elim
  ho := Pipeline.OwnSemFacts.none _
  hbody c := body_obligation1 (Vin1 m) c
  hwaits := Pipeline.hwaits_of_owed_zero _ _ _ _ Lz lvz 1 fun _ _ => rfl
  pre c := iprop(StableHlo.held (c : Thread nD τ) (Pipeline.ucRefs τ sig) (W6 m c) ∗ Rr c)
  post c := iprop(Tfin m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vin1 m) c).Φ 0 from rfl]
    have h := hin1 (Vin1 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (Vin1 m) c).Φ (Fin.last _) from rfl]
    have h := hout1 (Vin1 m) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 7 segments in order: a host segment per stretch from its boundary's contents, a region per kernel. -/
abbrev segsH : List (Pipeline.Seg (pcfgs (F := F)) adm (pdats m) () defs₀ 𝒱z Lz lvz) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m) ]

variable (ρ : Dev nD → PrngReg)

set_option backward.isDefEq.respectTransparency.types false in
/-- THE RUN. From any memory with zero counters, every weakly fair execution of the program on the cores terminates,
    nothing faulting, and in every final state every unscoped buffer of a core holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱z Lz lvz m ρ main (segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tfin m)
    (hch := ⟨fun _ => .rfl, fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE RUN WITH THE RESULT NAMED: the result array ends holding what region 1's write-backs leave in it, from the
    contents region 1 is entered at; the six arguments end as launched. -/
theorem run_named : θ_run defs (onTc (τ := τ) (main (F := F))) ⟨m, fun _ => 0, ρ⟩ (fun r => ∀ c : Dev nD,
      r.2.mem ((c.tc : Thread nD τ).loc main_v23) = (dat1 (Vin1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v23 (by decide))).trans (W7_arr m c 5),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_all m ρ)

/-- THE FRAME: the program runs, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Hand

end
-- ==== Proof.KI.Body0.lean ====
/- Region 0: the projection kernel on a grid of 5 blocks of 2000 rows.

   At every point the body reads the current row block of the inputs (window 0), the whole weight matrix (window 1)
   and the whole packed matrix of attention vectors (window 2), and writes x = inputs · W into the block of output
   window 3 and elu(x · wf) into the block of output window 4, each by ONE store that covers the whole block. So what
   an output block holds after the body is a closed function of the three input blocks — the store's payload laid over
   the block —, whatever the block held before (the body reads it, and discards what it read). An input block is found
   in place at every point: windows 1 and 2 have a constant block index and are moved at the first point only, and a
   block that is not moved is still the one moved before.

   From these two facts: the proof data of the region at any contents V of the arrays on entry (the arrays as found;
   after the body at point t the inputs' buffers at their blocks and the outputs' at the payloads of the blocks; the
   invariant the untouched rest; nothing owed), and the obligation of the body at every point. -/
import proofs.«144953_g79190607004093_cont_9to1c4b_603_4_alg».proof.Proof.Gen.KernelIdeal.Launch
import proofs.«144953_g79190607004093_cont_9to1c4b_603_4_alg».proof.Proof.Gen.KernelIdeal.Skeleton
import proofs.«144953_g79190607004093_cont_9to1c4b_603_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural recursion goes once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the contents of the core's buffers when the region is entered: a parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, for any proof data whose array is the region's
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (constant block index, moved at the first point only): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (constant block index, moved at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S128x8 := Rect.unit (s := S128x8) ![0, 0] S128x8.size inb_S128x8_S128x8_0_0
abbrev r0_3 : Rect S2000x8 := Rect.unit (s := S2000x8) ![0, 0] S2000x8.size inb_S2000x8_S2000x8_0_0

/-! ## What the body leaves in each output window's buffer -/

/-- Window 3's buffer after the body: x = (row block) · W, laid over the whole block. -/
def out0_3 (x0 : Vec F S2000x128 .f32) (x1 : Vec F S128x128 .f32) : Vec F S2000x128 .f32 :=
  View.canon [⟨r0_0, k0_pay1 (View.ld x0 r0_0) (View.ld x1 r0_1)⟩]

/-- The one store covers the block. -/
theorem cover0_3 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-- Window 4's buffer after the body: elu(x · wf), laid over the whole block. -/
def out0_4 (x0 : Vec F S2000x128 .f32) (x1 : Vec F S128x128 .f32) (x2 : Vec F S128x8 .f32) : Vec F S2000x8 .f32 :=
  View.canon [⟨r0_3, k0_pay2 (View.ld x0 r0_0) (View.ld x1 r0_1) (View.ld x2 r0_2)⟩]

/-- The one store covers the block. -/
theorem cover0_4 (p0 : Vec F S2000x8 .f32) (y : S2000x8.Idx) :
    ∃ pc ∈ ([⟨r0_3, p0⟩] : List (View.Piece (Elt F) S2000x8 .f32)), y ∈ pc.1.set :=
  View.cover_of_tiled [⟨r0_3, p0⟩] S2000x8.size (by rfl) y

/-! ## The body's triple -/

set_option maxHeartbeats 1000000 in
/-- The body on whole buffers, the inputs' at read contents x0, x1, x2 and the outputs' at anything, runs to the
    continuation holding the inputs' as they were and the outputs' at out0_3 x0 x1 and out0_4 x0 x1 x2. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S128x8 .f32) (harg3 : arg3.IsWhole) (arg4 : Memref sig .tc .vmem S2000x128 .f32) (harg4 : arg4.IsWhole)
    (arg5 : Memref sig .tc .vmem S2000x8 .f32) (harg5 : arg5.IsWhole)
    (x0 : Vec F S2000x128 .f32) (x1 : Vec F S128x128 .f32) (x2 : Vec F S128x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data -/

/-- The proof data of the region on core c: the arrays as the region finds them; after the body at point t each
    input's buffer at its block and each output's at the payload of the input blocks; the invariant the untouched
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current buffer holds its block at every point, moved there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    what the core is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Steps.lean ====
/- The pure step functions of the second region's body: what one grid point does to the two carried
   scratch arrays (the per-head numerators acc : 2 × 400 × 128 and the per-head softmax denominators
   ss : 400 × 8, of which columns 0 and 1 are used), as a function of the blocks the point reads.

   At a point with column block J the body, for each head h ∈ {0, 1}, forms
   e_h = exp (select (col < 10000 - 2048 J) (max z (0.2 z) - m_h) (-∞)), z = adj * (f1_h + f2_h),
   adds the row sums of e_h into column h of ss, and adds e_h · xv into row h of acc.
   The four stores are laid over the current contents in program order (denominator 0, numerator 0,
   denominator 1, numerator 1); each payload reads the contents the stores before it left.
   At J = 0 the scratch is reset to zero first (gatInit); at J = 4 the output block is
   (elu (acc_0 / ss_0 + b_0) + elu (acc_1 / ss_1 + b_1)) * 0.5 (gatOut). -/
import proofs.«144953_g79190607004093_cont_9to1c4b_603_4_alg».proof.Proof.Gen.KernelIdeal.Skeleton
import Idealize.ShloMosaic.Lib.Pipeline.FrameBody

noncomputable section

namespace Cert.KernelIdeal.Hand

open Idealize.ShloMosaic Idealize.SL.Sem
open Cert.KernelIdeal Cert.KernelIdeal.Gen

variable {F : FTy → Type} [FloatOps F]

/-! ## The rectangles the body loads and stores through -/

/-- Row 0 of the numerator scratch (head 0). -/
abbrev rA0 : Rect S2x400x128 := Rect.unit (s := S2x400x128) ![0, 0, 0] S1x400x128.size inb_S2x400x128_S1x400x128_0_0_0
/-- Row 1 of the numerator scratch (head 1). -/
abbrev rA1 : Rect S2x400x128 := Rect.unit (s := S2x400x128) ![1, 0, 0] S1x400x128.size inb_S2x400x128_S1x400x128_1_0_0
/-- Column 0 of the denominator scratch (head 0). -/
abbrev rS0 : Rect S400x8 := Rect.unit (s := S400x8) ![0, 0] S400x1.size inb_S400x8_S400x1_0_0
/-- Column 1 of the denominator scratch (head 1). -/
abbrev rS1 : Rect S400x8 := Rect.unit (s := S400x8) ![0, 1] S400x1.size inb_S400x8_S400x1_0_1
/-- Columns 0 … 3 of the row block of f1m: f1 of head 0, f1 of head 1, the bound of head 0, the bound of head 1. -/
abbrev rF0 : Rect S400x4 := Rect.unit (s := S400x4) ![0, 0] S400x1.size inb_S400x4_S400x1_0_0
abbrev rF1 : Rect S400x4 := Rect.unit (s := S400x4) ![0, 1] S400x1.size inb_S400x4_S400x1_0_1
abbrev rF2 : Rect S400x4 := Rect.unit (s := S400x4) ![0, 2] S400x1.size inb_S400x4_S400x1_0_2
abbrev rF3 : Rect S400x4 := Rect.unit (s := S400x4) ![0, 3] S400x1.size inb_S400x4_S400x1_0_3
/-- Rows 0, 1 of the column block of f2t (head 0, head 1). -/
abbrev rT0 : Rect S8x2048 := Rect.unit (s := S8x2048) ![0, 0] S1x2048.size inb_S8x2048_S1x2048_0_0
abbrev rT1 : Rect S8x2048 := Rect.unit (s := S8x2048) ![1, 0] S1x2048.size inb_S8x2048_S1x2048_1_0
/-- Rows 0, 1 of the bias. -/
abbrev rB0 : Rect S2x128 := Rect.unit (s := S2x128) ![0, 0] S1x128.size inb_S2x128_S1x128_0_0
abbrev rB1 : Rect S2x128 := Rect.unit (s := S2x128) ![1, 0] S1x128.size inb_S2x128_S1x128_1_0

/-! ## The step functions -/

/-- The scratch after the reset at column block 0: both arrays zero. -/
def gatInit : Vec F S2x400x128 .f32 × Vec F S400x8 .f32 := (k1_pay3 (F := F), k1_pay4 (F := F))

/-- The unnormalized weights of head 0 at the point: a function of the adjacency block, f1m and f2t. -/
def gatE0 (i : grid1.Coords) (adj : Vec F S400x2048 .f32) (f1m : Vec F S400x4 .f32) (f2t : Vec F S8x2048 .f32) :
    FVec F S400x2048 .f32 :=
  k1_pay7 i adj (View.ld f1m rF0) (View.ld f1m rF2) (View.ld f2t rT0)

/-- The unnormalized weights of head 1 at the point. -/
def gatE1 (i : grid1.Coords) (adj : Vec F S400x2048 .f32) (f1m : Vec F S400x4 .f32) (f2t : Vec F S8x2048 .f32) :
    FVec F S400x2048 .f32 :=
  k1_pay10 adj (k1_pay5 i) (View.ld f1m rF1) (View.ld f1m rF3) (View.ld f2t rT1)

/-- One point's update of the scratch (acc, ss): the four stores (denominator 0, numerator 0, denominator 1,
    numerator 1, in program order) laid over the contents. The two heads' rectangles are disjoint, so each
    store's payload reads the contents the point found on its own rectangle. -/
def gatStep (i : grid1.Coords) (adj : Vec F S400x2048 .f32) (xv : Vec F S2048x128 .f32) (f1m : Vec F S400x4 .f32)
    (f2t : Vec F S8x2048 .f32) (s : Vec F S2x400x128 .f32 × Vec F S400x8 .f32) :
    Vec F S2x400x128 .f32 × Vec F S400x8 .f32 :=
  (rA1.overlay (rA0.overlay s.1 (k1_pay9 (k1_pay6 xv) (gatE0 i adj f1m f2t) (View.ld s.1 rA0)))
      (k1_pay1 (k1_pay6 xv) (gatE1 i adj f1m f2t) (k1_pay12 (View.ld s.1 rA1))),
   rS1.overlay (rS0.overlay s.2 (k1_pay8 i adj (View.ld f1m rF0) (View.ld f1m rF2) (View.ld f2t rT0) (View.ld s.2 rS0)))
      (k1_pay11 adj (k1_pay5 i) (View.ld f1m rF1) (View.ld f1m rF3) (View.ld f2t rT1) (View.ld s.2 rS1)))

/-- The output block the last column block's point stores, from the scratch and the bias. -/
def gatOut (s : Vec F S2x400x128 .f32 × Vec F S400x8 .f32) (b : Vec F S2x128 .f32) : Vec F S400x128 .f32 :=
  k1_pay2 (View.ld s.1 rA0) (View.ld s.2 rS0) (View.ld b rB0) (View.ld s.1 rA1) (View.ld s.2 rS1) (View.ld b rB1)

theorem gatStep_fst (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    (gatStep i adj xv f1m f2t (acc, ss)).1
      = rA1.overlay (rA0.overlay acc (k1_pay9 (k1_pay6 xv) (gatE0 i adj f1m f2t) (View.ld acc rA0)))
          (k1_pay1 (k1_pay6 xv) (gatE1 i adj f1m f2t) (k1_pay12 (View.ld acc rA1))) := rfl

theorem gatStep_snd (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    (gatStep i adj xv f1m f2t (acc, ss)).2
      = rS1.overlay (rS0.overlay ss (k1_pay8 i adj (View.ld f1m rF0) (View.ld f1m rF2) (View.ld f2t rT0) (View.ld ss rS0)))
          (k1_pay11 adj (k1_pay5 i) (View.ld f1m rF1) (View.ld f1m rF3) (View.ld f2t rT1) (View.ld ss rS1)) := rfl

theorem gatInit_fst : (gatInit (F := F)).1 = k1_pay3 (F := F) := rfl
theorem gatInit_snd : (gatInit (F := F)).2 = k1_pay4 (F := F) := rfl

theorem gatOut_eq (acc : Vec F S2x400x128 .f32) (ss : Vec F S400x8 .f32) (b : Vec F S2x128 .f32) :
    gatOut (acc, ss) b
      = k1_pay2 (View.ld acc rA0) (View.ld ss rS0) (View.ld b rB0) (View.ld acc rA1) (View.ld ss rS1) (View.ld b rB1) := rfl

/-! ## What a view reads after a list of writes, one overlay per write -/

/-- The read-back of a list of unmasked writes: the last write's payload laid over the read-back of the earlier ones. -/
theorem read_writes_cons {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- A load through a whole memref held at the raw contents that read X reads X at the rectangle's indices. -/
theorem readAt_unread_eq_ld {sig : RefSig} {κ : Kind} {sp : Space} {s : Shape} {e : EltTy} {Val : EltTy → Type}
    {m : Memref sig κ sp s e} (h : m.IsWhole) (X : s.Idx → Val e) (r : Rect s) :
    View.readAt Val m.view r.toLoadRect (h.unread X) = View.ld X r :=
  funext fun x => congrFun (Memref.IsWhole.read_unread h X) (r.toLoadRect.idx x)

/-- A load through the rectangle that is the whole shape reads the contents. -/
theorem ld_whole {S : Shape} {e : EltTy} {Val : EltTy → Type} (X : S.Idx → Val e) (off : Fin S.rank → ℕ)
    (inb : ∀ a, off a + S.size a ≤ S.size a) : View.ld X (Rect.unit (s := S) off S.size inb) = X := by
  funext x
  show X ((Rect.unit (s := S) off S.size inb).idx x) = X x
  congr 1
  funext a
  apply Fin.ext
  have := inb a
  simp only [LoadRect.idx_apply, Rect.off_unit, Rect.stride_unit, Nat.one_mul]
  omega

/-- A load of the whole shape through a whole memref held at the raw contents that read X reads X. -/
theorem readAt_unread_whole {sig : RefSig} {κ : Kind} {sp : Space} {s : Shape} {e : EltTy} {Val : EltTy → Type}
    {m : Memref sig κ sp s e} (h : m.IsWhole) (X : s.Idx → Val e) (off : Fin s.rank → ℕ)
    (inb : ∀ a, off a + s.size a ≤ s.size a) :
    View.readAt Val m.view (Rect.unit (s := s) off s.size inb).toLoadRect (h.unread X) = X :=
  (readAt_unread_eq_ld h X _).trans (ld_whole X off inb)

/-! ## Loads of overlaid contents -/

/-- The whole shape's rectangle places an index at itself. -/
theorem emb_whole {S : Shape} (off : Fin S.rank → ℕ) (inb : ∀ a, off a + S.size a ≤ S.size a)
    (x : (Rect.unit (s := S) off S.size inb).shape.Idx) : (Rect.unit (s := S) off S.size inb).emb x = x := by
  funext a
  apply Fin.ext
  have := inb a
  simp only [Rect.emb_apply, Rect.off_unit, Rect.stride_unit, Nat.one_mul]
  omega

/-- A payload laid through the whole shape's rectangle over anything is the payload. -/
theorem overlay_whole {S : Shape} {α : Type} (off : Fin S.rank → ℕ) (inb : ∀ a, off a + S.size a ≤ S.size a)
    (X : S.Idx → α) (G : (Rect.unit (s := S) off S.size inb).shape.Idx → α) :
    (Rect.unit (s := S) off S.size inb).overlay X G = G := by
  funext y
  have h := (Rect.unit (s := S) off S.size inb).overlay_emb X G y
  rwa [emb_whole] at h

/-- A load through the rectangle just written reads the payload. -/
theorem ld_overlay_self {S : Shape} {e : EltTy} {Val : EltTy → Type} (r : Rect S) (X : S.Idx → Val e)
    (G : r.shape.Idx → Val e) : View.ld (r.overlay X G) r = G :=
  funext fun x => r.overlay_emb X G x

/-- A load through a rectangle that misses the one just written reads the earlier contents. -/
theorem ld_overlay_of_disjoint {S : Shape} {e : EltTy} {Val : EltTy → Type} (r r' : Rect S) (X : S.Idx → Val e)
    (G : r.shape.Idx → Val e) (h : ∀ x, r'.idx x ∉ r.set) : View.ld (r.overlay X G) r' = View.ld X r' :=
  funext fun x => r.overlay_of_not_mem X G (h x)

theorem rA1_not_mem_rA0 (x : rA1.shape.Idx) : rA1.idx x ∉ rA0.set := by
  intro h
  have := (Rect.mem_set_unit.mp h) 0
  simp only [LoadRect.idx_apply, Rect.off_unit, Rect.stride_unit, Matrix.cons_val_zero] at this
  have h1 : S1x400x128.size 0 = 1 := rfl
  omega

theorem rA0_not_mem_rA1 (x : rA0.shape.Idx) : rA0.idx x ∉ rA1.set := by
  intro h
  have := (Rect.mem_set_unit.mp h) 0
  have hx := (x 0).isLt
  simp only [LoadRect.idx_apply, Rect.off_unit, Rect.stride_unit, Matrix.cons_val_zero] at this
  have h1 : rA0.shape.size 0 = 1 := rfl
  omega

theorem rS1_not_mem_rS0 (x : rS1.shape.Idx) : rS1.idx x ∉ rS0.set := by
  intro h
  have := (Rect.mem_set_unit.mp h) 1
  simp only [LoadRect.idx_apply, Rect.off_unit, Rect.stride_unit, Matrix.cons_val_one, Matrix.cons_val_zero] at this
  have h1 : S400x1.size 1 = 1 := rfl
  omega

theorem rS0_not_mem_rS1 (x : rS0.shape.Idx) : rS0.idx x ∉ rS1.set := by
  intro h
  have := (Rect.mem_set_unit.mp h) 1
  have hx := (x 1).isLt
  simp only [LoadRect.idx_apply, Rect.off_unit, Rect.stride_unit, Matrix.cons_val_one, Matrix.cons_val_zero] at this
  have h1 : rS0.shape.size 1 = 1 := rfl
  omega

/-- Head 1's numerator row, loaded after head 0's row was stored, is as before; and symmetrically. -/
theorem ld_overlay_rA0_rA1 (X : Vec F S2x400x128 .f32) (G : rA0.shape.Idx → Elt F .f32) :
    View.ld (rA0.overlay X G) rA1 = View.ld X rA1 := ld_overlay_of_disjoint rA0 rA1 X G rA1_not_mem_rA0
theorem ld_overlay_rA1_rA0 (X : Vec F S2x400x128 .f32) (G : rA1.shape.Idx → Elt F .f32) :
    View.ld (rA1.overlay X G) rA0 = View.ld X rA0 := ld_overlay_of_disjoint rA1 rA0 X G rA0_not_mem_rA1
/-- The same for the denominators' columns. -/
theorem ld_overlay_rS0_rS1 (X : Vec F S400x8 .f32) (G : rS0.shape.Idx → Elt F .f32) :
    View.ld (rS0.overlay X G) rS1 = View.ld X rS1 := ld_overlay_of_disjoint rS0 rS1 X G rS1_not_mem_rS0
theorem ld_overlay_rS1_rS0 (X : Vec F S400x8 .f32) (G : rS1.shape.Idx → Elt F .f32) :
    View.ld (rS1.overlay X G) rS0 = View.ld X rS0 := ld_overlay_of_disjoint rS1 rS0 X G rS0_not_mem_rS1

/-- What the step leaves, read back through each head's rectangle: that head's payload. -/
theorem ld_gatStep_fst_rA0 (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    View.ld (gatStep i adj xv f1m f2t (acc, ss)).1 rA0 = k1_pay9 (k1_pay6 xv) (gatE0 i adj f1m f2t) (View.ld acc rA0) := by
  rw [gatStep_fst, ld_overlay_rA1_rA0, ld_overlay_self]
theorem ld_gatStep_fst_rA1 (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    View.ld (gatStep i adj xv f1m f2t (acc, ss)).1 rA1
      = k1_pay1 (k1_pay6 xv) (gatE1 i adj f1m f2t) (k1_pay12 (View.ld acc rA1)) := by
  rw [gatStep_fst, ld_overlay_self]
theorem ld_gatStep_snd_rS0 (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    View.ld (gatStep i adj xv f1m f2t (acc, ss)).2 rS0
      = k1_pay8 i adj (View.ld f1m rF0) (View.ld f1m rF2) (View.ld f2t rT0) (View.ld ss rS0) := by
  rw [gatStep_snd, ld_overlay_rS1_rS0, ld_overlay_self]
theorem ld_gatStep_snd_rS1 (i : grid1.Coords) (adj : Vec F S400x2048 .f32) (xv : Vec F S2048x128 .f32) (f1m : Vec F S400x4 .f32)
    (f2t : Vec F S8x2048 .f32) (acc : Vec F S2x400x128 .f32) (ss : Vec F S400x8 .f32) :
    View.ld (gatStep i adj xv f1m f2t (acc, ss)).2 rS1
      = k1_pay11 adj (k1_pay5 i) (View.ld f1m rF1) (View.ld f1m rF3) (View.ld f2t rT1) (View.ld ss rS1) := by
  rw [gatStep_snd, ld_overlay_self]

end Cert.KernelIdeal.Hand

end
-- ==== Proof.KI.Dat1a.lean ====
/- The second region (the attention accumulation over a 25 × 5 grid of 400 × 2048 adjacency blocks): its
   proof data, stated at the buffer contents V the region is entered with.

   The two scratch arrays (the per-head numerators, 2 × 400 × 128, and the per-head softmax denominators,
   400 × 8) are carried from point to point: scAt n is what they hold after point n — one step (gatStep) of the
   zeroed scratch at the first column block of a row block, of the previous point's scratch elsewhere —, and at
   the last column block of a row block the output block is gatOut of that scratch and the bias (outAt).

   The adjacency array has 10000 columns and the last column block overhangs it by 240 columns: there the
   fetch fills only the first 1808 columns of the staging buffer and the rest holds words nothing names.
   They never reach the scratch: both heads read the adjacency block under a select on the mask
   col < 10000 - 2048 J, which is clear on every column the fetch did not move, and the unselected value is a
   constant (gatStep_congr_adj, mask_moved, stepAt_fill). So the step at a point is a function of the part of
   the block inside the array alone, and the proof data name the block filled out with a fixed word (adjAt).

   Also here: what each window's buffer holds when the body runs (before1_w), the region invariant (PhiS: the
   scratch at scAt of the previous point, the other scoped buffers at anything, the generator register at some
   state), and its ends (hin1, hout1). -/
import proofs.«144953_g79190607004093_cont_9to1c4b_603_4_alg».proof.Proof.KI.Steps
import proofs.«144953_g79190607004093_cont_9to1c4b_603_4_alg».proof.Proof.Gen.KernelIdeal.Launch
import proofs.«144953_g79190607004093_cont_9to1c4b_603_4_alg».proof.Proof.Gen.KernelIdeal.Skeleton
import proofs.«144953_g79190607004093_cont_9to1c4b_603_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-! ## The column mask: what lies past the array's last column never reaches the accumulators -/

/-- The column mask at an index: the column's number compared with the number of the array's columns left at
    this column block. -/
theorem k1_pay5_apply (i : grid1.Coords) (j : S400x2048.Idx) :
    k1_pay5 i j = IntOp.cmpi .slt (BitVec.ofNat 32 (j 1).val)
      (Scalar.subi 10000#32 (Scalar.muli (BitVec.ofNat 32 (i 1).val) 2048#32)) := by
  unfold k1_pay5
  show IntOp.cmpi .slt (iota .tc S400x2048 32 [1] iota_S400x2048_d1_w32 j) _ = _
  rw [iota_single_apply]; rfl

/-- The exponentials of head 0 read the adjacency block only where the mask is set: elsewhere the selected
    value is the constant. -/
theorem k1_pay7_congr (i : grid1.Coords) (x x' : Vec F S400x2048 .f32) (a b : Vec F S400x1 .f32) (c : Vec F S1x2048 .f32)
    (h : ∀ j, k1_pay5 i j = 1#1 → x j = x' j) : k1_pay7 i x a b c = k1_pay7 i x' a b c := by
  funext j
  unfold k1_pay7
  simp only [exp, select, subf, maximumf, mulf, Scalar.select]
  by_cases hj : k1_pay5 i j = 1
  · rw [if_pos hj, if_pos hj, h j hj]
  · rw [if_neg hj, if_neg hj]

/-- The same of head 1. -/
theorem k1_pay10_congr (x x' : Vec F S400x2048 .f32) (m : IVec S400x2048 1) (a b : Vec F S400x1 .f32) (c : Vec F S1x2048 .f32)
    (h : ∀ j, m j = 1#1 → x j = x' j) : k1_pay10 x m a b c = k1_pay10 x' m a b c := by
  funext j
  unfold k1_pay10
  simp only [exp, select, subf, maximumf, mulf, Scalar.select]
  by_cases hj : m j = 1
  · rw [if_pos hj, if_pos hj, h j hj]
  · rw [if_neg hj, if_neg hj]

/-- So one step of the accumulation reads the adjacency block only where the mask is set. -/
theorem gatStep_congr_adj (i : grid1.Coords) (adj adj' : Vec F S400x2048 .f32) (xv : Vec F S2048x128 .f32)
    (f1m : Vec F S400x4 .f32) (f2t : Vec F S8x2048 .f32) (s : Vec F S2x400x128 .f32 × Vec F S400x8 .f32)
    (h : ∀ j, k1_pay5 i j = 1#1 → adj j = adj' j) :
    gatStep i adj xv f1m f2t s = gatStep i adj' xv f1m f2t s := by
  obtain ⟨acc, ss⟩ := s
  have h7 := k1_pay7_congr i adj adj' (View.ld f1m rF0) (View.ld f1m rF2) (View.ld f2t rT0) h
  have h10 := k1_pay10_congr adj adj' (k1_pay5 i) (View.ld f1m rF1) (View.ld f1m rF3) (View.ld f2t rT1) h
  apply Prod.ext
  · rw [gatStep_fst, gatStep_fst]; unfold gatE0 gatE1; rw [h7, h10]
  · rw [gatStep_snd, gatStep_snd]; unfold k1_pay8 k1_pay11; rw [h7, h10]

section Regions
-- the TensorCore's buffer contents when the region is entered: a parameter, which the run instantiates
variable (V : (c : Dev nD) → (b : Ref sig .tc) → Buf (Elt F) ((c : Thread nD τ).loc b))

/-! ## The windows' blocks -/

/-- Window `w`'s block at point `t`, read off its array as the region finds it (`V`): for the adjacency
    window the part of the block inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The word the adjacency block is filled out with past the array's last column: nothing reads it. -/
def fill₀ : S400x2048.Idx → Elt F .f32 := fun _ => Scalar.ofBits .f32 0#32

/-- The adjacency block at point `t` as a whole 400 × 2048 block: the array's part, filled out past the
    array's last column (at the last column block, 240 columns) with a fixed word. -/
def adjAt (c : Dev nD) (t : Fin cfg1.N) : Vec F S400x2048 .f32 :=
  win1_0.fill (grid1.coords t) fill₀ (iblk1 V c 0 t)

/-- One point's update of the scratch at the point's blocks. -/
def stepAt (c : Dev nD) (t : Fin cfg1.N) (s : Vec F S2x400x128 .f32 × Vec F S400x8 .f32) :
    Vec F S2x400x128 .f32 × Vec F S400x8 .f32 :=
  gatStep (grid1.coords t) (adjAt V c t) (iblk1 V c 1 t) (iblk1 V c 2 t) (iblk1 V c 3 t) s

/-- THE ACCUMULATION. The scratch (numerators, denominators) after the body at position `n`: the point's
    update of the zeroed scratch at the first column block of a row block (`n % 5 = 0`), else of what the
    point before left. -/
def scAt (c : Dev nD) : (n : ℕ) → n < cfg1.N → Vec F S2x400x128 .f32 × Vec F S400x8 .f32
  | 0, hn => stepAt V c ⟨0, hn⟩ gatInit
  | n + 1, hn => stepAt V c ⟨n + 1, hn⟩ (if (n + 1) % 5 = 0 then gatInit else scAt c n (Nat.lt_of_succ_lt hn))

/-- At the first column block of a row block: the update of the zeroed scratch. -/
theorem scAt_first (c : Dev nD) (t : Fin cfg1.N) (h0 : t.val % 5 = 0) :
    scAt V c t.val t.isLt = stepAt V c t gatInit := by
  obtain ⟨n, hn⟩ := t
  cases n with
  | zero => rfl
  | succ n => exact congrArg (stepAt V c ⟨n + 1, hn⟩) (if_pos h0)

/-- At a later column block: the update of what the point before left. -/
theorem scAt_next (c : Dev nD) (t : Fin cfg1.N) (h0 : ¬t.val % 5 = 0) :
    scAt V c t.val t.isLt = stepAt V c t (scAt V c (t.val - 1) (Nat.lt_of_le_of_lt (Nat.sub_le _ _) t.isLt)) := by
  obtain ⟨n, hn⟩ := t
  cases n with
  | zero => exact absurd (Nat.zero_mod _) h0
  | succ n => exact congrArg (stepAt V c ⟨n + 1, hn⟩) (if_neg h0)

/-- The output block the body stores at position `n` (consulted only at the last column block, `n % 5 = 4`):
    the normalized, biased, activated mean of the two heads, from the scratch after the point and the bias. -/
def outAt (c : Dev nD) (n : ℕ) (hn : n < cfg1.N) : Vec F S400x128 .f32 :=
  gatOut (scAt V c n hn) (iblk1 V c 4 ⟨n, hn⟩)

/-! ## The scratch operands and the region invariant -/

/-- The scratch operands: whole scoped buffers of the kernel's own, passed beside the windows. -/
abbrev scM1_0 : Memref sig .tc .vmem S2x400x128 .f32 := Memref.whole cc1_scratch0
abbrev scM1_1 : Memref sig .tc .vmem S400x8 .f32 := Memref.whole cc1_scratch1

/-- The scoped buffers this region neither stages through nor computes in (the other region's staging
    buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The class's region invariant with the two scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The class's invariant hands out the other region's buffers, the two scratch operands at some contents and
    the generator register, -/
theorem PhiA1_split (c : Dev nD) :
    (Pipeline.ΦA spec1 c : sProp 𝕄) ⊢ iprop(rest1 (F := F) c ∗ (∃ d, owns (c : Thread nD τ) scM1_0 fullShare d)
      ∗ (∃ d, owns (c : Thread nD τ) scM1_1 fullShare d) ∗ (∃ r, prngReg c r)) := by
  rw [PhiA1_eq]; unfold rest1
  iintro ⟨⟨H0, H1, H2, H3, H4, H5, H6, H7, HS0, HS1⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS0]; · iexact HS0
  isplitl [HS1]; · iexact HS1
  iexact Hg

/-- and takes them back. -/
theorem PhiA1_join (c : Dev nD) :
    iprop(rest1 (F := F) c ∗ (∃ d, owns (c : Thread nD τ) scM1_0 fullShare d)
      ∗ (∃ d, owns (c : Thread nD τ) scM1_1 fullShare d) ∗ (∃ r, prngReg c r)) ⊢ (Pipeline.ΦA spec1 c : sProp 𝕄) := by
  rw [PhiA1_eq]; unfold rest1
  iintro ⟨⟨H0, H1, H2, H3, H4, H5, H6, H7⟩, HS0, HS1, Hg⟩
  isplitl [H0 H1 H2 H3 H4 H5 H6 H7 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iexact HS1
  iexact Hg

/-- The region invariant before position `n`: before the first point the class's (every scratch at anything);
    afterwards the two scratch operands at what the point before left in them (`scAt`), the other scoped
    buffers at anything, and the generator register at some state. -/
def PhiS (c : Dev nD) : (n : ℕ) → n ≤ cfg1.N → sProp 𝕄
  | 0, _ => Pipeline.ΦA spec1 c
  | n + 1, hn => iprop(rest1 (F := F) c ∗ owns (c : Thread nD τ) scM1_0 fullShare (scAt V c n hn).1
      ∗ owns (c : Thread nD τ) scM1_1 fullShare (scAt V c n hn).2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM1_0 fullShare (scAt V c n hn).1
      ∗ owns (c : Thread nD τ) scM1_1 fullShare (scAt V c n hn).2 ∗ (∃ r, prngReg c r)) := rfl

theorem PhiS_pos (c : Dev nD) (n : ℕ) (h : n ≤ cfg1.N) (hz : n ≠ 0) :
    PhiS V c n h = iprop(rest1 (F := F) c ∗ owns (c : Thread nD τ) scM1_0 fullShare (scAt V c (n - 1) (by omega)).1
      ∗ owns (c : Thread nD τ) scM1_1 fullShare (scAt V c (n - 1) (by omega)).2 ∗ (∃ r, prngReg c r)) := by
  cases n with
  | zero => exact absurd rfl hz
  | succ n => rfl

/-- Before any point the invariant hands out the scratch operands at SOME contents. -/
theorem PhiS_some (c : Dev nD) (n : ℕ) (h : n ≤ cfg1.N) :
    PhiS V c n h ⊢ iprop(rest1 (F := F) c ∗ (∃ d, owns (c : Thread nD τ) scM1_0 fullShare d)
      ∗ (∃ d, owns (c : Thread nD τ) scM1_1 fullShare d) ∗ (∃ r, prngReg c r)) := by
  cases n with
  | zero => exact PhiA1_split c
  | succ n =>
    rw [PhiS_succ]
    iintro ⟨Hr, HS0, HS1, Hg⟩
    isplitl [Hr]; · iexact Hr
    isplitl [HS0]; · iexists _; iexact HS0
    isplitl [HS1]; · iexists _; iexact HS1
    iexact Hg

/-! ## The pipeline's proof data -/

/-- The proof data of the second pipeline on core `c`: the arrays as the region finds them (`V`); after the body
    at point `t` each input's buffer at its block — the adjacency's filled out with the fixed word —, the output's
    at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => adjAt V c t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = adjAt V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t.val t.isLt := by dsimp only [dat1]

/-! ## What the body finds in each window's buffer -/

/-- The adjacency window is fetched at every point: its buffer holds the block's part inside the array, and
    past the array's last column whatever the buffer held (`d`). -/
theorem before1_0 (c : Dev nD) (t : Fin cfg1.N) (d) :
    (dat1 V c).before 0 t d = win1_0.fill (grid1.coords t) d (iblk1 V c 0 t) := by
  unfold Dat.before; rw [if_pos (fetch1_0 t)]
  unfold Dat.fetched Dat.blockOf iblk1; rw [A_eq1]; try rfl

/-- Each uncut input's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The mask covers every column past the array's end -/

/-- Where the column mask is set, the column is one the fetch moved: at a column block inside the array every
    column is; at the last one the mask is set on the columns below 10000 - 4 · 2048 = 1808, which are the
    array's. -/
theorem mask_cols : ∀ (J : Fin 5) (n : Fin 2048),
    IntOp.cmpi .slt (BitVec.ofNat 32 n.val) (Scalar.subi 10000#32 (Scalar.muli (BitVec.ofNat 32 J.val) 2048#32)) = 1#1 →
      n.val < (Pipeline.Clip.of J.val 2048 10000).extent 2048 := by decide +kernel

/-- The moved part of the adjacency block at a point: all 400 rows, and the columns left in the array. -/
theorem xsize1_0 : ∀ t : Fin grid1.N, win1_0.xsize (grid1.coords t) 0 = 400
    ∧ win1_0.xsize (grid1.coords t) 1 = (Pipeline.Clip.of (grid1.coords t 1).val 2048 10000).extent 2048 := by decide +kernel

theorem mask_moved (t : Fin cfg1.N) (j : S400x2048.Idx) (h : k1_pay5 (grid1.coords t) j = 1#1) :
    win1_0.moved (grid1.coords t) j = true := by
  rw [Window.moved_iff]
  rw [k1_pay5_apply] at h
  have h1 : (j 1).val < 2048 := (j 1).isLt
  have h0 : (j 0).val < 400 := (j 0).isLt
  have hm := mask_cols (grid1.coords t 1) ⟨(j 1).val, h1⟩ h
  intro a
  match a with
  | ⟨0, _⟩ => exact lt_of_lt_of_eq h0 (xsize1_0 t).1.symm
  | ⟨1, _⟩ => exact lt_of_lt_of_eq hm (xsize1_0 t).2.symm

/-- So the step at a point does not depend on what the adjacency buffer held past the array's last column. -/
theorem stepAt_fill (c : Dev nD) (t : Fin cfg1.N) (d : S400x2048.Idx → Elt F .f32)
    (s : Vec F S2x400x128 .f32 × Vec F S400x8 .f32) :
    gatStep (grid1.coords t) (win1_0.fill (grid1.coords t) d (iblk1 V c 0 t)) (iblk1 V c 1 t) (iblk1 V c 2 t) (iblk1 V c 3 t) s
      = stepAt V c t s := by
  unfold stepAt adjAt
  refine gatStep_congr_adj _ _ _ _ _ _ _ fun j hj => ?_
  have hm := mask_moved t j hj
  unfold Window.fill; rw [dif_pos hm, dif_pos hm]

/-! ## Where the output window is idle, in closed form -/

/-- The output window is idle at every column block but the last of a row block, -/
theorem idleAt1_5 : ∀ t : Fin cfg1.N, ¬t.val % 5 = 4 → cfg1.idle 5 (grid1.coords t) = true :=
  (by decide +kernel : ∀ t : Fin grid1.N, ¬t.val % 5 = 4 → idle1 5 (grid1.coords t) = true)
/-- live at the last, -/
theorem liveAt1_5 : ∀ t : Fin cfg1.N, t.val % 5 = 4 → cfg1.idle 5 (grid1.coords t) = false :=
  (by decide +kernel : ∀ t : Fin grid1.N, t.val % 5 = 4 → idle1 5 (grid1.coords t) = false)
/-- and not written back where idle. -/
theorem noFlush1_5 (t : Fin cfg1.N) (h : ¬t.val % 5 = 4) : (cfg1.win 5).flush t = false :=
  Bool.eq_false_iff.mpr fun hf => h ((flush1_5 t).mp hf)

/-! ## The step at a point, from what the body is handed -/

theorem step_first (c : Dev nD) (t : Fin cfg1.N) (d : S400x2048.Idx → Elt F .f32) (h0 : t.val % 5 = 0) :
    gatStep (grid1.coords t) (win1_0.fill (grid1.coords t) d (iblk1 V c 0 t)) (iblk1 V c 1 t) (iblk1 V c 2 t) (iblk1 V c 3 t) gatInit
      = scAt V c t.val t.isLt :=
  (stepAt_fill V c t d _).trans (scAt_first V c t h0).symm

theorem step_next (c : Dev nD) (t : Fin cfg1.N) (d : S400x2048.Idx → Elt F .f32) (h0 : ¬t.val % 5 = 0) :
    gatStep (grid1.coords t) (win1_0.fill (grid1.coords t) d (iblk1 V c 0 t)) (iblk1 V c 1 t) (iblk1 V c 2 t) (iblk1 V c 3 t)
        ((scAt V c (t.val - 1) (Nat.lt_of_le_of_lt (Nat.sub_le _ _) t.isLt)).1, (scAt V c (t.val - 1) (Nat.lt_of_le_of_lt (Nat.sub_le _ _) t.isLt)).2)
      = scAt V c t.val t.isLt :=
  (stepAt_fill V c t d _).trans (scAt_next V c t h0).symm

/-! ## The invariant's ends -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl]
  exact (PhiS_some V c _ _).trans (PhiA1_join c)

/-- The same after the last point. -/
theorem hout1 (c : Dev nD) : (dat1 V c).Φ (Fin.last cfg1.N) ⊢ Pipeline.ΦA spec1 c :=
  Phi_out1 V c _ (by rw [Fin.val_last]; have : cfg1.N = 125 := N_1; omega)

end Regions

end Cert.KernelIdeal.Hand

end
-- ==== Proof.KI.Run1A.lean ====
/- The second region's body run at a grid point, case by case, with exact contents.

   The body has two conditionals on the column block J of the point: the reset of the carried scratch (taken at
   J = 0) and the epilogue that stores the output block (taken at J = 4). The three cases that occur are
   A (J = 0: reset, no epilogue), B (0 < J < 4: neither) and C (J = 4: epilogue only). In each case the body,
   started on whole buffers holding the point's blocks adj, xv, f1m, f2t, b and the scratch (acc, ss), hands the
   inputs back untouched and leaves the scratch at gatStep i adj xv f1m f2t (acc, ss) — in case A at
   gatStep … gatInit whatever the scratch held —, and in case C the output buffer at gatOut of that scratch and b;
   in cases A and B the output buffer is handed back as found.

   This module: the two conditions in closed form over the grid, where the output window is idle, and case A. -/
import proofs.«144953_g79190607004093_cont_9to1c4b_603_4_alg».proof.Proof.KI.Steps
import proofs.«144953_g79190607004093_cont_9to1c4b_603_4_alg».proof.Proof.Gen.KernelIdeal.Launch
import proofs.«144953_g79190607004093_cont_9to1c4b_603_4_alg».proof.Proof.Gen.KernelIdeal.Skeleton
import proofs.«144953_g79190607004093_cont_9to1c4b_603_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, and where the output window is idle -/

/-- The first conditional of the body (the reset of the scratch): taken at column block 0. -/
abbrev cond1_0 (i : grid1.Coords) : Prop := (Scalar.cmpi .ne (Scalar.extui (Scalar.cmpi .eq (BitVec.ofNat 32 (i 1).val) 0#32)) 0#32) = 1#1
/-- It holds at the points ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional of the body (the epilogue that stores the output block): taken at column block 4. -/
abbrev cond1_1 (i : grid1.Coords) : Prop := k1_cond2 i = 1#1
/-- It holds at the points ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the epilogue is not taken the output window is idle and is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- Where it is taken the window is live. -/
theorem liveAt1_5_C : ∀ t : Fin cfg1.N, ¬cond1_0 (grid1.coords t) → cond1_1 (grid1.coords t) → cfg1.idle 5 (grid1.coords t) = false := by decide +kernel
/-- The two conditions never hold together: the three cases are all there are. -/
theorem not_cond1_both : ∀ t : Fin cfg1.N, ¬(cond1_0 (grid1.coords t) ∧ cond1_1 (grid1.coords t)) := by decide +kernel

/-- A load through a rectangle, after a list of writes over unknown contents, reads the canonical contents of the writes
    at the rectangle's indices. -/
theorem readCov_eq_ld_canon {sig : RefSig} {κ : Kind} {sp : Space} {s : Shape} {e : EltTy} {Val : EltTy → Type} [∀ e, Nonempty (Val e)]
    (v : View sig κ sp s e) (L : List (View.Piece Val s e)) (r : Rect s) :
    v.readCov L r.toLoadRect = View.ld (View.canon L) r := View.readCov_eq_canon' v L r.toLoadRect

theorem gatInit_eq : (gatInit (F := F)) = (k1_pay3 (F := F), k1_pay4 (F := F)) := rfl

/-! ## The body at a point of column block 0 -/

set_option maxHeartbeats 1000000 in
/-- Case A (column block 0): whatever the scratch held, the reset zeroes it and the four stores lay the point's
    contributions over the zeros: the scratch is left at the step of gatInit. Inputs and the idle output buffer come back as found. -/
theorem run1_A (c : Dev nD) (i : grid1.Coords) (arg2 : Memref sig .tc .vmem S400x2048 .f32) (harg2 : arg2.IsWhole) (arg3 : Memref sig .tc .vmem S2048x128 .f32) (harg3 : arg3.IsWhole) (arg4 : Memref sig .tc .vmem S400x4 .f32) (harg4 : arg4.IsWhole) (arg5 : Memref sig .tc .vmem S8x2048 .f32) (harg5 : arg5.IsWhole) (arg6 : Memref sig .tc .vmem S2x128 .f32) (harg6 : arg6.IsWhole) (arg7 : Memref sig .tc .vmem S400x128 .f32) (harg7 : arg7.IsWhole) (arg8 : Memref sig .tc .vmem S2x400x128 .f32) (harg8 : arg8.IsWhole) (arg9 : Memref sig .tc .vmem S400x8 .f32) (harg9 : arg9.IsWhole) (hc0 : cond1_0 i) (hc1 : ¬cond1_1 i)
    (adj : Vec F S400x2048 .f32) (xv : Vec F S2048x128 .f32) (f1m : Vec F S400x4 .f32) (f2t : Vec F S8x2048 .f32)
    (b : Vec F S2x128 .f32) (xo : Vec F S400x128 .f32)
    (E : Set ℕ) (K : PUnit → sProp 𝕄) :
    iprop(owns (c : Thread nD τ) arg2 fullShare adj
        ∗ owns (c : Thread nD τ) arg3 fullShare xv
        ∗ owns (c : Thread nD τ) arg4 fullShare f1m
        ∗ owns (c : Thread nD τ) arg5 fullShare f2t
        ∗ owns (c : Thread nD τ) arg6 fullShare b
        ∗ owns (c : Thread nD τ) arg7 fullShare xo
        ∗ (∃ d, owns (c : Thread nD τ) arg8 fullShare d)
        ∗ (∃ d, owns (c : Thread nD τ) arg9 fullShare d)
        ∗ (iprop(owns (c : Thread nD τ) arg2 fullShare adj
        ∗ owns (c : Thread nD τ) arg3 fullShare xv
        ∗ owns (c : Thread nD τ) arg4 fullShare f1m
        ∗ owns (c : Thread nD τ) arg5 fullShare f2t
        ∗ owns (c : Thread nD τ) arg6 fullShare b
        ∗ owns (c : Thread nD τ) arg7 fullShare xo
        ∗ owns (c : Thread nD τ) arg8 fullShare (gatStep i adj xv f1m f2t gatInit).1
        ∗ owns (c : Thread nD τ) arg9 fullShare (gatStep i adj xv f1m f2t gatInit).2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  simp only [k1_part1_eq_skeleton, k1_part2_eq_skeleton]; unfold k1_part1_skel k1_part2_skel
  simp only [bind_assoc, pure_bind]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    rotate_left
    · iexact H8
    · ipureintro
      delta run1_A.sl.x_2 run1_A.sl.H8_2 run1_A.sl.x run1_A.sl.H8_1 run1_A.sl.v29 run1_A.sl.H9_1
      rw [read_writes_cons, read_writes_cons, read_writes_cons, View.writes_nil, overlay_whole]
      simp only [readAt_unread_eq_ld, readCov_eq_ld_canon, View.canon_cons]
      rw [overlay_whole, ld_overlay_rA0_rA1, ld_whole adj, ld_whole xv, gatInit_eq, gatStep_fst]
      simp only [gatE0, gatE1]
  · iexists _; isplitr
    rotate_left
    · iexact H9
    · ipureintro
      delta run1_A.sl.x_1 run1_A.sl.H9_2 run1_A.sl.v29 run1_A.sl.H9_1
      rw [read_writes_cons, read_writes_cons, read_writes_cons, View.writes_nil, overlay_whole]
      simp only [readAt_unread_eq_ld, readCov_eq_ld_canon, View.canon_cons]
      rw [overlay_whole, ld_overlay_rS0_rS1, ld_whole adj, gatInit_eq, gatStep_snd]

end Cert.KernelIdeal.Hand

end
-- ==== Proof.KI.Run1B.lean ====
/- The second region's body run at a grid point: case B (0 < J < 4, neither conditional taken). The scratch found at
   (acc, ss) is left at gatStep i adj xv f1m f2t (acc, ss); the inputs and the idle output buffer are handed back. -/
import proofs.«144953_g79190607004093_cont_9to1c4b_603_4_alg».proof.Proof.KI.Run1A
import proofs.«144953_g79190607004093_cont_9to1c4b_603_4_alg».proof.Proof.Gen.KernelIdeal.Launch
import proofs.«144953_g79190607004093_cont_9to1c4b_603_4_alg».proof.Proof.Gen.KernelIdeal.Skeleton
import proofs.«144953_g79190607004093_cont_9to1c4b_603_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body at a point of column blocks 1 … 3 -/

set_option maxHeartbeats 1000000 in
/-- Case B (column blocks 1 … 3): the four stores lay the point's contributions over the scratch found at (acc, ss):
    it is left at the step of (acc, ss). Inputs and the idle output buffer come back as found. -/
theorem run1_B (c : Dev nD) (i : grid1.Coords) (arg2 : Memref sig .tc .vmem S400x2048 .f32) (harg2 : arg2.IsWhole) (arg3 : Memref sig .tc .vmem S2048x128 .f32) (harg3 : arg3.IsWhole) (arg4 : Memref sig .tc .vmem S400x4 .f32) (harg4 : arg4.IsWhole) (arg5 : Memref sig .tc .vmem S8x2048 .f32) (harg5 : arg5.IsWhole) (arg6 : Memref sig .tc .vmem S2x128 .f32) (harg6 : arg6.IsWhole) (arg7 : Memref sig .tc .vmem S400x128 .f32) (harg7 : arg7.IsWhole) (arg8 : Memref sig .tc .vmem S2x400x128 .f32) (harg8 : arg8.IsWhole) (arg9 : Memref sig .tc .vmem S400x8 .f32) (harg9 : arg9.IsWhole) (hc0 : ¬cond1_0 i) (hc1 : ¬cond1_1 i)
    (adj : Vec F S400x2048 .f32) (xv : Vec F S2048x128 .f32) (f1m : Vec F S400x4 .f32) (f2t : Vec F S8x2048 .f32)
    (b : Vec F S2x128 .f32) (xo : Vec F S400x128 .f32) (acc : Vec F S2x400x128 .f32) (ss : Vec F S400x8 .f32)
    (E : Set ℕ) (K : PUnit → sProp 𝕄) :
    iprop(owns (c : Thread nD τ) arg2 fullShare adj ∗ owns (c : Thread nD τ) arg3 fullShare xv ∗ owns (c : Thread nD τ) arg4 fullShare f1m
        ∗ owns (c : Thread nD τ) arg5 fullShare f2t ∗ owns (c : Thread nD τ) arg6 fullShare b ∗ owns (c : Thread nD τ) arg7 fullShare xo
        ∗ owns (c : Thread nD τ) arg8 fullShare acc ∗ owns (c : Thread nD τ) arg9 fullShare ss
        ∗ (iprop(owns (c : Thread nD τ) arg2 fullShare adj ∗ owns (c : Thread nD τ) arg3 fullShare xv ∗ owns (c : Thread nD τ) arg4 fullShare f1m
            ∗ owns (c : Thread nD τ) arg5 fullShare f2t ∗ owns (c : Thread nD τ) arg6 fullShare b ∗ owns (c : Thread nD τ) arg7 fullShare xo
            ∗ owns (c : Thread nD τ) arg8 fullShare (gatStep i adj xv f1m f2t (acc, ss)).1
            ∗ owns (c : Thread nD τ) arg9 fullShare (gatStep i adj xv f1m f2t (acc, ss)).2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  simp only [k1_part1_eq_skeleton, k1_part2_eq_skeleton]; unfold k1_part1_skel k1_part2_skel
  simp only [bind_assoc, pure_bind]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    rotate_left
    · iexact H8
    · ipureintro
      rw [read_writes_cons, read_writes_cons, View.writes_nil, harg8.read_unread, gatStep_fst]
      have hx1 : run1_B.sl.x_1 c arg8 harg8 acc = View.ld acc rA1 := readAt_unread_eq_ld harg8 acc _
      rw [hx1]
      simp only [gatE0, gatE1, readAt_unread_eq_ld]
      rw [ld_whole adj, ld_whole xv]
  · iexists _; isplitr
    rotate_left
    · iexact H9
    · ipureintro
      rw [read_writes_cons, read_writes_cons, View.writes_nil, harg9.read_unread, gatStep_snd]
      have hx : run1_B.sl.x c arg9 harg9 ss = View.ld ss rS1 := readAt_unread_eq_ld harg9 ss _
      rw [hx]
      simp only [readAt_unread_eq_ld]
      rw [ld_whole adj]

end Cert.KernelIdeal.Hand

end
-- ==== Proof.KI.Run1C.lean ====
/- The second region's body run at a grid point: case C (J = 4, the last column block: the reset is not taken, the
   epilogue is). The scratch found at (acc, ss) is left at gatStep i adj xv f1m f2t (acc, ss), as at the other points;
   then the epilogue reads each head's numerator row and denominator column back through the rectangle just stored
   (the two heads' rectangles are disjoint, so each reads its own head's payload) and stores into the output buffer,
   whatever it held, the block gatOut of the updated scratch and the bias. The inputs are handed back. -/
import proofs.«144953_g79190607004093_cont_9to1c4b_603_4_alg».proof.Proof.KI.Run1B
import proofs.«144953_g79190607004093_cont_9to1c4b_603_4_alg».proof.Proof.Gen.KernelIdeal.Launch
import proofs.«144953_g79190607004093_cont_9to1c4b_603_4_alg».proof.Proof.Gen.KernelIdeal.Skeleton
import proofs.«144953_g79190607004093_cont_9to1c4b_603_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body at a point of column block 4 -/

set_option maxHeartbeats 1000000 in
theorem run1_C (c : Dev nD) (i : grid1.Coords) (arg2 : Memref sig .tc .vmem S400x2048 .f32) (harg2 : arg2.IsWhole) (arg3 : Memref sig .tc .vmem S2048x128 .f32) (harg3 : arg3.IsWhole) (arg4 : Memref sig .tc .vmem S400x4 .f32) (harg4 : arg4.IsWhole) (arg5 : Memref sig .tc .vmem S8x2048 .f32) (harg5 : arg5.IsWhole) (arg6 : Memref sig .tc .vmem S2x128 .f32) (harg6 : arg6.IsWhole) (arg7 : Memref sig .tc .vmem S400x128 .f32) (harg7 : arg7.IsWhole) (arg8 : Memref sig .tc .vmem S2x400x128 .f32) (harg8 : arg8.IsWhole) (arg9 : Memref sig .tc .vmem S400x8 .f32) (harg9 : arg9.IsWhole)
    (hc0 : ¬cond1_0 i) (hc1 : cond1_1 i)
    (adj : Vec F S400x2048 .f32) (xv : Vec F S2048x128 .f32) (f1m : Vec F S400x4 .f32) (f2t : Vec F S8x2048 .f32) (b : Vec F S2x128 .f32)
    (acc : Vec F S2x400x128 .f32) (ss : Vec F S400x8 .f32) (E : Set ℕ) (K : PUnit → sProp 𝕄) :
    iprop(owns (c : Thread nD τ) arg2 fullShare adj ∗ owns (c : Thread nD τ) arg3 fullShare xv ∗ owns (c : Thread nD τ) arg4 fullShare f1m
        ∗ owns (c : Thread nD τ) arg5 fullShare f2t ∗ owns (c : Thread nD τ) arg6 fullShare b ∗ (∃ d, owns (c : Thread nD τ) arg7 fullShare d)
        ∗ owns (c : Thread nD τ) arg8 fullShare acc ∗ owns (c : Thread nD τ) arg9 fullShare ss
        ∗ (iprop(owns (c : Thread nD τ) arg2 fullShare adj ∗ owns (c : Thread nD τ) arg3 fullShare xv ∗ owns (c : Thread nD τ) arg4 fullShare f1m
            ∗ owns (c : Thread nD τ) arg5 fullShare f2t ∗ owns (c : Thread nD τ) arg6 fullShare b
            ∗ owns (c : Thread nD τ) arg7 fullShare (gatOut (gatStep i adj xv f1m f2t (acc, ss)) b)
            ∗ owns (c : Thread nD τ) arg8 fullShare (gatStep i adj xv f1m f2t (acc, ss)).1
            ∗ owns (c : Thread nD τ) arg9 fullShare (gatStep i adj xv f1m f2t (acc, ss)).2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  simp only [k1_part1_eq_skeleton, k1_part2_eq_skeleton]; unfold k1_part1_skel k1_part2_skel
  simp only [bind_assoc, pure_bind]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    rotate_left
    · iexact H7
    · ipureintro
      delta run1_C.sl.v78 run1_C.sl.v80 run1_C.sl.v92 run1_C.sl.v94 run1_C.sl.H8_2 run1_C.sl.H9_2 run1_C.sl.x_1 run1_C.sl.x
      rw [read_writes_cons, overlay_whole]
      simp only [readAt_unread_eq_ld, readCov_eq_ld_canon, View.canon_cons]
      simp only [ld_overlay_rA1_rA0, ld_overlay_rS1_rS0, ld_overlay_self]
      rw [ld_whole adj, ld_whole xv]
      unfold gatOut
      rw [ld_gatStep_fst_rA0, ld_gatStep_snd_rS0, ld_gatStep_fst_rA1, ld_gatStep_snd_rS1]
      simp only [gatE0, gatE1]
      rw [ld_overlay_rA1_rA0, ld_overlay_self, ld_overlay_rS1_rS0, ld_overlay_self]
  isplitl [H8]
  · iexists _; isplitr
    rotate_left
    · iexact H8
    · ipureintro
      delta run1_C.sl.H8_2 run1_C.sl.x_1
      rw [read_writes_cons, read_writes_cons, View.writes_nil, harg8.read_unread, gatStep_fst]
      simp only [gatE0, gatE1, readAt_unread_eq_ld]
      rw [ld_whole adj, ld_whole xv]
  · iexists _; isplitr
    rotate_left
    · iexact H9
    · ipureintro
      delta run1_C.sl.H9_2 run1_C.sl.x
      rw [read_writes_cons, read_writes_cons, View.writes_nil, harg9.read_unread, gatStep_snd]
      simp only [readAt_unread_eq_ld]
      rw [ld_whole adj]

end Cert.KernelIdeal.Hand

end
-- ==== Proof.KI.Dat1.lean ====
/- The second region's body obligation: at every grid point the body, handed the windows' buffers at what they
   then hold and the scratch at what the point before left, leaves the scratch at scAt of this point, the inputs
   as they were — the adjacency buffer stated on the part inside the array —, and the output buffer at outAt at
   the last column block of a row block, untouched elsewhere.

   Three cases by the column block J = t mod 5: J = 0 (the scratch is reset first, whatever it held), 0 < J < 4
   (the scratch of the point before is updated), J = 4 (updated, then the output block stored). In each the
   body's run on whole buffers gives the scratch as one step at the block the buffer holds, which is the step at
   the block filled out with the fixed word because the mask hides every column past the array's end. -/
import proofs.«144953_g79190607004093_cont_9to1c4b_603_4_alg».proof.Proof.KI.Dat1a
import proofs.«144953_g79190607004093_cont_9to1c4b_603_4_alg».proof.Proof.KI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered: a parameter, which the run instantiates
variable (V : (c : Dev nD) → (b : Ref sig .tc) → Buf (Elt F) ((c : Thread nD τ).loc b))

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the adjacency window's buffer stated on the part inside the array, the output
    window's as found wherever it is idle. -/
def bodyPost1 (c : Dev nD) (t : Fin cfg1.N) : sProp 𝕄 :=
  iprop((dat1 V c).Φ t.succ ∗ (dat1 V c).owesAt () t.succ
    ∗ (dat1 V c).leaves 0 t
    ∗ (dat1 V c).leaves 1 t
    ∗ (dat1 V c).leaves 2 t
    ∗ (dat1 V c).leaves 3 t
    ∗ (dat1 V c).leaves 4 t
    ∗ (dat1 V c).leaves 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ, PhiS_castSucc]
  rw [show (dat1 V c).leaves 0 t = iprop(∃ d, owns (c : Thread nD τ) (st1_0 t) fullShare
      (win1_0.fill (grid1.coords t) d (win1_0.cut (grid1.coords t) ((dat1 V c).after 0 t)))) from rfl,
    after1_0, show win1_0.cut (grid1.coords t) (adjAt V c t) = iblk1 V c 0 t from win1_0.cut_fill _ _ _]
  rw [show (dat1 V c).leaves 1 t = owns (c : Thread nD τ) (st1_1 t) fullShare ((dat1 V c).after 1 t) from rfl, after1_1,
    show (dat1 V c).leaves 2 t = owns (c : Thread nD τ) (st1_2 t) fullShare ((dat1 V c).after 2 t) from rfl, after1_2,
    show (dat1 V c).leaves 3 t = owns (c : Thread nD τ) (st1_3 t) fullShare ((dat1 V c).after 3 t) from rfl, after1_3,
    show (dat1 V c).leaves 4 t = owns (c : Thread nD τ) (st1_4 t) fullShare ((dat1 V c).after 4 t) from rfl, after1_4]
  by_cases h0 : t.val % 5 = 0
  · -- first column block: the scratch is reset, the output window idle
    have h4 : ¬t.val % 5 = 4 := by omega
    rw [Dat.leaves_idle (dat1 V c) 5 t (idleAt1_5 t h4) (noFlush1_5 t h4)]
    refine (sep_mono (PhiS_some V c _ _) .rfl).trans ?_
    iintro ⟨⟨Hr, ⟨%e0, HS0⟩, ⟨%e1, HS1⟩, Hg⟩, Ho, ⟨%d0, H0⟩, ⟨%d1, H1⟩, ⟨%d2, H2⟩, ⟨%d3, H3⟩, ⟨%d4, H4⟩, ⟨%d5, H5⟩⟩
    rw [← step_first V c t d0 h0]
    iapply (run1_A c (grid1.coords t) _ _ _ _ _ _ _ _ _ _ _ _ _ _ _ _ ((hcond1_0 t).mpr h0) (fun h => h4 ((hcond1_1 t).mp h))
      (win1_0.fill (grid1.coords t) d0 (iblk1 V c 0 t)) (iblk1 V c 1 t) (iblk1 V c 2 t) (iblk1 V c 3 t) (iblk1 V c 4 t)
      ((dat1 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [Hr HS0 HS1 Hg]
    · isplitl [Hr]; · iexact Hr
      isplitl [HS0]; · iexact HS0
      isplitl [HS1]; · iexact HS1
      iexact Hg
    isplitl [Ho]; · iexact Ho
    isplitl [H0]; · iexists _; iexact H0
    isplitl [H1]; · iexact H1
    isplitl [H2]; · iexact H2
    isplitl [H3]; · iexact H3
    isplitl [H4]; · iexact H4
    iexists _; iexact H5
  · have hz : t.val ≠ 0 := fun h => h0 (by rw [h])
    rw [PhiS_pos V c _ _ hz]
    by_cases h4 : t.val % 5 = 4
    · -- last column block: the output block is stored
      rw [show (dat1 V c).leaves 5 t = owns (c : Thread nD τ) (st1_5 t) fullShare ((dat1 V c).after 5 t) from by
        unfold Dat.leaves; rw [show cfg1.idle 5 (cfg1.grid.coords t) = false from liveAt1_5 t h4], after1_5]
      unfold outAt
      iintro ⟨⟨Hr, HS0, HS1, Hg⟩, Ho, ⟨%d0, H0⟩, ⟨%d1, H1⟩, ⟨%d2, H2⟩, ⟨%d3, H3⟩, ⟨%d4, H4⟩, ⟨%d5, H5⟩⟩
      rw [← step_next V c t d0 h0]
      iapply (run1_C c (grid1.coords t) _ _ _ _ _ _ _ _ _ _ _ _ _ _ _ _ (fun h => h0 ((hcond1_0 t).mp h)) ((hcond1_1 t).mpr h4)
        (win1_0.fill (grid1.coords t) d0 (iblk1 V c 0 t)) (iblk1 V c 1 t) (iblk1 V c 2 t) (iblk1 V c 3 t) (iblk1 V c 4 t)
        (scAt V c (t.val - 1) (Nat.lt_of_le_of_lt (Nat.sub_le _ _) t.isLt)).1
        (scAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [Hr HS0 HS1 Hg]
      · isplitl [Hr]; · iexact Hr
        isplitl [HS0]; · iexact HS0
        isplitl [HS1]; · iexact HS1
        iexact Hg
      isplitl [Ho]; · iexact Ho
      isplitl [H0]; · iexists _; iexact H0
      isplitl [H1]; · iexact H1
      isplitl [H2]; · iexact H2
      isplitl [H3]; · iexact H3
      isplitl [H4]; · iexact H4
      iexact H5
    · -- a column block in between: the output window idle
      rw [Dat.leaves_idle (dat1 V c) 5 t (idleAt1_5 t h4) (noFlush1_5 t h4)]
      iintro ⟨⟨Hr, HS0, HS1, Hg⟩, Ho, ⟨%d0, H0⟩, ⟨%d1, H1⟩, ⟨%d2, H2⟩, ⟨%d3, H3⟩, ⟨%d4, H4⟩, ⟨%d5, H5⟩⟩
      rw [← step_next V c t d0 h0]
      iapply (run1_B c (grid1.coords t) _ _ _ _ _ _ _ _ _ _ _ _ _ _ _ _ (fun h => h0 ((hcond1_0 t).mp h)) (fun h => h4 ((hcond1_1 t).mp h))
        (win1_0.fill (grid1.coords t) d0 (iblk1 V c 0 t)) (iblk1 V c 1 t) (iblk1 V c 2 t) (iblk1 V c 3 t) (iblk1 V c 4 t)
        ((dat1 V c).before 5 t d5)
        (scAt V c (t.val - 1) (Nat.lt_of_le_of_lt (Nat.sub_le _ _) t.isLt)).1
        (scAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Hr HS0 HS1 Hg]
      · isplitl [Hr]; · iexact Hr
        isplitl [HS0]; · iexact HS0
        isplitl [HS1]; · iexact HS1
        iexact Hg
      isplitl [Ho]; · iexact Ho
      isplitl [H0]; · iexists _; iexact H0
      isplitl [H1]; · iexact H1
      isplitl [H2]; · iexact H2
      isplitl [H3]; · iexact H3
      isplitl [H4]; · iexact H4
      iexists _; iexact H5

/-- The library's body obligation, at every point (in the form that states a clipped window's buffer on the
    part inside the array). -/
theorem body_obligation1 (c : Dev nD) : BodyObligationLoose (dat1 (F := F) V c) (defs₀ (F := F)) Variants.none () Set.univ := fun t => by
  rw [bigSep_W1, bigSep_W1]
  exact sound_body1 V c t

end Regions

end Cert.KernelIdeal.Hand

end
-- ==== Proof.KI.Regions.lean ====
/- The run of the whole program, with its result named.

   The program is seven segments: a host stretch that packs the four attention vectors and a block of zeros into one
   128 x 8 matrix; region 0 (the projection); four host stretches that slice the projected scores, take the maximum
   over rows of the second pair and shift the first pair by it (clamped at zero), and pad the projected features and
   the transposed scores with zeros; and region 1 (the attention pass). The contents of the unscoped buffers at the
   eight boundaries form a fold from the launch memory: a host stretch applies its operations to the valuation; a
   region leaves each of its arrays at what its write-backs leave (an input array as entered, an output array with
   every block written) and every other buffer as entered.

   Each region is a segment over the thread state "every unscoped buffer at the boundary's contents, the generator
   register at some state, nothing owed": at entry its arrays are split out of the unscoped buffers, at exit they are
   put back at the next boundary's contents; the invariant of the region's proof data is entered from, and left at,
   the scoped buffers no window stages beside the generator register.

   Consequences: every weakly fair execution terminates, nothing faulting; at the end the result array holds what
   region 1's write-backs leave from its entry contents (run_named); no host operation writes an argument, and a
   region reads an argument through an input window or not at all, so the six arguments end as launched (frame). -/
import proofs.«144953_g79190607004093_cont_9to1c4b_603_4_alg».proof.Proof.KI.Body0
import proofs.«144953_g79190607004093_cont_9to1c4b_603_4_alg».proof.Proof.KI.Dat1
import proofs.«144953_g79190607004093_cont_9to1c4b_603_4_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents of the unscoped buffers at each boundary of the run: a fold from the launch memory -/

/-- At launch. -/
abbrev W0 (c : Dev nD) : Valuation τ sig (Elt F) := fun b => m (c, b)
/-- After the first host stretch (the packing of the attention vectors): region 0's entry. -/
abbrev W1 (c : Dev nD) : Valuation τ sig (Elt F) := StableHlo.after hostOps0 (W0 m c)
/-- The same read at the core's references: what region 0's proof data take. -/
abbrev Vin0 : (c : Dev nD) → (b : Ref sig .tc) → Buf (Elt F) ((c : Thread nD τ).loc b) := fun c b => W1 m c b
/-- At region 0's exit: its arrays at what the write-backs leave, every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

/-- After the four host stretches between the regions (the slices, the column maximum and the shift, the two
    paddings, the transposition), in order: region 1's entry. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
/-- The same read at the core's references: what region 1's proof data take. -/
abbrev Vin1 : (c : Dev nD) → (b : Ref sig .tc) → Buf (Elt F) ((c : Thread nD τ).loc b) := fun c b => W6 m c b
/-- At region 1's exit: its arrays at what the write-backs leave, every other buffer as entered. -/
def W7 (c : Dev nD) : Valuation τ sig (Elt F) :=
  Pipeline.withArrays spec1 c (W6 m c) fun w => (dat1 (Vin1 m) c).arrAt w cfg1.N
theorem W7_arr (c : Dev nD) (w : Fin cfg1.W) :
    W7 m c (Proc.devRef .tc (Pipeline.arrRef spec1 w)) = (dat1 (Vin1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vout1 : (c : Dev nD) → (b : Ref sig .tc) → Buf (Elt F) ((c : Thread nD τ).loc b) := fun c b => W7 m c b
theorem hF1 (c : Dev nD) (w : Fin cfg1.W) : (dat1 (Vin1 m) c).arrAt w cfg1.N = Vout1 m c (Pipeline.arrRef spec1 w) :=
  (W7_arr m c w).symm
theorem hrest1 (c : Dev nD) : ∀ b, b ∉ Finset.univ.image (Pipeline.arrRef spec1) → Vout1 m c b = Vin1 m c b :=
  fun b hb => W7_of_ne m c b fun w e => hb (Finset.mem_image.mpr ⟨w, Finset.mem_univ _, e⟩)

/-! ### The arguments end as launched: no host operation writes one, and a region reads an argument through an input
    window (whose array ends as entered) or not at all -/

/-- A buffer no host stretch between the regions writes is at region 1's entry what it was at region 0's exit. -/
theorem W6_of (c : Dev nD) (r : Ref sig .tc) (h1 : r ∉ hostOps1_W) (h2 : r ∉ hostOps1_1_W) (h3 : r ∉ hostOps1_2_W) (h4 : r ∉ hostOps1_3_W) :
    W6 m c r = W2 m c r :=
  (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    StableHlo.after_of_writes_sub hostOps1 _ hostOps1_writes h1
theorem W1_of (c : Dev nD) (r : Ref sig .tc) (h : r ∉ hostOps0_W) : W1 m c r = W0 m c r :=
  StableHlo.after_of_writes_sub hostOps0 _ hostOps0_writes h

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W2 m c (Proc.devRef .tc main_arg0) := W6_of m c main_arg0 (by decide) (by decide) (by decide) (by decide)
    _ = W1 m c (Proc.devRef .tc main_arg0) := (W2_arr m c 0).trans (((dat0 (Vin0 m) c).arrAt_in 0 rfl _).trans (A_eq0 (Vin0 m) c 0))
    _ = W0 m c (Proc.devRef .tc main_arg0) := W1_of m c main_arg0 (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := (W7_arr m c 0).trans (((dat1 (Vin1 m) c).arrAt_in 0 rfl _).trans (A_eq1 (Vin1 m) c 0))
    _ = W2 m c (Proc.devRef .tc main_arg1) := W6_of m c main_arg1 (by decide) (by decide) (by decide) (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W2 m c (Proc.devRef .tc main_arg2) := W6_of m c main_arg2 (by decide) (by decide) (by decide) (by decide)
    _ = W1 m c (Proc.devRef .tc main_arg2) := (W2_arr m c 1).trans (((dat0 (Vin0 m) c).arrAt_in 1 rfl _).trans (A_eq0 (Vin0 m) c 1))
    _ = W0 m c (Proc.devRef .tc main_arg2) := W1_of m c main_arg2 (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W2 m c (Proc.devRef .tc main_arg3) := W6_of m c main_arg3 (by decide) (by decide) (by decide) (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = W2 m c (Proc.devRef .tc main_arg4) := W6_of m c main_arg4 (by decide) (by decide) (by decide) (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := (W7_arr m c 4).trans (((dat1 (Vin1 m) c).arrAt_in 4 rfl _).trans (A_eq1 (Vin1 m) c 4))
    _ = W2 m c (Proc.devRef .tc main_arg5) := W6_of m c main_arg5 (by decide) (by decide) (by decide) (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl

/-! ## The proof data family and the thread state -/

/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱z : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state and what it is
    owed, nothing. -/
abbrev Rr (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱z Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core is owed: every unscoped buffer at the last contents, the generator
    register at some state. -/
abbrev Tfin (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at W1, left at W2. Its arrays are split out of
    the unscoped buffers and put back at the exit contents; the generator register goes into the invariant and comes
    out; nothing is owed; the kernel has no semaphore of its own. -/
def reg0 : Pipeline.RegionSeg (pcfgs (F := F)) adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W6, left at W7. As region 0; its invariant
    (which carries the two accumulators, scoped buffers no window stages) is entered from and left at the untouched
    scoped rest beside the generator register. -/
def reg1 : Pipeline.RegionSeg (pcfgs (F := F)) adm (pdats m) () defs₀ 𝒱z Lz lvz 1 where
  win := launch1.win.to₀
  block_pos := launch1.block_pos
  stage_whole := launch1.stage_whole
  K := PEmpty
  osem k := k.elim
  ho := Pipeline.OwnSemFacts.none _
  hbody c := body_obligation1 (Vin1 m) c
  hwaits := Pipeline.hwaits_of_owed_zero _ _ _ _ Lz lvz 1 fun _ _ => rfl
  pre c := iprop(StableHlo.held (c : Thread nD τ) (Pipeline.ucRefs τ sig) (W6 m c) ∗ Rr c)
  post c := iprop(Tfin m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vin1 m) c).Φ 0 from rfl]
    have h := hin1 (Vin1 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (Vin1 m) c).Φ (Fin.last _) from rfl]
    have h := hout1 (Vin1 m) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 7 segments in order: a host segment per stretch from its boundary's contents, a region per kernel. -/
abbrev segsH : List (Pipeline.Seg (pcfgs (F := F)) adm (pdats m) () defs₀ 𝒱z Lz lvz) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m) ]

variable (ρ : Dev nD → PrngReg)

set_option backward.isDefEq.respectTransparency.types false in
/-- THE RUN. From any memory with zero counters, every weakly fair execution of the program on the cores terminates,
    nothing faulting, and in every final state every unscoped buffer of a core holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱z Lz lvz m ρ main (segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tfin m)
    (hch := ⟨fun _ => .rfl, fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE RUN WITH THE RESULT NAMED: the result array ends holding what region 1's write-backs leave in it, from the
    contents region 1 is entered at; the six arguments end as launched. -/
theorem run_named : θ_run defs (onTc (τ := τ) (main (F := F))) ⟨m, fun _ => 0, ρ⟩ (fun r => ∀ c : Dev nD,
      r.2.mem ((c.tc : Thread nD τ).loc main_v23) = (dat1 (Vin1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v23 (by decide))).trans (W7_arr m c 5),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_all m ρ)

/-- THE FRAME: the program runs, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Hand

end
-- ==== Proof.KernelArrays.lean ====
/- Region 0's two output arrays as whole-array functions of the region's input arrays.

   The region walks 5 blocks of 2000 rows. At point t the body leaves in the block of each output the payload of the
   point's input blocks: rows 2000·t … 2000·t + 1999 of the inputs, the whole weight matrix and the whole matrix of
   attention vectors (their windows have a constant block index). Every point writes its two output blocks back, and
   the blocks of the 5 points tile the 10000 rows: row r lies in the block of point r / 2000, at row r % 2000 of it.
   So each output array ends holding, at row r, the payload of row block r / 2000 of the inputs read at row r % 2000:
   the functions G3 and G4 below. The payloads themselves are not opened here. -/
import proofs.«144953_g79190607004093_cont_9to1c4b_603_4_alg».proof.Proof.KI.Body0
import Idealize.ShloMosaic.Lib.Pipeline.Value
import Idealize.ShloMosaic.Lib.ValueIdx
import Idealize.ShloMosaic.Lib.Tactic

set_option maxRecDepth 16384

noncomputable section

namespace Cert.KernelIdeal.HandValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable {F : FTy → Type} [FloatOps F]

/-- Rows 2000·p … 2000·p + 1999 of an array of 10000 rows of 128. -/
def rowBlock (a0 : S10000x128.Idx → Elt F .f32) (p : Fin 5) : Vec F S2000x128 .f32 :=
  fun y => a0 (ix2 ⟨2000 * p.val + (y 0).val, by have := idx2_lt0 y; have := p.isLt; omega⟩ (y 1))

/-- The projected features as one function of the inputs and the weights: row r is computed with its block of 2000 rows. -/
def G3 (a0 : S10000x128.Idx → Elt F .f32) (a2 : S128x128.Idx → Elt F .f32) : S10000x128.Idx → Elt F .f32 :=
  fun i => k0_pay1 (rowBlock a0 ⟨(i 0).val / 2000, by have := idx2_lt0 i; omega⟩) a2
    (ix2 ⟨(i 0).val % 2000, Nat.mod_lt _ (by decide)⟩ (i 1))

/-- The attention logits' activations likewise. -/
def G4 (a0 : S10000x128.Idx → Elt F .f32) (a2 : S128x128.Idx → Elt F .f32) (a9 : S128x8.Idx → Elt F .f32) : S10000x8.Idx → Elt F .f32 :=
  fun i => k0_pay2 (rowBlock a0 ⟨(i 0).val / 2000, by have := idx2_lt0 i; omega⟩) a2 a9
    (ix2 ⟨(i 0).val % 2000, Nat.mod_lt _ (by decide)⟩ (i 1))

theorem hz : (![0, 0] : Fin 2 → Nat) = fun _ => 0 := funext fun a => by fin_cases a <;> rfl

/-- G3 at row 2000·p + (row j of the block) is the payload of row block p at j. -/
theorem G3_at (a0 : S10000x128.Idx → Elt F .f32) (a2 : S128x128.Idx → Elt F .f32) (p : Fin 5)
    (x0 : Vec F S2000x128 .f32) (x1 : Vec F S128x128 .f32) (hx0 : x0 = rowBlock a0 p) (hx1 : x1 = a2)
    (i : S10000x128.Idx) (j : S2000x128.Idx) (h0 : (i 0).val = 2000 * p.val + (j 0).val) (h1 : (i 1).val = (j 1).val) :
    k0_pay1 x0 x1 j = G3 a0 a2 i := by
  subst hx0 hx1
  have hj0 := idx2_lt0 j
  have hP : ∀ h, (⟨(i 0).val / 2000, h⟩ : Fin 5) = p := fun h => Fin.ext (by show (i 0).val / 2000 = p.val; omega)
  have hJ : ∀ h, ix2 (⟨(i 0).val % 2000, h⟩ : Fin 2000) (i 1) = j := fun h => by
    funext a
    match a with
    | ⟨0, _⟩ => exact Fin.ext (by show (i 0).val % 2000 = (j 0).val; omega)
    | ⟨1, _⟩ => exact Fin.ext h1
  unfold G3
  rw [hP]
  exact congrArg (k0_pay1 (rowBlock a0 p) x1) (hJ _).symm

/-- G4 likewise. -/
theorem G4_at (a0 : S10000x128.Idx → Elt F .f32) (a2 : S128x128.Idx → Elt F .f32) (a9 : S128x8.Idx → Elt F .f32) (p : Fin 5)
    (x0 : Vec F S2000x128 .f32) (x1 : Vec F S128x128 .f32) (x2 : Vec F S128x8 .f32) (hx0 : x0 = rowBlock a0 p) (hx1 : x1 = a2) (hx2 : x2 = a9)
    (i : S10000x8.Idx) (j : S2000x8.Idx) (h0 : (i 0).val = 2000 * p.val + (j 0).val) (h1 : (i 1).val = (j 1).val) :
    k0_pay2 x0 x1 x2 j = G4 a0 a2 a9 i := by
  subst hx0 hx1 hx2
  have hj0 := idx2_lt0 j
  have hP : ∀ h, (⟨(i 0).val / 2000, h⟩ : Fin 5) = p := fun h => Fin.ext (by show (i 0).val / 2000 = p.val; omega)
  have hJ : ∀ h, ix2 (⟨(i 0).val % 2000, h⟩ : Fin 2000) (i 1) = j := fun h => by
    funext a
    match a with
    | ⟨0, _⟩ => exact Fin.ext (by show (i 0).val % 2000 = (j 0).val; omega)
    | ⟨1, _⟩ => exact Fin.ext h1
  unfold G4
  rw [hP]
  exact congrArg (k0_pay2 (rowBlock a0 p) x1 x2) (hJ _).symm

/-- Row r % 2000 of row block r / 2000 is row r. -/
theorem rowBlock_div_mod (a0 : S10000x128.Idx → Elt F .f32) (r : Fin 10000) (k : Fin 128) (h1 : r.val / 2000 < 5) (h2 : r.val % 2000 < 2000) :
    rowBlock a0 ⟨r.val / 2000, h1⟩ (ix2 ⟨r.val % 2000, h2⟩ k) = a0 (ix2 r k) := by
  unfold rowBlock
  congr 1
  funext a
  match a with
  | ⟨0, _⟩ => exact Fin.ext (by show 2000 * (r.val / 2000) + r.val % 2000 = r.val; omega)
  | ⟨1, _⟩ => rfl

/-- G3 at row r, column d: the payload of r's row block, at r's row in it. -/
theorem G3_apply (a0 : S10000x128.Idx → Elt F .f32) (a2 : S128x128.Idx → Elt F .f32) (r : Fin 10000) (d : Fin 128) :
    G3 a0 a2 (ix2 r d) = k0_pay1 (rowBlock a0 ⟨r.val / 2000, by have := r.isLt; omega⟩) a2 (ix2 ⟨r.val % 2000, Nat.mod_lt _ (by decide)⟩ d) := rfl

/-- G4 at row r, column d likewise. -/
theorem G4_apply (a0 : S10000x128.Idx → Elt F .f32) (a2 : S128x128.Idx → Elt F .f32) (a9 : S128x8.Idx → Elt F .f32) (r : Fin 10000) (d : Fin 8) :
    G4 a0 a2 a9 (ix2 r d) = k0_pay2 (rowBlock a0 ⟨r.val / 2000, by have := r.isLt; omega⟩) a2 a9 (ix2 ⟨r.val % 2000, Nat.mod_lt _ (by decide)⟩ d) := rfl

/-- The printed index maps over the grid: the row-block windows sit at block (t, 0), the whole-matrix windows at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

section Regions
variable (V : (c : Dev nD) → (b : Ref sig .tc) → Buf (Elt F) ((c : Thread nD τ).loc b))

/-- Input window 0's block at point t is row block t of the inputs. -/
theorem iblk0_0_eq (c : Dev nD) (t : Fin cfg0.N) :
    (iblk0 V c 0 t : Vec F S2000x128 .f32) = rowBlock (V c main_arg0) (t.cast N_0) := by
  obtain ⟨e0, e1, -⟩ := idx_facts0 t
  funext y
  unfold iblk0 rowBlock
  rw [View.read_apply]
  show V c main_arg0 _ = V c main_arg0 _
  congr 1
  funext a
  apply Fin.ext
  match a with
  | ⟨0, _⟩ => show win0_0.index t (0 : Fin 2) * 2000 + 1 * (y 0).val = 2000 * t.val + (y 0).val; rw [e0]; omega
  | ⟨1, _⟩ => show win0_0.index t (1 : Fin 2) * 128 + 1 * (y 1).val = (y 1).val; rw [e1]; omega

/-- Input window 1's block at every point is the whole weight matrix. -/
theorem iblk0_1_eq (c : Dev nD) (t : Fin cfg0.N) :
    (iblk0 V c 1 t : Vec F S128x128 .f32) = V c main_arg2 := by
  obtain ⟨-, -, e0, e1, -⟩ := idx_facts0 t
  funext y
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Input window 2's block at every point is the whole matrix of attention vectors. -/
theorem iblk0_2_eq (c : Dev nD) (t : Fin cfg0.N) :
    (iblk0 V c 2 t : Vec F S128x8 .f32) = V c main_v9 := by
  obtain ⟨-, -, -, -, e0, e1, -⟩ := idx_facts0 t
  funext y
  unfold iblk0
  rw [View.read_apply]
  show V c main_v9 _ = V c main_v9 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 8 + 1 * (y 1).val = (y 1).val; rw [e1]; omega

/-- What point t writes back to output window 3's array is block t of G3 of the region's input arrays. -/
theorem flushed0_3_eq (c : Dev nD) (t : Fin cfg0.N) :
    (dat0 V c).flushed 3 t = ((cfg0.win 3).blk t).view.read (Elt F) (G3 (V c main_arg0) (V c main_arg2)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz]
  obtain ⟨-, -, -, -, -, -, e0, e1, -⟩ := idx_facts0 t
  funext j
  show k0_pay1 (iblk0 V c 0 t) (iblk0 V c 1 t) j = G3 (V c main_arg0) (V c main_arg2) (((cfg0.win 3).blk t).view.emb j)
  refine G3_at _ _ (t.cast N_0) _ _ (iblk0_0_eq V c t) (iblk0_1_eq V c t) _ j ?_ ?_
  · show win0_3.index t (0 : Fin 2) * 2000 + 1 * (j 0).val = 2000 * t.val + (j 0).val; rw [e0]; omega
  · show win0_3.index t (1 : Fin 2) * 128 + 1 * (j 1).val = (j 1).val; rw [e1]; omega

/-- What point t writes back to output window 4's array is block t of G4 of the region's input arrays. -/
theorem flushed0_4_eq (c : Dev nD) (t : Fin cfg0.N) :
    (dat0 V c).flushed 4 t = ((cfg0.win 4).blk t).view.read (Elt F) (G4 (V c main_arg0) (V c main_arg2) (V c main_v9)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz, View.ld_unit_zero (S := S128x8) hz]
  obtain ⟨-, -, -, -, -, -, -, -, e0, e1⟩ := idx_facts0 t
  funext j
  show k0_pay2 (iblk0 V c 0 t) (iblk0 V c 1 t) (iblk0 V c 2 t) j = G4 (V c main_arg0) (V c main_arg2) (V c main_v9) (((cfg0.win 4).blk t).view.emb j)
  refine G4_at _ _ _ (t.cast N_0) _ _ _ (iblk0_0_eq V c t) (iblk0_1_eq V c t) (iblk0_2_eq V c t) _ j ?_ ?_
  · show win0_4.index t (0 : Fin 2) * 2000 + 1 * (j 0).val = 2000 * t.val + (j 0).val; rw [e0]; omega
  · show win0_4.index t (1 : Fin 2) * 8 + 1 * (j 1).val = (j 1).val; rw [e1]; omega

/-- An index of output 3's array is in point t's block iff each coordinate is in the block's range on its axis. -/
theorem mem_blk0_3 (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v10_0).slice (win0_3.rect t)).set ↔ _
  rw [View.set_slice_whole, Rect.mem_set_unit]
  exact Iff.rfl

/-- The same for output 4. -/
theorem mem_blk0_4 (t : Fin cfg0.N) (i : S10000x8.Idx) :
    i ∈ ((cfg0.win 4).blk t).view.set ↔ ∀ a : Fin 2, win0_4.index t a * S2000x8.size a ≤ (i a).val ∧ (i a).val < win0_4.index t a * S2000x8.size a + S2000x8.size a := by
  show i ∈ ((View.whole main_v10_1).slice (win0_4.rect t)).set ↔ _
  rw [View.set_slice_whole, Rect.mem_set_unit]
  exact Iff.rfl

/-- Row r of output 3 lies in the block of point r / 2000, which writes back. -/
theorem cover0_3_arr (i : S10000x128.Idx) :
    ∃ t : Fin cfg0.N, (cfg0.win 3).flush t = true ∧ i ∈ ((cfg0.win 3).blk t).view.set := by
  have hi0 := idx2_lt0 i
  have hi1 := idx2_lt1 i
  have hN : cfg0.N = 5 := N_0
  refine ⟨⟨(i 0).val / 2000, by rw [hN]; omega⟩, flush0_3 _, ?_⟩
  rw [mem_blk0_3]
  obtain ⟨-, -, -, -, -, -, e0, e1, -⟩ := idx_facts0 ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e0]; show (i 0).val / 2000 * 2000 ≤ (i 0).val ∧ (i 0).val < (i 0).val / 2000 * 2000 + 2000; omega
  | ⟨1, _⟩ => show win0_3.index _ (1 : Fin 2) * 128 ≤ (i 1).val ∧ (i 1).val < win0_3.index _ (1 : Fin 2) * 128 + 128; rw [e1]; omega

/-- Row r of output 4 lies in the block of point r / 2000, which writes back. -/
theorem cover0_4_arr (i : S10000x8.Idx) :
    ∃ t : Fin cfg0.N, (cfg0.win 4).flush t = true ∧ i ∈ ((cfg0.win 4).blk t).view.set := by
  have hi0 := idx2_lt0 i
  have hi1 := idx2_lt1 i
  have hN : cfg0.N = 5 := N_0
  refine ⟨⟨(i 0).val / 2000, by rw [hN]; omega⟩, flush0_4 _, ?_⟩
  rw [mem_blk0_4]
  obtain ⟨-, -, -, -, -, -, -, -, e0, e1⟩ := idx_facts0 ⟨(i 0).val / 2000, by rw [hN]; omega⟩
  intro a
  match a with
  | ⟨0, _⟩ => show win0_4.index _ (0 : Fin 2) * 2000 ≤ (i 0).val ∧ (i 0).val < win0_4.index _ (0 : Fin 2) * 2000 + 2000; rw [e0]; show (i 0).val / 2000 * 2000 ≤ (i 0).val ∧ (i 0).val < (i 0).val / 2000 * 2000 + 2000; omega
  | ⟨1, _⟩ => show win0_4.index _ (1 : Fin 2) * 8 ≤ (i 1).val ∧ (i 1).val < win0_4.index _ (1 : Fin 2) * 8 + 8; rw [e1]; omega

/-- Output 3's array after the region: G3 of the region's input arrays. -/
theorem arr0_3 (c : Dev nD) : (dat0 V c).arrAt 3 cfg0.N = G3 (V c main_arg0) (V c main_arg2) :=
  (dat0 V c).arrAt_eq_of_cover 3 (G3 (V c main_arg0) (V c main_arg2)) (fun t _ => flushed0_3_eq V c t) cover0_3_arr

/-- Output 4's array after the region: G4 of the region's input arrays. -/
theorem arr0_4 (c : Dev nD) : (dat0 V c).arrAt 4 cfg0.N = G4 (V c main_arg0) (V c main_arg2) (V c main_v9) :=
  (dat0 V c).arrAt_eq_of_cover 4 (G4 (V c main_arg0) (V c main_arg2) (V c main_v9)) (fun t _ => flushed0_4_eq V c t) cover0_4_arr

end Regions

end Cert.KernelIdeal.HandValue

end
-- ==== Proof.KernelArrays1.lean ====
/-
  Region 1's output array after the region, row by row.

  The region's grid is 25 row blocks by 5 column blocks, the points numbered row block first: point t works on
  row block t / 5 and column block t % 5. The output array has 10000 rows of 128 entries and is written back
  through a window of 400 rows: the window's block at point t is rows 400 · (t / 5) … 400 · (t / 5) + 399, all 128
  columns, and the window is written back only at the last column block of each row block, the points with
  t % 5 = 4. So the 25 points that write back write 25 disjoint row blocks that tile the array: row i lies in
  row block i / 400, written once, by point 5 · (i / 400) + 4, from row i % 400 of the window's buffer.

  Hence, for ANY proof data of the region whose body leaves a known function out t of the point in the output
  window's buffer, the array after the region is assembled from out at the 25 last points:

      array (i, d) = out (5 · (i / 400) + 4) (i % 400, d).

  The steps: the window's block index at a point, decided once over the 125 points; the assembled array as one
  function of the array index; what a writing point writes back is its block of that function (the block's row
  y sits at array row 400 · (t / 5) + y, and 5 · ((400 · (t / 5) + y) / 400) + 4 = t when t % 5 = 4); every array
  index is covered by a writing point's block; and the array algebra of the write-backs, which asks exactly these
  two facts.
-/
import proofs.«144953_g79190607004093_cont_9to1c4b_603_4_alg».proof.Proof.Gen.KernelIdeal.Launch
import proofs.«144953_g79190607004093_cont_9to1c4b_603_4_alg».proof.Proof.Gen.KernelIdeal.Points
import proofs.«144953_g79190607004093_cont_9to1c4b_603_4_alg».proof.Proof.KI.Dat1a
import Idealize.ShloMosaic.Lib.Pipeline.Value
import Idealize.ShloMosaic.Lib.ValueIdx

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable {F : FTy → Type} [FloatOps F]

/-- The output window's block index at a point: the row block is the point's number divided by the five column
    blocks, and there is one block of columns. Decided over the grid. -/
theorem rowBlock_of_point : ∀ t : Fin cfg1.N, win1_5.index t (0 : Fin 2) = t.val / 5 ∧ win1_5.index t (1 : Fin 2) = 0 :=
  (by decide +kernel : ∀ t : Fin grid1.N, win1_5.index t (0 : Fin 2) = t.val / 5 ∧ win1_5.index t (1 : Fin 2) = 0)

/-- The array assembled from what the last point of each row of the grid leaves: row i lies in row block i / 400, whose
    last point is 5 · (i / 400) + 4, at row i % 400 of that block. -/
def rowsOf (out : (n : ℕ) → n < cfg1.N → Vec F S400x128 .f32) : S10000x128.Idx → Elt F .f32 := fun i =>
  out (5 * ((i 0).val / 400) + 4) (by have h : (i 0).val < 10000 := (i 0).isLt; rw [show cfg1.N = 125 from N_1]; omega)
    (ix2 ⟨(i 0).val % 400, Nat.mod_lt _ (by decide)⟩ (i 1))

/-- A point-indexed family read at equal points and equal indices. -/
theorem out_congr (out : (n : ℕ) → n < cfg1.N → Vec F S400x128 .f32) {n n' : ℕ} (h : n = n') (hn : n < cfg1.N) (hn' : n' < cfg1.N)
    {y y' : S400x128.Idx} (hy : y = y') : out n hn y = out n' hn' y' := by
  subst h; subst hy; rfl

/-- What a point that writes back writes is its block of the assembled array. -/
theorem flushed5_eq {c : Dev nD} {Ix : Type} [DecidableEq Ix] {Name : Type} [DecidableEq Name] {U : Type} [Idealize.SL.RA.URA U] {Lvl : Type}
    (dat : Dat τ (Elt F) Ix Name U Lvl cfg1 c)
    (out : (n : ℕ) → n < cfg1.N → Vec F S400x128 .f32) (hafter : ∀ t : Fin cfg1.N, dat.after 5 t = out t.val t.isLt)
    (t : Fin cfg1.N) (hf : (cfg1.win 5).flush t = true) :
    dat.flushed 5 t = ((cfg1.win 5).blk t).view.read (Elt F) (rowsOf out) := by
  have h4 : t.val % 5 = 4 := (flush1_5 t).mp hf
  show (cfg1.win 5).cut (grid1.coords t) (dat.after 5 t) = _
  rw [hafter]
  obtain ⟨e0, e1⟩ := rowBlock_of_point t
  funext y
  show out t.val t.isLt y = rowsOf out (((cfg1.win 5).blk t).view.emb y)
  have hy0 : (y 0).val < 400 := (y 0).isLt
  have hy1 : (y 1).val < 128 := (y 1).isLt
  have E0 : ((((cfg1.win 5).blk t).view.emb y) 0).val = win1_5.index t (0 : Fin 2) * 400 + 1 * (y 0).val := rfl
  have E1 : ((((cfg1.win 5).blk t).view.emb y) 1).val = win1_5.index t (1 : Fin 2) * 128 + 1 * (y 1).val := rfl
  unfold rowsOf
  refine out_congr out ?_ _ _ ?_
  · rw [E0, e0]; omega
  · funext a; apply Fin.ext
    match a with
    | ⟨0, _⟩ => show (y 0).val = ((((cfg1.win 5).blk t).view.emb y) 0).val % 400; rw [E0]; omega
    | ⟨1, _⟩ => show (y 1).val = ((((cfg1.win 5).blk t).view.emb y) 1).val; rw [E1, e1]; omega

/-- An index of the array is in a point's block iff each coordinate is in the block's range on its axis. -/
theorem mem_rowBlock (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v23).slice (win1_5.rect t)).set ↔ _
  rw [View.set_slice_whole, Rect.mem_set_unit]
  exact Iff.rfl

/-- Every row of the array lies in the block of the last point of its row of the grid, which writes back. -/
theorem rows_covered (i : S10000x128.Idx) :
    ∃ t : Fin cfg1.N, (cfg1.win 5).flush t = true ∧ i ∈ ((cfg1.win 5).blk t).view.set := by
  have h0 : (i 0).val < 10000 := (i 0).isLt
  have h1 : (i 1).val < 128 := (i 1).isLt
  obtain ⟨t, ht⟩ : ∃ t : Fin cfg1.N, t.val = 5 * ((i 0).val / 400) + 4 :=
    ⟨⟨5 * ((i 0).val / 400) + 4, by rw [show cfg1.N = 125 from N_1]; omega⟩, rfl⟩
  refine ⟨t, (flush1_5 t).mpr (by omega), ?_⟩
  rw [mem_rowBlock]
  obtain ⟨e0, e1⟩ := rowBlock_of_point t
  intro a
  match a with
  | ⟨0, _⟩ =>
    show win1_5.index t (0 : Fin 2) * 400 ≤ (i 0).val ∧ (i 0).val < win1_5.index t (0 : Fin 2) * 400 + 400
    rw [e0]; omega
  | ⟨1, _⟩ =>
    show win1_5.index t (1 : Fin 2) * 128 ≤ (i 1).val ∧ (i 1).val < win1_5.index t (1 : Fin 2) * 128 + 128
    rw [e1]; omega

/-- THE OUTPUT ARRAY AFTER THE REGION, for any proof data whose body leaves out t in the output window's buffer at
    point t: row i holds row i % 400 of what the last point of row block i / 400 left. -/
theorem arr5_of {c : Dev nD} {Ix : Type} [DecidableEq Ix] {Name : Type} [DecidableEq Name] {U : Type} [Idealize.SL.RA.URA U] {Lvl : Type}
    (dat : Dat τ (Elt F) Ix Name U Lvl cfg1 c)
    (out : (n : ℕ) → n < cfg1.N → Vec F S400x128 .f32) (hafter : ∀ t : Fin cfg1.N, dat.after 5 t = out t.val t.isLt)
    (i : Fin 10000) (d : Fin 128) :
    (dat.arrAt 5 cfg1.N : S10000x128.Idx → Elt F .f32) (ix2 i d)
      = out (5 * (i.val / 400) + 4) (by have := i.isLt; rw [show cfg1.N = 125 from N_1]; omega)
          (ix2 ⟨i.val % 400, Nat.mod_lt _ (by decide)⟩ d) := by
  rw [dat.arrAt_eq_of_cover 5 (rowsOf out) (flushed5_eq dat out hafter) rows_covered]
  rfl

/-! ## At the region's proof data -/

/-- REGION 1'S OUTPUT ARRAY AFTER THE REGION, at the contents V the region finds: row i holds row i % 400 of the
    output block the last point of row block i / 400 stored. -/
theorem arr1_5 (V : (c : Dev nD) → (b : Ref sig .tc) → Buf (Elt F) ((c : Thread nD τ).loc b)) (c : Dev nD) (i : Fin 10000) (d : Fin 128) :
    ((dat1 V c).arrAt 5 cfg1.N : S10000x128.Idx → Elt F .f32) (ix2 i d)
      = outAt V c (5 * (i.val / 400) + 4) (by have := i.isLt; rw [show cfg1.N = 125 from N_1]; omega)
          (ix2 ⟨i.val % 400, Nat.mod_lt _ (by decide)⟩ d) :=
  arr5_of (dat1 V c) (outAt V c) (after1_5 V c) i d

end Cert.KernelIdeal.HandValue

end
-- ==== Proof.KernelValueProj.lean ====
/-
  The first region's two products, and the second region's closing step, read index by index over the
  extended reals.

  The first region forms x = inputs · W and f = elu(x · wf).  A plain rows × contraction times
  contraction × columns product with a zero accumulator, read at (r, c), is the sum over the contraction
  position q of left(r, q) · right(q, c): the product's sum runs over a one-axis contraction index, which is
  re-indexed by its one coordinate, and the operand indices at (r, c) and q have the coordinates (r, q) and
  (q, c).  The exponential linear unit is spelled select (v > 0) v (exp v − 1) on vectors; at an index it is
  the scalar unit applied to the element.

  The second region's closing step loads, per head h, row h of the numerators [2, 400, 128], column h of the
  denominators [400, 8] and row h of the bias [2, 128]; it drops the numerators' leading unit axis, spreads the
  denominator column along each row and the bias row down each column, divides, adds the bias, applies the
  unit, adds the two heads and multiplies by one half.  A load through a unit-stride rectangle reads the array
  at the rectangle's offset plus the coordinate, so at (r, d) the step is
      (elu (acc(0, r, d) / ss(r, 0) + b(0, d)) + elu (acc(1, r, d) / ss(r, 1) + b(1, d))) · ½.
-/
import proofs.«144953_g79190607004093_cont_9to1c4b_603_4_alg».proof.Proof.KI.Steps
import proofs.«144953_g79190607004093_cont_9to1c4b_603_4_alg».proof.Proof.Gen.KernelIdeal.Regions
import proofs.«144953_g79190607004093_cont_9to1c4b_603_4_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand
open scoped BigOperators

namespace Proj

/-! ## The two projections' operand indices

For a plain rows × contraction times contraction × columns product, at output index (r, c) and
contraction position q the left operand is read at (r, q) and the right operand at (q, c). -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The first projection's product at an index, for any left operand: Σ_q a(r, q) · w(q, k). -/
theorem matmulA_apply (a : FVec Ideal S2000x128 .f32) (w : FVec Ideal S128x128 .f32) (r : Fin 2000) (k : Fin 128) :
    FloatOps.matmul dot_S2000x128_S128x128_S2000x128_1_0_0_1_n_n none a w (constant S2000x128 .f32 0x00000000#32) (ix2 r k)
      = ∑ q : Fin 128, a (ix2 r q) * w (ix2 q k) := by
  rw [Ideal.matmul_constant_zero_apply,
    ← Equiv.sum_comp (contrEquiv1 dot_S2000x128_S128x128_S2000x128_1_0_0_1_n_n 128 rfl rfl).symm]
  refine Finset.sum_congr rfl fun q _ => ?_
  have hq := contrEquiv1_symm_val dot_S2000x128_S128x128_S2000x128_1_0_0_1_n_n 128 rfl rfl q
  have el : dot_S2000x128_S128x128_S2000x128_1_0_0_1_n_n.lhsIdx (ix2 r k)
      ((contrEquiv1 dot_S2000x128_S128x128_S2000x128_1_0_0_1_n_n 128 rfl rfl).symm q) = ix2 r q :=
    funext fun a => Fin.ext (by
      match a with
      | ⟨0, _⟩ => exact lhsA_0 _ _
      | ⟨1, _⟩ => exact (lhsA_1 _ _).trans hq)
  have er : dot_S2000x128_S128x128_S2000x128_1_0_0_1_n_n.rhsIdx (ix2 r k)
      ((contrEquiv1 dot_S2000x128_S128x128_S2000x128_1_0_0_1_n_n 128 rfl rfl).symm q) = ix2 q k :=
    funext fun a => Fin.ext (by
      match a with
      | ⟨0, _⟩ => exact (rhsA_0 _ _).trans hq
      | ⟨1, _⟩ => exact rhsA_1 _ _)
  rw [el, er]

end Proj

open Proj

theorem k0_pay1_apply (x0 : Vec Ideal S2000x128 .f32) (x1 : Vec Ideal S128x128 .f32) (r : Fin 2000) (k : Fin 128) :
    k0_pay1 x0 x1 (ix2 r k) = ∑ q : Fin 128, x0 (ix2 r q) * x1 (ix2 q k) := by
  unfold k0_pay1
  exact matmulA_apply x0 x1 r k

namespace Proj

theorem lhsB_0 (i : S2000x8.Idx) (q : dot_S2000x128_S128x8_S2000x8_1_0_0_1_n_n.contr.Idx) :
    (dot_S2000x128_S128x8_S2000x8_1_0_0_1_n_n.lhsIdx i q 0).val = (i 0).val := by
  unfold DotDims.lhsIdx
  rw [dif_neg (show ¬(0 : Fin S2000x128.rank) ∈ dot_S2000x128_S128x8_S2000x8_1_0_0_1_n_n.lhsBatch by decide),
    dif_pos (show (0 : Fin S2000x128.rank) ∈ dot_S2000x128_S128x8_S2000x8_1_0_0_1_n_n.lhsNonContracting by decide)]
  rfl

theorem lhsB_1 (i : S2000x8.Idx) (q : dot_S2000x128_S128x8_S2000x8_1_0_0_1_n_n.contr.Idx) :
    (dot_S2000x128_S128x8_S2000x8_1_0_0_1_n_n.lhsIdx i q 1).val = (q ⟨0, by decide⟩).val :=
  dot_S2000x128_S128x8_S2000x8_1_0_0_1_n_n.lhsIdx_val_of_single rfl i q

theorem rhsB_0 (i : S2000x8.Idx) (q : dot_S2000x128_S128x8_S2000x8_1_0_0_1_n_n.contr.Idx) :
    (dot_S2000x128_S128x8_S2000x8_1_0_0_1_n_n.rhsIdx i q 0).val = (q ⟨0, by decide⟩).val :=
  dot_S2000x128_S128x8_S2000x8_1_0_0_1_n_n.rhsIdx_val_of_single rfl i q

theorem rhsB_1 (i : S2000x8.Idx) (q : dot_S2000x128_S128x8_S2000x8_1_0_0_1_n_n.contr.Idx) :
    (dot_S2000x128_S128x8_S2000x8_1_0_0_1_n_n.rhsIdx i q 1).val = (i 1).val := by
  unfold DotDims.rhsIdx
  rw [dif_neg (show ¬(1 : Fin S128x8.rank) ∈ dot_S2000x128_S128x8_S2000x8_1_0_0_1_n_n.rhsBatch by decide),
    dif_pos (show (1 : Fin S128x8.rank) ∈ dot_S2000x128_S128x8_S2000x8_1_0_0_1_n_n.rhsNonContracting by decide)]
  rfl

/-- The second projection's product at an index, for any left operand: Σ_k a(r, k) · w(k, c). -/
theorem matmulB_apply (a : FVec Ideal S2000x128 .f32) (w : FVec Ideal S128x8 .f32) (r : Fin 2000) (c : Fin 8) :
    FloatOps.matmul dot_S2000x128_S128x8_S2000x8_1_0_0_1_n_n none a w (constant S2000x8 .f32 0x00000000#32) (ix2 r c)
      = ∑ k : Fin 128, a (ix2 r k) * w (ix2 k c) := by
  rw [Ideal.matmul_constant_zero_apply,
    ← Equiv.sum_comp (contrEquiv1 dot_S2000x128_S128x8_S2000x8_1_0_0_1_n_n 128 rfl rfl).symm]
  refine Finset.sum_congr rfl fun q _ => ?_
  have hq := contrEquiv1_symm_val dot_S2000x128_S128x8_S2000x8_1_0_0_1_n_n 128 rfl rfl q
  have el : dot_S2000x128_S128x8_S2000x8_1_0_0_1_n_n.lhsIdx (ix2 r c)
      ((contrEquiv1 dot_S2000x128_S128x8_S2000x8_1_0_0_1_n_n 128 rfl rfl).symm q) = ix2 r q :=
    funext fun a => Fin.ext (by
      match a with
      | ⟨0, _⟩ => exact lhsB_0 _ _
      | ⟨1, _⟩ => exact (lhsB_1 _ _).trans hq)
  have er : dot_S2000x128_S128x8_S2000x8_1_0_0_1_n_n.rhsIdx (ix2 r c)
      ((contrEquiv1 dot_S2000x128_S128x8_S2000x8_1_0_0_1_n_n 128 rfl rfl).symm q) = ix2 q c :=
    funext fun a => Fin.ext (by
      match a with
      | ⟨0, _⟩ => exact (rhsB_0 _ _).trans hq
      | ⟨1, _⟩ => exact rhsB_1 _ _)
  rw [el, er]

/-! ## The exponential linear unit as the programs spell it on a vector -/

/-- select (v > 0) v (exp v − 1), read at an index, is the unit applied to the element. -/
theorem eluK_vec {s : Shape} (v : FVec Ideal s .f32) (i : s.Idx) :
    select (cmpf .ogt v (broadcast s (Scalar.ofBits (F := Ideal) .f32 0x00000000#32))) v
        (subf (exp v) (broadcast s (Scalar.ofBits (F := Ideal) .f32 0x3F800000#32))) i
      = Cert.Spec.eluK (v i) := by
  rw [select_apply, cmpf_apply, broadcast_apply, Cert.Spec.sel_ogt]
  rfl

end Proj

theorem k0_pay2_apply (x0 : Vec Ideal S2000x128 .f32) (x1 : Vec Ideal S128x128 .f32) (x2 : Vec Ideal S128x8 .f32) (r : Fin 2000) (c : Fin 8) :
    k0_pay2 x0 x1 x2 (ix2 r c) = Cert.Spec.eluK (∑ k : Fin 128, (∑ q : Fin 128, x0 (ix2 r q) * x1 (ix2 q k)) * x2 (ix2 k c)) := by
  have h := eluK_vec (FloatOps.matmul dot_S2000x128_S128x8_S2000x8_1_0_0_1_n_n none (k0_pay1 x0 x1)
      (shapeCast S128x8 x2 shapeCasts_S128x8_S128x8 : FVec Ideal S128x8 .f32) (constant S2000x8 .f32 0x00000000#32)) (ix2 r c)
  refine (show k0_pay2 x0 x1 x2 (ix2 r c) = _ from h).trans ?_
  rw [shapeCast_self, matmulB_apply]
  simp only [k0_pay1_apply]

namespace Proj

/-! ## The epilogue of the second region -/

/-- A column broadcast across a row: an [a, 1] array broadcast to [a, b] reads, at (p, c), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One head's pre-activation: numerator over denominator plus bias, as the body forms it on vectors. -/
def headV (a : Vec Ideal S1x400x128 .f32) (s : Vec Ideal S400x1 .f32) (bb : Vec Ideal S1x128 .f32) : FVec Ideal S400x128 .f32 :=
  addf (divf (shapeCast S400x128 a shapeCasts_S1x400x128_S400x128) (broadcastTo S400x128 s broadcasts_S400x1_S400x128))
    (broadcastTo S400x128 bb broadcasts_S1x128_S400x128)

theorem headV_apply (a : Vec Ideal S1x400x128 .f32) (s : Vec Ideal S400x1 .f32) (bb : Vec Ideal S1x128 .f32)
    (r : Fin 400) (d : Fin 128) :
    headV a s bb (ix2 r d) = Ideal.div (a (ix3 (0 : Fin 1) r d)) (s (ix2 r (0 : Fin 1))) + bb (ix2 (0 : Fin 1) d) := by
  unfold headV
  rw [addf_apply, divf_apply, shapeCast_1ab_ab_apply, broadcastTo_a1_ab_apply, broadcastTo_1b_ab_apply]

theorem k1_pay2_apply (v78 : Vec Ideal S1x400x128 .f32) (v80 : Vec Ideal S400x1 .f32) (v83 : Vec Ideal S1x128 .f32)
    (v92 : Vec Ideal S1x400x128 .f32) (v94 : Vec Ideal S400x1 .f32) (v97 : Vec Ideal S1x128 .f32) (r : Fin 400) (d : Fin 128) :
    k1_pay2 v78 v80 v83 v92 v94 v97 (ix2 r d)
      = (Cert.Spec.eluK (Ideal.div (v78 (ix3 (0 : Fin 1) r d)) (v80 (ix2 r (0 : Fin 1))) + v83 (ix2 (0 : Fin 1) d))
          + Cert.Spec.eluK (Ideal.div (v92 (ix3 (0 : Fin 1) r d)) (v94 (ix2 r (0 : Fin 1))) + v97 (ix2 (0 : Fin 1) d)))
        * Cert.Spec.phalf := by
  show mulf (addf
        (select (cmpf .ogt (headV v78 v80 v83) (broadcast S400x128 (Scalar.ofBits (F := Ideal) .f32 0x00000000#32))) (headV v78 v80 v83)
          (subf (exp (headV v78 v80 v83)) (broadcast S400x128 (Scalar.ofBits (F := Ideal) .f32 0x3F800000#32))))
        (select (cmpf .ogt (headV v92 v94 v97) (broadcast S400x128 (Scalar.ofBits (F := Ideal) .f32 0x00000000#32))) (headV v92 v94 v97)
          (subf (exp (headV v92 v94 v97)) (broadcast S400x128 (Scalar.ofBits (F := Ideal) .f32 0x3F800000#32)))))
      (broadcast S400x128 (Scalar.ofBits (F := Ideal) .f32 0x3F000000#32)) (ix2 r d) = _
  rw [mulf_apply, addf_apply, broadcast_apply, eluK_vec, eluK_vec, headV_apply, headV_apply]
  rfl

/-- A load through a unit-stride rectangle reads the array at the offset coordinates. -/
theorem ld_unit_apply {S : Shape} {e : EltTy} {Val : EltTy → Type} (X : S.Idx → Val e) (off size : Fin S.rank → ℕ)
    (inb : ∀ a, off a + size a ≤ S.size a) (y : (Rect.unit (s := S) off size inb).shape.Idx) (z : S.Idx)
    (hz : ∀ a, (z a).val = off a + (y a).val) :
    View.ld X (Rect.unit (s := S) off size inb) y = X z := by
  show X ((Rect.unit (s := S) off size inb).idx y) = X z
  congr 1
  funext a
  apply Fin.ext
  simp only [LoadRect.idx_apply, Rect.off_unit, Rect.stride_unit, Nat.one_mul]
  exact (hz a).symm

end Proj

theorem gatOut_apply (acc : Vec Ideal S2x400x128 .f32) (ss : Vec Ideal S400x8 .f32) (b : Vec Ideal S2x128 .f32) (r : Fin 400) (d : Fin 128) :
    gatOut (acc, ss) b (ix2 r d)
      = (Cert.Spec.eluK (Ideal.div (acc (ix3 (0 : Fin 2) r d)) (ss (ix2 r (0 : Fin 8))) + b (ix2 (0 : Fin 2) d))
          + Cert.Spec.eluK (Ideal.div (acc (ix3 (1 : Fin 2) r d)) (ss (ix2 r (1 : Fin 8))) + b (ix2 (1 : Fin 2) d))) * Cert.Spec.phalf := by
  rw [gatOut_eq, k1_pay2_apply]
  have a0 : View.ld acc rA0 (ix3 (0 : Fin 1) r d) = acc (ix3 (0 : Fin 2) r d) :=
    ld_unit_apply acc _ _ _ _ _ (fun a => by match a with | ⟨0, _⟩ => rfl | ⟨1, _⟩ => (show r.val = 0 + r.val; omega) | ⟨2, _⟩ => (show d.val = 0 + d.val; omega))
  have a1 : View.ld acc rA1 (ix3 (0 : Fin 1) r d) = acc (ix3 (1 : Fin 2) r d) :=
    ld_unit_apply acc _ _ _ _ _ (fun a => by match a with | ⟨0, _⟩ => rfl | ⟨1, _⟩ => (show r.val = 0 + r.val; omega) | ⟨2, _⟩ => (show d.val = 0 + d.val; omega))
  have s0 : View.ld ss rS0 (ix2 r (0 : Fin 1)) = ss (ix2 r (0 : Fin 8)) :=
    ld_unit_apply ss _ _ _ _ _ (fun a => by match a with | ⟨0, _⟩ => (show r.val = 0 + r.val; omega) | ⟨1, _⟩ => rfl)
  have s1 : View.ld ss rS1 (ix2 r (0 : Fin 1)) = ss (ix2 r (1 : Fin 8)) :=
    ld_unit_apply ss _ _ _ _ _ (fun a => by match a with | ⟨0, _⟩ => (show r.val = 0 + r.val; omega) | ⟨1, _⟩ => rfl)
  have b0 : View.ld b rB0 (ix2 (0 : Fin 1) d) = b (ix2 (0 : Fin 2) d) :=
    ld_unit_apply b _ _ _ _ _ (fun a => by match a with | ⟨0, _⟩ => rfl | ⟨1, _⟩ => (show d.val = 0 + d.val; omega))
  have b1 : View.ld b rB1 (ix2 (0 : Fin 1) d) = b (ix2 (1 : Fin 2) d) :=
    ld_unit_apply b _ _ _ _ _ (fun a => by match a with | ⟨0, _⟩ => rfl | ⟨1, _⟩ => (show d.val = 0 + d.val; omega))
  rw [a0, a1, s0, s1, b0, b1]

end Cert.KernelIdeal.HandValue

end
-- ==== Proof.KernelValueStep.lean ====
/-
  One grid point of the second region, read index by index over the extended reals.

  At a point whose column block is J the body forms, for each head h, the weights
      e_h(r, cc) = exp (if cc < 10000 − 2048·J then leaky (adj(r, cc) · (f1_h(r) + f2_h(cc))) − m_h(r) else −∞),
  where leaky z = max z (0.2·z); f1_h and m_h are columns h and 2 + h of the row block of f1m, f2_h is row h of the
  column block of f2t, and the comparison is the signed comparison of the lane number with 10000 − 2048·J on 32-bit
  words, which for J < 5 and cc < 2048 is the comparison of the numbers.  It then adds the row sums Σ_cc e_h(r, cc)
  into column h of the denominators and the products Σ_cc e_h(r, cc) · xv(cc, d) into row h of the numerators.
  A store through a unit-stride rectangle changes the array on the rectangle only, and a load through it reads the
  array at offset + coordinate; the two heads' rectangles are disjoint, so each head's update reads what the point
  found.  Hence, at an index, one point adds one column block's sum to each accumulator; the reset leaves zero.
-/
import proofs.«144953_g79190607004093_cont_9to1c4b_603_4_alg».proof.Proof.KI.Steps
import proofs.«144953_g79190607004093_cont_9to1c4b_603_4_alg».proof.Proof.Gen.KernelIdeal.Regions
import proofs.«144953_g79190607004093_cont_9to1c4b_603_4_alg».proof.Proof.Spec
import Idealize.ShloMosaic.Lib.Pipeline.Value
import Idealize.ShloMosaic.Lib.ValueIdx
import Idealize.ShloMosaic.Lib.ValueLayout
import Idealize.ShloMosaic.Lib.WordArith
import Idealize.ShloMosaic.Lib.Affine
import Idealize.ShloMosaic.PureOps.Ideal.Laws

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand
open scoped BigOperators

/-! ## Loads and overlays through unit-stride rectangles, at an index -/

section Rects
variable {S : Shape} {Val : EltTy → Type} {e : EltTy}

/-- A load through a unit-stride rectangle reads, at y, the array at the index whose coordinates are offset + y. -/
theorem ld_unit_apply (X : S.Idx → Val e) (off size : Fin S.rank → Nat) (inb : ∀ a, off a + size a ≤ S.size a)
    (y : (Rect.unit off size inb).shape.Idx) (k : S.Idx) (hk : ∀ a, (k a).val = off a + (y a).val) :
    View.ld X (Rect.unit off size inb) y = X k := by
  show X ((Rect.unit off size inb).idx y) = X k
  refine congrArg X (funext fun a => Fin.ext ?_)
  rw [hk a]
  show off a + 1 * (y a).val = _
  omega

/-- An overlay through a unit-stride rectangle reads, inside the rectangle, the laid-over block. -/
theorem overlay_unit_apply_mem (X : S.Idx → Val e) (off size : Fin S.rank → Nat) (inb : ∀ a, off a + size a ≤ S.size a)
    (G : (Rect.unit off size inb).shape.Idx → Val e) (k : S.Idx) (y : (Rect.unit off size inb).shape.Idx)
    (hk : ∀ a, (k a).val = off a + (y a).val) :
    (Rect.unit off size inb).overlay X G k = G y := by
  have e : k = (Rect.unit off size inb).emb y := funext fun a => Fin.ext (by
    rw [hk a, Rect.emb_apply]
    show _ = off a + 1 * (y a).val
    omega)
  rw [e, Rect.overlay_emb]

/-- Outside the rectangle (some coordinate off its span) it reads the array underneath. -/
theorem overlay_unit_apply_not_mem (X : S.Idx → Val e) (off size : Fin S.rank → Nat) (inb : ∀ a, off a + size a ≤ S.size a)
    (G : (Rect.unit off size inb).shape.Idx → Val e) (k : S.Idx) (a : Fin S.rank)
    (h : (k a).val < off a ∨ off a + size a ≤ (k a).val) :
    (Rect.unit off size inb).overlay X G k = X k := by
  refine Rect.overlay_of_not_mem _ _ _ fun hm => ?_
  have := (Rect.mem_set_unit.mp hm) a
  omega

end Rects

/-! ## The column mask -/

/-- Column cc of column block J is inside the array exactly when cc < 10000 − 2048·J. -/
theorem mask_apply (i : grid1.Coords) (r : Fin 400) (cc : Fin 2048) :
    k1_pay5 i (ix2 r cc) = if cc.val < 10000 - 2048 * (i 1).val then 1#1 else 0#1 := by
  have hJ : (i 1).val < 5 := (i 1).isLt
  have hcc : cc.val < 2048 := cc.isLt
  unfold k1_pay5
  dsimp only
  show IntOp.cmpi .slt (iota .tc S400x2048 32 [1] iota_S400x2048_d1_w32 (ix2 r cc))
      (Scalar.subi 10000#32 (Scalar.muli (BitVec.ofNat 32 (i 1).val) 2048#32)) = _
  rw [iota_single_apply]
  show IntOp.cmpi .slt (BitVec.ofNat 32 cc.val) (10000#32 - BitVec.ofNat 32 (i 1).val * 2048#32) = _
  have hJi : (BitVec.ofNat 32 (i 1).val).toInt = ((i 1).val : ℤ) := WordArith.toInt_ofNat_small _ (by omega)
  have hci : (BitVec.ofNat 32 cc.val).toInt = (cc.val : ℤ) := WordArith.toInt_ofNat_small _ (by omega)
  have h2048 : (2048#32 : BitVec 32).toInt = 2048 := by decide
  have h10000 : (10000#32 : BitVec 32).toInt = 10000 := by decide
  have hm : (BitVec.ofNat 32 (i 1).val * 2048#32).toInt = ((i 1).val : ℤ) * 2048 := by
    rw [WordArith.toInt_mul_of_bounds _ _ (by rw [hJi, h2048]; omega) (by rw [hJi, h2048]; omega), hJi, h2048]
  have hs : (10000#32 - BitVec.ofNat 32 (i 1).val * 2048#32).toInt = 10000 - ((i 1).val : ℤ) * 2048 := by
    rw [WordArith.toInt_sub_of_bounds _ _ (by rw [hm, h10000]; omega) (by rw [hm, h10000]; omega), hm, h10000]
  by_cases hlt : cc.val < 10000 - 2048 * (i 1).val
  · rw [if_pos hlt]
    exact IntOp.cmpi_slt.mpr (by rw [hci, hs]; omega)
  · rw [if_neg hlt]
    refine eq_zero_of_ne_one fun h1 => hlt ?_
    have := IntOp.cmpi_slt.mp h1
    rw [hci, hs] at this
    omega

/-! ## The elementwise forms at an index -/

theorem exp_apply {s : Shape} {φ : FTy} (a : FVec Ideal s φ) (i : s.Idx) : exp a i = Ideal.exp (a i) := rfl

/-- A select on a decided bit is the conditional. -/
theorem select_ite {α : Type} (p : Prop) [Decidable p] (a b : α) :
    Scalar.select (if p then 1#1 else 0#1) a b = if p then a else b := by
  split
  · exact select_one a b
  · exact select_zero a b

/-- A 400-row column broadcast along 2048 lanes reads its row. -/
theorem broadcastTo_400x1_2048_apply (v : S400x1.Idx → EReal) (h : S400x1.Broadcasts S400x2048) (p : Fin 400) (c : Fin 2048) :
    broadcastTo S400x2048 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- … and along 128 lanes. -/
theorem broadcastTo_400x1_128_apply (v : S400x1.Idx → EReal) (h : S400x1.Broadcasts S400x128) (p : Fin 400) (c : Fin 128) :
    broadcastTo S400x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-! ## The unnormalized weights -/

/-- The weight at row r, column cc of a column block whose index is J: exp of the shifted leaky logit inside the
    array, exp(−∞) past column 10000. -/
def eAt (J : ℕ) (adj : Vec Ideal S400x2048 .f32) (f1m : Vec Ideal S400x4 .f32) (f2t : Vec Ideal S8x2048 .f32)
    (h : Fin 2) (r : Fin 400) (cc : Fin 2048) : EReal :=
  Ideal.exp (if cc.val < 10000 - 2048 * J then
      Cert.Spec.leakyK (adj (ix2 r cc) * (f1m (ix2 r ⟨h.val, by omega⟩) + f2t (ix2 ⟨h.val, by omega⟩ cc)))
        - f1m (ix2 r ⟨2 + h.val, by omega⟩)
    else Cert.Spec.pninf)

/-- The weights' payload over its four operands: the adjacency block, the f1 column, the shift column, the f2 row. -/
theorem k1_pay10_apply (adj : Vec Ideal S400x2048 .f32) (p : Prop) [Decidable p] (msk : IVec S400x2048 1)
    (v43 v45 : Vec Ideal S400x1 .f32) (v47 : Vec Ideal S1x2048 .f32) (r : Fin 400) (cc : Fin 2048)
    (hm : msk (ix2 r cc) = if p then 1#1 else 0#1) :
    k1_pay10 adj msk v43 v45 v47 (ix2 r cc)
      = Ideal.exp (if p then
          Cert.Spec.leakyK (adj (ix2 r cc) * (v43 (ix2 r (0 : Fin 1)) + v47 (ix2 (0 : Fin 1) cc))) - v45 (ix2 r (0 : Fin 1))
        else Cert.Spec.pninf) := by
  unfold k1_pay10
  simp only [shapeCast_self]
  rw [exp_apply, select_apply, hm, select_ite]
  simp only [subf_apply, maximumf_apply, mulf_apply, addf_apply, broadcast_apply, broadcastTo_400x1_2048_apply,
    broadcastTo_1b_ab_apply]
  rfl

theorem k1_pay7_apply (i : grid1.Coords) (adj : Vec Ideal S400x2048 .f32)
    (v11 v13 : Vec Ideal S400x1 .f32) (v15 : Vec Ideal S1x2048 .f32) (r : Fin 400) (cc : Fin 2048) :
    k1_pay7 i adj v11 v13 v15 (ix2 r cc)
      = Ideal.exp (if cc.val < 10000 - 2048 * (i 1).val then
          Cert.Spec.leakyK (adj (ix2 r cc) * (v11 (ix2 r (0 : Fin 1)) + v15 (ix2 (0 : Fin 1) cc))) - v13 (ix2 r (0 : Fin 1))
        else Cert.Spec.pninf) := by
  unfold k1_pay7
  simp only [shapeCast_self]
  rw [exp_apply, select_apply, mask_apply, select_ite]
  simp only [subf_apply, maximumf_apply, mulf_apply, addf_apply, broadcast_apply, broadcastTo_400x1_2048_apply,
    broadcastTo_1b_ab_apply]
  rfl

/-! ## The loads of the body at an index -/

theorem ld_rF_apply (f1m : Vec Ideal S400x4 .f32) (q : ℕ) (hq : q < 4) (inb) (r : Fin 400) :
    View.ld f1m (Rect.unit (s := S400x4) ![0, q] S400x1.size inb) (ix2 r (0 : Fin 1)) = f1m (ix2 r ⟨q, hq⟩) :=
  ld_unit_apply f1m _ _ _ _ _ fun a => match a with
    | ⟨0, _⟩ => by show r.val = 0 + r.val; omega
    | ⟨1, _⟩ => by show q = q + 0; omega

theorem ld_rT_apply (f2t : Vec Ideal S8x2048 .f32) (q : ℕ) (hq : q < 8) (inb) (cc : Fin 2048) :
    View.ld f2t (Rect.unit (s := S8x2048) ![q, 0] S1x2048.size inb) (ix2 (0 : Fin 1) cc) = f2t (ix2 ⟨q, hq⟩ cc) :=
  ld_unit_apply f2t _ _ _ _ _ fun a => match a with
    | ⟨0, _⟩ => by show q = q + 0; omega
    | ⟨1, _⟩ => by show cc.val = 0 + cc.val; omega

theorem gatE0_apply (i : grid1.Coords) (adj : Vec Ideal S400x2048 .f32) (f1m : Vec Ideal S400x4 .f32)
    (f2t : Vec Ideal S8x2048 .f32) (r : Fin 400) (cc : Fin 2048) :
    gatE0 i adj f1m f2t (ix2 r cc) = eAt (i 1).val adj f1m f2t 0 r cc := by
  unfold gatE0
  rw [k1_pay7_apply, ld_rF_apply f1m 0 (by omega), ld_rF_apply f1m 2 (by omega), ld_rT_apply f2t 0 (by omega)]
  rfl

theorem gatE1_apply (i : grid1.Coords) (adj : Vec Ideal S400x2048 .f32) (f1m : Vec Ideal S400x4 .f32)
    (f2t : Vec Ideal S8x2048 .f32) (r : Fin 400) (cc : Fin 2048) :
    gatE1 i adj f1m f2t (ix2 r cc) = eAt (i 1).val adj f1m f2t 1 r cc := by
  unfold gatE1
  rw [k1_pay10_apply adj (cc.val < 10000 - 2048 * (i 1).val) _ _ _ _ r cc (mask_apply i r cc),
    ld_rF_apply f1m 1 (by omega), ld_rF_apply f1m 3 (by omega), ld_rT_apply f2t 1 (by omega)]
  rfl

/-! ## One point's update of the scratch, at an index -/

/-- The lane sum of a 400 × 2048 block, as the column [400, 1] the body adds into the denominators. -/
theorem rowsum_apply (e : FVec Ideal S400x2048 .f32) (r : Fin 400) :
    shapeCast S400x1 (multiReduction .add [1] S400 e 0x00000000#32 reduces_S400x2048_S400 (.inl rfl) rfl)
        shapeCasts_S400_S400x1 (ix2 r (0 : Fin 1))
      = ∑ cc : Fin 2048, e (ix2 r cc) := by
  rw [shapeCast_apply _ _ _ (ix1 r) (by
    rw [Shape.rowMajor_val_one, Shape.rowMajor_val_two]; show r.val = r.val * 1 + 0; omega)]
  refine (Ideal.multiReduction_add_single e _ reduces_S400x2048_S400 _ _ (ix1 r)).trans ?_
  show ∑ k : Fin 2048, e (reduces_S400x2048_S400.lift (ix1 r) k) = _
  refine Finset.sum_congr rfl fun k _ => congrArg e (funext fun a => Fin.ext ?_)
  match a with
  | ⟨0, _⟩ => rfl
  | ⟨1, _⟩ => rfl

theorem k1_pay8_apply (i : grid1.Coords) (adj : Vec Ideal S400x2048 .f32) (v11 v13 : Vec Ideal S400x1 .f32)
    (v15 : Vec Ideal S1x2048 .f32) (v29 : Vec Ideal S400x1 .f32) (r : Fin 400) :
    k1_pay8 i adj v11 v13 v15 v29 (ix2 r (0 : Fin 1))
      = v29 (ix2 r (0 : Fin 1)) + ∑ cc : Fin 2048, k1_pay7 i adj v11 v13 v15 (ix2 r cc) := by
  unfold k1_pay8
  simp only [shapeCast_self]
  rw [addf_apply, rowsum_apply]

theorem k1_pay11_apply (adj : Vec Ideal S400x2048 .f32) (msk : IVec S400x2048 1) (v43 v45 : Vec Ideal S400x1 .f32)
    (v47 : Vec Ideal S1x2048 .f32) (v61 : Vec Ideal S400x1 .f32) (r : Fin 400) :
    k1_pay11 adj msk v43 v45 v47 v61 (ix2 r (0 : Fin 1))
      = v61 (ix2 r (0 : Fin 1)) + ∑ cc : Fin 2048, k1_pay10 adj msk v43 v45 v47 (ix2 r cc) := by
  unfold k1_pay11
  simp only [shapeCast_self]
  rw [addf_apply, rowsum_apply]

theorem ld_rS_apply (ss : Vec Ideal S400x8 .f32) (q : ℕ) (hq : q < 8) (inb) (r : Fin 400) :
    View.ld ss (Rect.unit (s := S400x8) ![0, q] S400x1.size inb) (ix2 r (0 : Fin 1)) = ss (ix2 r ⟨q, hq⟩) :=
  ld_unit_apply ss _ _ _ _ _ fun a => match a with
    | ⟨0, _⟩ => by show r.val = 0 + r.val; omega
    | ⟨1, _⟩ => by show q = q + 0; omega

theorem gatStep_snd' (i : grid1.Coords) (adj : Vec Ideal S400x2048 .f32) (xv : Vec Ideal S2048x128 .f32)
    (f1m : Vec Ideal S400x4 .f32) (f2t : Vec Ideal S8x2048 .f32) (s : Vec Ideal S2x400x128 .f32 × Vec Ideal S400x8 .f32) :
    (gatStep i adj xv f1m f2t s).2
      = rS1.overlay (rS0.overlay s.2 (k1_pay8 i adj (View.ld f1m rF0) (View.ld f1m rF2) (View.ld f2t rT0) (View.ld s.2 rS0)))
          (k1_pay11 adj (k1_pay5 i) (View.ld f1m rF1) (View.ld f1m rF3) (View.ld f2t rT1) (View.ld s.2 rS1)) := rfl

section Step
variable (i : grid1.Coords) (adj : Vec Ideal S400x2048 .f32) (xv : Vec Ideal S2048x128 .f32)
  (f1m : Vec Ideal S400x4 .f32) (f2t : Vec Ideal S8x2048 .f32) (s : Vec Ideal S2x400x128 .f32 × Vec Ideal S400x8 .f32)

theorem gatStep_ss0 (r : Fin 400) :
    (gatStep i adj xv f1m f2t s).2 (ix2 r (0 : Fin 8))
      = s.2 (ix2 r (0 : Fin 8)) + ∑ cc : Fin 2048, eAt (i 1).val adj f1m f2t 0 r cc := by
  rw [gatStep_snd']
  refine (overlay_unit_apply_not_mem _ _ _ _ _ (ix2 r (0 : Fin 8)) (1 : Fin 2) (Or.inl ?_)).trans ?_
  · show (0 : ℕ) < 1; omega
  refine (overlay_unit_apply_mem _ _ _ _ _ (ix2 r (0 : Fin 8)) (ix2 r (0 : Fin 1)) fun a => ?_).trans ?_
  · match a with
    | ⟨0, _⟩ => show r.val = 0 + r.val; omega
    | ⟨1, _⟩ => show (0 : ℕ) = 0 + 0; omega
  rw [k1_pay8_apply, ld_rS_apply s.2 0 (by omega)]
  exact congrArg _ (Finset.sum_congr rfl fun cc _ => gatE0_apply i adj f1m f2t r cc)

theorem gatStep_ss1 (r : Fin 400) :
    (gatStep i adj xv f1m f2t s).2 (ix2 r (1 : Fin 8))
      = s.2 (ix2 r (1 : Fin 8)) + ∑ cc : Fin 2048, eAt (i 1).val adj f1m f2t 1 r cc := by
  rw [gatStep_snd']
  refine (overlay_unit_apply_mem _ _ _ _ _ (ix2 r (1 : Fin 8)) (ix2 r (0 : Fin 1)) fun a => ?_).trans ?_
  · match a with
    | ⟨0, _⟩ => show r.val = 0 + r.val; omega
    | ⟨1, _⟩ => show (1 : ℕ) = 1 + 0; omega
  rw [k1_pay11_apply, ld_rS_apply s.2 1 (by omega)]
  exact congrArg _ (Finset.sum_congr rfl fun cc _ => gatE1_apply i adj f1m f2t r cc)

/-- The denominators after the point: column h gains the row sums of head h's weights. -/
theorem gatStep_ss_apply (r : Fin 400) (h : Fin 2) :
    (gatStep i adj xv f1m f2t s).2 (ix2 r ⟨h.val, by omega⟩)
      = s.2 (ix2 r ⟨h.val, by omega⟩) + ∑ cc : Fin 2048, eAt (i 1).val adj f1m f2t h r cc :=
  match h with
  | ⟨0, _⟩ => gatStep_ss0 i adj xv f1m f2t s r
  | ⟨1, _⟩ => gatStep_ss1 i adj xv f1m f2t s r

/-! ### The numerators -/

/-- A 400 × 2048 block times a 2048 × 128 block: at output index (r, d) and contraction position q the operands
    are read at (r, q) and (q, d). -/
theorem lhsC_0 (i : S400x128.Idx) (q : dot_S400x2048_S2048x128_S400x128_1_0_0_1_n_n.contr.Idx) : (dot_S400x2048_S2048x128_S400x128_1_0_0_1_n_n.lhsIdx i q 0).val = (i 0).val := by
  unfold DotDims.lhsIdx
  rw [dif_neg (show ¬(0 : Fin S400x2048.rank) ∈ dot_S400x2048_S2048x128_S400x128_1_0_0_1_n_n.lhsBatch by decide),
    dif_pos (show (0 : Fin S400x2048.rank) ∈ dot_S400x2048_S2048x128_S400x128_1_0_0_1_n_n.lhsNonContracting by decide)]
  rfl

theorem lhsC_1 (i : S400x128.Idx) (q : dot_S400x2048_S2048x128_S400x128_1_0_0_1_n_n.contr.Idx) : (dot_S400x2048_S2048x128_S400x128_1_0_0_1_n_n.lhsIdx i q 1).val = (q ⟨0, by decide⟩).val :=
  dot_S400x2048_S2048x128_S400x128_1_0_0_1_n_n.lhsIdx_val_of_single rfl i q

theorem rhsC_0 (i : S400x128.Idx) (q : dot_S400x2048_S2048x128_S400x128_1_0_0_1_n_n.contr.Idx) : (dot_S400x2048_S2048x128_S400x128_1_0_0_1_n_n.rhsIdx i q 0).val = (q ⟨0, by decide⟩).val :=
  dot_S400x2048_S2048x128_S400x128_1_0_0_1_n_n.rhsIdx_val_of_single rfl i q

theorem rhsC_1 (i : S400x128.Idx) (q : dot_S400x2048_S2048x128_S400x128_1_0_0_1_n_n.contr.Idx) : (dot_S400x2048_S2048x128_S400x128_1_0_0_1_n_n.rhsIdx i q 1).val = (i 1).val := by
  unfold DotDims.rhsIdx
  rw [dif_neg (show ¬(1 : Fin S2048x128.rank) ∈ dot_S400x2048_S2048x128_S400x128_1_0_0_1_n_n.rhsBatch by decide),
    dif_pos (show (1 : Fin S2048x128.rank) ∈ dot_S400x2048_S2048x128_S400x128_1_0_0_1_n_n.rhsNonContracting by decide)]
  rfl

/-- … into a zero accumulator, at an index: Σ_cc e(r, cc) · x(cc, d). -/
theorem matmul_400_apply (e : FVec Ideal S400x2048 .f32) (x : FVec Ideal S2048x128 .f32) (r : Fin 400) (d : Fin 128) :
    matmul dot_S400x2048_S2048x128_S400x128_1_0_0_1_n_n none e x (constant S400x128 .f32 0x00000000#32) (ix2 r d)
      = ∑ cc : Fin 2048, e (ix2 r cc) * x (ix2 cc d) := by
  show FloatOps.matmul dot_S400x2048_S2048x128_S400x128_1_0_0_1_n_n none e x (constant S400x128 .f32 0x00000000#32) (ix2 r d) = _
  rw [Ideal.matmul_constant_zero_apply, ← Equiv.sum_comp (contrEquiv1 dot_S400x2048_S2048x128_S400x128_1_0_0_1_n_n 2048 rfl rfl).symm]
  refine Finset.sum_congr rfl fun k _ => ?_
  have hk := contrEquiv1_symm_val dot_S400x2048_S2048x128_S400x128_1_0_0_1_n_n 2048 rfl rfl k
  have el : dot_S400x2048_S2048x128_S400x128_1_0_0_1_n_n.lhsIdx (ix2 r d) ((contrEquiv1 dot_S400x2048_S2048x128_S400x128_1_0_0_1_n_n 2048 rfl rfl).symm k) = ix2 r k :=
    funext fun a => Fin.ext (by
      match a with
      | ⟨0, _⟩ => exact lhsC_0 _ _
      | ⟨1, _⟩ => exact (lhsC_1 _ _).trans hk)
  have er : dot_S400x2048_S2048x128_S400x128_1_0_0_1_n_n.rhsIdx (ix2 r d) ((contrEquiv1 dot_S400x2048_S2048x128_S400x128_1_0_0_1_n_n 2048 rfl rfl).symm k) = ix2 k d :=
    funext fun a => Fin.ext (by
      match a with
      | ⟨0, _⟩ => exact (rhsC_0 _ _).trans hk
      | ⟨1, _⟩ => exact rhsC_1 _ _)
  rw [el, er]

theorem k1_pay9_apply (v10 : FVec Ideal S2048x128 .f32) (v28 : FVec Ideal S400x2048 .f32) (v36 : Vec Ideal S1x400x128 .f32)
    (r : Fin 400) (d : Fin 128) :
    k1_pay9 v10 v28 v36 (ix3 (0 : Fin 1) r d)
      = v36 (ix3 (0 : Fin 1) r d) + ∑ cc : Fin 2048, v28 (ix2 r cc) * v10 (ix2 cc d) := by
  unfold k1_pay9
  rw [shapeCast_ab_1ab_apply, addf_apply, shapeCast_1ab_ab_apply, matmul_400_apply]

theorem k1_pay1_apply (v10 : FVec Ideal S2048x128 .f32) (v60 : FVec Ideal S400x2048 .f32) (v69 : FVec Ideal S400x128 .f32)
    (r : Fin 400) (d : Fin 128) :
    k1_pay1 v10 v60 v69 (ix3 (0 : Fin 1) r d)
      = v69 (ix2 r d) + ∑ cc : Fin 2048, v60 (ix2 r cc) * v10 (ix2 cc d) := by
  unfold k1_pay1
  rw [shapeCast_ab_1ab_apply, addf_apply, matmul_400_apply]

theorem ld_rA_apply (acc : Vec Ideal S2x400x128 .f32) (q : ℕ) (hq : q < 2) (inb) (r : Fin 400) (d : Fin 128) :
    View.ld acc (Rect.unit (s := S2x400x128) ![q, 0, 0] S1x400x128.size inb) (ix3 (0 : Fin 1) r d) = acc (ix3 ⟨q, hq⟩ r d) :=
  ld_unit_apply acc _ _ _ _ _ fun a => match a with
    | ⟨0, _⟩ => by show q = q + 0; omega
    | ⟨1, _⟩ => by show r.val = 0 + r.val; omega
    | ⟨2, _⟩ => by show d.val = 0 + d.val; omega

theorem gatStep_fst' :
    (gatStep i adj xv f1m f2t s).1
      = rA1.overlay (rA0.overlay s.1 (k1_pay9 (k1_pay6 xv) (gatE0 i adj f1m f2t) (View.ld s.1 rA0)))
          (k1_pay1 (k1_pay6 xv) (gatE1 i adj f1m f2t) (k1_pay12 (View.ld s.1 rA1))) := rfl

theorem k1_pay6_eq : k1_pay6 xv = xv := by
  unfold k1_pay6
  exact shapeCast_self _ _

theorem gatStep_acc0 (r : Fin 400) (d : Fin 128) :
    (gatStep i adj xv f1m f2t s).1 (ix3 (0 : Fin 2) r d)
      = s.1 (ix3 (0 : Fin 2) r d) + ∑ cc : Fin 2048, eAt (i 1).val adj f1m f2t 0 r cc * xv (ix2 cc d) := by
  rw [gatStep_fst']
  refine (overlay_unit_apply_not_mem _ _ _ _ _ (ix3 (0 : Fin 2) r d) (0 : Fin 3) (Or.inl ?_)).trans ?_
  · show (0 : ℕ) < 1; omega
  refine (overlay_unit_apply_mem _ _ _ _ _ (ix3 (0 : Fin 2) r d) (ix3 (0 : Fin 1) r d) fun a => ?_).trans ?_
  · match a with
    | ⟨0, _⟩ => show (0 : ℕ) = 0 + 0; omega
    | ⟨1, _⟩ => show r.val = 0 + r.val; omega
    | ⟨2, _⟩ => show d.val = 0 + d.val; omega
  rw [k1_pay9_apply, ld_rA_apply s.1 0 (by omega), k1_pay6_eq]
  exact congrArg _ (Finset.sum_congr rfl fun cc _ => by rw [gatE0_apply])

theorem gatStep_acc1 (r : Fin 400) (d : Fin 128) :
    (gatStep i adj xv f1m f2t s).1 (ix3 (1 : Fin 2) r d)
      = s.1 (ix3 (1 : Fin 2) r d) + ∑ cc : Fin 2048, eAt (i 1).val adj f1m f2t 1 r cc * xv (ix2 cc d) := by
  rw [gatStep_fst']
  refine (overlay_unit_apply_mem _ _ _ _ _ (ix3 (1 : Fin 2) r d) (ix3 (0 : Fin 1) r d) fun a => ?_).trans ?_
  · match a with
    | ⟨0, _⟩ => show (1 : ℕ) = 1 + 0; omega
    | ⟨1, _⟩ => show r.val = 0 + r.val; omega
    | ⟨2, _⟩ => show d.val = 0 + d.val; omega
  rw [k1_pay1_apply, k1_pay6_eq]
  unfold k1_pay12
  rw [shapeCast_1ab_ab_apply, ld_rA_apply s.1 1 (by omega)]
  exact congrArg _ (Finset.sum_congr rfl fun cc _ => by rw [gatE1_apply])

/-- The numerators after the point: row h gains head h's weights times the block of x. -/
theorem gatStep_acc_apply (r : Fin 400) (d : Fin 128) (h : Fin 2) :
    (gatStep i adj xv f1m f2t s).1 (ix3 h r d)
      = s.1 (ix3 h r d) + ∑ cc : Fin 2048, eAt (i 1).val adj f1m f2t h r cc * xv (ix2 cc d) :=
  match h with
  | ⟨0, _⟩ => gatStep_acc0 i adj xv f1m f2t s r d
  | ⟨1, _⟩ => gatStep_acc1 i adj xv f1m f2t s r d

end Step

/-! ## The reset -/

theorem gatInit_ss_apply (j : S400x8.Idx) : (gatInit (F := Ideal)).2 j = Cert.Spec.pzero := by
  show k1_pay4 (F := Ideal) j = _
  unfold k1_pay4
  simp only [shapeCast_self]
  rfl

theorem gatInit_acc_apply (j : S2x400x128.Idx) : (gatInit (F := Ideal)).1 j = Cert.Spec.pzero := by
  show k1_pay3 (F := Ideal) j = _
  unfold k1_pay3
  simp only [shapeCast_self]
  rfl

end Cert.KernelIdeal.HandValue

end
-- ==== Proof.KernelValueHost.lean ====
/-
  The host operations of the kernel program, read at an index.

  Before the first region the program packs the four attention vectors and a zero block into wf = [w1₀ | w1₁ | w2₀ | w2₁ | 0 0 0 0]
  (each vector a slice of a [2, 128, 1] array viewed [128, 1]). Between the two regions it forms, from the eight-column array f = elu(x · wf) and the projection x:
  f1 = f[:, 0:2], f2 = f[:, 2:4], the column maximum M_h = max over the rows j of f2(j, h) taken from −∞,
  the per-row shift mm(i, h) = max(f1(i, h) + M_h, 0), the array f1m = [f1 | mm] of four columns, x padded with
  240 zero rows, and f2 transposed and padded with zeros to eight rows and 10240 columns. Each is read here at an
  index over an arbitrary valuation of the buffers, first stretch by stretch and then through the four stretches
  composed. The shift of an array of reals is real: a maximum over a nonempty finite set of reals taken from −∞ is
  one of them, a sum of two reals is real, and so is its maximum with zero.
-/
import proofs.«144953_g79190607004093_cont_9to1c4b_603_4_alg».proof.Proof.KI.Steps
import proofs.«144953_g79190607004093_cont_9to1c4b_603_4_alg».proof.Proof.Gen.KernelIdeal.Regions
import proofs.«144953_g79190607004093_cont_9to1c4b_603_4_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.KernelVsHost
import Idealize.ShloMosaic.Lib.IdealHost
import Idealize.ShloMosaic.PureOps.Reduce

noncomputable section
namespace Cert.KernelIdeal.HandValue
open Idealize.ShloMosaic Idealize.ShloMosaic.TcCoe Idealize.SL.Sem Idealize.ShloMosaic.ValueIdx
open Cert.KernelIdeal Cert.KernelIdeal.Gen Cert.KernelIdeal.Hand
open scoped BigOperators

/-! ## The two float patterns the host code spells -/

/-- The pattern of −∞ is the bottom of the extended reals. -/
theorem pninf_eq_bot : Cert.Spec.pninf = ⊥ := by
  simp [Cert.Spec.pninf, Ideal.ofBits, Ideal.ieee]

/-- The pattern of zero is zero. -/
theorem pzero_eq_zero : Cert.Spec.pzero = 0 := Ideal.ofBits_zero_f32

/-! ## The per-row shift -/

/-- The column maximum of f2 for head h (the host's max-reduce over the rows, from −∞), and the per-row shift
    max(f1 + that maximum, 0), as functions of the eight-column array f. -/
def colMax (f : Fin 10000 → Fin 8 → EReal) (h : Fin 2) : EReal :=
  (Finset.univ : Finset (Fin 10000)).fold max Cert.Spec.pninf (fun j => f j ⟨2 + h.val, by omega⟩)
def kerMmOf (f : Fin 10000 → Fin 8 → EReal) (h : Fin 2) (i : Fin 10000) : EReal :=
  max (f i ⟨h.val, by omega⟩ + colMax f h) Cert.Spec.pzero

/-- A maximum over the (nonempty) set of rows of real entries, taken from −∞, is real: it is below +∞ because
    every entry is, and above −∞ because the first row's entry is. -/
theorem colMax_real (f : Fin 10000 → Fin 8 → EReal) (hf : ∀ i c, f i c ≠ ⊤ ∧ f i c ≠ ⊥) (h : Fin 2) :
    colMax f h ≠ ⊤ ∧ colMax f h ≠ ⊥ := by
  unfold colMax
  rw [pninf_eq_bot]
  constructor
  · apply ne_of_lt
    rw [Finset.fold_max_lt]
    exact ⟨bot_lt_top, fun x _ => lt_top_iff_ne_top.mpr (hf x _).1⟩
  · apply ne_of_gt
    rw [Finset.lt_fold_max]
    exact Or.inr ⟨⟨0, by omega⟩, Finset.mem_univ _, bot_lt_iff_ne_bot.mpr (hf _ _).2⟩

/-- The shift of a real array is real: a sum of two reals, clipped below at zero. -/
theorem kerMmOf_real (f : Fin 10000 → Fin 8 → EReal) (hf : ∀ i c, f i c ≠ ⊤ ∧ f i c ≠ ⊥) (h : Fin 2) (i : Fin 10000) :
    kerMmOf f h i ≠ ⊤ ∧ kerMmOf f h i ≠ ⊥ := by
  unfold kerMmOf
  rw [pzero_eq_zero]
  obtain ⟨hc1, hc2⟩ := colMax_real f hf h
  obtain ⟨hf1, hf2⟩ := hf i ⟨h.val, by omega⟩
  constructor
  · apply ne_of_lt
    rw [max_lt_iff]
    exact ⟨EReal.add_lt_top hf1 hc1, EReal.zero_lt_top⟩
  · apply ne_of_gt
    rw [lt_max_iff]
    exact Or.inr EReal.bot_lt_zero

variable (V : Valuation τ sig (Elt Ideal))

/-! ## The host operations between the two regions, read at an index -/

/-- f2 = f[:, 2:4] as the first stretch leaves it. -/
theorem f2s_vec :
    (StableHlo.after hostOps1 V main_v12 : S10000x2.Idx → EReal)
      = extractStridedSlice S10000x2 ![0, 2] (V main_v10_1 : S10000x8.Idx → EReal) slices_S10000x8_S10000x2_0_2 := by
  dsimp only [hostOps1]; after_results

theorem f2s_apply (i : Fin 10000) (h : Fin 2) :
    (StableHlo.after hostOps1 V main_v12 : S10000x2.Idx → EReal) (ix2 i h)
      = (V main_v10_1 : S10000x8.Idx → EReal) (ix2 i ⟨2 + h.val, by omega⟩) := by
  rw [f2s_vec]
  exact slice2_axis1_apply 2 _ _ i h _ rfl

/-- f2 transposed, as the third stretch leaves it. -/
theorem f2tr_vec :
    (StableHlo.after hostOps1_2 V main_v21 : S2x10000.Idx → EReal)
      = transpose S2x10000 [1, 0] (V main_v12 : S10000x2.Idx → EReal) transposes_S10000x2_S2x10000_1_0 := by
  dsimp only [hostOps1_2]; after_results

theorem f2tr_apply (h : Fin 2) (i : Fin 10000) :
    (StableHlo.after hostOps1_2 V main_v21 : S2x10000.Idx → EReal) (ix2 h i) = (V main_v12 : S10000x2.Idx → EReal) (ix2 i h) := by
  rw [f2tr_vec]
  exact transpose_ix2_apply _ _ h i

/-- The integer zero the two paddings are converted from. -/
theorem c_after1 : (StableHlo.after hostOps1 V main_c : S_.Idx → BitVec 32) = constantI S_ 32 0#32 := by
  dsimp only [hostOps1]; after_results

theorem c2_after : (StableHlo.after hostOps1_2 V main_c_2 : S_.Idx → BitVec 32) = constantI S_ 32 0#32 := by
  dsimp only [hostOps1_2]; after_results

/-- The padding value of both paddings: the integer zero converted is the pattern of zero. -/
theorem padval_eq (z : S_.Idx → BitVec 32) (hz : z = constantI S_ 32 0#32) (j : S_.Idx) :
    (sitofp (F := Ideal) .f32 z : FVec Ideal S_ .f32) j = Cert.Spec.pzero := by
  rw [hz, pzero_eq_zero]
  show ((((0#32 : BitVec 32).toInt : ℤ) : ℝ) : EReal) = 0
  simp

/-- x padded by 240 zero rows, as the second stretch leaves it. -/
theorem xpad_vec :
    (StableHlo.after hostOps1_1 V main_v20 : S10240x128.Idx → EReal)
      = pad S10240x128 ![0, 0] ![240, 0] ![0, 0] (V main_v10_0 : S10000x128.Idx → EReal)
          (sitofp (F := Ideal) .f32 (V main_c : S_.Idx → BitVec 32) : FVec Ideal S_ .f32) pads_S10000x128_S10240x128_02400_000 h_S_ := by
  dsimp only [hostOps1_1]; after_results; rfl

theorem xpad_apply (hc : (V main_c : S_.Idx → BitVec 32) = constantI S_ 32 0#32) (j : Fin 10240) (d : Fin 128) :
    (StableHlo.after hostOps1_1 V main_v20 : S10240x128.Idx → EReal) (ix2 j d)
      = if hj : j.val < 10000 then (V main_v10_0 : S10000x128.Idx → EReal) (ix2 ⟨j.val, hj⟩ d) else Cert.Spec.pzero := by
  rw [xpad_vec]
  by_cases hj : j.val < 10000
  · rw [dif_pos hj]
    refine pad_apply_of_inside _ _ _ _ _ _ _ (ix2 j d) (ix2 ⟨j.val, hj⟩ d) fun a => ?_
    match a with
    | ⟨0, _⟩ => show j.val = 0 + j.val * (0 + 1); omega
    | ⟨1, _⟩ => show d.val = 0 + d.val * (0 + 1); omega
  · rw [dif_neg hj]
    rw [pad_apply_of_not_inside _ _ _ _ _ _ _ (ix2 j d) (0 : Fin 2)
      (by show ¬(0 ≤ j.val ∧ (j.val - 0) % (0 + 1) = 0 ∧ (j.val - 0) / (0 + 1) < 10000); omega)]
    exact padval_eq _ hc _

/-- f2 transposed padded to eight rows and 10240 columns of zeros, as the fourth stretch leaves it. -/
theorem f2t_vec :
    (StableHlo.after hostOps1_3 V main_v22 : S8x10240.Idx → EReal)
      = pad S8x10240 ![0, 0] ![6, 240] ![0, 0] (V main_v21 : S2x10000.Idx → EReal)
          (sitofp (F := Ideal) .f32 (V main_c_2 : S_.Idx → BitVec 32) : FVec Ideal S_ .f32) pads_S2x10000_S8x10240_060_02400 h_S_ := by
  dsimp only [hostOps1_3]; after_results; rfl

theorem f2t_apply (hc : (V main_c_2 : S_.Idx → BitVec 32) = constantI S_ 32 0#32) (r : Fin 8) (cc : Fin 10240) :
    (StableHlo.after hostOps1_3 V main_v22 : S8x10240.Idx → EReal) (ix2 r cc)
      = if hh : r.val < 2 ∧ cc.val < 10000 then (V main_v21 : S2x10000.Idx → EReal) (ix2 ⟨r.val, hh.1⟩ ⟨cc.val, hh.2⟩)
        else Cert.Spec.pzero := by
  rw [f2t_vec]
  by_cases hh : r.val < 2 ∧ cc.val < 10000
  · rw [dif_pos hh]
    refine pad_apply_of_inside _ _ _ _ _ _ _ (ix2 r cc) (ix2 ⟨r.val, hh.1⟩ ⟨cc.val, hh.2⟩) fun a => ?_
    match a with
    | ⟨0, _⟩ => show r.val = 0 + r.val * (0 + 1); omega
    | ⟨1, _⟩ => show cc.val = 0 + cc.val * (0 + 1); omega
  · rw [dif_neg hh]
    by_cases hr : r.val < 2
    · have hcc : ¬ cc.val < 10000 := fun h => hh ⟨hr, h⟩
      rw [pad_apply_of_not_inside _ _ _ _ _ _ _ (ix2 r cc) (1 : Fin 2)
        (by show ¬(0 ≤ cc.val ∧ (cc.val - 0) % (0 + 1) = 0 ∧ (cc.val - 0) / (0 + 1) < 10000); omega)]
      exact padval_eq _ hc _
    · rw [pad_apply_of_not_inside _ _ _ _ _ _ _ (ix2 r cc) (0 : Fin 2)
        (by show ¬(0 ≤ r.val ∧ (r.val - 0) % (0 + 1) = 0 ∧ (r.val - 0) / (0 + 1) < 2); omega)]
      exact padval_eq _ hc _

/-- The host's max-reduce over the rows of a two-column array, from −∞, read at column h: the maximum over the rows. -/
theorem reduce_max_apply (g : FVec Ideal S10000x2 .f32) (h : Fin 2) :
    Host.reduce (FloatOps.maximumf (F := Ideal) (φ := .f32)) g (constant (F := Ideal) S_ .f32 0xFF800000#32)
        reducesTo_S10000x2_S2_d0 h_S_ (ix1 h)
      = (Finset.univ : Finset (Fin 10000)).fold max Cert.Spec.pninf (fun j => g (ix2 j h)) := by
  have hR : S10000x2.Reduces [0] S2 := by decide
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single _ g _ reducesTo_S10000x2_S2_d0 hR h_S_ (ix1 h)]
  show (Finset.univ : Finset (Fin 10000)).fold max Cert.Spec.pninf (g ∘ hR.lift (ix1 h)) = _
  refine congrArg (fun f => Finset.fold max Cert.Spec.pninf f (Finset.univ : Finset (Fin 10000))) (funext fun k => ?_)
  show g (hR.lift (ix1 h) k) = g (ix2 k h)
  refine congrArg g (funext fun c => ?_)
  match c with
  | ⟨0, _⟩ => rfl
  | ⟨1, _⟩ => rfl

/-- The shift column of head h at row i as the host's operations spell it: max(f1 + the row maximum of f2, 0). -/
theorem mm_apply (f1 f2 : FVec Ideal S10000x2 .f32) (i : Fin 10000) (h : Fin 2) :
    maximumf (addf f1 (broadcastInDim S10000x2 ![0, 1] bcast_S1x2_S10000x2_0_1 (broadcastInDim S1x2 ![1] bcast_S2_S1x2_1
          (Host.reduce (FloatOps.maximumf (F := Ideal) (φ := .f32)) f2 (constant (F := Ideal) S_ .f32 0xFF800000#32)
            reducesTo_S10000x2_S2_d0 h_S_))))
        (broadcastInDim S10000x2 ![] bcast_S_S10000x2 (constant (F := Ideal) S_ .f32 0x00000000#32)) (ix2 i h)
      = max (f1 (ix2 i h) + (Finset.univ : Finset (Fin 10000)).fold max Cert.Spec.pninf (fun j => f2 (ix2 j h)))
          Cert.Spec.pzero := by
  rw [maximumf_apply, addf_apply, broadcastInDim_oneRow_apply,
    broadcastInDim_apply ![1] bcast_S2_S1x2_1 _ (ix2 (0 : Fin 1) h) (ix1 h)
      (fun a => match a with | ⟨0, _⟩ => by show h.val = if (2 : ℕ) = 1 then 0 else h.val; rw [if_neg (by decide)]),
    reduce_max_apply, broadcastInDim_scalar_apply, constant_apply]
  rfl

/-- f1m = [f1 | mm] read at an index, after the first host stretch between the regions: columns 0, 1 are f1's,
    columns 2, 3 the per-row shifts of the two heads. -/
theorem f1m_apply (i : Fin 10000) (c : Fin 4) :
    (StableHlo.after hostOps1 V main_v19 : S10000x4.Idx → EReal) (ix2 i c)
      = if hc : c.val < 2 then (V main_v10_1 : S10000x8.Idx → EReal) (ix2 i ⟨c.val, by omega⟩)
        else kerMmOf (fun j q => (V main_v10_1 : S10000x8.Idx → EReal) (ix2 j q)) ⟨c.val - 2, by omega⟩ i := by
  have e0 : ∀ (j : Fin 10000) (q : Fin 2),
      extractStridedSlice S10000x2 ![0, 0] (V main_v10_1 : S10000x8.Idx → EReal) slices_S10000x8_S10000x2_0_0 (ix2 j q)
        = (V main_v10_1 : S10000x8.Idx → EReal) (ix2 j ⟨q.val, by omega⟩) :=
    fun j q => slice2_axis1_apply 0 _ _ j q _ (Nat.zero_add _).symm
  have e2 : ∀ (j : Fin 10000) (q : Fin 2),
      extractStridedSlice S10000x2 ![0, 2] (V main_v10_1 : S10000x8.Idx → EReal) slices_S10000x8_S10000x2_0_2 (ix2 j q)
        = (V main_v10_1 : S10000x8.Idx → EReal) (ix2 j ⟨2 + q.val, by omega⟩) :=
    fun j q => slice2_axis1_apply 2 _ _ j q _ rfl
  dsimp only [hostOps1]
  after_results
  by_cases hc : c.val < 2
  · rw [dif_pos hc,
      concatenate_pair_apply_left (t := S10000x4) (s₁ := S10000x2) (s₂ := S10000x2) (1 : Fin 2) _ _ _ (ix2 i c) rfl (ix2 i (⟨c.val, hc⟩ : Fin 2))
        (fun b => match b with | ⟨0, _⟩ => rfl | ⟨1, _⟩ => rfl)]
    exact e0 i ⟨c.val, hc⟩
  · have hc2 : c.val - 2 < 2 := by omega
    rw [dif_neg hc,
      concatenate_pair_apply_right (t := S10000x4) (s₁ := S10000x2) (s₂ := S10000x2) (1 : Fin 2) _ _ _ (ix2 i c) rfl rfl (ix2 i (⟨c.val - 2, hc2⟩ : Fin 2))
        (fun b hb => match b, hb with | ⟨0, _⟩, _ => rfl | ⟨1, _⟩, hb => absurd rfl hb)
        (by show (c.val - 2) + 2 = c.val; omega),
      mm_apply]
    simp only [e0, e2]
    rfl

/-! ## The four stretches composed -/

/-- The contents after the four host stretches between the regions, run in order from V. -/
abbrev hostAll (V : Valuation τ sig (Elt Ideal)) : Valuation τ sig (Elt Ideal) :=
  StableHlo.after hostOps1_3 (StableHlo.after hostOps1_2 (StableHlo.after hostOps1_1 (StableHlo.after hostOps1 V)))

/-- A reference none of the four stretches writes keeps its contents. -/
theorem host_keep (r : Ref sig .tc) (h1 : r ∉ hostOps1_W) (h2 : r ∉ hostOps1_1_W) (h3 : r ∉ hostOps1_2_W)
    (h4 : r ∉ hostOps1_3_W) : hostAll V r = V r :=
  (StableHlo.after_of_writes_sub hostOps1_3 _ hostOps1_3_writes h4).trans <|
    (StableHlo.after_of_writes_sub hostOps1_2 _ hostOps1_2_writes h3).trans <|
      (StableHlo.after_of_writes_sub hostOps1_1 _ hostOps1_1_writes h2).trans <|
        StableHlo.after_of_writes_sub hostOps1 _ hostOps1_writes h1

theorem host_f1m (i : Fin 10000) (c4 : Fin 4) :
    (hostAll V main_v19 : S10000x4.Idx → EReal) (ix2 i c4)
      = if hc : c4.val < 2 then (V main_v10_1 : S10000x8.Idx → EReal) (ix2 i ⟨c4.val, by omega⟩)
        else kerMmOf (fun j q => (V main_v10_1 : S10000x8.Idx → EReal) (ix2 j q)) ⟨c4.val - 2, by omega⟩ i := by
  have e : hostAll V main_v19 = StableHlo.after hostOps1 V main_v19 :=
    (StableHlo.after_of_writes_sub hostOps1_3 _ hostOps1_3_writes (by decide)).trans <|
      (StableHlo.after_of_writes_sub hostOps1_2 _ hostOps1_2_writes (by decide)).trans <|
        StableHlo.after_of_writes_sub hostOps1_1 _ hostOps1_1_writes (by decide)
  rw [e]
  exact f1m_apply V i c4

theorem host_xpad (j : Fin 10240) (d : Fin 128) :
    (hostAll V main_v20 : S10240x128.Idx → EReal) (ix2 j d)
      = if hj : j.val < 10000 then (V main_v10_0 : S10000x128.Idx → EReal) (ix2 ⟨j.val, hj⟩ d) else Cert.Spec.pzero := by
  have e : hostAll V main_v20 = StableHlo.after hostOps1_1 (StableHlo.after hostOps1 V) main_v20 :=
    (StableHlo.after_of_writes_sub hostOps1_3 _ hostOps1_3_writes (by decide)).trans <|
      StableHlo.after_of_writes_sub hostOps1_2 _ hostOps1_2_writes (by decide)
  have e0 : StableHlo.after hostOps1 V main_v10_0 = V main_v10_0 :=
    StableHlo.after_of_writes_sub hostOps1 _ hostOps1_writes (by decide)
  rw [e, xpad_apply _ (c_after1 V) j d, e0]

theorem host_f2t (r : Fin 8) (cc : Fin 10240) :
    (hostAll V main_v22 : S8x10240.Idx → EReal) (ix2 r cc)
      = if hh : r.val < 2 ∧ cc.val < 10000 then
          (V main_v10_1 : S10000x8.Idx → EReal) (ix2 ⟨cc.val, hh.2⟩ ⟨2 + r.val, by omega⟩)
        else Cert.Spec.pzero := by
  have e : StableHlo.after hostOps1_1 (StableHlo.after hostOps1 V) main_v12 = StableHlo.after hostOps1 V main_v12 :=
    StableHlo.after_of_writes_sub hostOps1_1 _ hostOps1_1_writes (by decide)
  dsimp only [hostAll]
  rw [f2t_apply _ (c2_after _) r cc]
  by_cases hh : r.val < 2 ∧ cc.val < 10000
  · rw [dif_pos hh, dif_pos hh, f2tr_apply, e, f2s_apply]
  · rw [dif_neg hh, dif_neg hh]

/-! ## The first stretch: the packed attention vectors -/

/-- One attention vector cut from a [2, 128, 1] array at head o and viewed [128, 1], read at feature k. -/
theorem wcol_apply (A : S2x128x1.Idx → EReal) (o : ℕ) (ho : o < 2) (sl : S2x128x1.Slices ![o, 0, 0] S1x128x1) (k : Fin 128) :
    shapeCast S128x1 (extractStridedSlice S1x128x1 ![o, 0, 0] A sl) shapeCasts_S1x128x1_S128x1 (ix2 k (0 : Fin 1))
      = A (ix3 (⟨o, ho⟩ : Fin 2) k (0 : Fin 1)) := by
  rw [shapeCast_apply _ _ (ix2 k (0 : Fin 1)) (ix3 (0 : Fin 1) k (0 : Fin 1))
    (by rw [Shape.rowMajor_val_three, Shape.rowMajor_val_two]; simp)]
  exact extractStridedSlice_apply _ _ _ _ (ix3 (⟨o, ho⟩ : Fin 2) k (0 : Fin 1)) (fun a => match a with
    | ⟨0, _⟩ => (by show o = o + 0; omega)
    | ⟨1, _⟩ => (by show k.val = 0 + k.val; omega)
    | ⟨2, _⟩ => rfl)

/-- Four single columns and a four-column block laid side by side, read at column c. -/
theorem wf_concat (v1 v3 v5 v7 : S128x1.Idx → EReal) (v8 : S128x4.Idx → EReal) (k : Fin 128) (c : Fin 8) :
    concatenate S128x8 1 [⟨S128x1, v1⟩, ⟨S128x1, v3⟩, ⟨S128x1, v5⟩, ⟨S128x1, v7⟩, ⟨S128x4, v8⟩]
        concatenates_S128x1_S128x1_S128x1_S128x1_S128x4_S128x8_d1 (ix2 k c)
      = if c.val = 0 then v1 (ix2 k (0 : Fin 1)) else if c.val = 1 then v3 (ix2 k (0 : Fin 1))
        else if c.val = 2 then v5 (ix2 k (0 : Fin 1)) else if c.val = 3 then v7 (ix2 k (0 : Fin 1))
        else v8 (ix2 k (⟨(c.val - 4) % 4, Nat.mod_lt _ (by decide)⟩ : Fin 4)) := by
  have hi1 : ∀ b : Fin 2, b.cast rfl ≠ (1 : Fin 2) → ((ix2 k (0 : Fin 1) : S128x1.Idx) b).val = ((ix2 k c : S128x8.Idx) (b.cast rfl)).val :=
    fun b hb => match b, hb with | ⟨0, _⟩, _ => rfl | ⟨1, _⟩, hb => absurd rfl hb
  by_cases h0 : c.val = 0
  · rw [if_pos h0]
    exact concatenate_apply_piece (t := S128x8) (1 : Fin 2) _ _ (ix2 k c) 0 (by show (0 : ℕ) < 5; omega) S128x1 v1 rfl rfl 0 rfl
      (ix2 k (0 : Fin 1)) hi1 (by show 0 + 0 = c.val; omega)
  rw [if_neg h0]
  by_cases h1 : c.val = 1
  · rw [if_pos h1]
    exact concatenate_apply_piece (t := S128x8) (1 : Fin 2) _ _ (ix2 k c) 1 (by show (1 : ℕ) < 5; omega) S128x1 v3 rfl rfl 1 rfl
      (ix2 k (0 : Fin 1)) hi1 (by show 1 + 0 = c.val; omega)
  rw [if_neg h1]
  by_cases h2 : c.val = 2
  · rw [if_pos h2]
    exact concatenate_apply_piece (t := S128x8) (1 : Fin 2) _ _ (ix2 k c) 2 (by show (2 : ℕ) < 5; omega) S128x1 v5 rfl rfl 2 rfl
      (ix2 k (0 : Fin 1)) hi1 (by show 2 + 0 = c.val; omega)
  rw [if_neg h2]
  by_cases h3 : c.val = 3
  · rw [if_pos h3]
    exact concatenate_apply_piece (t := S128x8) (1 : Fin 2) _ _ (ix2 k c) 3 (by show (3 : ℕ) < 5; omega) S128x1 v7 rfl rfl 3 rfl
      (ix2 k (0 : Fin 1)) hi1 (by show 3 + 0 = c.val; omega)
  rw [if_neg h3]
  have hc := c.isLt
  exact concatenate_apply_piece (t := S128x8) (1 : Fin 2) _ _ (ix2 k c) 4 (by show (4 : ℕ) < 5; omega) S128x4 v8 rfl rfl 4 rfl
    (ix2 k (⟨(c.val - 4) % 4, Nat.mod_lt _ (by decide)⟩ : Fin 4))
    (fun b hb => match b, hb with | ⟨0, _⟩, _ => rfl | ⟨1, _⟩, hb => absurd rfl hb)
    (by show 4 + (c.val - 4) % 4 = c.val; omega)

/-- The packed attention vectors wf = [w1₀ | w1₁ | w2₀ | w2₁ | 0 0 0 0] as the first stretch leaves them. -/
theorem wf_apply (k : Fin 128) (c : Fin 8) :
    (StableHlo.after hostOps0 V main_v9 : S128x8.Idx → EReal) (ix2 k c)
      = Cert.Spec.wf (fun h k => (V main_arg3 : S2x128x1.Idx → EReal) (ix3 h k (0 : Fin 1)))
          (fun h k => (V main_arg4 : S2x128x1.Idx → EReal) (ix3 h k (0 : Fin 1))) k c := by
  dsimp only [hostOps0]
  after_results
  dsimp only [Matrix.cons_val]
  after_results_simp
  refine (wf_concat _ _ _ _ _ k c).trans ?_
  unfold Cert.Spec.wf
  by_cases h0 : c.val = 0
  · rw [if_pos h0, if_pos h0]; exact wcol_apply _ 0 (by decide) _ k
  rw [if_neg h0, if_neg h0]
  by_cases h1 : c.val = 1
  · rw [if_pos h1, if_pos h1]; exact wcol_apply _ 1 (by decide) _ k
  rw [if_neg h1, if_neg h1]
  by_cases h2 : c.val = 2
  · rw [if_pos h2, if_pos h2]; exact wcol_apply _ 0 (by decide) _ k
  rw [if_neg h2, if_neg h2]
  by_cases h3 : c.val = 3
  · rw [if_pos h3, if_pos h3]; exact wcol_apply _ 1 (by decide) _ k
  rw [if_neg h3, if_neg h3, broadcastInDim_scalar_apply, constant_apply]
  rfl

end Cert.KernelIdeal.HandValue
end
-- ==== Proof.KernelValueAcc.lean ====
/-
  The five points of one row block, read at an index.  From the reset (both accumulators zero) each point adds,
  at row r and head h, its column block's sum Σ_cc e_h(r, cc) to the denominator and Σ_cc e_h(r, cc) · xv(cc, d)
  to the numerator.  When the blocks the points read are the column blocks of the arrays the specification names
  — the adjacency row, the two f1 columns and the two shifts of the row, the two f2 rows, and x padded with zero
  rows — block J's weight at column cc is the specification's exponentiated shifted logit (for J < 5 and cc < 2048
  the column 2048·J + cc lies inside the 10000 columns exactly when cc < 10000 − 2048·J), so after five points
  the accumulators are the specification's left-nested sums over the five blocks, and the last point's output is
  the specification's result.
-/
import proofs.«144953_g79190607004093_cont_9to1c4b_603_4_alg».proof.Proof.KernelValueStep
import proofs.«144953_g79190607004093_cont_9to1c4b_603_4_alg».proof.Proof.KernelValueProj
import proofs.«144953_g79190607004093_cont_9to1c4b_603_4_alg».proof.Proof.Gen.KernelIdeal.Regions
import proofs.«144953_g79190607004093_cont_9to1c4b_603_4_alg».proof.Proof.Spec
import Idealize.ShloMosaic.Lib.Pipeline.Value
import Idealize.ShloMosaic.Lib.ValueIdx
import Idealize.ShloMosaic.Lib.ValueLayout
import Idealize.ShloMosaic.Lib.WordArith
import Idealize.ShloMosaic.Lib.Affine
import Idealize.ShloMosaic.PureOps.Ideal.Laws

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand
open scoped BigOperators

/-! ## One block's weight -/

/-- Block J's weight at row r, column cc is the specification's exponentiated shifted logit at row i, when the
    blocks hold row i's adjacency, f1, shift and the f2 row of the block's columns. -/
theorem eAt_eq_eKb (X : Fin 10000 → Fin 128 → EReal) (A : Fin 10000 → Fin 10000 → EReal) (W : Fin 128 → Fin 128 → EReal)
    (w1 w2 : Fin 2 → Fin 128 → EReal) (mm : Fin 2 → Fin 10000 → EReal)
    (pts : Fin 5 → grid1.Coords) (adjs : Fin 5 → Vec Ideal S400x2048 .f32)
    (f1ms : Fin 5 → Vec Ideal S400x4 .f32) (f2ts : Fin 5 → Vec Ideal S8x2048 .f32) (i : Fin 10000) (r : Fin 400)
    (hJ : ∀ J : Fin 5, (pts J 1).val = J.val)
    (hadj : ∀ (J : Fin 5) (cc : Fin 2048) (hc : Cert.Spec.colK J cc < 10000),
      adjs J (ix2 r cc) = A i ⟨Cert.Spec.colK J cc, hc⟩)
    (hf1 : ∀ (J : Fin 5) (h : Fin 2), f1ms J (ix2 r ⟨h.val, by omega⟩) = Cert.Spec.f1K X W w1 w2 h i)
    (hmm : ∀ (J : Fin 5) (h : Fin 2), f1ms J (ix2 r ⟨2 + h.val, by omega⟩) = mm h i)
    (hf2 : ∀ (J : Fin 5) (h : Fin 2) (cc : Fin 2048) (hc : Cert.Spec.colK J cc < 10000),
      f2ts J (ix2 ⟨h.val, by omega⟩ cc) = Cert.Spec.f2K X W w1 w2 h ⟨Cert.Spec.colK J cc, hc⟩)
    (J : Fin 5) (h : Fin 2) (cc : Fin 2048) :
    eAt (pts J 1).val (adjs J) (f1ms J) (f2ts J) h r cc = Cert.Spec.eKb X A W w1 w2 mm h i J cc := by
  unfold eAt Cert.Spec.eKb
  rw [hJ J]
  have hcc := cc.isLt
  have hJ5 := J.isLt
  by_cases hc : Cert.Spec.colK J cc < 10000
  · have hlt : cc.val < 10000 - 2048 * J.val := by unfold Cert.Spec.colK at hc; omega
    rw [if_pos hlt, dif_pos hc, hadj J cc hc, hf1 J h, hmm J h, hf2 J h cc hc]
  · have hlt : ¬ cc.val < 10000 - 2048 * J.val := by unfold Cert.Spec.colK at hc; omega
    rw [if_neg hlt, dif_neg hc]

/-! ## Five points from the reset -/

/-- The scratch after the five points of one row block: the reset, then one update per column block, in order. -/
def run5 (pts : Fin 5 → grid1.Coords) (adjs : Fin 5 → Vec Ideal S400x2048 .f32) (xvs : Fin 5 → Vec Ideal S2048x128 .f32)
    (f1ms : Fin 5 → Vec Ideal S400x4 .f32) (f2ts : Fin 5 → Vec Ideal S8x2048 .f32) :
    Vec Ideal S2x400x128 .f32 × Vec Ideal S400x8 .f32 :=
  gatStep (pts 4) (adjs 4) (xvs 4) (f1ms 4) (f2ts 4)
    (gatStep (pts 3) (adjs 3) (xvs 3) (f1ms 3) (f2ts 3)
      (gatStep (pts 2) (adjs 2) (xvs 2) (f1ms 2) (f2ts 2)
        (gatStep (pts 1) (adjs 1) (xvs 1) (f1ms 1) (f2ts 1)
          (gatStep (pts 0) (adjs 0) (xvs 0) (f1ms 0) (f2ts 0) gatInit))))

section Five
variable (X : Fin 10000 → Fin 128 → EReal) (A : Fin 10000 → Fin 10000 → EReal) (W : Fin 128 → Fin 128 → EReal)
  (w1 w2 : Fin 2 → Fin 128 → EReal) (bb : Fin 2 → Fin 128 → EReal) (mm : Fin 2 → Fin 10000 → EReal)
  (pts : Fin 5 → grid1.Coords) (adjs : Fin 5 → Vec Ideal S400x2048 .f32) (xvs : Fin 5 → Vec Ideal S2048x128 .f32)
  (f1ms : Fin 5 → Vec Ideal S400x4 .f32) (f2ts : Fin 5 → Vec Ideal S8x2048 .f32) (b : Vec Ideal S2x128 .f32)
  (i : Fin 10000) (r : Fin 400)
  (hJ : ∀ J : Fin 5, (pts J 1).val = J.val)
  (hadj : ∀ (J : Fin 5) (cc : Fin 2048) (hc : Cert.Spec.colK J cc < 10000), adjs J (ix2 r cc) = A i ⟨Cert.Spec.colK J cc, hc⟩)
  (hf1 : ∀ (J : Fin 5) (h : Fin 2), f1ms J (ix2 r ⟨h.val, by omega⟩) = Cert.Spec.f1K X W w1 w2 h i)
  (hmm : ∀ (J : Fin 5) (h : Fin 2), f1ms J (ix2 r ⟨2 + h.val, by omega⟩) = mm h i)
  (hf2 : ∀ (J : Fin 5) (h : Fin 2) (cc : Fin 2048) (hc : Cert.Spec.colK J cc < 10000),
    f2ts J (ix2 ⟨h.val, by omega⟩ cc) = Cert.Spec.f2K X W w1 w2 h ⟨Cert.Spec.colK J cc, hc⟩)
  (hxv : ∀ (J : Fin 5) (cc : Fin 2048) (d : Fin 128), xvs J (ix2 cc d) = Cert.Spec.xpadK X W (Cert.Spec.colK J cc) d)
  (hb : ∀ (h : Fin 2) (d : Fin 128), b (ix2 h d) = bb h d)
include hJ hadj hf1 hmm hf2

/-- The denominator of head h at row r after the five points: the specification's left-nested sum. -/
theorem run5_ss (h : Fin 2) :
    (run5 pts adjs xvs f1ms f2ts).2 (ix2 r ⟨h.val, by omega⟩) = Cert.Spec.ssK X A W w1 w2 mm h i := by
  unfold run5 Cert.Spec.ssK Cert.Spec.ssBlk
  rw [gatStep_ss_apply, gatStep_ss_apply, gatStep_ss_apply, gatStep_ss_apply, gatStep_ss_apply, gatInit_ss_apply]
  simp only [eAt_eq_eKb X A W w1 w2 mm pts adjs f1ms f2ts i r hJ hadj hf1 hmm hf2]

include hxv
/-- The numerator of head h at row r, feature d after the five points. -/
theorem run5_acc (h : Fin 2) (d : Fin 128) :
    (run5 pts adjs xvs f1ms f2ts).1 (ix3 h r d) = Cert.Spec.accK X A W w1 w2 mm h i d := by
  unfold run5 Cert.Spec.accK Cert.Spec.accBlk
  rw [gatStep_acc_apply, gatStep_acc_apply, gatStep_acc_apply, gatStep_acc_apply, gatStep_acc_apply, gatInit_acc_apply]
  simp only [eAt_eq_eKb X A W w1 w2 mm pts adjs f1ms f2ts i r hJ hadj hf1 hmm hf2, hxv]

include hb
/-- The output block the fifth point stores, at an index: the kernel's result as the specification spells it. -/
theorem run5_out (d : Fin 128) :
    gatOut (run5 pts adjs xvs f1ms f2ts) b (ix2 r d) = Cert.Spec.outK X A W w1 w2 bb mm i d := by
  have s0 : (run5 pts adjs xvs f1ms f2ts).2 (ix2 r (0 : Fin 8)) = Cert.Spec.ssK X A W w1 w2 mm 0 i :=
    run5_ss X A W w1 w2 mm pts adjs xvs f1ms f2ts i r hJ hadj hf1 hmm hf2 0
  have s1 : (run5 pts adjs xvs f1ms f2ts).2 (ix2 r (1 : Fin 8)) = Cert.Spec.ssK X A W w1 w2 mm 1 i :=
    run5_ss X A W w1 w2 mm pts adjs xvs f1ms f2ts i r hJ hadj hf1 hmm hf2 1
  have a0 := run5_acc X A W w1 w2 mm pts adjs xvs f1ms f2ts i r hJ hadj hf1 hmm hf2 hxv 0 d
  have a1 := run5_acc X A W w1 w2 mm pts adjs xvs f1ms f2ts i r hJ hadj hf1 hmm hf2 hxv 1 d
  show gatOut ((run5 pts adjs xvs f1ms f2ts).1, (run5 pts adjs xvs f1ms f2ts).2) b (ix2 r d) = _
  rw [gatOut_apply, s0, s1, a0, a1, hb, hb]
  rfl

end Five

end Cert.KernelIdeal.HandValue

end
-- ==== Proof.KernelValueBlocks.lean ====
/-
  The second region's input blocks read at an index.

  The region runs over a 25 × 5 grid in row-major order: point t has row block t / 5 and column block t % 5.
  Each input window's block at a point is a unit-stride rectangle of its array whose offset on an axis is the
  block index there times the block's extent, so an element of the block at block coordinates (y₀, y₁) is the
  array's element at (index₀ · size₀ + y₀, index₁ · size₁ + y₁):
    the projected features [10240, 128] in blocks of 2048 rows at the column block;
    the packed per-row attention terms [10000, 4] in blocks of 400 rows at the row block;
    the transposed per-column attention terms [8, 10240] in blocks of 2048 columns at the column block;
    the bias [2, 128] whole;
    the adjacency [10000, 10000] in blocks of 400 × 2048 at (row block, column block).
  The adjacency's last column block overhangs the array (10000 = 4 · 2048 + 1808): the block is the array's part
  filled out with a fixed word, and a block column whose array column lies below 10000 is in the array's part,
  where the filled block reads the array.
-/
import proofs.«144953_g79190607004093_cont_9to1c4b_603_4_alg».proof.Proof.KI.Steps
import proofs.«144953_g79190607004093_cont_9to1c4b_603_4_alg».proof.Proof.Gen.KernelIdeal.Regions
import proofs.«144953_g79190607004093_cont_9to1c4b_603_4_alg».proof.Proof.Spec
import proofs.«144953_g79190607004093_cont_9to1c4b_603_4_alg».proof.Proof.KI.Dat1a
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand
open scoped BigOperators

variable (V : (c : Dev nD) → (b : Ref sig .tc) → Buf (Elt Ideal) ((c : Thread nD τ).loc b)) (c : Dev nD) (t : Fin cfg1.N)

namespace Blocks

theorem t_lt (t : Fin cfg1.N) : t.val < 125 := by
  exact Nat.lt_of_lt_of_eq t.isLt (show cfg1.N = 125 from N_1)

theorem stride1_0 : grid1.stride 0 = 5 := by decide
theorem stride1_1 : grid1.stride 1 = 1 := by decide

end Blocks

open Blocks

/-- The grid's points run row-major over 25 × 5: the row block of point t is t / 5 … -/
theorem coords1_row : (grid1.coords t 0).val = t.val / 5 := by
  have ht := t_lt t
  show t.val / grid1.stride 0 % grid1.bound 0 = _
  rw [stride1_0, show grid1.bound 0 = 25 from rfl]
  omega

/-- … and its column block is t % 5. -/
theorem coords1_col : (grid1.coords t 1).val = t.val % 5 := by
  show t.val / grid1.stride 1 % grid1.bound 1 = _
  rw [stride1_1, show grid1.bound 1 = 5 from rfl]
  omega

namespace Blocks

theorem word_row (t : Fin cfg1.N) : (BitVec.ofNat 32 (grid1.coords t 0).val).toNat = t.val / 5 := by
  have ht := t_lt t
  rw [coords1_row, BitVec.toNat_ofNat]
  exact Nat.mod_eq_of_lt (by omega)

theorem word_col (t : Fin cfg1.N) : (BitVec.ofNat 32 (grid1.coords t 1).val).toNat = t.val % 5 := by
  rw [coords1_col, BitVec.toNat_ofNat]
  exact Nat.mod_eq_of_lt (by omega)

end Blocks

theorem blk1_1 (cc : Fin 2048) (d : Fin 128) (k : Fin 10240) (hk : k.val = 2048 * (t.val % 5) + cc.val) :
    (iblk1 V c 1 t : Vec Ideal S2048x128 .f32) (ix2 cc d) = (V c main_v20 : S10240x128.Idx → EReal) (ix2 k d) := by
  have hi0 : win1_1.index t 0 = t.val % 5 := word_col t
  have hi1 : win1_1.index t 1 = 0 := rfl
  unfold iblk1
  rw [View.read_apply]
  show (V c main_v20 : S10240x128.Idx → EReal) _ = (V c main_v20 : S10240x128.Idx → EReal) _
  congr 1
  funext a
  apply Fin.ext
  match a with
  | ⟨0, _⟩ => show win1_1.index t 0 * 2048 + 1 * cc.val = k.val; rw [hi0, hk]; omega
  | ⟨1, _⟩ => show win1_1.index t 1 * 128 + 1 * d.val = d.val; rw [hi1]; omega

theorem blk1_2 (r : Fin 400) (q : Fin 4) (k : Fin 10000) (hk : k.val = 400 * (t.val / 5) + r.val) :
    (iblk1 V c 2 t : Vec Ideal S400x4 .f32) (ix2 r q) = (V c main_v19 : S10000x4.Idx → EReal) (ix2 k q) := by
  have hi0 : win1_2.index t 0 = t.val / 5 := word_row t
  have hi1 : win1_2.index t 1 = 0 := rfl
  unfold iblk1
  rw [View.read_apply]
  show (V c main_v19 : S10000x4.Idx → EReal) _ = (V c main_v19 : S10000x4.Idx → EReal) _
  congr 1
  funext a
  apply Fin.ext
  match a with
  | ⟨0, _⟩ => show win1_2.index t 0 * 400 + 1 * r.val = k.val; rw [hi0, hk]; omega
  | ⟨1, _⟩ => show win1_2.index t 1 * 4 + 1 * q.val = q.val; rw [hi1]; omega

theorem blk1_3 (q : Fin 8) (cc : Fin 2048) (k : Fin 10240) (hk : k.val = 2048 * (t.val % 5) + cc.val) :
    (iblk1 V c 3 t : Vec Ideal S8x2048 .f32) (ix2 q cc) = (V c main_v22 : S8x10240.Idx → EReal) (ix2 q k) := by
  have hi0 : win1_3.index t 0 = 0 := rfl
  have hi1 : win1_3.index t 1 = t.val % 5 := word_col t
  unfold iblk1
  rw [View.read_apply]
  show (V c main_v22 : S8x10240.Idx → EReal) _ = (V c main_v22 : S8x10240.Idx → EReal) _
  congr 1
  funext a
  apply Fin.ext
  match a with
  | ⟨0, _⟩ => show win1_3.index t 0 * 8 + 1 * q.val = q.val; rw [hi0]; omega
  | ⟨1, _⟩ => show win1_3.index t 1 * 2048 + 1 * cc.val = k.val; rw [hi1, hk]; omega

theorem blk1_4 (h : Fin 2) (d : Fin 128) :
    (iblk1 V c 4 t : Vec Ideal S2x128 .f32) (ix2 h d) = (V c main_arg5 : S2x128.Idx → EReal) (ix2 h d) := by
  have hi0 : win1_4.index t 0 = 0 := rfl
  have hi1 : win1_4.index t 1 = 0 := rfl
  unfold iblk1
  rw [View.read_apply]
  show (V c main_arg5 : S2x128.Idx → EReal) _ = (V c main_arg5 : S2x128.Idx → EReal) _
  congr 1
  funext a
  apply Fin.ext
  match a with
  | ⟨0, _⟩ => show win1_4.index t 0 * 2 + 1 * h.val = h.val; rw [hi0]; omega
  | ⟨1, _⟩ => show win1_4.index t 1 * 128 + 1 * d.val = d.val; rw [hi1]; omega

theorem adj_blk (r : Fin 400) (cc : Fin 2048) (k0 : Fin 10000) (k1 : Fin 10000) (h0 : k0.val = 400 * (t.val / 5) + r.val)
    (h1 : k1.val = 2048 * (t.val % 5) + cc.val) :
    adjAt V c t (ix2 r cc) = (V c main_arg1 : S10000x10000.Idx → EReal) (ix2 k0 k1) := by
  have hx := xsize1_0 t
  have hm : win1_0.moved (grid1.coords t) (ix2 r cc) = true := by
    rw [Pipeline.Window.moved_iff]
    intro a
    match a with
    | ⟨0, _⟩ => exact lt_of_lt_of_eq r.isLt hx.1.symm
    | ⟨1, _⟩ =>
      refine lt_of_lt_of_eq ?_ hx.2.symm
      rw [coords1_col]
      show cc.val < (Pipeline.Clip.of (t.val % 5) 2048 10000).extent 2048
      unfold Pipeline.Clip.of
      split
      · exact cc.isLt
      · show cc.val < 10000 - t.val % 5 * 2048
        have := k1.isLt
        omega
  have hi0 : win1_0.index t 0 = t.val / 5 := word_row t
  have hi1 : win1_0.index t 1 = t.val % 5 := word_col t
  unfold adjAt Pipeline.Window.fill
  rw [dif_pos hm]
  unfold iblk1
  rw [View.read_apply]
  show (V c main_arg1 : S10000x10000.Idx → EReal) _ = (V c main_arg1 : S10000x10000.Idx → EReal) _
  congr 1
  funext a
  apply Fin.ext
  match a with
  | ⟨0, _⟩ => show win1_0.index t 0 * 400 + 1 * r.val = k0.val; rw [hi0, h0]; omega
  | ⟨1, _⟩ => show win1_0.index t 1 * 2048 + 1 * cc.val = k1.val; rw [hi1, h1]; omega

end Cert.KernelIdeal.HandValue

end
-- ==== Proof.KernelValue.lean ====
/-
  The kernel's result array, index by index, over the extended reals.

  Region 0 leaves x = inputs · W and f = elu(x · wf): at row r both are computed from the row block of 2000 rows that
  holds r, and a block's row is the array's row, so x(r, d) = Σ_q inputs(r, q) · W(q, d) and
  f(r, c) = elu(Σ_k x(r, k) · wf(k, c)), wf the packed attention vectors.  The host operations then lay out
  f1m = [f(·, 0), f(·, 1), m_0, m_1] with m_h(r) = max (f(r, h) + max_j f(j, 2 + h)) 0, the zero-padded x and the
  zero-padded transpose of f(·, 2), f(·, 3).  Region 1 visits, for each row block R of 400 rows, the five column blocks
  J = 0 … 4 in order (grid points 5R + J): the scratch after point 5R + 4 is five updates of the zeroed scratch, one per
  column block, and the output block stored there is the closing step of that scratch and the bias.  A window's block
  at a point reads its array at block index × block size + the coordinate inside the block; the adjacency block of the
  last column block is read only where the column is inside the array.  So row i = 400 R + r of the result is the
  specification's kernel-side result at i: the left-nested sums over the five column blocks of the weights (for the
  denominators) and of the weights times the padded x (for the numerators), divided, biased, activated, and halved.
-/
import proofs.«144953_g79190607004093_cont_9to1c4b_603_4_alg».proof.Proof.KI.Dat1a
import proofs.«144953_g79190607004093_cont_9to1c4b_603_4_alg».proof.Proof.KernelArrays
import proofs.«144953_g79190607004093_cont_9to1c4b_603_4_alg».proof.Proof.KernelArrays1
import proofs.«144953_g79190607004093_cont_9to1c4b_603_4_alg».proof.Proof.KernelValueProj
import proofs.«144953_g79190607004093_cont_9to1c4b_603_4_alg».proof.Proof.KernelValueStep
import proofs.«144953_g79190607004093_cont_9to1c4b_603_4_alg».proof.Proof.KernelValueHost
import proofs.«144953_g79190607004093_cont_9to1c4b_603_4_alg».proof.Proof.KernelValueAcc
import proofs.«144953_g79190607004093_cont_9to1c4b_603_4_alg».proof.Proof.KernelValueBlocks
import proofs.«144953_g79190607004093_cont_9to1c4b_603_4_alg».proof.Proof.Gen.KernelIdeal.Regions
import proofs.«144953_g79190607004093_cont_9to1c4b_603_4_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand
open scoped BigOperators

/-! ## Region 0's two arrays as the specification's functions -/

theorem G3_proj (a0 : S10000x128.Idx → EReal) (a2 : S128x128.Idx → EReal) (k : Fin 10000) (d : Fin 128) :
    G3 (F := Ideal) a0 a2 (ix2 k d) = Cert.Spec.proj (Cert.Spec.arr2 a0) (Cert.Spec.arr2 a2) k d := by
  rw [G3_apply, k0_pay1_apply]
  unfold Cert.Spec.proj Cert.Spec.arr2
  exact Finset.sum_congr rfl fun q _ => by rw [rowBlock_div_mod]

theorem G4_fK (a0 : S10000x128.Idx → EReal) (a2 : S128x128.Idx → EReal) (a9 : S128x8.Idx → EReal)
    (w1 w2 : Fin 2 → Fin 128 → EReal) (h9 : ∀ k c, a9 (ix2 k c) = Cert.Spec.wf w1 w2 k c) (k : Fin 10000) (c : Fin 8) :
    G4 (F := Ideal) a0 a2 a9 (ix2 k c) = Cert.Spec.fK (Cert.Spec.arr2 a0) (Cert.Spec.arr2 a2) w1 w2 k c := by
  rw [G4_apply, k0_pay2_apply]
  unfold Cert.Spec.fK Cert.Spec.proj Cert.Spec.arr2
  refine congrArg Cert.Spec.eluK (Finset.sum_congr rfl fun kk _ => ?_)
  rw [h9]
  exact congrArg (· * _) (Finset.sum_congr rfl fun q _ => by rw [rowBlock_div_mod])

/-! ## The accumulation of one row block is five steps from the reset -/

section Region1
variable (V : (c : Dev nD) → (b : Ref sig .tc) → Buf (Elt Ideal) ((c : Thread nD τ).loc b)) (c : Dev nD)

theorem scAt_congr {n n' : ℕ} (h : n = n') (hn : n < cfg1.N) (hn' : n' < cfg1.N) : scAt V c n hn = scAt V c n' hn' := by
  subst h; rfl

theorem scAt_step (n : ℕ) (hn : n < cfg1.N) (h0 : ¬n % 5 = 0) (n' : ℕ) (hn' : n' < cfg1.N) (e : n' + 1 = n) :
    scAt V c n hn = stepAt V c ⟨n, hn⟩ (scAt V c n' hn') := by
  rw [scAt_next V c ⟨n, hn⟩ h0]
  exact congrArg _ (scAt_congr V c (by show n - 1 = n'; omega) _ _)

theorem N1' : cfg1.N = 125 := N_1

/-- Point 5R + J of the grid, for a row block R and a column block J. -/
def ptOf (R : ℕ) (hR : R < 25) (J : Fin 5) : Fin cfg1.N := ⟨5 * R + J.val, by rw [N1']; have := J.isLt; omega⟩

theorem scAt_run5 (R : ℕ) (hR : R < 25) (h4 : 5 * R + 4 < cfg1.N) :
    scAt V c (5 * R + 4) h4
      = run5 (fun J => grid1.coords (ptOf R hR J)) (fun J => adjAt V c (ptOf R hR J)) (fun J => iblk1 V c 1 (ptOf R hR J))
          (fun J => iblk1 V c 2 (ptOf R hR J)) (fun J => iblk1 V c 3 (ptOf R hR J)) := by
  have hN := N1'
  rw [scAt_step V c (5 * R + 4) h4 (by omega) (5 * R + 3) (by omega) (by omega),
    scAt_step V c (5 * R + 3) (by omega) (by omega) (5 * R + 2) (by omega) (by omega),
    scAt_step V c (5 * R + 2) (by omega) (by omega) (5 * R + 1) (by omega) (by omega),
    scAt_step V c (5 * R + 1) (by omega) (by omega) (5 * R + 0) (by omega) (by omega),
    scAt_first V c ⟨5 * R + 0, by omega⟩ (by show (5 * R + 0) % 5 = 0; omega)]
  rfl

/-! ## Region 1's result at an index -/

section Value
variable (V2 : Valuation τ sig (Elt Ideal))
  (X : Fin 10000 → Fin 128 → EReal) (A : Fin 10000 → Fin 10000 → EReal) (W : Fin 128 → Fin 128 → EReal)
  (w1 w2 : Fin 2 → Fin 128 → EReal) (bb : Fin 2 → Fin 128 → EReal)
  (hx : ∀ k d, (V2 main_v10_0 : S10000x128.Idx → EReal) (ix2 k d) = Cert.Spec.proj X W k d)
  (hf : ∀ k q, (V2 main_v10_1 : S10000x8.Idx → EReal) (ix2 k q) = Cert.Spec.fK X W w1 w2 k q)
  (hA : ∀ i j, (V2 main_arg1 : S10000x10000.Idx → EReal) (ix2 i j) = A i j)
  (hB : ∀ h d, (V2 main_arg5 : S2x128.Idx → EReal) (ix2 h d) = bb h d)
  (hV : ∀ b : Ref sig .tc, V c b = hostAll V2 b)
include hx hf hA hB hV

/-- The second region's output array, index by index: the specification's kernel-side result, the per-row shift
    being the one the host code computes from f. -/
theorem region1_value (i : Fin 10000) (d : Fin 128) :
    ((dat1 V c).arrAt 5 cfg1.N : S10000x128.Idx → EReal) (ix2 i d)
      = Cert.Spec.outK X A W w1 w2 bb (kerMmOf (Cert.Spec.fK X W w1 w2)) i d := by
  have hi := i.isLt
  have hR : i.val / 400 < 25 := by omega
  rw [arr1_5]
  unfold outAt
  rw [scAt_run5 V c (i.val / 400) hR]
  -- the point's facts
  have hcol : ∀ J : Fin 5, (ptOf (i.val / 400) hR J).val % 5 = J.val := fun J => by
    show (5 * (i.val / 400) + J.val) % 5 = J.val
    have := J.isLt; omega
  have hrow : ∀ J : Fin 5, (ptOf (i.val / 400) hR J).val / 5 = i.val / 400 := fun J => by
    show (5 * (i.val / 400) + J.val) / 5 = i.val / 400
    have := J.isLt; omega
  have hir : i.val = 400 * (i.val / 400) + i.val % 400 := by omega
  refine run5_out X A W w1 w2 bb (kerMmOf (Cert.Spec.fK X W w1 w2)) _ _ _ _ _ _ i ⟨i.val % 400, Nat.mod_lt _ (by decide)⟩
    (fun J => ?_) (fun J cc hc => ?_) (fun J h => ?_) (fun J h => ?_) (fun J h cc hc => ?_) (fun J cc d' => ?_)
    (fun h d' => ?_) d
  · -- the column block of point 5R + J is J
    exact (coords1_col _).trans (hcol J)
  · -- the adjacency block
    refine (adj_blk V c (ptOf (i.val / 400) hR J) _ cc i ⟨Cert.Spec.colK J cc, hc⟩ (by rw [hrow J]; exact hir)
      (by rw [hcol J]; rfl)).trans ?_
    refine (congrFun (hV main_arg1) _).trans ?_
    rw [host_keep V2 main_arg1 (by decide) (by decide) (by decide) (by decide)]
    exact hA _ _
  · -- f1: column h of f1m
    refine (blk1_2 V c (ptOf (i.val / 400) hR J) _ _ i (by rw [hrow J]; exact hir)).trans ?_
    refine (congrFun (hV main_v19) _).trans ?_
    rw [host_f1m V2 i, dif_pos (show (⟨h.val, by omega⟩ : Fin 4).val < 2 from h.isLt), hf]
    rfl
  · -- the shift: column 2 + h of f1m
    refine (blk1_2 V c (ptOf (i.val / 400) hR J) _ _ i (by rw [hrow J]; exact hir)).trans ?_
    refine (congrFun (hV main_v19) _).trans ?_
    rw [host_f1m V2 i, dif_neg (show ¬(⟨2 + h.val, by omega⟩ : Fin 4).val < 2 from by show ¬2 + h.val < 2; omega)]
    have e : (fun j q => (V2 main_v10_1 : S10000x8.Idx → EReal) (ix2 j q)) = Cert.Spec.fK X W w1 w2 :=
      funext fun j => funext fun q => hf j q
    rw [e]
    exact congrArg (fun hh => kerMmOf (Cert.Spec.fK X W w1 w2) hh i) (Fin.ext (by show 2 + h.val - 2 = h.val; omega))
  · -- f2: row h of f2t
    have hk : Cert.Spec.colK J cc < 10240 := by omega
    refine (blk1_3 V c (ptOf (i.val / 400) hR J) _ cc ⟨Cert.Spec.colK J cc, hk⟩ (by rw [hcol J]; rfl)).trans ?_
    refine (congrFun (hV main_v22) _).trans ?_
    rw [host_f2t V2, dif_pos (show (⟨h.val, by omega⟩ : Fin 8).val < 2 ∧ (⟨Cert.Spec.colK J cc, hk⟩ : Fin 10240).val < 10000 from ⟨h.isLt, hc⟩), hf]
    rfl
  · -- x: the column block of the padded x
    have hJ5 := J.isLt
    have hcc := cc.isLt
    have hk : Cert.Spec.colK J cc < 10240 := by show 2048 * J.val + cc.val < 10240; omega
    refine (blk1_1 V c (ptOf (i.val / 400) hR J) cc d' ⟨Cert.Spec.colK J cc, hk⟩ (by rw [hcol J]; rfl)).trans ?_
    refine (congrFun (hV main_v20) _).trans ?_
    rw [host_xpad V2]
    unfold Cert.Spec.xpadK
    by_cases hj : Cert.Spec.colK J cc < 10000
    · rw [dif_pos (show (⟨Cert.Spec.colK J cc, hk⟩ : Fin 10240).val < 10000 from hj), dif_pos hj, hx]
    · rw [dif_neg (show ¬(⟨Cert.Spec.colK J cc, hk⟩ : Fin 10240).val < 10000 from hj), dif_neg hj]
  · -- the bias
    refine (blk1_4 V c _ h d').trans ?_
    refine (congrFun (hV main_arg5) _).trans ?_
    rw [host_keep V2 main_arg5 (by decide) (by decide) (by decide) (by decide)]
    exact hB _ _

end Value

/-! ## The whole kernel: both regions and the host operations around them -/

section Whole
variable (V0 V2 : Valuation τ sig (Elt Ideal))
  (h3 : (V2 main_v10_0 : S10000x128.Idx → EReal)
    = G3 (F := Ideal) (StableHlo.after hostOps0 V0 main_arg0) (StableHlo.after hostOps0 V0 main_arg2))
  (h4 : (V2 main_v10_1 : S10000x8.Idx → EReal)
    = G4 (F := Ideal) (StableHlo.after hostOps0 V0 main_arg0) (StableHlo.after hostOps0 V0 main_arg2)
        (StableHlo.after hostOps0 V0 main_v9))
  (hA : (V2 main_arg1 : S10000x10000.Idx → EReal) = V0 main_arg1)
  (hB : (V2 main_arg5 : S2x128.Idx → EReal) = V0 main_arg5)
  (hV : ∀ b : Ref sig .tc, V c b = hostAll V2 b)
include h3 h4 hA hB hV

/-- THE KERNEL'S VALUE. With region 0's two outputs the arrays its blocks compute, the arguments untouched, and region 1
    entered at the host operations' results, the result array is, index by index, the specification's kernel-side
    result of the six argument arrays. -/
theorem kernel_value (i : Fin 10000) (d : Fin 128) :
    ((dat1 V c).arrAt 5 cfg1.N : S10000x128.Idx → EReal) (ix2 i d)
      = Cert.Spec.outK (Cert.Spec.arr2 (V0 main_arg0 : S10000x128.Idx → EReal))
          (Cert.Spec.arr2 (V0 main_arg1 : S10000x10000.Idx → EReal)) (Cert.Spec.arr2 (V0 main_arg2 : S128x128.Idx → EReal))
          (Cert.Spec.arr3u (V0 main_arg3 : S2x128x1.Idx → EReal)) (Cert.Spec.arr3u (V0 main_arg4 : S2x128x1.Idx → EReal))
          (Cert.Spec.arr2 (V0 main_arg5 : S2x128.Idx → EReal))
          (kerMmOf (Cert.Spec.fK (Cert.Spec.arr2 (V0 main_arg0 : S10000x128.Idx → EReal))
            (Cert.Spec.arr2 (V0 main_arg2 : S128x128.Idx → EReal)) (Cert.Spec.arr3u (V0 main_arg3 : S2x128x1.Idx → EReal))
            (Cert.Spec.arr3u (V0 main_arg4 : S2x128x1.Idx → EReal)))) i d := by
  have e0 : StableHlo.after hostOps0 V0 main_arg0 = V0 main_arg0 :=
    StableHlo.after_of_writes_sub hostOps0 _ hostOps0_writes (by decide)
  have e2 : StableHlo.after hostOps0 V0 main_arg2 = V0 main_arg2 :=
    StableHlo.after_of_writes_sub hostOps0 _ hostOps0_writes (by decide)
  refine region1_value V c V2 _ _ _ _ _ _ (fun k d' => ?_) (fun k q => ?_) (fun i' j => ?_) (fun h d' => ?_) hV i d
  · rw [h3, e0, e2]; exact G3_proj _ _ k d'
  · rw [h4, e0, e2]
    exact G4_fK _ _ _ _ _ (fun kk cc => wf_apply V0 kk cc) k q
  · rw [hA]; rfl
  · rw [hB]; rfl

end Whole

end Region1

end Cert.KernelIdeal.HandValue

end
-- ==== Proof.KernelValueApply.lean ====
/-
  The kernel's result array at the run's own names: the launch memory m, the contents after the first host operations,
  region 0's arrays after its write-backs, the contents after the host operations between the regions, at which
  region 1 is entered.  Region 0's two outputs are the arrays its blocks compute, no operation before region 1 writes
  an argument, so the general statement applies: index by index the result is the specification's kernel-side result
  of the six argument arrays, the per-row shift the one the host code computes from f.
-/
import proofs.«144953_g79190607004093_cont_9to1c4b_603_4_alg».proof.Proof.KernelValue
import proofs.«144953_g79190607004093_cont_9to1c4b_603_4_alg».proof.Proof.KI.Regions

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand
open scoped BigOperators

variable (m : (ℓ : Loc nD τ sig) → Buf (Elt Ideal) ℓ)

/-- THE KERNEL'S RESULT ARRAY, index by index, as a function of the six argument arrays on the core. -/
theorem kernel_apply (c : Dev nD) (i : Fin 10000) (d : Fin 128) :
    ((dat1 (Vin1 m) c).arrAt 5 cfg1.N : S10000x128.Idx → EReal) (ix2 i d)
      = Cert.Spec.outK (Cert.Spec.arr2 (m ((c.tc : Thread nD τ).loc main_arg0) : S10000x128.Idx → EReal))
          (Cert.Spec.arr2 (m ((c.tc : Thread nD τ).loc main_arg1) : S10000x10000.Idx → EReal))
          (Cert.Spec.arr2 (m ((c.tc : Thread nD τ).loc main_arg2) : S128x128.Idx → EReal))
          (Cert.Spec.arr3u (m ((c.tc : Thread nD τ).loc main_arg3) : S2x128x1.Idx → EReal))
          (Cert.Spec.arr3u (m ((c.tc : Thread nD τ).loc main_arg4) : S2x128x1.Idx → EReal))
          (Cert.Spec.arr2 (m ((c.tc : Thread nD τ).loc main_arg5) : S2x128.Idx → EReal))
          (kerMmOf (Cert.Spec.fK (Cert.Spec.arr2 (m ((c.tc : Thread nD τ).loc main_arg0) : S10000x128.Idx → EReal))
            (Cert.Spec.arr2 (m ((c.tc : Thread nD τ).loc main_arg2) : S128x128.Idx → EReal))
            (Cert.Spec.arr3u (m ((c.tc : Thread nD τ).loc main_arg3) : S2x128x1.Idx → EReal))
            (Cert.Spec.arr3u (m ((c.tc : Thread nD τ).loc main_arg4) : S2x128x1.Idx → EReal)))) i d :=
  kernel_value (Vin1 m) c (W0 m c) (W2 m c)
    ((W2_arr m c 3).trans (arr0_3 (Vin0 m) c))
    ((W2_arr m c 4).trans (arr0_4 (Vin0 m) c))
    ((W2_of_ne m c main_arg1 (by decide)).trans (W1_of m c main_arg1 (by decide)))
    ((W2_of_ne m c main_arg5 (by decide)).trans (W1_of m c main_arg5 (by decide)))
    (fun _ => rfl) i d

end Cert.KernelIdeal.HandValue

end
-- ==== Proof.RefRunOps.lean ====
/-
  The reference as a straight line of host operations.

  The reference computes, from six argument arrays, x = inputs · W and, for each of two heads, the columns
  f1 = elu (x · w1) and f2 = elu (x · w2), the logits adj * f1 + adj * f2ᵀ, their leaky rectification, a row
  softmax (row maximum subtracted, exponential, row sums, quotient), coefficients · x plus the head's bias,
  elu once more; the two heads are added and halved. Its text is eighty statements, eight of them calls of
  outlined functions (elu on a column four times, the leaky rectifier twice, elu on a [10000, 128] array twice),
  each of which calls the select helpers in turn. With every call replaced by its body the program is a
  sequence of 175 operations, each writing one buffer of its own from at most three buffers written before it.

  This module states that sequence as a list cut into nineteen consecutive pieces (a piece is either a stretch
  of the main function's own operations or one call's body), proves the program equal to the run of the list,
  that every operation touches only buffers of the one processor and determines its result, and, per piece,
  the list of buffers the piece writes: a buffer outside that list has the same contents after the piece as
  before it.
-/
import proofs.«144953_g79190607004093_cont_9to1c4b_603_4_alg».proof.Proof.Gen.ReferenceIdeal
import Idealize.ShloMosaic.Lib.StableHlo.Run
import Idealize.ShloMosaic.Lib.Pipeline.Frame

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀

variable {F : FTy → Type} [FloatOps F]

/-! ## The outlined functions as lists of operations

Each outlined function's body, with the bodies of the calls it makes substituted at the call, is a straight
line of operations over the call's typed references. -/

/-- The exponential linear unit on a column: fifteen operations (two comparisons with zero, the select that
    zeroes the positive entries, expm1, the product with one, the final select). -/
def eluOps (x : TRef sig ⟨S10000x1, .f32⟩) (φ : fn_elu.Bufs) : List (HloOp τ sig (Elt F)) :=
  StableHlo.TRef.nullary φ.cst (constant S_ .f32 0x00000000#32) ::
  StableHlo.TRef.unary φ.cst φ.v0 (broadcastInDim S10000x1 ![] bcast_S_S10000x1) ::
  StableHlo.TRef.binary x φ.v0 φ.v1 (cmpf .ogt) ::
  StableHlo.TRef.nullary φ.cst_0 (constant S_ .f32 0x00000000#32) ::
  StableHlo.TRef.unary φ.cst_0 φ.v2 (broadcastInDim S10000x1 ![] bcast_S_S10000x1) ::
  StableHlo.TRef.binary x φ.v2 φ.v3 (cmpf .ogt) ::
  StableHlo.TRef.nullary φ.cst_1 (constant S_ .f32 0x00000000#32) ::
  StableHlo.TRef.unary φ.cst_1 φ.call0.v0 id ::
  StableHlo.TRef.unary φ.call0.v0 φ.call0.v1 (broadcastInDim S10000x1 ![] bcast_S_S10000x1) ::
  StableHlo.TRef.ternary φ.v3 φ.call0.v1 x φ.call0.v2 select ::
  StableHlo.TRef.unary φ.call0.v2 φ.v5 Host.expm1 ::
  StableHlo.TRef.nullary φ.cst_2 (constant S_ .f32 0x3F800000#32) ::
  StableHlo.TRef.unary φ.cst_2 φ.v6 (broadcastInDim S10000x1 ![] bcast_S_S10000x1) ::
  StableHlo.TRef.binary φ.v6 φ.v5 φ.v7 mulf ::
  StableHlo.TRef.ternary φ.v1 x φ.v7 φ.call1.v0 select ::
  []

/-- The same on a [10000, 128] array. -/
def elu2Ops (x : TRef sig ⟨S10000x128, .f32⟩) (φ : fn_elu_2.Bufs) : List (HloOp τ sig (Elt F)) :=
  StableHlo.TRef.nullary φ.cst (constant S_ .f32 0x00000000#32) ::
  StableHlo.TRef.unary φ.cst φ.v0 (broadcastInDim S10000x128 ![] bcast_S_S10000x128) ::
  StableHlo.TRef.binary x φ.v0 φ.v1 (cmpf .ogt) ::
  StableHlo.TRef.nullary φ.cst_0 (constant S_ .f32 0x00000000#32) ::
  StableHlo.TRef.unary φ.cst_0 φ.v2 (broadcastInDim S10000x128 ![] bcast_S_S10000x128) ::
  StableHlo.TRef.binary x φ.v2 φ.v3 (cmpf .ogt) ::
  StableHlo.TRef.nullary φ.cst_1 (constant S_ .f32 0x00000000#32) ::
  StableHlo.TRef.unary φ.cst_1 φ.call0.v0 id ::
  StableHlo.TRef.unary φ.call0.v0 φ.call0.v1 (broadcastInDim S10000x128 ![] bcast_S_S10000x128) ::
  StableHlo.TRef.ternary φ.v3 φ.call0.v1 x φ.call0.v2 select ::
  StableHlo.TRef.unary φ.call0.v2 φ.v5 Host.expm1 ::
  StableHlo.TRef.nullary φ.cst_2 (constant S_ .f32 0x3F800000#32) ::
  StableHlo.TRef.unary φ.cst_2 φ.v6 (broadcastInDim S10000x128 ![] bcast_S_S10000x128) ::
  StableHlo.TRef.binary φ.v6 φ.v5 φ.v7 mulf ::
  StableHlo.TRef.ternary φ.v1 x φ.v7 φ.call1.v0 select ::
  []

/-- The leaky rectifier with slope `s`: seven operations. -/
def leakyOps (x : TRef sig ⟨S10000x10000, .f32⟩) (s : TRef sig ⟨S_, .f32⟩) (φ : fn_leaky_relu.Bufs) : List (HloOp τ sig (Elt F)) :=
  StableHlo.TRef.nullary φ.cst (constant S_ .f32 0x00000000#32) ::
  StableHlo.TRef.unary φ.cst φ.v0 (broadcastInDim S10000x10000 ![] bcast_S_S10000x10000) ::
  StableHlo.TRef.binary x φ.v0 φ.v1 (cmpf .oge) ::
  StableHlo.TRef.unary s φ.v2 id ::
  StableHlo.TRef.unary φ.v2 φ.v3 (broadcastInDim S10000x10000 ![] bcast_S_S10000x10000) ::
  StableHlo.TRef.binary φ.v3 x φ.v4 mulf ::
  StableHlo.TRef.ternary φ.v1 x φ.v4 φ.call0.v0 select ::
  []

theorem elu_body_eq (x : TRef sig ⟨S10000x1, .f32⟩) (φ : fn_elu.Bufs) :
    fn_elu.body (F := F) x φ = seq (eluOps x φ) := by
  simp only [fn_elu.body, fn_where.body, fn_where_0.body, eluOps, seq, bind_assoc, pure_bind]

theorem elu2_body_eq (x : TRef sig ⟨S10000x128, .f32⟩) (φ : fn_elu_2.Bufs) :
    fn_elu_2.body (F := F) x φ = seq (elu2Ops x φ) := by
  simp only [fn_elu_2.body, fn_where_3.body, fn_where_4.body, elu2Ops, seq, bind_assoc, pure_bind]

theorem leaky_body_eq (x : TRef sig ⟨S10000x10000, .f32⟩) (s : TRef sig ⟨S_, .f32⟩) (φ : fn_leaky_relu.Bufs) :
    fn_leaky_relu.body (F := F) x s φ = seq (leakyOps x s φ) := by
  simp only [fn_leaky_relu.body, fn_where_1.body, leakyOps, seq, bind_assoc, pure_bind]

/-! ## @main's operations, in consecutive pieces -/

def pc0 : List (HloOp τ sig (Elt F)) :=
  StableHlo.binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)) ::
  StableHlo.unary main_arg3 main_v1 ((extractStridedSlice S1x128x1 ![0, 0, 0] · slices_S2x128x1_S1x128x1_0_0_0) : (⟨S2x128x1, .f32⟩ : BufTy).Contents (Elt F) → (⟨S1x128x1, .f32⟩ : BufTy).Contents (Elt F)) ::
  StableHlo.reshape main_v1 main_v2 rfl shapeCasts_S1x128x1_S128x1 ::
  StableHlo.binary main_v0 main_v2 main_v3 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)) ::
  []

def pc1 : List (HloOp τ sig (Elt F)) := eluOps (.of main_v3) main_call0

def pc2 : List (HloOp τ sig (Elt F)) :=
  StableHlo.unary main_arg4 main_v5 ((extractStridedSlice S1x128x1 ![0, 0, 0] · slices_S2x128x1_S1x128x1_0_0_0) : (⟨S2x128x1, .f32⟩ : BufTy).Contents (Elt F) → (⟨S1x128x1, .f32⟩ : BufTy).Contents (Elt F)) ::
  StableHlo.reshape main_v5 main_v6 rfl shapeCasts_S1x128x1_S128x1 ::
  StableHlo.binary main_v0 main_v6 main_v7 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)) ::
  []

def pc3 : List (HloOp τ sig (Elt F)) := eluOps (.of main_v7) main_call1

def pc4 : List (HloOp τ sig (Elt F)) :=
  StableHlo.unary main_v4 main_v9 (broadcastInDim S10000x10000 ![0, 1] bcast_S10000x1_S10000x10000_0_1 : (⟨S10000x1, .f32⟩ : BufTy).Contents (Elt F) → (⟨S10000x10000, .f32⟩ : BufTy).Contents (Elt F)) ::
  StableHlo.binary main_arg1 main_v9 main_v10 (mulf : (⟨S10000x10000, .f32⟩ : BufTy).Contents (Elt F) → (⟨S10000x10000, .f32⟩ : BufTy).Contents (Elt F) → (⟨S10000x10000, .f32⟩ : BufTy).Contents (Elt F)) ::
  StableHlo.unary main_v8 main_v11 ((transpose S1x10000 [1, 0] · transposes_S10000x1_S1x10000_1_0) : (⟨S10000x1, .f32⟩ : BufTy).Contents (Elt F) → (⟨S1x10000, .f32⟩ : BufTy).Contents (Elt F)) ::
  StableHlo.unary main_v11 main_v12 (broadcastInDim S10000x10000 ![0, 1] bcast_S1x10000_S10000x10000_0_1 : (⟨S1x10000, .f32⟩ : BufTy).Contents (Elt F) → (⟨S10000x10000, .f32⟩ : BufTy).Contents (Elt F)) ::
  StableHlo.binary main_arg1 main_v12 main_v13 (mulf : (⟨S10000x10000, .f32⟩ : BufTy).Contents (Elt F) → (⟨S10000x10000, .f32⟩ : BufTy).Contents (Elt F) → (⟨S10000x10000, .f32⟩ : BufTy).Contents (Elt F)) ::
  StableHlo.binary main_v10 main_v13 main_v14 (addf : (⟨S10000x10000, .f32⟩ : BufTy).Contents (Elt F) → (⟨S10000x10000, .f32⟩ : BufTy).Contents (Elt F) → (⟨S10000x10000, .f32⟩ : BufTy).Contents (Elt F)) ::
  StableHlo.nullary main_cst (constant S_ .f32 0x3E4CCCCD#32) ::
  []

def pc5 : List (HloOp τ sig (Elt F)) := leakyOps (.of main_v14) (.of main_cst) main_call2

def pc6a : List (HloOp τ sig (Elt F)) :=
  StableHlo.nullary main_cst_0 (constant S_ .f32 0xFF800000#32) ::
  StableHlo.binary main_v15 main_cst_0 main_v16 ((fun x v => Host.reduce FloatOps.maximumf x v reducesTo_S10000x10000_S10000_d1 h_S_) : (⟨S10000x10000, .f32⟩ : BufTy).Contents (Elt F) → (⟨S_, .f32⟩ : BufTy).Contents (Elt F) → (⟨S10000, .f32⟩ : BufTy).Contents (Elt F)) ::
  StableHlo.nullary main_cst_1 (constant S_ .f32 0xFF800000#32) ::
  StableHlo.unary main_cst_1 main_v17 (broadcastInDim S10000 ![] bcast_S_S10000 : (⟨S_, .f32⟩ : BufTy).Contents (Elt F) → (⟨S10000, .f32⟩ : BufTy).Contents (Elt F)) ::
  StableHlo.binary main_v17 main_v16 main_v18 (maximumf : (⟨S10000, .f32⟩ : BufTy).Contents (Elt F) → (⟨S10000, .f32⟩ : BufTy).Contents (Elt F) → (⟨S10000, .f32⟩ : BufTy).Contents (Elt F)) ::
  StableHlo.unary main_v18 main_v19 (broadcastInDim S10000x1 ![0] bcast_S10000_S10000x1_0 : (⟨S10000, .f32⟩ : BufTy).Contents (Elt F) → (⟨S10000x1, .f32⟩ : BufTy).Contents (Elt F)) ::
  StableHlo.unary main_v19 main_v20 (broadcastInDim S10000x10000 ![0, 1] bcast_S10000x1_S10000x10000_0_1 : (⟨S10000x1, .f32⟩ : BufTy).Contents (Elt F) → (⟨S10000x10000, .f32⟩ : BufTy).Contents (Elt F)) ::
  StableHlo.binary main_v15 main_v20 main_v21 (subf : (⟨S10000x10000, .f32⟩ : BufTy).Contents (Elt F) → (⟨S10000x10000, .f32⟩ : BufTy).Contents (Elt F) → (⟨S10000x10000, .f32⟩ : BufTy).Contents (Elt F)) ::
  StableHlo.unary main_v21 main_v22 (Host.exp : (⟨S10000x10000, .f32⟩ : BufTy).Contents (Elt F) → (⟨S10000x10000, .f32⟩ : BufTy).Contents (Elt F)) ::
  []

def pc6b : List (HloOp τ sig (Elt F)) :=
  StableHlo.nullary main_cst_2 (constant S_ .f32 0x00000000#32) ::
  StableHlo.binary main_v22 main_cst_2 main_v23 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)) ::
  StableHlo.unary main_v23 main_v24 (broadcastInDim S10000x1 ![0] bcast_S10000_S10000x1_0 : (⟨S10000, .f32⟩ : BufTy).Contents (Elt F) → (⟨S10000x1, .f32⟩ : BufTy).Contents (Elt F)) ::
  StableHlo.unary main_v24 main_v25 (broadcastInDim S10000x10000 ![0, 1] bcast_S10000x1_S10000x10000_0_1 : (⟨S10000x1, .f32⟩ : BufTy).Contents (Elt F) → (⟨S10000x10000, .f32⟩ : BufTy).Contents (Elt F)) ::
  StableHlo.binary main_v22 main_v25 main_v26 (Host.divf : (⟨S10000x10000, .f32⟩ : BufTy).Contents (Elt F) → (⟨S10000x10000, .f32⟩ : BufTy).Contents (Elt F) → (⟨S10000x10000, .f32⟩ : BufTy).Contents (Elt F)) ::
  StableHlo.binary main_v26 main_v0 main_v27 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)) ::
  StableHlo.unary main_arg5 main_v28 ((extractStridedSlice S1x128 ![0, 0] · slices_S2x128_S1x128_0_0) : (⟨S2x128, .f32⟩ : BufTy).Contents (Elt F) → (⟨S1x128, .f32⟩ : BufTy).Contents (Elt F)) ::
  StableHlo.reshape main_v28 main_v29 rfl shapeCasts_S1x128_S128 ::
  StableHlo.unary main_v29 main_v30 (broadcastInDim S1x128 ![1] bcast_S128_S1x128_1 : (⟨S128, .f32⟩ : BufTy).Contents (Elt F) → (⟨S1x128, .f32⟩ : BufTy).Contents (Elt F)) ::
  StableHlo.unary main_v30 main_v31 (broadcastInDim S10000x128 ![0, 1] bcast_S1x128_S10000x128_0_1 : (⟨S1x128, .f32⟩ : BufTy).Contents (Elt F) → (⟨S10000x128, .f32⟩ : BufTy).Contents (Elt F)) ::
  StableHlo.binary main_v27 main_v31 main_v32 (addf : (⟨S10000x128, .f32⟩ : BufTy).Contents (Elt F) → (⟨S10000x128, .f32⟩ : BufTy).Contents (Elt F) → (⟨S10000x128, .f32⟩ : BufTy).Contents (Elt F)) ::
  []

def pc7 : List (HloOp τ sig (Elt F)) := elu2Ops (.of main_v32) main_call3

def pc8 : List (HloOp τ sig (Elt F)) :=
  StableHlo.unary main_arg3 main_v34 ((extractStridedSlice S1x128x1 ![1, 0, 0] · slices_S2x128x1_S1x128x1_1_0_0) : (⟨S2x128x1, .f32⟩ : BufTy).Contents (Elt F) → (⟨S1x128x1, .f32⟩ : BufTy).Contents (Elt F)) ::
  StableHlo.reshape main_v34 main_v35 rfl shapeCasts_S1x128x1_S128x1 ::
  StableHlo.binary main_v0 main_v35 main_v36 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)) ::
  []

def pc9 : List (HloOp τ sig (Elt F)) := eluOps (.of main_v36) main_call4

def pc10 : List (HloOp τ sig (Elt F)) :=
  StableHlo.unary main_arg4 main_v38 ((extractStridedSlice S1x128x1 ![1, 0, 0] · slices_S2x128x1_S1x128x1_1_0_0) : (⟨S2x128x1, .f32⟩ : BufTy).Contents (Elt F) → (⟨S1x128x1, .f32⟩ : BufTy).Contents (Elt F)) ::
  StableHlo.reshape main_v38 main_v39 rfl shapeCasts_S1x128x1_S128x1 ::
  StableHlo.binary main_v0 main_v39 main_v40 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)) ::
  []

def pc11 : List (HloOp τ sig (Elt F)) := eluOps (.of main_v40) main_call5

def pc12 : List (HloOp τ sig (Elt F)) :=
  StableHlo.unary main_v37 main_v42 (broadcastInDim S10000x10000 ![0, 1] bcast_S10000x1_S10000x10000_0_1 : (⟨S10000x1, .f32⟩ : BufTy).Contents (Elt F) → (⟨S10000x10000, .f32⟩ : BufTy).Contents (Elt F)) ::
  StableHlo.binary main_arg1 main_v42 main_v43 (mulf : (⟨S10000x10000, .f32⟩ : BufTy).Contents (Elt F) → (⟨S10000x10000, .f32⟩ : BufTy).Contents (Elt F) → (⟨S10000x10000, .f32⟩ : BufTy).Contents (Elt F)) ::
  StableHlo.unary main_v41 main_v44 ((transpose S1x10000 [1, 0] · transposes_S10000x1_S1x10000_1_0) : (⟨S10000x1, .f32⟩ : BufTy).Contents (Elt F) → (⟨S1x10000, .f32⟩ : BufTy).Contents (Elt F)) ::
  StableHlo.unary main_v44 main_v45 (broadcastInDim S10000x10000 ![0, 1] bcast_S1x10000_S10000x10000_0_1 : (⟨S1x10000, .f32⟩ : BufTy).Contents (Elt F) → (⟨S10000x10000, .f32⟩ : BufTy).Contents (Elt F)) ::
  StableHlo.binary main_arg1 main_v45 main_v46 (mulf : (⟨S10000x10000, .f32⟩ : BufTy).Contents (Elt F) → (⟨S10000x10000, .f32⟩ : BufTy).Contents (Elt F) → (⟨S10000x10000, .f32⟩ : BufTy).Contents (Elt F)) ::
  StableHlo.binary main_v43 main_v46 main_v47 (addf : (⟨S10000x10000, .f32⟩ : BufTy).Contents (Elt F) → (⟨S10000x10000, .f32⟩ : BufTy).Contents (Elt F) → (⟨S10000x10000, .f32⟩ : BufTy).Contents (Elt F)) ::
  StableHlo.nullary main_cst_3 (constant S_ .f32 0x3E4CCCCD#32) ::
  []

def pc13 : List (HloOp τ sig (Elt F)) := leakyOps (.of main_v47) (.of main_cst_3) main_call6

def pc14 : List (HloOp τ sig (Elt F)) :=
  StableHlo.nullary main_cst_4 (constant S_ .f32 0xFF800000#32) ::
  StableHlo.binary main_v48 main_cst_4 main_v49 ((fun x v => Host.reduce FloatOps.maximumf x v reducesTo_S10000x10000_S10000_d1 h_S_) : (⟨S10000x10000, .f32⟩ : BufTy).Contents (Elt F) → (⟨S_, .f32⟩ : BufTy).Contents (Elt F) → (⟨S10000, .f32⟩ : BufTy).Contents (Elt F)) ::
  StableHlo.nullary main_cst_5 (constant S_ .f32 0xFF800000#32) ::
  StableHlo.unary main_cst_5 main_v50 (broadcastInDim S10000 ![] bcast_S_S10000 : (⟨S_, .f32⟩ : BufTy).Contents (Elt F) → (⟨S10000, .f32⟩ : BufTy).Contents (Elt F)) ::
  StableHlo.binary main_v50 main_v49 main_v51 (maximumf : (⟨S10000, .f32⟩ : BufTy).Contents (Elt F) → (⟨S10000, .f32⟩ : BufTy).Contents (Elt F) → (⟨S10000, .f32⟩ : BufTy).Contents (Elt F)) ::
  StableHlo.unary main_v51 main_v52 (broadcastInDim S10000x1 ![0] bcast_S10000_S10000x1_0 : (⟨S10000, .f32⟩ : BufTy).Contents (Elt F) → (⟨S10000x1, .f32⟩ : BufTy).Contents (Elt F)) ::
  []

def pc15 : List (HloOp τ sig (Elt F)) :=
  StableHlo.unary main_v52 main_v53 (broadcastInDim S10000x10000 ![0, 1] bcast_S10000x1_S10000x10000_0_1 : (⟨S10000x1, .f32⟩ : BufTy).Contents (Elt F) → (⟨S10000x10000, .f32⟩ : BufTy).Contents (Elt F)) ::
  StableHlo.binary main_v48 main_v53 main_v54 (subf : (⟨S10000x10000, .f32⟩ : BufTy).Contents (Elt F) → (⟨S10000x10000, .f32⟩ : BufTy).Contents (Elt F) → (⟨S10000x10000, .f32⟩ : BufTy).Contents (Elt F)) ::
  StableHlo.unary main_v54 main_v55 (Host.exp : (⟨S10000x10000, .f32⟩ : BufTy).Contents (Elt F) → (⟨S10000x10000, .f32⟩ : BufTy).Contents (Elt F)) ::
  StableHlo.nullary main_cst_6 (constant S_ .f32 0x00000000#32) ::
  StableHlo.binary main_v55 main_cst_6 main_v56 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)) ::
  StableHlo.unary main_v56 main_v57 (broadcastInDim S10000x1 ![0] bcast_S10000_S10000x1_0 : (⟨S10000, .f32⟩ : BufTy).Contents (Elt F) → (⟨S10000x1, .f32⟩ : BufTy).Contents (Elt F)) ::
  StableHlo.unary main_v57 main_v58 (broadcastInDim S10000x10000 ![0, 1] bcast_S10000x1_S10000x10000_0_1 : (⟨S10000x1, .f32⟩ : BufTy).Contents (Elt F) → (⟨S10000x10000, .f32⟩ : BufTy).Contents (Elt F)) ::
  StableHlo.binary main_v55 main_v58 main_v59 (Host.divf : (⟨S10000x10000, .f32⟩ : BufTy).Contents (Elt F) → (⟨S10000x10000, .f32⟩ : BufTy).Contents (Elt F) → (⟨S10000x10000, .f32⟩ : BufTy).Contents (Elt F)) ::
  StableHlo.binary main_v59 main_v0 main_v60 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)) ::
  StableHlo.unary main_arg5 main_v61 ((extractStridedSlice S1x128 ![1, 0] · slices_S2x128_S1x128_1_0) : (⟨S2x128, .f32⟩ : BufTy).Contents (Elt F) → (⟨S1x128, .f32⟩ : BufTy).Contents (Elt F)) ::
  StableHlo.reshape main_v61 main_v62 rfl shapeCasts_S1x128_S128 ::
  StableHlo.unary main_v62 main_v63 (broadcastInDim S1x128 ![1] bcast_S128_S1x128_1 : (⟨S128, .f32⟩ : BufTy).Contents (Elt F) → (⟨S1x128, .f32⟩ : BufTy).Contents (Elt F)) ::
  StableHlo.unary main_v63 main_v64 (broadcastInDim S10000x128 ![0, 1] bcast_S1x128_S10000x128_0_1 : (⟨S1x128, .f32⟩ : BufTy).Contents (Elt F) → (⟨S10000x128, .f32⟩ : BufTy).Contents (Elt F)) ::
  StableHlo.binary main_v60 main_v64 main_v65 (addf : (⟨S10000x128, .f32⟩ : BufTy).Contents (Elt F) → (⟨S10000x128, .f32⟩ : BufTy).Contents (Elt F) → (⟨S10000x128, .f32⟩ : BufTy).Contents (Elt F)) ::
  []

def pc16 : List (HloOp τ sig (Elt F)) := elu2Ops (.of main_v65) main_call7

def pc17 : List (HloOp τ sig (Elt F)) :=
  StableHlo.binary main_v33 main_v66 main_v67 (addf : (⟨S10000x128, .f32⟩ : BufTy).Contents (Elt F) → (⟨S10000x128, .f32⟩ : BufTy).Contents (Elt F) → (⟨S10000x128, .f32⟩ : BufTy).Contents (Elt F)) ::
  StableHlo.nullary main_cst_7 (constant S_ .f32 0x40000000#32) ::
  StableHlo.unary main_cst_7 main_v68 (broadcastInDim S10000x128 ![] bcast_S_S10000x128 : (⟨S_, .f32⟩ : BufTy).Contents (Elt F) → (⟨S10000x128, .f32⟩ : BufTy).Contents (Elt F)) ::
  StableHlo.binary main_v67 main_v68 main_v69 (Host.divf : (⟨S10000x128, .f32⟩ : BufTy).Contents (Elt F) → (⟨S10000x128, .f32⟩ : BufTy).Contents (Elt F) → (⟨S10000x128, .f32⟩ : BufTy).Contents (Elt F)) ::
  []

/-- The first sixty statements' operations. -/
def ops0 : List (HloOp τ sig (Elt F)) := pc0 (F := F) ++ (pc1 (F := F) ++ (pc2 (F := F) ++ (pc3 (F := F) ++ (pc4 (F := F) ++ (pc5 (F := F) ++ (pc6a (F := F) ++ (pc6b (F := F) ++ (pc7 (F := F) ++ (pc8 (F := F) ++ (pc9 (F := F) ++ (pc10 (F := F) ++ (pc11 (F := F) ++ (pc12 (F := F) ++ (pc13 (F := F) ++ (pc14 (F := F))))))))))))))))
/-- The last twenty statements' operations. -/
def ops1 : List (HloOp τ sig (Elt F)) := pc15 (F := F) ++ (pc16 (F := F) ++ (pc17 (F := F)))
/-- @main's operations, in order. -/
def ops : List (HloOp τ sig (Elt F)) := ops0 (F := F) ++ ops1 (F := F)

set_option maxRecDepth 8192 in
set_option maxHeartbeats 4000000 in
theorem main_part0_eq (d : Dev nD) : main_part0 (F := F) d = seq (ops0 (F := F)) := by
  simp only [main_part0, ops0, pc0, pc1, pc2, pc3, pc4, pc5, pc6a, pc6b, pc7, pc8, pc9, pc10, pc11, pc12, pc13, pc14, elu_body_eq, elu2_body_eq, leaky_body_eq,
    seq_append, seq, bind_assoc, pure_bind]
  rfl

set_option maxRecDepth 8192 in
set_option maxHeartbeats 4000000 in
theorem main_part1_eq (d : Dev nD) : main_part1 (F := F) d = seq (ops1 (F := F)) := by
  simp only [main_part1, ops1, pc15, pc16, pc17, elu_body_eq, elu2_body_eq, leaky_body_eq,
    seq_append, seq, bind_assoc, pure_bind]

/-- @main is the straight line of its operations. -/
theorem main_eq (d : Dev nD) : main (F := F) d = seq (ops (F := F)) := by
  rw [ops, seq_append, ← main_part0_eq d, ← main_part1_eq d]; rfl

/-! ## The run's side conditions: every operation touches TensorCore references only and determines its results -/

theorem eluOps_sub (x : TRef sig ⟨S10000x1, .f32⟩) (φ : fn_elu.Bufs) :
    (eluOps (F := F) x φ).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem elu2Ops_sub (x : TRef sig ⟨S10000x128, .f32⟩) (φ : fn_elu_2.Bufs) :
    (elu2Ops (F := F) x φ).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem leakyOps_sub (x : TRef sig ⟨S10000x10000, .f32⟩) (s : TRef sig ⟨S_, .f32⟩) (φ : fn_leaky_relu.Bufs) :
    (leakyOps (F := F) x s φ).Forall fun op => op.bufs ⊆ tcRefs τ sig :=
  ⟨nullary_bufs_sub .., unary_bufs_sub .., binary_bufs_sub .., unary_bufs_sub .., unary_bufs_sub .., binary_bufs_sub .., ternary_bufs_sub ..⟩
theorem eluOps_fresh (x : TRef sig ⟨S10000x1, .f32⟩) (φ : fn_elu.Bufs) :
    (eluOps (F := F) x φ).Forall fun op => op.fresh = ∅ :=
  ⟨rfl, rfl, rfl, rfl, rfl, rfl, rfl, rfl, rfl, rfl, rfl, rfl, rfl, rfl, rfl⟩
theorem elu2Ops_fresh (x : TRef sig ⟨S10000x128, .f32⟩) (φ : fn_elu_2.Bufs) :
    (elu2Ops (F := F) x φ).Forall fun op => op.fresh = ∅ :=
  ⟨rfl, rfl, rfl, rfl, rfl, rfl, rfl, rfl, rfl, rfl, rfl, rfl, rfl, rfl, rfl⟩
theorem leakyOps_fresh (x : TRef sig ⟨S10000x10000, .f32⟩) (s : TRef sig ⟨S_, .f32⟩) (φ : fn_leaky_relu.Bufs) :
    (leakyOps (F := F) x s φ).Forall fun op => op.fresh = ∅ :=
  ⟨rfl, rfl, rfl, rfl, rfl, rfl, rfl⟩
theorem pc0_sub : (pc0 (F := F)).Forall fun op => op.bufs ⊆ tcRefs τ sig :=
  ⟨binary_bufs_sub .., unary_bufs_sub .., reshape_bufs_sub .., binary_bufs_sub ..⟩
theorem pc0_fresh : (pc0 (F := F)).Forall fun op => op.fresh = ∅ :=
  ⟨rfl, rfl, rfl, rfl⟩
theorem pc1_sub : (pc1 (F := F)).Forall fun op => op.bufs ⊆ tcRefs τ sig := eluOps_sub ..
theorem pc1_fresh : (pc1 (F := F)).Forall fun op => op.fresh = ∅ := eluOps_fresh ..
theorem pc2_sub : (pc2 (F := F)).Forall fun op => op.bufs ⊆ tcRefs τ sig :=
  ⟨unary_bufs_sub .., reshape_bufs_sub .., binary_bufs_sub ..⟩
theorem pc2_fresh : (pc2 (F := F)).Forall fun op => op.fresh = ∅ :=
  ⟨rfl, rfl, rfl⟩
theorem pc3_sub : (pc3 (F := F)).Forall fun op => op.bufs ⊆ tcRefs τ sig := eluOps_sub ..
theorem pc3_fresh : (pc3 (F := F)).Forall fun op => op.fresh = ∅ := eluOps_fresh ..
theorem pc4_sub : (pc4 (F := F)).Forall fun op => op.bufs ⊆ tcRefs τ sig :=
  ⟨unary_bufs_sub .., binary_bufs_sub .., unary_bufs_sub .., unary_bufs_sub .., binary_bufs_sub .., binary_bufs_sub .., nullary_bufs_sub ..⟩
theorem pc4_fresh : (pc4 (F := F)).Forall fun op => op.fresh = ∅ :=
  ⟨rfl, rfl, rfl, rfl, rfl, rfl, rfl⟩
theorem pc5_sub : (pc5 (F := F)).Forall fun op => op.bufs ⊆ tcRefs τ sig := leakyOps_sub ..
theorem pc5_fresh : (pc5 (F := F)).Forall fun op => op.fresh = ∅ := leakyOps_fresh ..
theorem pc6a_sub : (pc6a (F := F)).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub ..⟩
theorem pc6a_fresh : (pc6a (F := F)).Forall fun op => op.fresh = ∅ :=
  ⟨rfl, rfl, rfl, rfl, rfl, rfl, rfl, rfl, rfl⟩
theorem pc6b_sub : (pc6b (F := F)).Forall fun op => op.bufs ⊆ tcRefs τ sig :=
  ⟨nullary_bufs_sub .., binary_bufs_sub .., unary_bufs_sub .., unary_bufs_sub .., binary_bufs_sub .., binary_bufs_sub .., unary_bufs_sub .., reshape_bufs_sub .., unary_bufs_sub .., unary_bufs_sub .., binary_bufs_sub ..⟩
theorem pc6b_fresh : (pc6b (F := F)).Forall fun op => op.fresh = ∅ :=
  ⟨rfl, rfl, rfl, rfl, rfl, rfl, rfl, rfl, rfl, rfl, rfl⟩
theorem pc7_sub : (pc7 (F := F)).Forall fun op => op.bufs ⊆ tcRefs τ sig := elu2Ops_sub ..
theorem pc7_fresh : (pc7 (F := F)).Forall fun op => op.fresh = ∅ := elu2Ops_fresh ..
theorem pc8_sub : (pc8 (F := F)).Forall fun op => op.bufs ⊆ tcRefs τ sig :=
  ⟨unary_bufs_sub .., reshape_bufs_sub .., binary_bufs_sub ..⟩
theorem pc8_fresh : (pc8 (F := F)).Forall fun op => op.fresh = ∅ :=
  ⟨rfl, rfl, rfl⟩
theorem pc9_sub : (pc9 (F := F)).Forall fun op => op.bufs ⊆ tcRefs τ sig := eluOps_sub ..
theorem pc9_fresh : (pc9 (F := F)).Forall fun op => op.fresh = ∅ := eluOps_fresh ..
theorem pc10_sub : (pc10 (F := F)).Forall fun op => op.bufs ⊆ tcRefs τ sig :=
  ⟨unary_bufs_sub .., reshape_bufs_sub .., binary_bufs_sub ..⟩
theorem pc10_fresh : (pc10 (F := F)).Forall fun op => op.fresh = ∅ :=
  ⟨rfl, rfl, rfl⟩
theorem pc11_sub : (pc11 (F := F)).Forall fun op => op.bufs ⊆ tcRefs τ sig := eluOps_sub ..
theorem pc11_fresh : (pc11 (F := F)).Forall fun op => op.fresh = ∅ := eluOps_fresh ..
theorem pc12_sub : (pc12 (F := F)).Forall fun op => op.bufs ⊆ tcRefs τ sig :=
  ⟨unary_bufs_sub .., binary_bufs_sub .., unary_bufs_sub .., unary_bufs_sub .., binary_bufs_sub .., binary_bufs_sub .., nullary_bufs_sub ..⟩
theorem pc12_fresh : (pc12 (F := F)).Forall fun op => op.fresh = ∅ :=
  ⟨rfl, rfl, rfl, rfl, rfl, rfl, rfl⟩
theorem pc13_sub : (pc13 (F := F)).Forall fun op => op.bufs ⊆ tcRefs τ sig := leakyOps_sub ..
theorem pc13_fresh : (pc13 (F := F)).Forall fun op => op.fresh = ∅ := leakyOps_fresh ..
theorem pc14_sub : (pc14 (F := F)).Forall fun op => op.bufs ⊆ tcRefs τ sig :=
  ⟨nullary_bufs_sub .., binary_bufs_sub .., nullary_bufs_sub .., unary_bufs_sub .., binary_bufs_sub .., unary_bufs_sub ..⟩
theorem pc14_fresh : (pc14 (F := F)).Forall fun op => op.fresh = ∅ :=
  ⟨rfl, rfl, rfl, rfl, rfl, rfl⟩
theorem pc15_sub : (pc15 (F := F)).Forall fun op => op.bufs ⊆ tcRefs τ sig :=
  ⟨unary_bufs_sub .., binary_bufs_sub .., unary_bufs_sub .., nullary_bufs_sub .., binary_bufs_sub .., unary_bufs_sub .., unary_bufs_sub .., binary_bufs_sub .., binary_bufs_sub .., unary_bufs_sub .., reshape_bufs_sub .., unary_bufs_sub .., unary_bufs_sub .., binary_bufs_sub ..⟩
theorem pc15_fresh : (pc15 (F := F)).Forall fun op => op.fresh = ∅ :=
  ⟨rfl, rfl, rfl, rfl, rfl, rfl, rfl, rfl, rfl, rfl, rfl, rfl, rfl, rfl⟩
theorem pc16_sub : (pc16 (F := F)).Forall fun op => op.bufs ⊆ tcRefs τ sig := elu2Ops_sub ..
theorem pc16_fresh : (pc16 (F := F)).Forall fun op => op.fresh = ∅ := elu2Ops_fresh ..
theorem pc17_sub : (pc17 (F := F)).Forall fun op => op.bufs ⊆ tcRefs τ sig :=
  ⟨binary_bufs_sub .., nullary_bufs_sub .., unary_bufs_sub .., binary_bufs_sub ..⟩
theorem pc17_fresh : (pc17 (F := F)).Forall fun op => op.fresh = ∅ :=
  ⟨rfl, rfl, rfl, rfl⟩

theorem ops_sub : (ops (F := F)).Forall fun op => op.bufs ⊆ tcRefs τ sig := by
  simp only [ops, ops0, ops1, List.forall_append]
  exact ⟨⟨pc0_sub, pc1_sub, pc2_sub, pc3_sub, pc4_sub, pc5_sub, pc6a_sub, pc6b_sub, pc7_sub, pc8_sub, pc9_sub, pc10_sub, pc11_sub, pc12_sub, pc13_sub, pc14_sub⟩, pc15_sub, pc16_sub, pc17_sub⟩
theorem ops_fresh : (ops (F := F)).Forall fun op => op.fresh = ∅ := by
  simp only [ops, ops0, ops1, List.forall_append]
  exact ⟨⟨pc0_fresh, pc1_fresh, pc2_fresh, pc3_fresh, pc4_fresh, pc5_fresh, pc6a_fresh, pc6b_fresh, pc7_fresh, pc8_fresh, pc9_fresh, pc10_fresh, pc11_fresh, pc12_fresh, pc13_fresh, pc14_fresh⟩, pc15_fresh, pc16_fresh, pc17_fresh⟩

theorem scopedRefs_eq : (Finset.univ.filter fun b : Ref sig .tc => b.isScoped) = ∅ := by decide
theorem scopedSems_eq : (Finset.univ.filter fun sm : SemLoc sig => sm.isScoped .tc) = ∅ := by decide

/-! ## What each piece writes

Every operation writes one buffer of its own; a reference outside a piece's list keeps its contents through the piece. -/

theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

def eluW (φ : fn_elu.Bufs) : List (Ref sig .tc) := [φ.cst.ref, φ.v0.ref, φ.v1.ref, φ.cst_0.ref, φ.v2.ref, φ.v3.ref, φ.cst_1.ref, φ.call0.v0.ref, φ.call0.v1.ref, φ.call0.v2.ref, φ.v5.ref, φ.cst_2.ref, φ.v6.ref, φ.v7.ref, φ.call1.v0.ref]
def elu2W (φ : fn_elu_2.Bufs) : List (Ref sig .tc) := [φ.cst.ref, φ.v0.ref, φ.v1.ref, φ.cst_0.ref, φ.v2.ref, φ.v3.ref, φ.cst_1.ref, φ.call0.v0.ref, φ.call0.v1.ref, φ.call0.v2.ref, φ.v5.ref, φ.cst_2.ref, φ.v6.ref, φ.v7.ref, φ.call1.v0.ref]
def leakyW (φ : fn_leaky_relu.Bufs) : List (Ref sig .tc) := [φ.cst.ref, φ.v0.ref, φ.v1.ref, φ.v2.ref, φ.v3.ref, φ.v4.ref, φ.call0.v0.ref]

theorem eluOps_writes (x : TRef sig ⟨S10000x1, .f32⟩) (φ : fn_elu.Bufs) :
    (eluOps (F := F) x φ).Forall fun op => op.writes ⊆ ((eluW φ).map (Proc.devRef (τ := τ) .tc)).toFinset :=
  ⟨writes_sub_of_mem (by simp [eluW]), writes_sub_of_mem (by simp [eluW]), writes_sub_of_mem (by simp [eluW]), writes_sub_of_mem (by simp [eluW]), writes_sub_of_mem (by simp [eluW]), writes_sub_of_mem (by simp [eluW]), writes_sub_of_mem (by simp [eluW]), writes_sub_of_mem (by simp [eluW]), writes_sub_of_mem (by simp [eluW]), writes_sub_of_mem (by simp [eluW]), writes_sub_of_mem (by simp [eluW]), writes_sub_of_mem (by simp [eluW]), writes_sub_of_mem (by simp [eluW]), writes_sub_of_mem (by simp [eluW]), writes_sub_of_mem (by simp [eluW])⟩
theorem elu2Ops_writes (x : TRef sig ⟨S10000x128, .f32⟩) (φ : fn_elu_2.Bufs) :
    (elu2Ops (F := F) x φ).Forall fun op => op.writes ⊆ ((elu2W φ).map (Proc.devRef (τ := τ) .tc)).toFinset :=
  ⟨writes_sub_of_mem (by simp [elu2W]), writes_sub_of_mem (by simp [elu2W]), writes_sub_of_mem (by simp [elu2W]), writes_sub_of_mem (by simp [elu2W]), writes_sub_of_mem (by simp [elu2W]), writes_sub_of_mem (by simp [elu2W]), writes_sub_of_mem (by simp [elu2W]), writes_sub_of_mem (by simp [elu2W]), writes_sub_of_mem (by simp [elu2W]), writes_sub_of_mem (by simp [elu2W]), writes_sub_of_mem (by simp [elu2W]), writes_sub_of_mem (by simp [elu2W]), writes_sub_of_mem (by simp [elu2W]), writes_sub_of_mem (by simp [elu2W]), writes_sub_of_mem (by simp [elu2W])⟩
theorem leakyOps_writes (x : TRef sig ⟨S10000x10000, .f32⟩) (s : TRef sig ⟨S_, .f32⟩) (φ : fn_leaky_relu.Bufs) :
    (leakyOps (F := F) x s φ).Forall fun op => op.writes ⊆ ((leakyW φ).map (Proc.devRef (τ := τ) .tc)).toFinset :=
  ⟨writes_sub_of_mem (by simp [leakyW]), writes_sub_of_mem (by simp [leakyW]), writes_sub_of_mem (by simp [leakyW]), writes_sub_of_mem (by simp [leakyW]), writes_sub_of_mem (by simp [leakyW]), writes_sub_of_mem (by simp [leakyW]), writes_sub_of_mem (by simp [leakyW])⟩
def pc0W : List (Ref sig .tc) := [main_v0, main_v1, main_v2, main_v3]
theorem pc0_writes : (pc0 (F := F)).Forall fun op => op.writes ⊆ ((pc0W).map (Proc.devRef (τ := τ) .tc)).toFinset :=
  ⟨writes_sub_of_mem (by decide), writes_sub_of_mem (by decide), writes_sub_of_mem (by decide), writes_sub_of_mem (by decide)⟩
/-- A reference this piece does not write keeps its contents through it. -/
theorem pc0_frame (V : Valuation τ sig (Elt F)) {r : Ref sig .tc} (h : r ∉ pc0W) :
    after (pc0 (F := F)) V (no_index (Proc.devRef .tc r)) = V (Proc.devRef .tc r) :=
  after_of_writes_sub _ V pc0_writes h
def pc1W : List (Ref sig .tc) := eluW main_call0
theorem pc1_writes : (pc1 (F := F)).Forall fun op => op.writes ⊆ ((pc1W).map (Proc.devRef (τ := τ) .tc)).toFinset := eluOps_writes ..
/-- A reference this piece does not write keeps its contents through it. -/
theorem pc1_frame (V : Valuation τ sig (Elt F)) {r : Ref sig .tc} (h : r ∉ pc1W) :
    after (pc1 (F := F)) V (no_index (Proc.devRef .tc r)) = V (Proc.devRef .tc r) :=
  after_of_writes_sub _ V pc1_writes h
def pc2W : List (Ref sig .tc) := [main_v5, main_v6, main_v7]
theorem pc2_writes : (pc2 (F := F)).Forall fun op => op.writes ⊆ ((pc2W).map (Proc.devRef (τ := τ) .tc)).toFinset :=
  ⟨writes_sub_of_mem (by decide), writes_sub_of_mem (by decide), writes_sub_of_mem (by decide)⟩
/-- A reference this piece does not write keeps its contents through it. -/
theorem pc2_frame (V : Valuation τ sig (Elt F)) {r : Ref sig .tc} (h : r ∉ pc2W) :
    after (pc2 (F := F)) V (no_index (Proc.devRef .tc r)) = V (Proc.devRef .tc r) :=
  after_of_writes_sub _ V pc2_writes h
def pc3W : List (Ref sig .tc) := eluW main_call1
theorem pc3_writes : (pc3 (F := F)).Forall fun op => op.writes ⊆ ((pc3W).map (Proc.devRef (τ := τ) .tc)).toFinset := eluOps_writes ..
/-- A reference this piece does not write keeps its contents through it. -/
theorem pc3_frame (V : Valuation τ sig (Elt F)) {r : Ref sig .tc} (h : r ∉ pc3W) :
    after (pc3 (F := F)) V (no_index (Proc.devRef .tc r)) = V (Proc.devRef .tc r) :=
  after_of_writes_sub _ V pc3_writes h
def pc4W : List (Ref sig .tc) := [main_v9, main_v10, main_v11, main_v12, main_v13, main_v14, main_cst]
theorem pc4_writes : (pc4 (F := F)).Forall fun op => op.writes ⊆ ((pc4W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide)⟩
/-- A reference this piece does not write keeps its contents through it. -/
theorem pc4_frame (V : Valuation τ sig (Elt F)) {r : Ref sig .tc} (h : r ∉ pc4W) :
    after (pc4 (F := F)) V (no_index (Proc.devRef .tc r)) = V (Proc.devRef .tc r) :=
  after_of_writes_sub _ V pc4_writes h
def pc5W : List (Ref sig .tc) := leakyW main_call2
theorem pc5_writes : (pc5 (F := F)).Forall fun op => op.writes ⊆ ((pc5W).map (Proc.devRef (τ := τ) .tc)).toFinset := leakyOps_writes ..
/-- A reference this piece does not write keeps its contents through it. -/
theorem pc5_frame (V : Valuation τ sig (Elt F)) {r : Ref sig .tc} (h : r ∉ pc5W) :
    after (pc5 (F := F)) V (no_index (Proc.devRef .tc r)) = V (Proc.devRef .tc r) :=
  after_of_writes_sub _ V pc5_writes h
def pc6aW : List (Ref sig .tc) := [main_cst_0, main_v16, main_cst_1, main_v17, main_v18, main_v19, main_v20, main_v21, main_v22]
theorem pc6a_writes : (pc6a (F := F)).Forall fun op => op.writes ⊆ ((pc6aW).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A reference this piece does not write keeps its contents through it. -/
theorem pc6a_frame (V : Valuation τ sig (Elt F)) {r : Ref sig .tc} (h : r ∉ pc6aW) :
    after (pc6a (F := F)) V (no_index (Proc.devRef .tc r)) = V (Proc.devRef .tc r) :=
  after_of_writes_sub _ V pc6a_writes h
def pc6bW : List (Ref sig .tc) := [main_cst_2, main_v23, main_v24, main_v25, main_v26, main_v27, main_v28, main_v29, main_v30, main_v31, main_v32]
theorem pc6b_writes : (pc6b (F := F)).Forall fun op => op.writes ⊆ ((pc6bW).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A reference this piece does not write keeps its contents through it. -/
theorem pc6b_frame (V : Valuation τ sig (Elt F)) {r : Ref sig .tc} (h : r ∉ pc6bW) :
    after (pc6b (F := F)) V (no_index (Proc.devRef .tc r)) = V (Proc.devRef .tc r) :=
  after_of_writes_sub _ V pc6b_writes h
def pc7W : List (Ref sig .tc) := elu2W main_call3
theorem pc7_writes : (pc7 (F := F)).Forall fun op => op.writes ⊆ ((pc7W).map (Proc.devRef (τ := τ) .tc)).toFinset := elu2Ops_writes ..
/-- A reference this piece does not write keeps its contents through it. -/
theorem pc7_frame (V : Valuation τ sig (Elt F)) {r : Ref sig .tc} (h : r ∉ pc7W) :
    after (pc7 (F := F)) V (no_index (Proc.devRef .tc r)) = V (Proc.devRef .tc r) :=
  after_of_writes_sub _ V pc7_writes h
def pc8W : List (Ref sig .tc) := [main_v34, main_v35, main_v36]
theorem pc8_writes : (pc8 (F := F)).Forall fun op => op.writes ⊆ ((pc8W).map (Proc.devRef (τ := τ) .tc)).toFinset :=
  ⟨writes_sub_of_mem (by decide), writes_sub_of_mem (by decide), writes_sub_of_mem (by decide)⟩
/-- A reference this piece does not write keeps its contents through it. -/
theorem pc8_frame (V : Valuation τ sig (Elt F)) {r : Ref sig .tc} (h : r ∉ pc8W) :
    after (pc8 (F := F)) V (no_index (Proc.devRef .tc r)) = V (Proc.devRef .tc r) :=
  after_of_writes_sub _ V pc8_writes h
def pc9W : List (Ref sig .tc) := eluW main_call4
theorem pc9_writes : (pc9 (F := F)).Forall fun op => op.writes ⊆ ((pc9W).map (Proc.devRef (τ := τ) .tc)).toFinset := eluOps_writes ..
/-- A reference this piece does not write keeps its contents through it. -/
theorem pc9_frame (V : Valuation τ sig (Elt F)) {r : Ref sig .tc} (h : r ∉ pc9W) :
    after (pc9 (F := F)) V (no_index (Proc.devRef .tc r)) = V (Proc.devRef .tc r) :=
  after_of_writes_sub _ V pc9_writes h
def pc10W : List (Ref sig .tc) := [main_v38, main_v39, main_v40]
theorem pc10_writes : (pc10 (F := F)).Forall fun op => op.writes ⊆ ((pc10W).map (Proc.devRef (τ := τ) .tc)).toFinset :=
  ⟨writes_sub_of_mem (by decide), writes_sub_of_mem (by decide), writes_sub_of_mem (by decide)⟩
/-- A reference this piece does not write keeps its contents through it. -/
theorem pc10_frame (V : Valuation τ sig (Elt F)) {r : Ref sig .tc} (h : r ∉ pc10W) :
    after (pc10 (F := F)) V (no_index (Proc.devRef .tc r)) = V (Proc.devRef .tc r) :=
  after_of_writes_sub _ V pc10_writes h
def pc11W : List (Ref sig .tc) := eluW main_call5
theorem pc11_writes : (pc11 (F := F)).Forall fun op => op.writes ⊆ ((pc11W).map (Proc.devRef (τ := τ) .tc)).toFinset := eluOps_writes ..
/-- A reference this piece does not write keeps its contents through it. -/
theorem pc11_frame (V : Valuation τ sig (Elt F)) {r : Ref sig .tc} (h : r ∉ pc11W) :
    after (pc11 (F := F)) V (no_index (Proc.devRef .tc r)) = V (Proc.devRef .tc r) :=
  after_of_writes_sub _ V pc11_writes h
def pc12W : List (Ref sig .tc) := [main_v42, main_v43, main_v44, main_v45, main_v46, main_v47, main_cst_3]
theorem pc12_writes : (pc12 (F := F)).Forall fun op => op.writes ⊆ ((pc12W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide)⟩
/-- A reference this piece does not write keeps its contents through it. -/
theorem pc12_frame (V : Valuation τ sig (Elt F)) {r : Ref sig .tc} (h : r ∉ pc12W) :
    after (pc12 (F := F)) V (no_index (Proc.devRef .tc r)) = V (Proc.devRef .tc r) :=
  after_of_writes_sub _ V pc12_writes h
def pc13W : List (Ref sig .tc) := leakyW main_call6
theorem pc13_writes : (pc13 (F := F)).Forall fun op => op.writes ⊆ ((pc13W).map (Proc.devRef (τ := τ) .tc)).toFinset := leakyOps_writes ..
/-- A reference this piece does not write keeps its contents through it. -/
theorem pc13_frame (V : Valuation τ sig (Elt F)) {r : Ref sig .tc} (h : r ∉ pc13W) :
    after (pc13 (F := F)) V (no_index (Proc.devRef .tc r)) = V (Proc.devRef .tc r) :=
  after_of_writes_sub _ V pc13_writes h
def pc14W : List (Ref sig .tc) := [main_cst_4, main_v49, main_cst_5, main_v50, main_v51, main_v52]
theorem pc14_writes : (pc14 (F := F)).Forall fun op => op.writes ⊆ ((pc14W).map (Proc.devRef (τ := τ) .tc)).toFinset :=
  ⟨writes_sub_of_mem (by decide), writes_sub_of_mem (by decide), writes_sub_of_mem (by decide), writes_sub_of_mem (by decide), writes_sub_of_mem (by decide), writes_sub_of_mem (by decide)⟩
/-- A reference this piece does not write keeps its contents through it. -/
theorem pc14_frame (V : Valuation τ sig (Elt F)) {r : Ref sig .tc} (h : r ∉ pc14W) :
    after (pc14 (F := F)) V (no_index (Proc.devRef .tc r)) = V (Proc.devRef .tc r) :=
  after_of_writes_sub _ V pc14_writes h
def pc15W : List (Ref sig .tc) := [main_v53, main_v54, main_v55, main_cst_6, main_v56, main_v57, main_v58, main_v59, main_v60, main_v61, main_v62, main_v63, main_v64, main_v65]
theorem pc15_writes : (pc15 (F := F)).Forall fun op => op.writes ⊆ ((pc15W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A reference this piece does not write keeps its contents through it. -/
theorem pc15_frame (V : Valuation τ sig (Elt F)) {r : Ref sig .tc} (h : r ∉ pc15W) :
    after (pc15 (F := F)) V (no_index (Proc.devRef .tc r)) = V (Proc.devRef .tc r) :=
  after_of_writes_sub _ V pc15_writes h
def pc16W : List (Ref sig .tc) := elu2W main_call7
theorem pc16_writes : (pc16 (F := F)).Forall fun op => op.writes ⊆ ((pc16W).map (Proc.devRef (τ := τ) .tc)).toFinset := elu2Ops_writes ..
/-- A reference this piece does not write keeps its contents through it. -/
theorem pc16_frame (V : Valuation τ sig (Elt F)) {r : Ref sig .tc} (h : r ∉ pc16W) :
    after (pc16 (F := F)) V (no_index (Proc.devRef .tc r)) = V (Proc.devRef .tc r) :=
  after_of_writes_sub _ V pc16_writes h
def pc17W : List (Ref sig .tc) := [main_v67, main_cst_7, main_v68, main_v69]
theorem pc17_writes : (pc17 (F := F)).Forall fun op => op.writes ⊆ ((pc17W).map (Proc.devRef (τ := τ) .tc)).toFinset :=
  ⟨writes_sub_of_mem (by decide), writes_sub_of_mem (by decide), writes_sub_of_mem (by decide), writes_sub_of_mem (by decide)⟩
/-- A reference this piece does not write keeps its contents through it. -/
theorem pc17_frame (V : Valuation τ sig (Elt F)) {r : Ref sig .tc} (h : r ∉ pc17W) :
    after (pc17 (F := F)) V (no_index (Proc.devRef .tc r)) = V (Proc.devRef .tc r) :=
  after_of_writes_sub _ V pc17_writes h

end Cert.ReferenceIdeal.Hand

end
-- ==== Proof.RefTerm.lean ====
/-
  The reference's result as one pure function of its six argument arrays, composed in named stages.

  x = inputs · W is the shared projection.  Per head h the attention vectors are slice h of w1 and w2 (a slice and
  a reshape to [128, 1]); f1 = elu (x · w1_h) and f2 = elu (x · w2_h) are columns [10000, 1]; the logits are
  adj * f1 (f1 broadcast along columns) + adj * f2ᵀ (f2 transposed and broadcast along rows); the leaky rectifier
  keeps a logit that is not below zero and scales the others by 0.2; the row maximum (of -∞ and the reduce with a
  maximum body) is subtracted and the exponential taken; the row sums (a reduce with an add body from zero)
  divide the exponentials into coefficients; coefficients · x plus the head's bias row (broadcast down the rows)
  goes through elu once more; the two heads are added and divided by two.  elu v is v where v > 0, and elsewhere
  1 * expm1 (the value v with the positive entries replaced by zero).
-/
import proofs.«144953_g79190607004093_cont_9to1c4b_603_4_alg».proof.Proof.Gen.ReferenceIdeal

noncomputable section

namespace Cert.ReferenceIdeal.Hand

open Idealize.ShloMosaic
open Cert.ReferenceIdeal
open Cert.ReferenceIdeal.Facts₀

variable {F : FTy → Type} [FloatOps F]

/-! ## The scalar constants the program spells -/

/-- 0.0 -/
def cZ : (⟨S_, .f32⟩ : BufTy).Contents (Elt F) := constant S_ .f32 0x00000000#32
/-- 1.0 -/
def cOne : (⟨S_, .f32⟩ : BufTy).Contents (Elt F) := constant S_ .f32 0x3F800000#32
/-- 0.2 -/
def cC02 : (⟨S_, .f32⟩ : BufTy).Contents (Elt F) := constant S_ .f32 0x3E4CCCCD#32
/-- -∞ -/
def cNinf : (⟨S_, .f32⟩ : BufTy).Contents (Elt F) := constant S_ .f32 0xFF800000#32
/-- 2.0 -/
def cTwo : (⟨S_, .f32⟩ : BufTy).Contents (Elt F) := constant S_ .f32 0x40000000#32

/-! ## The exponential linear unit, on a column and on a [10000, 128] array -/

/-- elu on a [10000, 1] column: x where x > 0, else 1 * expm1 (x with its positive entries set to zero). -/
def refElu1 (x : (⟨S10000x1, .f32⟩ : BufTy).Contents (Elt F)) : (⟨S10000x1, .f32⟩ : BufTy).Contents (Elt F) :=
  select (cmpf .ogt x (broadcastInDim S10000x1 ![] bcast_S_S10000x1 cZ)) x
    (mulf (broadcastInDim S10000x1 ![] bcast_S_S10000x1 cOne)
      (Host.expm1 (select (cmpf .ogt x (broadcastInDim S10000x1 ![] bcast_S_S10000x1 cZ))
        (broadcastInDim S10000x1 ![] bcast_S_S10000x1 cZ) x)))

/-- elu on a [10000, 128] array, the same composition. -/
def refElu2 (x : (⟨S10000x128, .f32⟩ : BufTy).Contents (Elt F)) : (⟨S10000x128, .f32⟩ : BufTy).Contents (Elt F) :=
  select (cmpf .ogt x (broadcastInDim S10000x128 ![] bcast_S_S10000x128 cZ)) x
    (mulf (broadcastInDim S10000x128 ![] bcast_S_S10000x128 cOne)
      (Host.expm1 (select (cmpf .ogt x (broadcastInDim S10000x128 ![] bcast_S_S10000x128 cZ))
        (broadcastInDim S10000x128 ![] bcast_S_S10000x128 cZ) x)))

/-! ## The stages -/

/-- x = inputs · W. -/
def refX (a0 : (⟨S10000x128, .f32⟩ : BufTy).Contents (Elt F)) (a2 : (⟨S128x128, .f32⟩ : BufTy).Contents (Elt F)) :
    (⟨S10000x128, .f32⟩ : BufTy).Contents (Elt F) :=
  Host.dotGeneral dot_S10000x128_S128x128_S10000x128_1_0_0_1_n_n none a0 a2

/-- Head 0's attention vector: slice 0 of a [2, 128, 1] array, as [128, 1]. -/
def refW0 (a : (⟨S2x128x1, .f32⟩ : BufTy).Contents (Elt F)) : (⟨S128x1, .f32⟩ : BufTy).Contents (Elt F) :=
  shapeCast S128x1 (extractStridedSlice S1x128x1 ![0, 0, 0] a slices_S2x128x1_S1x128x1_0_0_0) shapeCasts_S1x128x1_S128x1

/-- Head 1's attention vector: slice 1. -/
def refW1 (a : (⟨S2x128x1, .f32⟩ : BufTy).Contents (Elt F)) : (⟨S128x1, .f32⟩ : BufTy).Contents (Elt F) :=
  shapeCast S128x1 (extractStridedSlice S1x128x1 ![1, 0, 0] a slices_S2x128x1_S1x128x1_1_0_0) shapeCasts_S1x128x1_S128x1

/-- f = elu (x · w), a column. -/
def refF (x : (⟨S10000x128, .f32⟩ : BufTy).Contents (Elt F)) (w : (⟨S128x1, .f32⟩ : BufTy).Contents (Elt F)) :
    (⟨S10000x1, .f32⟩ : BufTy).Contents (Elt F) :=
  refElu1 (Host.dotGeneral dot_S10000x128_S128x1_S10000x1_1_0_0_1_n_n none x w)

/-- The logits adj * f1 + adj * f2ᵀ. -/
def refLogits (a1 : (⟨S10000x10000, .f32⟩ : BufTy).Contents (Elt F)) (f1 f2 : (⟨S10000x1, .f32⟩ : BufTy).Contents (Elt F)) :
    (⟨S10000x10000, .f32⟩ : BufTy).Contents (Elt F) :=
  addf (mulf a1 (broadcastInDim S10000x10000 ![0, 1] bcast_S10000x1_S10000x10000_0_1 f1))
    (mulf a1 (broadcastInDim S10000x10000 ![0, 1] bcast_S1x10000_S10000x10000_0_1
      (transpose S1x10000 [1, 0] f2 transposes_S10000x1_S1x10000_1_0)))

/-- The leaky rectifier: l where l ≥ 0, else 0.2 * l. -/
def refLeaky (l : (⟨S10000x10000, .f32⟩ : BufTy).Contents (Elt F)) : (⟨S10000x10000, .f32⟩ : BufTy).Contents (Elt F) :=
  select (cmpf .oge l (broadcastInDim S10000x10000 ![] bcast_S_S10000x10000 cZ)) l
    (mulf (broadcastInDim S10000x10000 ![] bcast_S_S10000x10000 cC02) l)

/-- The row maxima as a vector of length 10000: the maximum of -∞ and the reduce with a maximum body from -∞. -/
def refMaxV (l : (⟨S10000x10000, .f32⟩ : BufTy).Contents (Elt F)) : (⟨S10000, .f32⟩ : BufTy).Contents (Elt F) :=
  maximumf (broadcastInDim S10000 ![] bcast_S_S10000 cNinf)
    (Host.reduce FloatOps.maximumf l cNinf reducesTo_S10000x10000_S10000_d1 h_S_)

/-- The row maxima broadcast back over the columns. -/
def refMax (l : (⟨S10000x10000, .f32⟩ : BufTy).Contents (Elt F)) : (⟨S10000x10000, .f32⟩ : BufTy).Contents (Elt F) :=
  broadcastInDim S10000x10000 ![0, 1] bcast_S10000x1_S10000x10000_0_1
    (broadcastInDim S10000x1 ![0] bcast_S10000_S10000x1_0 (refMaxV l))

/-- The exponentials of the shifted logits. -/
def refExp (l : (⟨S10000x10000, .f32⟩ : BufTy).Contents (Elt F)) : (⟨S10000x10000, .f32⟩ : BufTy).Contents (Elt F) :=
  Host.exp (subf l (refMax l))

/-- The row sums broadcast back over the columns. -/
def refSum (e : (⟨S10000x10000, .f32⟩ : BufTy).Contents (Elt F)) : (⟨S10000x10000, .f32⟩ : BufTy).Contents (Elt F) :=
  broadcastInDim S10000x10000 ![0, 1] bcast_S10000x1_S10000x10000_0_1
    (broadcastInDim S10000x1 ![0] bcast_S10000_S10000x1_0
      (Host.reduceAdd e cZ reducesTo_S10000x10000_S10000_d1 h_S_))

/-- The softmax coefficients. -/
def refCoef (e : (⟨S10000x10000, .f32⟩ : BufTy).Contents (Elt F)) : (⟨S10000x10000, .f32⟩ : BufTy).Contents (Elt F) :=
  Host.divf e (refSum e)

/-- coefficients · x. -/
def refVals (coef : (⟨S10000x10000, .f32⟩ : BufTy).Contents (Elt F)) (x : (⟨S10000x128, .f32⟩ : BufTy).Contents (Elt F)) :
    (⟨S10000x128, .f32⟩ : BufTy).Contents (Elt F) :=
  Host.dotGeneral dot_S10000x10000_S10000x128_S10000x128_1_0_0_1_n_n none coef x

/-- Head 0's bias row broadcast down the rows. -/
def refB0 (a5 : (⟨S2x128, .f32⟩ : BufTy).Contents (Elt F)) : (⟨S10000x128, .f32⟩ : BufTy).Contents (Elt F) :=
  broadcastInDim S10000x128 ![0, 1] bcast_S1x128_S10000x128_0_1
    (broadcastInDim S1x128 ![1] bcast_S128_S1x128_1
      (shapeCast S128 (extractStridedSlice S1x128 ![0, 0] a5 slices_S2x128_S1x128_0_0) shapeCasts_S1x128_S128))

/-- Head 1's bias row broadcast down the rows. -/
def refB1 (a5 : (⟨S2x128, .f32⟩ : BufTy).Contents (Elt F)) : (⟨S10000x128, .f32⟩ : BufTy).Contents (Elt F) :=
  broadcastInDim S10000x128 ![0, 1] bcast_S1x128_S10000x128_0_1
    (broadcastInDim S1x128 ![1] bcast_S128_S1x128_1
      (shapeCast S128 (extractStridedSlice S1x128 ![1, 0] a5 slices_S2x128_S1x128_1_0) shapeCasts_S1x128_S128))

/-- One head from its attention vectors and its bias: elu (softmax (leaky logits) · x + b). -/
def refHeadOf (a1 : (⟨S10000x10000, .f32⟩ : BufTy).Contents (Elt F)) (w1 w2 : (⟨S128x1, .f32⟩ : BufTy).Contents (Elt F))
    (bb : (⟨S10000x128, .f32⟩ : BufTy).Contents (Elt F)) (x : (⟨S10000x128, .f32⟩ : BufTy).Contents (Elt F)) :
    (⟨S10000x128, .f32⟩ : BufTy).Contents (Elt F) :=
  refElu2 (addf (refVals (refCoef (refExp (refLeaky (refLogits a1 (refF x w1) (refF x w2))))) x) bb)

/-- Head 0. -/
def refHead0 (a1 : (⟨S10000x10000, .f32⟩ : BufTy).Contents (Elt F)) (a3 a4 : (⟨S2x128x1, .f32⟩ : BufTy).Contents (Elt F))
    (a5 : (⟨S2x128, .f32⟩ : BufTy).Contents (Elt F)) (x : (⟨S10000x128, .f32⟩ : BufTy).Contents (Elt F)) :
    (⟨S10000x128, .f32⟩ : BufTy).Contents (Elt F) :=
  refHeadOf a1 (refW0 a3) (refW0 a4) (refB0 a5) x

/-- Head 1. -/
def refHead1 (a1 : (⟨S10000x10000, .f32⟩ : BufTy).Contents (Elt F)) (a3 a4 : (⟨S2x128x1, .f32⟩ : BufTy).Contents (Elt F))
    (a5 : (⟨S2x128, .f32⟩ : BufTy).Contents (Elt F)) (x : (⟨S10000x128, .f32⟩ : BufTy).Contents (Elt F)) :
    (⟨S10000x128, .f32⟩ : BufTy).Contents (Elt F) :=
  refHeadOf a1 (refW1 a3) (refW1 a4) (refB1 a5) x

/-- The reference's result: the mean of the two heads. -/
def refTerm (a0 : (⟨S10000x128, .f32⟩ : BufTy).Contents (Elt F)) (a1 : (⟨S10000x10000, .f32⟩ : BufTy).Contents (Elt F))
    (a2 : (⟨S128x128, .f32⟩ : BufTy).Contents (Elt F)) (a3 a4 : (⟨S2x128x1, .f32⟩ : BufTy).Contents (Elt F))
    (a5 : (⟨S2x128, .f32⟩ : BufTy).Contents (Elt F)) : (⟨S10000x128, .f32⟩ : BufTy).Contents (Elt F) :=
  Host.divf (addf (refHead0 a1 a3 a4 a5 (refX a0 a2)) (refHead1 a1 a3 a4 a5 (refX a0 a2)))
    (broadcastInDim S10000x128 ![] bcast_S_S10000x128 cTwo)

end Cert.ReferenceIdeal.Hand

end
-- ==== Proof.RefRun.lean ====
/-
  The reference's run.

  From any memory with zero counters every weakly fair execution of the reference terminates, and in every final
  state the result buffer holds `refTerm` of the six argument arrays' initial contents — the composition, in the
  program's order, of the operations' pure functions: x = inputs · W; per head the columns elu (x · w1) and
  elu (x · w2), the logits adj * f1 + adj * f2ᵀ, the leaky rectifier, the exponential of the logits less their row
  maximum, the quotient by the row sums, the product with x plus the bias row, elu; the two heads added and
  divided by two — while the six argument buffers hold what they held at the start.

  The program is a straight line of operations, each writing a buffer of its own, so its run is the fold of the
  operations' results over the initial contents. The fold is read piece by piece: for every valuation of the
  buffers, a piece leaves at the buffer a later piece reads the stage's pure function of the buffers it read
  (the operations' results composed, a computation over the piece's dozen operations), and leaves a buffer it
  does not write as it was. Composing the pieces' readings from the result buffer back to the arguments gives
  `refTerm`; the argument buffers are written by no piece.
-/
import proofs.«144953_g79190607004093_cont_9to1c4b_603_4_alg».proof.Proof.RefRunOps
import proofs.«144953_g79190607004093_cont_9to1c4b_603_4_alg».proof.Proof.RefTerm

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀

variable {F : FTy → Type} [FloatOps F]

/-! ## What each piece leaves at the buffers later pieces read

For every valuation `V` of the buffers, the contents after a piece at a buffer it writes, as the stage's pure
function of the contents `V` gives the buffers the piece reads. -/

/-- The leaky rectifier with the slope as an argument: the program passes the slope in a buffer. -/
def leakyFn (l : (⟨S10000x10000, .f32⟩ : BufTy).Contents (Elt F)) (c : (⟨S_, .f32⟩ : BufTy).Contents (Elt F)) :
    (⟨S10000x10000, .f32⟩ : BufTy).Contents (Elt F) :=
  select (cmpf .oge l (broadcastInDim S10000x10000 ![] bcast_S_S10000x10000 cZ)) l
    (mulf (broadcastInDim S10000x10000 ![] bcast_S_S10000x10000 c) l)

theorem leakyFn_c02 (l : (⟨S10000x10000, .f32⟩ : BufTy).Contents (Elt F)) : leakyFn l cC02 = refLeaky l := rfl

/-- The exponential of the logits shifted by a column of row maxima. -/
def expShift (l : (⟨S10000x10000, .f32⟩ : BufTy).Contents (Elt F)) (mcol : (⟨S10000x1, .f32⟩ : BufTy).Contents (Elt F)) :
    (⟨S10000x10000, .f32⟩ : BufTy).Contents (Elt F) :=
  Host.exp (subf l (broadcastInDim S10000x10000 ![0, 1] bcast_S10000x1_S10000x10000_0_1 mcol))

theorem expShift_max (l : (⟨S10000x10000, .f32⟩ : BufTy).Contents (Elt F)) :
    expShift l (broadcastInDim S10000x1 ![0] bcast_S10000_S10000x1_0 (refMaxV l)) = refExp l := rfl

theorem shapeCast_rfl {S T : Shape} {e : EltTy} (v : (⟨S, e⟩ : BufTy).Contents (Elt F)) (hn : S.ShapeCasts T) :
    (fun i => (rfl : e = e) ▸ shapeCast T v hn i) = shapeCast T v hn := rfl

theorem pc0_main_v0 (V : Valuation τ sig (Elt F)) :
    after (pc0 (F := F)) V (no_index (Proc.devRef .tc main_v0)) = refX (V (Proc.devRef .tc main_arg0)) (V (Proc.devRef .tc main_arg2)) := by
  simp only [pc0]
  after_results_simp
  rfl

theorem pc0_main_v3 (V : Valuation τ sig (Elt F)) :
    after (pc0 (F := F)) V (no_index (Proc.devRef .tc main_v3)) = Host.dotGeneral dot_S10000x128_S128x1_S10000x1_1_0_0_1_n_n none (refX (V (Proc.devRef .tc main_arg0)) (V (Proc.devRef .tc main_arg2))) (refW0 (V (Proc.devRef .tc main_arg3))) := by
  simp only [pc0]
  after_results_simp
  rfl

theorem pc1_main_v4 (V : Valuation τ sig (Elt F)) :
    after (pc1 (F := F)) V (no_index (Proc.devRef .tc main_v4)) = refElu1 (V (Proc.devRef .tc main_v3)) := by
  simp only [pc1, eluOps]
  after_results_simp
  simp only [TRef.toBuf, TRef.ofBuf, cast_eq, id]
  rfl

theorem pc2_main_v7 (V : Valuation τ sig (Elt F)) :
    after (pc2 (F := F)) V (no_index (Proc.devRef .tc main_v7)) = Host.dotGeneral dot_S10000x128_S128x1_S10000x1_1_0_0_1_n_n none (V (Proc.devRef .tc main_v0)) (refW0 (V (Proc.devRef .tc main_arg4))) := by
  simp only [pc2]
  after_results_simp
  rfl

theorem pc3_main_v8 (V : Valuation τ sig (Elt F)) :
    after (pc3 (F := F)) V (no_index (Proc.devRef .tc main_v8)) = refElu1 (V (Proc.devRef .tc main_v7)) := by
  simp only [pc3, eluOps]
  after_results_simp
  simp only [TRef.toBuf, TRef.ofBuf, cast_eq, id]
  rfl

theorem pc4_main_v14 (V : Valuation τ sig (Elt F)) :
    after (pc4 (F := F)) V (no_index (Proc.devRef .tc main_v14)) = refLogits (V (Proc.devRef .tc main_arg1)) (V (Proc.devRef .tc main_v4)) (V (Proc.devRef .tc main_v8)) := by
  simp only [pc4]
  after_results_simp
  rfl

theorem pc4_main_cst (V : Valuation τ sig (Elt F)) :
    after (pc4 (F := F)) V (no_index (Proc.devRef .tc main_cst)) = cC02 := by
  simp only [pc4]
  after_results_simp
  rfl

theorem pc5_main_v15 (V : Valuation τ sig (Elt F)) :
    after (pc5 (F := F)) V (no_index (Proc.devRef .tc main_v15)) = leakyFn (V (Proc.devRef .tc main_v14)) (V (Proc.devRef .tc main_cst)) := by
  simp only [pc5, leakyOps]
  after_results_simp
  simp only [TRef.toBuf, TRef.ofBuf, cast_eq, id]
  rfl

theorem pc6a_main_v22 (V : Valuation τ sig (Elt F)) :
    after (pc6a (F := F)) V (no_index (Proc.devRef .tc main_v22)) = refExp (V (Proc.devRef .tc main_v15)) := by
  simp only [pc6a]
  after_results_simp
  rfl

theorem pc6b_main_v32 (V : Valuation τ sig (Elt F)) :
    after (pc6b (F := F)) V (no_index (Proc.devRef .tc main_v32)) = addf (refVals (refCoef (V (Proc.devRef .tc main_v22))) (V (Proc.devRef .tc main_v0))) (refB0 (V (Proc.devRef .tc main_arg5))) := by
  simp only [pc6b]
  after_results_simp
  rfl

theorem pc7_main_v33 (V : Valuation τ sig (Elt F)) :
    after (pc7 (F := F)) V (no_index (Proc.devRef .tc main_v33)) = refElu2 (V (Proc.devRef .tc main_v32)) := by
  simp only [pc7, elu2Ops]
  after_results_simp
  simp only [TRef.toBuf, TRef.ofBuf, cast_eq, id]
  rfl

theorem pc8_main_v36 (V : Valuation τ sig (Elt F)) :
    after (pc8 (F := F)) V (no_index (Proc.devRef .tc main_v36)) = Host.dotGeneral dot_S10000x128_S128x1_S10000x1_1_0_0_1_n_n none (V (Proc.devRef .tc main_v0)) (refW1 (V (Proc.devRef .tc main_arg3))) := by
  simp only [pc8]
  after_results_simp
  rfl

theorem pc9_main_v37 (V : Valuation τ sig (Elt F)) :
    after (pc9 (F := F)) V (no_index (Proc.devRef .tc main_v37)) = refElu1 (V (Proc.devRef .tc main_v36)) := by
  simp only [pc9, eluOps]
  after_results_simp
  simp only [TRef.toBuf, TRef.ofBuf, cast_eq, id]
  rfl

theorem pc10_main_v40 (V : Valuation τ sig (Elt F)) :
    after (pc10 (F := F)) V (no_index (Proc.devRef .tc main_v40)) = Host.dotGeneral dot_S10000x128_S128x1_S10000x1_1_0_0_1_n_n none (V (Proc.devRef .tc main_v0)) (refW1 (V (Proc.devRef .tc main_arg4))) := by
  simp only [pc10]
  after_results_simp
  rfl

theorem pc11_main_v41 (V : Valuation τ sig (Elt F)) :
    after (pc11 (F := F)) V (no_index (Proc.devRef .tc main_v41)) = refElu1 (V (Proc.devRef .tc main_v40)) := by
  simp only [pc11, eluOps]
  after_results_simp
  simp only [TRef.toBuf, TRef.ofBuf, cast_eq, id]
  rfl

theorem pc12_main_v47 (V : Valuation τ sig (Elt F)) :
    after (pc12 (F := F)) V (no_index (Proc.devRef .tc main_v47)) = refLogits (V (Proc.devRef .tc main_arg1)) (V (Proc.devRef .tc main_v37)) (V (Proc.devRef .tc main_v41)) := by
  simp only [pc12]
  after_results_simp
  rfl

theorem pc12_main_cst_3 (V : Valuation τ sig (Elt F)) :
    after (pc12 (F := F)) V (no_index (Proc.devRef .tc main_cst_3)) = cC02 := by
  simp only [pc12]
  after_results_simp
  rfl

theorem pc13_main_v48 (V : Valuation τ sig (Elt F)) :
    after (pc13 (F := F)) V (no_index (Proc.devRef .tc main_v48)) = leakyFn (V (Proc.devRef .tc main_v47)) (V (Proc.devRef .tc main_cst_3)) := by
  simp only [pc13, leakyOps]
  after_results_simp
  simp only [TRef.toBuf, TRef.ofBuf, cast_eq, id]
  rfl

theorem pc14_main_v52 (V : Valuation τ sig (Elt F)) :
    after (pc14 (F := F)) V (no_index (Proc.devRef .tc main_v52)) = broadcastInDim S10000x1 ![0] bcast_S10000_S10000x1_0 (refMaxV (V (Proc.devRef .tc main_v48))) := by
  simp only [pc14]
  after_results_simp
  rfl

theorem pc15_main_v65 (V : Valuation τ sig (Elt F)) :
    after (pc15 (F := F)) V (no_index (Proc.devRef .tc main_v65)) = addf (refVals (refCoef (expShift (V (Proc.devRef .tc main_v48)) (V (Proc.devRef .tc main_v52)))) (V (Proc.devRef .tc main_v0))) (refB1 (V (Proc.devRef .tc main_arg5))) := by
  simp only [pc15]
  after_results_simp
  rfl

theorem pc16_main_v66 (V : Valuation τ sig (Elt F)) :
    after (pc16 (F := F)) V (no_index (Proc.devRef .tc main_v66)) = refElu2 (V (Proc.devRef .tc main_v65)) := by
  simp only [pc16, elu2Ops]
  after_results_simp
  simp only [TRef.toBuf, TRef.ofBuf, cast_eq, id]
  rfl

theorem pc17_main_v69 (V : Valuation τ sig (Elt F)) :
    after (pc17 (F := F)) V (no_index (Proc.devRef .tc main_v69)) = Host.divf (addf (V (Proc.devRef .tc main_v33)) (V (Proc.devRef .tc main_v66))) (broadcastInDim S10000x128 ![] bcast_S_S10000x128 cTwo) := by
  simp only [pc17]
  after_results_simp
  rfl

/-! ## The whole line

Reading the result buffer after the whole line: each piece's contents at a buffer it writes is its stage's
function of what the pieces before it left, and a buffer a piece does not write passes through it. -/

set_option maxRecDepth 8192 in
set_option maxHeartbeats 4000000 in
theorem read_result (V : Valuation τ sig (Elt F)) :
    after (ops (F := F)) V (Proc.devRef .tc main_v69) = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp (disch := decide) only [ops, ops0, ops1, after_append,
    pc0_main_v0, pc0_main_v3, pc1_main_v4, pc2_main_v7, pc3_main_v8, pc4_main_v14, pc4_main_cst, pc5_main_v15, pc6a_main_v22, pc6b_main_v32, pc7_main_v33, pc8_main_v36, pc9_main_v37, pc10_main_v40, pc11_main_v41, pc12_main_v47, pc12_main_cst_3, pc13_main_v48, pc14_main_v52, pc15_main_v65, pc16_main_v66, pc17_main_v69,
    pc0_frame, pc1_frame, pc2_frame, pc3_frame, pc4_frame, pc5_frame, pc6a_frame, pc6b_frame, pc7_frame, pc8_frame, pc9_frame, pc10_frame, pc11_frame, pc12_frame, pc13_frame, pc14_frame, pc15_frame, pc16_frame, pc17_frame,
    leakyFn_c02, expShift_max]
  rfl

theorem read_arg0 (V : Valuation τ sig (Elt F)) :
    after (ops (F := F)) V (Proc.devRef .tc main_arg0) = V (Proc.devRef .tc main_arg0) := by
  simp (disch := decide) only [ops, ops0, ops1, after_append, pc0_frame, pc1_frame, pc2_frame, pc3_frame, pc4_frame, pc5_frame, pc6a_frame, pc6b_frame, pc7_frame, pc8_frame, pc9_frame, pc10_frame, pc11_frame, pc12_frame, pc13_frame, pc14_frame, pc15_frame, pc16_frame, pc17_frame]

theorem read_arg1 (V : Valuation τ sig (Elt F)) :
    after (ops (F := F)) V (Proc.devRef .tc main_arg1) = V (Proc.devRef .tc main_arg1) := by
  simp (disch := decide) only [ops, ops0, ops1, after_append, pc0_frame, pc1_frame, pc2_frame, pc3_frame, pc4_frame, pc5_frame, pc6a_frame, pc6b_frame, pc7_frame, pc8_frame, pc9_frame, pc10_frame, pc11_frame, pc12_frame, pc13_frame, pc14_frame, pc15_frame, pc16_frame, pc17_frame]

theorem read_arg2 (V : Valuation τ sig (Elt F)) :
    after (ops (F := F)) V (Proc.devRef .tc main_arg2) = V (Proc.devRef .tc main_arg2) := by
  simp (disch := decide) only [ops, ops0, ops1, after_append, pc0_frame, pc1_frame, pc2_frame, pc3_frame, pc4_frame, pc5_frame, pc6a_frame, pc6b_frame, pc7_frame, pc8_frame, pc9_frame, pc10_frame, pc11_frame, pc12_frame, pc13_frame, pc14_frame, pc15_frame, pc16_frame, pc17_frame]

theorem read_arg3 (V : Valuation τ sig (Elt F)) :
    after (ops (F := F)) V (Proc.devRef .tc main_arg3) = V (Proc.devRef .tc main_arg3) := by
  simp (disch := decide) only [ops, ops0, ops1, after_append, pc0_frame, pc1_frame, pc2_frame, pc3_frame, pc4_frame, pc5_frame, pc6a_frame, pc6b_frame, pc7_frame, pc8_frame, pc9_frame, pc10_frame, pc11_frame, pc12_frame, pc13_frame, pc14_frame, pc15_frame, pc16_frame, pc17_frame]

theorem read_arg4 (V : Valuation τ sig (Elt F)) :
    after (ops (F := F)) V (Proc.devRef .tc main_arg4) = V (Proc.devRef .tc main_arg4) := by
  simp (disch := decide) only [ops, ops0, ops1, after_append, pc0_frame, pc1_frame, pc2_frame, pc3_frame, pc4_frame, pc5_frame, pc6a_frame, pc6b_frame, pc7_frame, pc8_frame, pc9_frame, pc10_frame, pc11_frame, pc12_frame, pc13_frame, pc14_frame, pc15_frame, pc16_frame, pc17_frame]

theorem read_arg5 (V : Valuation τ sig (Elt F)) :
    after (ops (F := F)) V (Proc.devRef .tc main_arg5) = V (Proc.devRef .tc main_arg5) := by
  simp (disch := decide) only [ops, ops0, ops1, after_append, pc0_frame, pc1_frame, pc2_frame, pc3_frame, pc4_frame, pc5_frame, pc6a_frame, pc6b_frame, pc7_frame, pc8_frame, pc9_frame, pc10_frame, pc11_frame, pc12_frame, pc13_frame, pc14_frame, pc15_frame, pc16_frame, pc17_frame]

/-! ## The run -/

/-- Every weakly fair execution of the reference terminates with the result buffer at `refTerm` of the arguments'
    initial contents and the argument buffers unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v69) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := F)) _ _).mono (fun _ h c => ⟨(h c main_v69).trans (read_result (launchContents m c)),
      (h c main_arg0).trans (read_arg0 (launchContents m c)),
      (h c main_arg1).trans (read_arg1 (launchContents m c)),
      (h c main_arg2).trans (read_arg2 (launchContents m c)),
      (h c main_arg3).trans (read_arg3 (launchContents m c)),
      (h c main_arg4).trans (read_arg4 (launchContents m c)),
      (h c main_arg5).trans (read_arg5 (launchContents m c))⟩)
    (run_seq scopedRefs_eq scopedSems_eq (defs (F := F)) (main (F := F)) (fun _ => ops (F := F)) main_eq (fun _ => ops_sub) m ρ
      (fun _ => List.forall_iff_forall_mem.mp ops_fresh))

end Cert.ReferenceIdeal.Hand

end
-- ==== Proof.RefValue.lean ====
/-
  The reference's result read index by index over the extended reals.

  Each stage of the reference is read at one coordinate: a matrix product at (i, k) is the sum over the contracted
  coordinate of the products of the entries; a slice followed by a reshape, a transpose and a broadcast read one entry
  of their operand; the elementwise stages (the comparison-and-select forms of the exponential linear unit and of the
  leaky rectifier, the subtraction, the exponential, the quotient) act entry by entry; the row reduction with a maximum
  body from -∞ is the fold of max from -∞ over the row's entries, and the one with an add body from zero is zero plus
  the sum of the row's entries.  Composed for one head from its two attention vectors w_a, w_b and the projection x,
  with f_a(i) = elu (Σ_k x(i,k) w_a(k)), f_b likewise, l(i,j) = leaky (adj(i,j) f_a(i) + adj(i,j) f_b(j)),
  m(i) = max (-∞, fold of max from -∞ over j of l(i,j)), e(i,j) = exp (l(i,j) - m(i)), s(i) = 0 + Σ_j e(i,j):
      head(i,d) = elu ((Σ_j (e(i,j) / s(i)) · x(j,d)) + b(d)),
  and the result is (head_0 + head_1) / 2: the specification's outR at the row maxima m.  The row maximum of a row
  of reals is a real: the fold of max from ⊥ over a nonempty finite family of reals is one of them.
-/
import proofs.«144953_g79190607004093_cont_9to1c4b_603_4_alg».proof.Proof.RefTerm
import proofs.«144953_g79190607004093_cont_9to1c4b_603_4_alg».proof.Proof.Spec
import Idealize.ShloMosaic.Lib.IdealHost
import Idealize.ShloMosaic.Lib.Pipeline.Value

noncomputable section

namespace Cert.ReferenceIdeal.Hand

open Idealize.ShloMosaic Idealize.ShloMosaic.ValueIdx
open Cert.ReferenceIdeal
open Cert.ReferenceIdeal.Facts₀
open scoped BigOperators

/-- A [M,K] × [K,N] dot read at (i, k). -/
theorem dotA_apply (l : FVec Ideal S10000x128 .f32) (r : FVec Ideal S128x128 .f32) (i : Fin 10000) (k : Fin 128) :
    Host.dotGeneral dot_S10000x128_S128x128_S10000x128_1_0_0_1_n_n none l r (ix2 i k)
      = ∑ q : Fin 128, l (ix2 i q) * r (ix2 q k) := by
  show FloatOps.dotGeneral _ none _ l r (ix2 i k) = _
  rw [Ideal.dotGeneral_apply]
  have hrk : (dot_S10000x128_S128x128_S10000x128_1_0_0_1_n_n).contr.rank = 1 := rfl
  have hs : (dot_S10000x128_S128x128_S10000x128_1_0_0_1_n_n).contr.size ⟨0, by omega⟩ = 128 := rfl
  rw [← Equiv.sum_comp (contrEquiv1 dot_S10000x128_S128x128_S10000x128_1_0_0_1_n_n 128 hrk hs).symm]
  refine Finset.sum_congr rfl fun q _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

theorem dotB_apply (l : FVec Ideal S10000x128 .f32) (r : FVec Ideal S128x1 .f32) (i : Fin 10000) :
    Host.dotGeneral dot_S10000x128_S128x1_S10000x1_1_0_0_1_n_n none l r (ix2 i 0)
      = ∑ q : Fin 128, l (ix2 i q) * r (ix2 q 0) := by
  show FloatOps.dotGeneral _ none _ l r (ix2 i 0) = _
  rw [Ideal.dotGeneral_apply]
  have hrk : (dot_S10000x128_S128x1_S10000x1_1_0_0_1_n_n).contr.rank = 1 := rfl
  have hs : (dot_S10000x128_S128x1_S10000x1_1_0_0_1_n_n).contr.size ⟨0, by omega⟩ = 128 := rfl
  rw [← Equiv.sum_comp (contrEquiv1 dot_S10000x128_S128x1_S10000x1_1_0_0_1_n_n 128 hrk hs).symm]
  refine Finset.sum_congr rfl fun q _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

theorem dotC_apply (l : FVec Ideal S10000x10000 .f32) (r : FVec Ideal S10000x128 .f32) (i : Fin 10000) (d : Fin 128) :
    Host.dotGeneral dot_S10000x10000_S10000x128_S10000x128_1_0_0_1_n_n none l r (ix2 i d)
      = ∑ j : Fin 10000, l (ix2 i j) * r (ix2 j d) := by
  show FloatOps.dotGeneral _ none _ l r (ix2 i d) = _
  rw [Ideal.dotGeneral_apply]
  have hrk : (dot_S10000x10000_S10000x128_S10000x128_1_0_0_1_n_n).contr.rank = 1 := rfl
  have hs : (dot_S10000x10000_S10000x128_S10000x128_1_0_0_1_n_n).contr.size ⟨0, by omega⟩ = 10000 := rfl
  rw [← Equiv.sum_comp (contrEquiv1 dot_S10000x10000_S10000x128_S10000x128_1_0_0_1_n_n 10000 hrk hs).symm]
  refine Finset.sum_congr rfl fun q _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- Slice h of a [2,128,1] array as [128,1], read at (k, 0). -/
theorem refW0_apply (a : FVec Ideal S2x128x1 .f32) (k : Fin 128) : refW0 (F := Ideal) a (ix2 k 0) = a (ix3 0 k 0) := by
  unfold refW0
  refine (shapeCast_apply _ shapeCasts_S1x128x1_S128x1 (ix2 k 0) (ix3 0 k 0) ?_).trans ?_
  · rw [Shape.rowMajor_val_three, Shape.rowMajor_val_two]
    show ((0 : ℕ) * 128 + k.val) * 1 + 0 = k.val * 1 + 0
    omega
  · refine extractStridedSlice_apply _ a slices_S2x128x1_S1x128x1_0_0_0 (ix3 0 k 0) (ix3 0 k 0) ?_
    intro c
    match c with
    | ⟨0, _⟩ => rfl
    | ⟨1, _⟩ => show k.val = 0 + k.val; omega
    | ⟨2, _⟩ => rfl

theorem refW1_apply (a : FVec Ideal S2x128x1 .f32) (k : Fin 128) : refW1 (F := Ideal) a (ix2 k 0) = a (ix3 1 k 0) := by
  unfold refW1
  refine (shapeCast_apply _ shapeCasts_S1x128x1_S128x1 (ix2 k 0) (ix3 0 k 0) ?_).trans ?_
  · rw [Shape.rowMajor_val_three, Shape.rowMajor_val_two]
    show ((0 : ℕ) * 128 + k.val) * 1 + 0 = k.val * 1 + 0
    omega
  · refine extractStridedSlice_apply _ a slices_S2x128x1_S1x128x1_1_0_0 (ix3 0 k 0) (ix3 1 k 0) ?_
    intro c
    match c with
    | ⟨0, _⟩ => rfl
    | ⟨1, _⟩ => show k.val = 0 + k.val; omega
    | ⟨2, _⟩ => rfl

/-- The bias row of head h broadcast down the rows, read at (i, d). -/
theorem refB0_apply (a5 : FVec Ideal S2x128 .f32) (i : Fin 10000) (d : Fin 128) : refB0 (F := Ideal) a5 (ix2 i d) = a5 (ix2 0 d) := by
  unfold refB0
  refine (broadcastInDim_apply _ bcast_S1x128_S10000x128_0_1 _ (ix2 i d) (ix2 0 d) ?_).trans ?_
  · intro c
    match c with
    | ⟨0, _⟩ => rfl
    | ⟨1, _⟩ => rfl
  refine (broadcastInDim_apply _ bcast_S128_S1x128_1 _ (ix2 0 d) (ix1 d) ?_).trans ?_
  · intro c
    match c with
    | ⟨0, _⟩ => rfl
  refine (shapeCast_apply _ shapeCasts_S1x128_S128 (ix1 d) (ix2 0 d) ?_).trans ?_
  · rw [Shape.rowMajor_val_two, Shape.rowMajor_val_one]
    show (0 : ℕ) * 128 + d.val = d.val
    omega
  · refine extractStridedSlice_apply _ a5 slices_S2x128_S1x128_0_0 (ix2 0 d) (ix2 0 d) ?_
    intro c
    match c with
    | ⟨0, _⟩ => rfl
    | ⟨1, _⟩ => show d.val = 0 + d.val; omega

theorem refB1_apply (a5 : FVec Ideal S2x128 .f32) (i : Fin 10000) (d : Fin 128) : refB1 (F := Ideal) a5 (ix2 i d) = a5 (ix2 1 d) := by
  unfold refB1
  refine (broadcastInDim_apply _ bcast_S1x128_S10000x128_0_1 _ (ix2 i d) (ix2 0 d) ?_).trans ?_
  · intro c
    match c with
    | ⟨0, _⟩ => rfl
    | ⟨1, _⟩ => rfl
  refine (broadcastInDim_apply _ bcast_S128_S1x128_1 _ (ix2 0 d) (ix1 d) ?_).trans ?_
  · intro c
    match c with
    | ⟨0, _⟩ => rfl
  refine (shapeCast_apply _ shapeCasts_S1x128_S128 (ix1 d) (ix2 0 d) ?_).trans ?_
  · rw [Shape.rowMajor_val_two, Shape.rowMajor_val_one]
    show (0 : ℕ) * 128 + d.val = d.val
    omega
  · refine extractStridedSlice_apply _ a5 slices_S2x128_S1x128_1_0 (ix2 0 d) (ix2 1 d) ?_
    intro c
    match c with
    | ⟨0, _⟩ => rfl
    | ⟨1, _⟩ => show d.val = 0 + d.val; omega

theorem pone_eq : Spec.pone = 1 := Ideal.ofBits_one_f32

theorem refElu1_apply (x : FVec Ideal S10000x1 .f32) (j : S10000x1.Idx) :
    refElu1 (F := Ideal) x j = Spec.eluR (x j) := by
  have hz : broadcastInDim S10000x1 ![] bcast_S_S10000x1 (cZ (F := Ideal)) j = Spec.pzero :=
    broadcastInDim_scalar_apply _ _ _
  have ho : broadcastInDim S10000x1 ![] bcast_S_S10000x1 (cOne (F := Ideal)) j = Spec.pone :=
    broadcastInDim_scalar_apply _ _ _
  show Scalar.select (FloatOps.cmpf (F := Ideal) (φ := .f32) .ogt (x j) (broadcastInDim S10000x1 ![] bcast_S_S10000x1 (cZ (F := Ideal)) j)) (x j)
      ((broadcastInDim S10000x1 ![] bcast_S_S10000x1 (cOne (F := Ideal)) j : EReal)
        * (Ideal.exp (Scalar.select (FloatOps.cmpf (F := Ideal) (φ := .f32) .ogt (x j) (broadcastInDim S10000x1 ![] bcast_S_S10000x1 (cZ (F := Ideal)) j))
            (broadcastInDim S10000x1 ![] bcast_S_S10000x1 (cZ (F := Ideal)) j) (x j)) - 1)) = _
  rw [hz, ho, Spec.sel_ogt, Spec.sel_ogt]
  unfold Spec.eluR
  rw [pone_eq]

theorem refElu2_apply (x : FVec Ideal S10000x128 .f32) (j : S10000x128.Idx) :
    refElu2 (F := Ideal) x j = Spec.eluR (x j) := by
  have hz : broadcastInDim S10000x128 ![] bcast_S_S10000x128 (cZ (F := Ideal)) j = Spec.pzero :=
    broadcastInDim_scalar_apply _ _ _
  have ho : broadcastInDim S10000x128 ![] bcast_S_S10000x128 (cOne (F := Ideal)) j = Spec.pone :=
    broadcastInDim_scalar_apply _ _ _
  show Scalar.select (FloatOps.cmpf (F := Ideal) (φ := .f32) .ogt (x j) (broadcastInDim S10000x128 ![] bcast_S_S10000x128 (cZ (F := Ideal)) j)) (x j)
      ((broadcastInDim S10000x128 ![] bcast_S_S10000x128 (cOne (F := Ideal)) j : EReal)
        * (Ideal.exp (Scalar.select (FloatOps.cmpf (F := Ideal) (φ := .f32) .ogt (x j) (broadcastInDim S10000x128 ![] bcast_S_S10000x128 (cZ (F := Ideal)) j))
            (broadcastInDim S10000x128 ![] bcast_S_S10000x128 (cZ (F := Ideal)) j) (x j)) - 1)) = _
  rw [hz, ho, Spec.sel_ogt, Spec.sel_ogt]
  unfold Spec.eluR
  rw [pone_eq]

theorem refLeaky_apply (l : FVec Ideal S10000x10000 .f32) (j : S10000x10000.Idx) :
    refLeaky (F := Ideal) l j = Spec.leakyR (l j) := by
  have hz : broadcastInDim S10000x10000 ![] bcast_S_S10000x10000 (cZ (F := Ideal)) j = Spec.pzero :=
    broadcastInDim_scalar_apply _ _ _
  have hc : broadcastInDim S10000x10000 ![] bcast_S_S10000x10000 (cC02 (F := Ideal)) j = Spec.c02 :=
    broadcastInDim_scalar_apply _ _ _
  show Scalar.select (FloatOps.cmpf (F := Ideal) (φ := .f32) .oge (l j) (broadcastInDim S10000x10000 ![] bcast_S_S10000x10000 (cZ (F := Ideal)) j)) (l j)
      ((broadcastInDim S10000x10000 ![] bcast_S_S10000x10000 (cC02 (F := Ideal)) j : EReal) * l j) = _
  rw [hz, hc, Spec.sel_oge]
  rfl

theorem refLogits_apply (a1 : FVec Ideal S10000x10000 .f32) (f1 f2 : FVec Ideal S10000x1 .f32) (i j : Fin 10000) :
    refLogits (F := Ideal) a1 f1 f2 (ix2 i j) = a1 (ix2 i j) * f1 (ix2 i 0) + a1 (ix2 i j) * f2 (ix2 j 0) := by
  have h1 : broadcastInDim S10000x10000 ![0, 1] bcast_S10000x1_S10000x10000_0_1 f1 (ix2 i j) = f1 (ix2 i 0) := by
    refine broadcastInDim_apply _ _ _ (ix2 i j) (ix2 i 0) ?_
    intro c
    match c with
    | ⟨0, _⟩ => rfl
    | ⟨1, _⟩ => rfl
  have h2 : broadcastInDim S10000x10000 ![0, 1] bcast_S1x10000_S10000x10000_0_1
      (transpose S1x10000 [1, 0] f2 transposes_S10000x1_S1x10000_1_0) (ix2 i j) = f2 (ix2 j 0) := by
    refine (broadcastInDim_apply _ _ _ (ix2 i j) (ix2 0 j) ?_).trans ?_
    · intro c
      match c with
      | ⟨0, _⟩ => rfl
      | ⟨1, _⟩ => rfl
    · refine transpose_apply _ f2 _ (ix2 0 j) (ix2 j 0) ?_
      intro c
      match c with
      | ⟨0, _⟩ => rfl
      | ⟨1, _⟩ => rfl
  show a1 (ix2 i j) * broadcastInDim S10000x10000 ![0, 1] bcast_S10000x1_S10000x10000_0_1 f1 (ix2 i j)
      + a1 (ix2 i j) * broadcastInDim S10000x10000 ![0, 1] bcast_S1x10000_S10000x10000_0_1
        (transpose S1x10000 [1, 0] f2 transposes_S10000x1_S1x10000_1_0) (ix2 i j) = _
  rw [h1, h2]

theorem reduces_row : S10000x10000.Reduces [1] S10000 := by decide

theorem lift_row (i : Fin 10000) (k : Fin (S10000x10000.size 1)) :
    reduces_row.lift (ix1 i) k = ix2 i (⟨k.val, k.isLt⟩ : Fin 10000) := by
  funext c; apply Fin.ext
  rw [Shape.Reduces.lift_val]
  match c with
  | ⟨0, _⟩ => rfl
  | ⟨1, _⟩ => rfl

theorem refMaxV_apply (l : FVec Ideal S10000x10000 .f32) (i : Fin 10000) :
    refMaxV (F := Ideal) l (ix1 i)
      = max Spec.pninf ((Finset.univ : Finset (Fin 10000)).fold max Spec.pninf fun j => l (ix2 i j)) := by
  have hb : broadcastInDim S10000 ![] bcast_S_S10000 (cNinf (F := Ideal)) (ix1 i) = Spec.pninf :=
    broadcastInDim_scalar_apply _ _ _
  unfold refMaxV
  rw [maximumf_apply, hb, Host.reduce_eq_fold_single FloatOps.maximumf l _ reducesTo_S10000x10000_S10000_d1 reduces_row h_S_]
  have hf : (l ∘ reduces_row.lift (ix1 i)) = fun k : Fin 10000 => l (ix2 i k) :=
    funext fun k => congrArg l (lift_row i k)
  exact congrArg (fun f => max Spec.pninf (Finset.fold max Spec.pninf f (Finset.univ : Finset (Fin 10000)))) hf

theorem bcastRow_apply (v : FVec Ideal S10000 .f32) (i j : Fin 10000) :
    broadcastInDim S10000x10000 ![0, 1] bcast_S10000x1_S10000x10000_0_1
      (broadcastInDim S10000x1 ![0] bcast_S10000_S10000x1_0 v) (ix2 i j) = v (ix1 i) := by
  refine (broadcastInDim_apply _ _ _ (ix2 i j) (ix2 i 0) ?_).trans ?_
  · intro c
    match c with
    | ⟨0, _⟩ => rfl
    | ⟨1, _⟩ => rfl
  · refine broadcastInDim_apply _ _ _ (ix2 i 0) (ix1 i) ?_
    intro c
    match c with
    | ⟨0, _⟩ => rfl

theorem refMax_apply (l : FVec Ideal S10000x10000 .f32) (i j : Fin 10000) :
    refMax (F := Ideal) l (ix2 i j) = refMaxV (F := Ideal) l (ix1 i) := by
  unfold refMax
  exact bcastRow_apply _ i j

theorem refExp_apply (l : FVec Ideal S10000x10000 .f32) (i j : Fin 10000) :
    refExp (F := Ideal) l (ix2 i j) = Ideal.exp (l (ix2 i j) - refMaxV (F := Ideal) l (ix1 i)) := by
  show Ideal.exp (l (ix2 i j) - refMax (F := Ideal) l (ix2 i j)) = _
  rw [refMax_apply]

theorem refSum_apply (e : FVec Ideal S10000x10000 .f32) (i j : Fin 10000) :
    refSum (F := Ideal) e (ix2 i j) = Spec.pzero + ∑ j' : Fin 10000, e (ix2 i j') := by
  unfold refSum
  rw [bcastRow_apply, hostReduceAdd_apply, Ideal.hostReduceAdd_single reducesTo_S10000x10000_S10000_d1 reduces_row]
  have hf : (fun k : Fin (S10000x10000.size 1) => e (reduces_row.lift (ix1 i) k)) = fun k : Fin 10000 => e (ix2 i k) :=
    funext fun k => congrArg e (lift_row i k)
  exact congrArg (fun f : Fin 10000 → EReal => Spec.pzero + ∑ k : Fin 10000, f k) hf

theorem refCoef_apply (e : FVec Ideal S10000x10000 .f32) (i j : Fin 10000) :
    refCoef (F := Ideal) e (ix2 i j) = Ideal.div (e (ix2 i j)) (Spec.pzero + ∑ j' : Fin 10000, e (ix2 i j')) := by
  show Ideal.div (e (ix2 i j)) (refSum (F := Ideal) e (ix2 i j)) = _
  rw [refSum_apply]

theorem refF_apply (x : FVec Ideal S10000x128 .f32) (w : FVec Ideal S128x1 .f32) (i : Fin 10000) :
    refF (F := Ideal) x w (ix2 i 0) = Spec.eluR (∑ k : Fin 128, x (ix2 i k) * w (ix2 k 0)) := by
  unfold refF
  rw [refElu1_apply, dotB_apply]

/-! ## One head as scalar functions of the arrays it is computed from -/

section Head
variable (a1 : FVec Ideal S10000x10000 .f32) (x : FVec Ideal S10000x128 .f32) (wa wb : FVec Ideal S128x1 .f32)

/-- elu (x · w) at row i. -/
def hF (w : FVec Ideal S128x1 .f32) (i : Fin 10000) : EReal := Spec.eluR (∑ k : Fin 128, x (ix2 i k) * w (ix2 k 0))
/-- The leaky logit at (i, j). -/
def hL (i j : Fin 10000) : EReal := Spec.leakyR (a1 (ix2 i j) * hF x wa i + a1 (ix2 i j) * hF x wb j)
/-- The row maximum as computed: the maximum of -∞ and the fold of max from -∞ over the row. -/
def hMx (i : Fin 10000) : EReal :=
  max Spec.pninf ((Finset.univ : Finset (Fin 10000)).fold max Spec.pninf fun j => hL a1 x wa wb i j)
/-- The exponential of the shifted logit. -/
def hE (i j : Fin 10000) : EReal := Ideal.exp (hL a1 x wa wb i j - hMx a1 x wa wb i)
/-- The row sum of the exponentials, from the zero the sum starts at. -/
def hS (i : Fin 10000) : EReal := Spec.pzero + ∑ j : Fin 10000, hE a1 x wa wb i j
/-- coefficients · x at (i, d). -/
def hV (i : Fin 10000) (d : Fin 128) : EReal :=
  ∑ j : Fin 10000, Ideal.div (hE a1 x wa wb i j) (hS a1 x wa wb i) * x (ix2 j d)

theorem leakyLogits_apply (i j : Fin 10000) :
    refLeaky (F := Ideal) (refLogits (F := Ideal) a1 (refF (F := Ideal) x wa) (refF (F := Ideal) x wb)) (ix2 i j)
      = hL a1 x wa wb i j := by
  rw [refLeaky_apply, refLogits_apply, refF_apply, refF_apply]
  rfl

theorem headMax_apply (i : Fin 10000) :
    refMaxV (F := Ideal) (refLeaky (F := Ideal) (refLogits (F := Ideal) a1 (refF (F := Ideal) x wa) (refF (F := Ideal) x wb))) (ix1 i)
      = hMx a1 x wa wb i := by
  rw [refMaxV_apply]
  simp only [leakyLogits_apply]
  rfl

theorem headExp_apply (i j : Fin 10000) :
    refExp (F := Ideal) (refLeaky (F := Ideal) (refLogits (F := Ideal) a1 (refF (F := Ideal) x wa) (refF (F := Ideal) x wb))) (ix2 i j)
      = hE a1 x wa wb i j := by
  rw [refExp_apply, leakyLogits_apply, headMax_apply]
  rfl

theorem headCoef_apply (i j : Fin 10000) :
    refCoef (F := Ideal) (refExp (F := Ideal) (refLeaky (F := Ideal) (refLogits (F := Ideal) a1 (refF (F := Ideal) x wa) (refF (F := Ideal) x wb)))) (ix2 i j)
      = Ideal.div (hE a1 x wa wb i j) (hS a1 x wa wb i) := by
  rw [refCoef_apply]
  simp only [headExp_apply]
  rfl

theorem headVals_apply (i : Fin 10000) (d : Fin 128) :
    refVals (F := Ideal) (refCoef (F := Ideal) (refExp (F := Ideal) (refLeaky (F := Ideal) (refLogits (F := Ideal) a1 (refF (F := Ideal) x wa) (refF (F := Ideal) x wb))))) x (ix2 i d)
      = hV a1 x wa wb i d := by
  unfold refVals
  rw [dotC_apply]
  simp only [headCoef_apply]
  rfl

theorem refHeadOf_apply (bb : FVec Ideal S10000x128 .f32) (i : Fin 10000) (d : Fin 128) :
    refHeadOf (F := Ideal) a1 wa wb bb x (ix2 i d) = Spec.eluR (hV a1 x wa wb i d + bb (ix2 i d)) := by
  unfold refHeadOf
  rw [refElu2_apply, addf_apply, headVals_apply]

end Head

/-! ## The row maximum, and that it is finite when the logits are -/

section Value
variable (a0 : FVec Ideal S10000x128 .f32) (a1 : FVec Ideal S10000x10000 .f32) (a2 : FVec Ideal S128x128 .f32)
  (a3 a4 : FVec Ideal S2x128x1 .f32) (a5 : FVec Ideal S2x128 .f32)

/-- The row maximum of head h as the reference computes it: the maximum of -∞ and the reduce with a maximum body from
    -∞ over the leaky logits of row i. -/
def refMx (h : Fin 2) (i : Fin 10000) : EReal :=
  max Spec.pninf ((Finset.univ : Finset (Fin 10000)).fold max Spec.pninf fun j =>
    Spec.lrR (Spec.arr2 a0) (Spec.arr2 a1) (Spec.arr2 a2) (Spec.arr3u a3) (Spec.arr3u a4) h i j)

theorem pninf_eq : Spec.pninf = ⊥ := by simp [Spec.pninf, Ideal.ofBits, Ideal.ieee]

/-- The fold of max from ⊥ over a nonempty finite family of reals is a real. -/
theorem fold_max_real {ι : Type*} (s : Finset ι) (f : ι → EReal) (hf : ∀ x ∈ s, ∃ r : ℝ, f x = ↑r) (hs : s.Nonempty) :
    ∃ r : ℝ, s.fold max ⊥ f = ↑r := by
  classical
  induction s using Finset.induction_on with
  | empty => exact absurd hs (by simp)
  | insert a s ha ih =>
    rw [Finset.fold_insert ha]
    obtain ⟨ra, hra⟩ := hf a (Finset.mem_insert_self _ _)
    rcases s.eq_empty_or_nonempty with rfl | hne
    · exact ⟨ra, by rw [Finset.fold_empty, hra]; exact max_eq_left bot_le⟩
    · obtain ⟨rs, hrs⟩ := ih (fun x hx => hf x (Finset.mem_insert_of_mem hx)) hne
      exact ⟨max ra rs, by rw [hra, hrs]; exact (EReal.coe_strictMono.monotone.map_max).symm⟩

/-- When every leaky logit of the row is a real, so is the row maximum. -/
theorem refMx_real (h : Fin 2) (i : Fin 10000)
    (hl : ∀ j, ∃ r : ℝ, Spec.lrR (Spec.arr2 a0) (Spec.arr2 a1) (Spec.arr2 a2) (Spec.arr3u a3) (Spec.arr3u a4) h i j = ↑r) :
    ∃ r : ℝ, refMx a0 a1 a2 a3 a4 h i = ↑r := by
  unfold refMx
  rw [pninf_eq, max_eq_right bot_le]
  exact fold_max_real _ _ (fun j _ => hl j) ⟨⟨0, by decide⟩, Finset.mem_univ _⟩

/-! ## The stages against the specification -/

theorem refX_apply (i : Fin 10000) (k : Fin 128) :
    refX (F := Ideal) a0 a2 (ix2 i k) = Spec.proj (Spec.arr2 a0) (Spec.arr2 a2) i k := by
  unfold refX
  rw [dotA_apply]
  rfl

section OneHead
variable (h : Fin 2) (wa wb : FVec Ideal S128x1 .f32)
  (hwa : ∀ k : Fin 128, wa (ix2 k 0) = a3 (ix3 h k 0)) (hwb : ∀ k : Fin 128, wb (ix2 k 0) = a4 (ix3 h k 0))
include hwa hwb

theorem hF_f1 (i : Fin 10000) :
    hF (refX (F := Ideal) a0 a2) wa i = Spec.f1R (Spec.arr2 a0) (Spec.arr2 a2) (Spec.arr3u a3) h i := by
  unfold hF Spec.f1R
  simp only [refX_apply, hwa]
  rfl

theorem hF_f2 (i : Fin 10000) :
    hF (refX (F := Ideal) a0 a2) wb i = Spec.f2R (Spec.arr2 a0) (Spec.arr2 a2) (Spec.arr3u a4) h i := by
  unfold hF Spec.f2R
  simp only [refX_apply, hwb]
  rfl

theorem hL_lr (i j : Fin 10000) :
    hL a1 (refX (F := Ideal) a0 a2) wa wb i j
      = Spec.lrR (Spec.arr2 a0) (Spec.arr2 a1) (Spec.arr2 a2) (Spec.arr3u a3) (Spec.arr3u a4) h i j := by
  unfold hL Spec.lrR
  rw [hF_f1 a0 a2 a3 a4 h wa wb hwa hwb, hF_f2 a0 a2 a3 a4 h wa wb hwa hwb]
  rfl

theorem hMx_mx (i : Fin 10000) :
    hMx a1 (refX (F := Ideal) a0 a2) wa wb i = refMx a0 a1 a2 a3 a4 h i := by
  unfold hMx refMx
  simp only [hL_lr a0 a1 a2 a3 a4 h wa wb hwa hwb]

theorem hE_e (i j : Fin 10000) :
    hE a1 (refX (F := Ideal) a0 a2) wa wb i j
      = Spec.eR (Spec.arr2 a0) (Spec.arr2 a1) (Spec.arr2 a2) (Spec.arr3u a3) (Spec.arr3u a4) (refMx a0 a1 a2 a3 a4) h i j := by
  unfold hE Spec.eR
  rw [hL_lr a0 a1 a2 a3 a4 h wa wb hwa hwb, hMx_mx a0 a1 a2 a3 a4 h wa wb hwa hwb]

theorem hS_s (i : Fin 10000) :
    hS a1 (refX (F := Ideal) a0 a2) wa wb i
      = Spec.sR (Spec.arr2 a0) (Spec.arr2 a1) (Spec.arr2 a2) (Spec.arr3u a3) (Spec.arr3u a4) (refMx a0 a1 a2 a3 a4) h i := by
  unfold hS Spec.sR
  simp only [hE_e a0 a1 a2 a3 a4 h wa wb hwa hwb]

theorem hV_vals (i : Fin 10000) (d : Fin 128) :
    hV a1 (refX (F := Ideal) a0 a2) wa wb i d
      = Spec.valsR (Spec.arr2 a0) (Spec.arr2 a1) (Spec.arr2 a2) (Spec.arr3u a3) (Spec.arr3u a4) (refMx a0 a1 a2 a3 a4) h i d := by
  unfold hV Spec.valsR
  simp only [hE_e a0 a1 a2 a3 a4 h wa wb hwa hwb, hS_s a0 a1 a2 a3 a4 h wa wb hwa hwb, refX_apply]

end OneHead

/-- THE REFERENCE'S VALUE at (i, d): the specification's outR at the row maxima the reference computes. -/
theorem refTerm_apply (i : Fin 10000) (d : Fin 128) :
    refTerm (F := Ideal) a0 a1 a2 a3 a4 a5 (ix2 i d)
      = Spec.outR (Spec.arr2 a0) (Spec.arr2 a1) (Spec.arr2 a2) (Spec.arr3u a3) (Spec.arr3u a4) (Spec.arr2 a5)
          (refMx a0 a1 a2 a3 a4) i d := by
  have h2 : broadcastInDim S10000x128 ![] bcast_S_S10000x128 (cTwo (F := Ideal)) (ix2 i d) = Spec.ptwo :=
    broadcastInDim_scalar_apply _ _ _
  unfold refTerm
  rw [hostDivf_apply, addf_apply, h2]
  unfold refHead0 refHead1
  rw [refHeadOf_apply, refHeadOf_apply, refB0_apply, refB1_apply,
    hV_vals a0 a1 a2 a3 a4 0 _ _ (refW0_apply a3) (refW0_apply a4),
    hV_vals a0 a1 a2 a3 a4 1 _ _ (refW1_apply a3) (refW1_apply a4)]
  rfl

end Value

end Cert.ReferenceIdeal.Hand

end
-- ==== Proof.lean ====
/-
  The certificate's five claims.

  The kernel is a two-stage graph attention layer: a projection x = inputs · W together with the eight attention
  columns f = elu(x · wf), then a single pass over the adjacency matrix that accumulates, per row and head, the
  softmax denominator Σ_j e(i,j) and numerator Σ_j e(i,j) · x(j,·) of e(i,j) = exp(leaky(adj(i,j)·(f1(i)+f2(j))) − mm(i))
  over five column blocks, and normalizes at the last block.  The reference computes the same layer with an explicit
  row-maximum shift and normalized coefficients.  On finite inputs every intermediate is a real number and the two
  results agree (any real shift of the exponent cancels in the quotient); each program runs to the end leaving its
  arguments unchanged; the idealization rewrote nothing.
-/
import proofs.«144953_g79190607004093_cont_9to1c4b_603_4_alg».proof.Defs
import proofs.«144953_g79190607004093_cont_9to1c4b_603_4_alg».proof.Proof.Gen.Kernel
import proofs.«144953_g79190607004093_cont_9to1c4b_603_4_alg».proof.Proof.Gen.KernelIdeal
import proofs.«144953_g79190607004093_cont_9to1c4b_603_4_alg».proof.Proof.Gen.ReferenceIdeal
import proofs.«144953_g79190607004093_cont_9to1c4b_603_4_alg».proof.Proof.Gen.Pre_finite_inputs
import proofs.«144953_g79190607004093_cont_9to1c4b_603_4_alg».proof.Proof.Spec
import proofs.«144953_g79190607004093_cont_9to1c4b_603_4_alg».proof.Proof.Finite
import proofs.«144953_g79190607004093_cont_9to1c4b_603_4_alg».proof.Proof.Algebra
import proofs.«144953_g79190607004093_cont_9to1c4b_603_4_alg».proof.Proof.K.Regions
import proofs.«144953_g79190607004093_cont_9to1c4b_603_4_alg».proof.Proof.KI.Regions
import proofs.«144953_g79190607004093_cont_9to1c4b_603_4_alg».proof.Proof.KernelValueApply
import proofs.«144953_g79190607004093_cont_9to1c4b_603_4_alg».proof.Proof.RefRun
import proofs.«144953_g79190607004093_cont_9to1c4b_603_4_alg».proof.Proof.RefValue
import Idealize.ShloMosaic.Adequacy
import Idealize.ShloMosaic.Init

noncomputable section

namespace Cert.Proof

open Idealize.ShloMosaic Idealize.SL.Sem

/-- An extended real that is neither infinity is a real. -/
theorem exists_real_of_ne {x : EReal} (h : x ≠ ⊤ ∧ x ≠ ⊥) : ∃ r : ℝ, x = (r : EReal) := by
  induction x using EReal.rec with
  | bot => exact absurd rfl h.2
  | coe r => exact ⟨r, rfl⟩
  | top => exact absurd rfl h.1

theorem ne_of_exists_real {x : EReal} (h : ∃ r : ℝ, x = (r : EReal)) : x ≠ ⊤ ∧ x ≠ ⊥ := by
  obtain ⟨r, rfl⟩ := h
  exact ⟨EReal.coe_ne_top r, EReal.coe_ne_bot r⟩

/-- The word-level kernel runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a host program: its run, the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- Nothing was rewritten by the idealization. -/
theorem preserves : Cert.preserves_Kernel_KernelIdeal := trivial

/-- On finite inputs the kernel's output array and the reference's result are the same function of the arguments:
    both are read index by index against the specification, whose two forms agree over the reals. -/
theorem algebraic : Cert.algebraic_KernelIdeal_ReferenceIdeal := by
  intro m ρ m' ρ' hpre hagree
  refine ⟨fun c => (Cert.KernelIdeal.Hand.dat1 (Cert.KernelIdeal.Hand.Vin1 m) c).arrAt 5 Cert.KernelIdeal.cfg1.N,
    Cert.KernelIdeal.Hand.run_named (F := Ideal) m ρ, ?_⟩
  refine (θ_run Cert.ReferenceIdeal.defs _ _).mono (fun r h c => ⟨(h c).1.trans ?_, (h c).2⟩)
    (Cert.ReferenceIdeal.Hand.run (F := Ideal) m' ρ')
  obtain ⟨e0, e1, e2, e3, e4, e5⟩ := hagree c
  rw [e0, e1, e2, e3, e4, e5]
  obtain ⟨h0, h1, h2, h3, h4, h5⟩ := Cert.Finite.all_real _ _ _ _ _ _ (hpre c)
  funext idx
  obtain ⟨i, d, rfl⟩ : ∃ (i : Fin 10000) (d : Fin 128), idx = ValueIdx.ix2 i d := ⟨idx 0, idx 1, ValueIdx.eq_ix2 idx⟩
  show Cert.ReferenceIdeal.Hand.refTerm _ _ _ _ _ _ (ValueIdx.ix2 i d)
    = ((Cert.KernelIdeal.Hand.dat1 (Cert.KernelIdeal.Hand.Vin1 m) c).arrAt 5 Cert.KernelIdeal.cfg1.N : Cert.KernelIdeal.S10000x128.Idx → EReal) (ValueIdx.ix2 i d)
  rw [Cert.ReferenceIdeal.Hand.refTerm_apply, Cert.KernelIdeal.HandValue.kernel_apply]
  have hX : ∀ i q, ∃ r : ℝ, Cert.Spec.arr2 (m ((c.tc : Thread Cert.KernelIdeal.nD Cert.KernelIdeal.τ).loc Cert.KernelIdeal.main_arg0)) i q = (r : EReal) := fun i q => h0 _
  have hA : ∀ i j, ∃ r : ℝ, Cert.Spec.arr2 (m ((c.tc : Thread Cert.KernelIdeal.nD Cert.KernelIdeal.τ).loc Cert.KernelIdeal.main_arg1)) i j = (r : EReal) := fun i j => h1 _
  have hW : ∀ q k, ∃ r : ℝ, Cert.Spec.arr2 (m ((c.tc : Thread Cert.KernelIdeal.nD Cert.KernelIdeal.τ).loc Cert.KernelIdeal.main_arg2)) q k = (r : EReal) := fun q k => h2 _
  have hw1 : ∀ h k, ∃ r : ℝ, Cert.Spec.arr3u (m ((c.tc : Thread Cert.KernelIdeal.nD Cert.KernelIdeal.τ).loc Cert.KernelIdeal.main_arg3)) h k = (r : EReal) := fun h k => h3 _
  have hw2 : ∀ h k, ∃ r : ℝ, Cert.Spec.arr3u (m ((c.tc : Thread Cert.KernelIdeal.nD Cert.KernelIdeal.τ).loc Cert.KernelIdeal.main_arg4)) h k = (r : EReal) := fun h k => h4 _
  have hb : ∀ h d, ∃ r : ℝ, Cert.Spec.arr2 (m ((c.tc : Thread Cert.KernelIdeal.nD Cert.KernelIdeal.τ).loc Cert.KernelIdeal.main_arg5)) h d = (r : EReal) := fun h d => h5 _
  symm
  refine Cert.Algebra.out_eq _ _ _ _ _ _ _ _ hX hA hW hw1 hw2 hb ?_ ?_ _ _
  · intro h i
    exact exists_real_of_ne (Cert.KernelIdeal.HandValue.kerMmOf_real _ (fun i cl => ne_of_exists_real (Cert.Algebra.fK_real _ _ _ _ hX hW hw1 hw2 i cl)) h i)
  · intro h i
    exact Cert.ReferenceIdeal.Hand.refMx_real _ _ _ _ _ h i (fun j => Cert.Algebra.lrR_real _ _ _ _ _ hX hA hW hw1 hw2 h i j)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
